-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S10000 : Shape := ⟨1, ![10000]⟩
abbrev S3x128x256 : Shape := ⟨3, ![3, 128, 256]⟩
abbrev S256 : Shape := ⟨1, ![256]⟩
abbrev S3x3x256x256 : Shape := ⟨4, ![3, 3, 256, 256]⟩
abbrev S3x256 : Shape := ⟨2, ![3, 256]⟩
abbrev S256x256 : Shape := ⟨2, ![256, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_
  bcast_S_S256 : S_.BroadcastsInDim S256 (![] : Fin 0 → Fin S256.rank)
  reducesTo_S256_S_d0 : S256.ReducesTo [0] S_
  bcast_S_S3x3x256x256 : S_.BroadcastsInDim S3x3x256x256 (![] : Fin 0 → Fin S3x3x256x256.rank)
  reducesTo_S3x3x256x256_S_d0_1_2_3 : S3x3x256x256.ReducesTo [0, 1, 2, 3] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_arg14 : FVec F S1 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S256x128 .f32) (main_arg10 : FVec F S128 .f32) (main_arg11 : FVec F S128x10 .f32) (main_arg12 : FVec F S10 .f32) (main_arg13 : FVec F S1 .f32) (main_arg14 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_arg13 main_arg14 main_v48 main_v49 main_v50

def fn_part1 {F : FTy → Type} [FloatOps F] (main_arg6 : FVec F S3x256 .f32) (main_arg7 : FVec F S256x256 .f32) (main_arg8 : FVec F S256 .f32) (main_arg9 : FVec F S256x128 .f32) (main_arg10 : FVec F S128 .f32) (main_arg11 : FVec F S128x10 .f32) (main_arg12 : FVec F S10 .f32) (main_arg13 : FVec F S1 .f32) (main_arg14 : FVec F S1 .f32) (main_v13 : IVec S_ 1) (main_v16 : IVec S3x3x256x256 1) : IVec S_ 1 :=
  let main_c_5 : IVec S_ 1 := constantI S_ 1 1#1
  let main_v17 : IVec S_ 1 := (fun x v => Host.reduce IntOp.andi x v reducesTo_S3x3x256x256_S_d0_1_2_3 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S10000x128 .f32) (main_arg1 : IVec S2x320000 32) (main_arg2 : IVec S10000 32) (main_arg3 : FVec F S3x128x256 .f32) (main_arg4 : FVec F S256 .f32) (main_arg5 : FVec F S3x3x256x256 .f32) (main_arg6 : FVec F S3x256 .f32) (main_arg7 : FVec F S256x256 .f32) (main_arg8 : FVec F S256 .f32) (main_arg9 : FVec F S256x128 .f32) (main_arg10 : FVec F S128 .f32) (main_arg11 : FVec F S128x10 .f32) (main_arg12 : FVec F S10 .f32) (main_arg13 : FVec F S1 .f32) (main_arg14 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S3x128x256 .f32 := Host.absf main_arg3
  let main_cst_0 : FVec F S_ .f32 := constant S_ .f32 0x7F800000#32
  let main_v5 : FVec F S3x128x256 .f32 := broadcastInDim S3x128x256 ![] bcast_S_S3x128x256 main_cst_0
  let main_v6 : IVec S3x128x256 1 := cmpf .olt main_v4 main_v5
  let main_c_1 : IVec S_ 1 := constantI S_ 1 1#1
  let main_v7 : IVec S_ 1 := (fun x v => Host.reduce IntOp.andi x v reducesTo_S3x128x256_S_d0_1_2 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x3x256x256 .f32 := Host.absf main_arg5
  let main_cst_4 : FVec F S_ .f32 := constant S_ .f32 0x7F800000#32
  let main_v15 : FVec F S3x3x256x256 .f32 := broadcastInDim S3x3x256x256 ![] bcast_S_S3x3x256x256 main_cst_4
  let main_v16 : IVec S3x3x256x256 1 := cmpf .olt main_v14 main_v15
  fn_part1 (F := F) main_arg6 main_arg7 main_arg8 main_arg9 main_arg10 main_arg11 main_arg12 main_arg13 main_arg14 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S3x128x256 : Shape := ⟨3, ![3, 128, 256]⟩
abbrev S256 : Shape := ⟨1, ![256]⟩
abbrev S3x3x256x256 : Shape := ⟨4, ![3, 3, 256, 256]⟩
abbrev S3x256 : Shape := ⟨2, ![3, 256]⟩
abbrev S256x256 : Shape := ⟨2, ![256, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S10000x384 : Shape := ⟨2, ![10000, 384]⟩
abbrev S384x256 : Shape := ⟨2, ![384, 256]⟩
abbrev S1x256 : Shape := ⟨2, ![1, 256]⟩
abbrev S1x1 : Shape := ⟨2, ![1, 1]⟩
abbrev S10000x256 : Shape := ⟨2, ![10000, 256]⟩
abbrev S1000x384 : Shape := ⟨2, ![1000, 384]⟩
abbrev S1000x256 : Shape := ⟨2, ![1000, 256]⟩
abbrev S1x3x256x256 : Shape := ⟨4, ![1, 3, 256, 256]⟩
abbrev S3x256x256 : Shape := ⟨3, ![3, 256, 256]⟩
abbrev S320000x256 : Shape := ⟨2, ![320000, 256]⟩
abbrev S10000x768 : Shape := ⟨2, ![10000, 768]⟩
abbrev S768x256 : Shape := ⟨2, ![768, 256]⟩
abbrev S1000x768 : Shape := ⟨2, ![1000, 768]⟩
abbrev S64x256 : Shape := ⟨2, ![64, 256]⟩
abbrev S10000x1 : Shape := ⟨2, ![10000, 1]⟩
abbrev S1x128 : Shape := ⟨2, ![1, 128]⟩
abbrev S1x10 : Shape := ⟨2, ![1, 10]⟩
abbrev S64x10 : Shape := ⟨2, ![64, 10]⟩
abbrev S64x128 : Shape := ⟨2, ![64, 128]⟩
abbrev S64 : Shape := ⟨1, ![64]⟩
abbrev S64x1 : Shape := ⟨2, ![64, 1]⟩

abbrev nBuf : Space → Nat
  | .hbm => 243
  | .vmem => 37
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S3x128x256, .f32⟩
  | 4 => ⟨S256, .f32⟩
  | 5 => ⟨S3x3x256x256, .f32⟩
  | 6 => ⟨S3x256, .f32⟩
  | 7 => ⟨S256x256, .f32⟩
  | 8 => ⟨S256, .f32⟩
  | 9 => ⟨S256x128, .f32⟩
  | 10 => ⟨S128, .f32⟩
  | 11 => ⟨S128x10, .f32⟩
  | 12 => ⟨S10, .f32⟩
  | 13 => ⟨S1, .f32⟩
  | 14 => ⟨S1, .f32⟩
  | 15 => ⟨S1x320000, .i32⟩
  | 16 => ⟨S320000, .i32⟩
  | 17 => ⟨S1x320000, .i32⟩
  | 18 => ⟨S320000, .i32⟩
  | 19 => ⟨S_, .f32⟩
  | 20 => ⟨S320000, .f32⟩
  | 21 => ⟨S_, .f32⟩
  | 22 => ⟨S10000, .f32⟩
  | 23 => ⟨S320000x1, .i32⟩
  | 24 => ⟨S10000, .f32⟩
  | 25 => ⟨S_, .f32⟩
  | 26 => ⟨S10000, .f32⟩
  | 27 => ⟨S10000, .i1⟩
  | 28 => ⟨S10000, .f32⟩
  | 29 => ⟨S_, .f32⟩
  | 30 => ⟨S10000, .f32⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S320000, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000, .f32⟩
  | 55 => ⟨S320000, .f32⟩
  | 56 => ⟨S320000x1, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x128, .f32⟩
  | 67 => ⟨S320000x128, .f32⟩
  | 68 => ⟨S_, .f32⟩
  | 69 => ⟨S10000x128, .f32⟩
  | 70 => ⟨S320000x1, .i32⟩
  | 71 => ⟨S10000x128, .f32⟩
  | 72 => ⟨S320000x1, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x128, .f32⟩
  | 82 => ⟨S320000x128, .f32⟩
  | 83 => ⟨S320000x128, .f32⟩
  | 84 => ⟨S_, .f32⟩
  | 85 => ⟨S10000x128, .f32⟩
  | 86 => ⟨S320000x1, .i32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S10000x384, .f32⟩
  | 93 => ⟨S384x256, .f32⟩
  | 94 => ⟨S1x256, .f32⟩
  | 95 => ⟨S1x1, .f32⟩
  | 96 => ⟨S10000x256, .f32⟩
  | 97 => ⟨S_, .f32⟩
  | 98 => ⟨S1, .f32⟩
  | 99 => ⟨S1x3x256x256, .f32⟩
  | 100 => ⟨S3x256x256, .f32⟩
  | 101 => ⟨S1x256, .f32⟩
  | 102 => ⟨S256, .f32⟩
  | 103 => ⟨S320000x1, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x256, .f32⟩
  | 113 => ⟨S320000x256, .f32⟩
  | 114 => ⟨S320000x256, .f32⟩
  | 115 => ⟨S_, .f32⟩
  | 116 => ⟨S10000x256, .f32⟩
  | 117 => ⟨S320000x1, .i32⟩
  | 118 => ⟨S10000x256, .f32⟩
  | 119 => ⟨S320000x1, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x128, .f32⟩

abbrev hbmTy0_1 (i : Nat) : BufTy := match i % 128 with
  | 0 => ⟨S320000x256, .f32⟩
  | 1 => ⟨S320000x256, .f32⟩
  | 2 => ⟨S320000x256, .f32⟩
  | 3 => ⟨S_, .f32⟩
  | 4 => ⟨S10000x256, .f32⟩
  | 5 => ⟨S320000x1, .i32⟩
  | 6 => ⟨S10000x256, .f32⟩
  | 7 => ⟨S_, .f32⟩
  | 8 => ⟨S10000x256, .f32⟩
  | 9 => ⟨S10000x256, .f32⟩
  | 10 => ⟨S10000x256, .f32⟩
  | 11 => ⟨S10000x768, .f32⟩
  | 12 => ⟨S768x256, .f32⟩
  | 13 => ⟨S1x256, .f32⟩
  | 14 => ⟨S1x1, .f32⟩
  | 15 => ⟨S10000x256, .f32⟩
  | 16 => ⟨S1x3x256x256, .f32⟩
  | 17 => ⟨S3x256x256, .f32⟩
  | 18 => ⟨S1x256, .f32⟩
  | 19 => ⟨S256, .f32⟩
  | 20 => ⟨S320000x1, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x256, .f32⟩
  | 30 => ⟨S320000x256, .f32⟩
  | 31 => ⟨S320000x256, .f32⟩
  | 32 => ⟨S_, .f32⟩
  | 33 => ⟨S10000x256, .f32⟩
  | 34 => ⟨S320000x1, .i32⟩
  | 35 => ⟨S10000x256, .f32⟩
  | 36 => ⟨S320000x1, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x256, .f32⟩
  | 46 => ⟨S320000x256, .f32⟩
  | 47 => ⟨S320000x256, .f32⟩
  | 48 => ⟨S_, .f32⟩
  | 49 => ⟨S10000x256, .f32⟩
  | 50 => ⟨S320000x1, .i32⟩
  | 51 => ⟨S10000x256, .f32⟩
  | 52 => ⟨S_, .f32⟩
  | 53 => ⟨S10000x256, .f32⟩
  | 54 => ⟨S10000x256, .f32⟩
  | 55 => ⟨S10000x256, .f32⟩
  | 56 => ⟨S10000x768, .f32⟩
  | 57 => ⟨S768x256, .f32⟩
  | 58 => ⟨S1x256, .f32⟩
  | 59 => ⟨S1x1, .f32⟩
  | 60 => ⟨S10000x256, .f32⟩
  | 61 => ⟨S1x3x256x256, .f32⟩
  | 62 => ⟨S3x256x256, .f32⟩
  | 63 => ⟨S1x256, .f32⟩
  | 64 => ⟨S256, .f32⟩
  | 65 => ⟨S320000x1, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x256, .f32⟩
  | 75 => ⟨S320000x256, .f32⟩
  | 76 => ⟨S320000x256, .f32⟩
  | 77 => ⟨S_, .f32⟩
  | 78 => ⟨S10000x256, .f32⟩
  | 79 => ⟨S320000x1, .i32⟩
  | 80 => ⟨S10000x256, .f32⟩
  | 81 => ⟨S320000x1, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x256, .f32⟩
  | 91 => ⟨S320000x256, .f32⟩
  | 92 => ⟨S320000x256, .f32⟩
  | 93 => ⟨S_, .f32⟩
  | 94 => ⟨S10000x256, .f32⟩
  | 95 => ⟨S320000x1, .i32⟩
  | 96 => ⟨S10000x256, .f32⟩
  | 97 => ⟨S_, .f32⟩
  | 98 => ⟨S10000x256, .f32⟩
  | 99 => ⟨S10000x256, .f32⟩
  | 100 => ⟨S10000x256, .f32⟩
  | 101 => ⟨S10000x768, .f32⟩
  | 102 => ⟨S768x256, .f32⟩
  | 103 => ⟨S1x256, .f32⟩
  | 104 => ⟨S1x1, .f32⟩
  | 105 => ⟨S10000x256, .f32⟩
  | 106 => ⟨S_, .f32⟩
  | 107 => ⟨S64x256, .f32⟩
  | 108 => ⟨S10000x1, .i32⟩
  | 109 => ⟨S64x256, .f32⟩
  | 110 => ⟨S1x256, .f32⟩
  | 111 => ⟨S1x1, .f32⟩
  | 112 => ⟨S1x128, .f32⟩
  | 113 => ⟨S1x10, .f32⟩
  | 114 => ⟨S64x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x384, .f32⟩
  | .local _ .vmem, ⟨1, _⟩ => ⟨S1000x384, .f32⟩
  | .local _ .vmem, ⟨2, _⟩ => ⟨S384x256, .f32⟩
  | .local _ .vmem, ⟨3, _⟩ => ⟨S1x256, .f32⟩
  | .local _ .vmem, ⟨4, _⟩ => ⟨S1x1, .f32⟩
  | .local _ .vmem, ⟨5, _⟩ => ⟨S1000x256, .f32⟩
  | .local _ .vmem, ⟨6, _⟩ => ⟨S1000x256, .f32⟩
  | .local _ .vmem, ⟨7, _⟩ => ⟨S1000x768, .f32⟩
  | .local _ .vmem, ⟨8, _⟩ => ⟨S1000x768, .f32⟩
  | .local _ .vmem, ⟨9, _⟩ => ⟨S768x256, .f32⟩
  | .local _ .vmem, ⟨10, _⟩ => ⟨S1x256, .f32⟩
  | .local _ .vmem, ⟨11, _⟩ => ⟨S1x1, .f32⟩
  | .local _ .vmem, ⟨12, _⟩ => ⟨S1000x256, .f32⟩
  | .local _ .vmem, ⟨13, _⟩ => ⟨S1000x256, .f32⟩
  | .local _ .vmem, ⟨14, _⟩ => ⟨S1000x768, .f32⟩
  | .local _ .vmem, ⟨15, _⟩ => ⟨S1000x768, .f32⟩
  | .local _ .vmem, ⟨16, _⟩ => ⟨S768x256, .f32⟩
  | .local _ .vmem, ⟨17, _⟩ => ⟨S1x256, .f32⟩
  | .local _ .vmem, ⟨18, _⟩ => ⟨S1x1, .f32⟩
  | .local _ .vmem, ⟨19, _⟩ => ⟨S1000x256, .f32⟩
  | .local _ .vmem, ⟨20, _⟩ => ⟨S1000x256, .f32⟩
  | .local _ .vmem, ⟨21, _⟩ => ⟨S1000x768, .f32⟩
  | .local _ .vmem, ⟨22, _⟩ => ⟨S1000x768, .f32⟩
  | .local _ .vmem, ⟨23, _⟩ => ⟨S768x256, .f32⟩
  | .local _ .vmem, ⟨24, _⟩ => ⟨S1x256, .f32⟩
  | .local _ .vmem, ⟨25, _⟩ => ⟨S1x1, .f32⟩
  | .local _ .vmem, ⟨26, _⟩ => ⟨S1000x256, .f32⟩
  | .local _ .vmem, ⟨27, _⟩ => ⟨S1000x256, .f32⟩
  | .local _ .vmem, ⟨28, _⟩ => ⟨S64x256, .f32⟩
  | .local _ .vmem, ⟨29, _⟩ => ⟨S256x256, .f32⟩
  | .local _ .vmem, ⟨30, _⟩ => ⟨S1x256, .f32⟩
  | .local _ .vmem, ⟨31, _⟩ => ⟨S1x1, .f32⟩
  | .local _ .vmem, ⟨32, _⟩ => ⟨S256x128, .f32⟩
  | .local _ .vmem, ⟨33, _⟩ => ⟨S1x128, .f32⟩
  | .local _ .vmem, ⟨34, _⟩ => ⟨S128x10, .f32⟩
  | .local _ .vmem, ⟨35, _⟩ => ⟨S1x10, .f32⟩
  | .local _ .vmem, ⟨36, _⟩ => ⟨S64x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_12 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_18 : Ref sig .tc := ⟨.hbm, 120, rfl⟩
abbrev main_v83 : Ref sig .tc := ⟨.hbm, 121, rfl⟩
abbrev main_v84 : Ref sig .tc := ⟨.hbm, 122, rfl⟩
abbrev main_c_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_22 : Ref sig .tc := ⟨.hbm, 149, rfl⟩
abbrev main_v108 : Ref sig .tc := ⟨.hbm, 150, rfl⟩
abbrev main_v109 : Ref sig .tc := ⟨.hbm, 151, rfl⟩
abbrev main_c_23 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_24 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_c_25 : Ref sig .tc := ⟨.hbm, 165, rfl⟩
abbrev main_v121 : Ref sig .tc := ⟨.hbm, 166, rfl⟩
abbrev main_v122 : Ref sig .tc := ⟨.hbm, 167, rfl⟩
abbrev main_c_26 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_27 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_28 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_c_29 : Ref sig .tc := ⟨.hbm, 194, rfl⟩
abbrev main_v146 : Ref sig .tc := ⟨.hbm, 195, rfl⟩
abbrev main_v147 : Ref sig .tc := ⟨.hbm, 196, rfl⟩
abbrev main_c_30 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_31 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_c_32 : Ref sig .tc := ⟨.hbm, 210, rfl⟩
abbrev main_v159 : Ref sig .tc := ⟨.hbm, 211, rfl⟩
abbrev main_v160 : Ref sig .tc := ⟨.hbm, 212, rfl⟩
abbrev main_c_33 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_34 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_35 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_36 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc4_sem8_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x10 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  shapeCasts_S3x128x256_S384x256 : S3x128x256.ShapeCasts S384x256
  shapeCasts_S256_S1x256 : S256.ShapeCasts S1x256
  shapeCasts_S1_S1x1 : S1.ShapeCasts S1x1
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x256 : S1x1.Broadcasts S1000x256
  inb_S1000x256_S1000x256_0_0 : ∀ a, (![0, 0] : Fin 2 → Nat) a + S1000x256.size a ≤ S1000x256.size a
  h_S1000x256 : 0 < S1000x256.numel
  bcast_S_S1 : S_.BroadcastsInDim S1 (![] : Fin 0 → Fin S1.rank)
  slices_S3x3x256x256_S1x3x256x256_0_0_0_0 : S3x3x256x256.Slices ![0, 0, 0, 0] S1x3x256x256
  shapeCasts_S1x3x256x256_S3x256x256 : S1x3x256x256.ShapeCasts S3x256x256
  slices_S3x256_S1x256_0_0 : S3x256.Slices ![0, 0] S1x256
  shapeCasts_S1x256_S256 : S1x256.ShapeCasts S256
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  concatenates_S10000x256_S10000x256_S10000x256_S10000x768_d1 : Shape.Concatenates [S10000x256, S10000x256, S10000x256] S10000x768 1
  shapeCasts_S3x256x256_S768x256 : S3x256x256.ShapeCasts S768x256
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  slices_S3x3x256x256_S1x3x256x256_1_0_0_0 : S3x3x256x256.Slices ![1, 0, 0, 0] S1x3x256x256
  slices_S3x256_S1x256_1_0 : S3x256.Slices ![1, 0] S1x256
  slices_S3x3x256x256_S1x3x256x256_2_0_0_0 : S3x3x256x256.Slices ![2, 0, 0, 0] S1x3x256x256
  slices_S3x256_S1x256_2_0 : S3x256.Slices ![2, 0] S1x256
  bcast_S_S64x256 : S_.BroadcastsInDim S64x256 (![] : Fin 0 → Fin S64x256.rank)
  bcast_S10000_S10000x1_0 : S10000.BroadcastsInDim S10000x1 (![0] : Fin 1 → Fin S10000x1.rank)
  shapeCasts_S128_S1x128 : S128.ShapeCasts S1x128
  shapeCasts_S10_S1x10 : S10.ShapeCasts S1x10
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  broadcasts_S1x256_S64x256 : S1x256.Broadcasts S64x256
  broadcasts_S1x1_S64x256 : S1x1.Broadcasts S64x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S1000x384_S384x256_S1000x256_1_0_0_1_n_n_wf : DotDims.WF S1000x384 S384x256 S1000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x768_S768x256_S1000x256_1_0_0_1_n_n_wf : DotDims.WF S1000x768 S768x256 S1000x256 [1] [0] [0] [1] [] []
  scatter_S64x256_S10000x1_S10000x256_1_0_0_1_wf : ScatterDims.WF S64x256 S10000x1 S10000x256 [1] [0] [0] 1
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x384.size a ≤ S10000x384.size a
  hwx0_0 : ∀ i : grid0.Coords, EltTy.bits .f32 = 32 ∨ (Rect.block (s := S10000x384) S1000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x256.size a
  hwx0_1 : ∀ i : grid0.Coords, EltTy.bits .f32 = 32 ∨ (Rect.block (s := S384x256) S384x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S10000x256.size a
  hwx0_4 : ∀ i : grid0.Coords, EltTy.bits .f32 = 32 ∨ (Rect.block (s := S10000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S10000x768.size a
  hwx1_0 : ∀ i : grid1.Coords, EltTy.bits .f32 = 32 ∨ (Rect.block (s := S10000x768) S1000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x256.size a ≤ S768x256.size a
  hwx1_1 : ∀ i : grid1.Coords, EltTy.bits .f32 = 32 ∨ (Rect.block (s := S768x256) S768x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S10000x256.size a
  hwx1_4 : ∀ i : grid1.Coords, EltTy.bits .f32 = 32 ∨ (Rect.block (s := S10000x256) S1000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x768.size a ≤ S10000x768.size a
  hwx2_0 : ∀ i : grid2.Coords, EltTy.bits .f32 = 32 ∨ (Rect.block (s := S10000x768) S1000x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x256.size a ≤ S768x256.size a
  hwx2_1 : ∀ i : grid2.Coords, EltTy.bits .f32 = 32 ∨ (Rect.block (s := S768x256) S768x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S10000x256.size a
  hwx2_4 : ∀ i : grid2.Coords, EltTy.bits .f32 = 32 ∨ (Rect.block (s := S10000x256) S1000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x768.size a ≤ S10000x768.size a
  hwx3_0 : ∀ i : grid3.Coords, EltTy.bits .f32 = 32 ∨ (Rect.block (s := S10000x768) S1000x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x256.size a ≤ S768x256.size a
  hwx3_1 : ∀ i : grid3.Coords, EltTy.bits .f32 = 32 ∨ (Rect.block (s := S768x256) S768x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x256.size a ≤ S10000x256.size a
  hwx3_4 : ∀ i : grid3.Coords, EltTy.bits .f32 = 32 ∨ (Rect.block (s := S10000x256) S1000x256.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x256.size a ≤ S64x256.size a
  hwx4_0 : ∀ i : grid4.Coords, EltTy.bits .f32 = 32 ∨ (Rect.block (s := S64x256) S64x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x10.size a ≤ S128x10.size a
  hwx4_6 : ∀ i : grid4.Coords, EltTy.bits .f32 = 32 ∨ (Rect.block (s := S128x10) S128x10.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x10.size a ≤ S1x10.size a
  hwx4_7 : ∀ i : grid4.Coords, EltTy.bits .f32 = 32 ∨ (Rect.block (s := S1x10) S1x10.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x10.size a ≤ S64x10.size a
  hwx4_8 : ∀ i : grid4.Coords, EltTy.bits .f32 = 32 ∨ (Rect.block (s := S64x10) S64x10.size (cc4_transform_8 i) (hinb4_8 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S1000x384_S384x256_S1000x256_1_0_0_1_n_n : DotDims S1000x384 S384x256 S1000x256 where
  lhsContracting := [1]
  rhsContracting := [0]
  lhsNonContracting := [0]
  rhsNonContracting := [1]
  lhsBatch := []
  rhsBatch := []
  wf := dot_S1000x384_S384x256_S1000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x768_S768x256_S1000x256_1_0_0_1_n_n : DotDims S1000x768 S768x256 S1000x256 where
  lhsContracting := [1]
  rhsContracting := [0]
  lhsNonContracting := [0]
  rhsNonContracting := [1]
  lhsBatch := []
  rhsBatch := []
  wf := dot_S1000x768_S768x256_S1000x256_1_0_0_1_n_n_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v59) S1000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v98) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S768x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v100) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v101) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v102) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v136) S1000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v137) S768x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v138) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v139) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v140) S1000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v174) S1000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v175) S768x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v176) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v177) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v178) S1000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v181) S64x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v182) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v183) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S256x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v184) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg11) S128x10.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v185) S1x10.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v186) S64x10.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S3x128x256 : Shape := ⟨3, ![3, 128, 256]⟩
abbrev S256 : Shape := ⟨1, ![256]⟩
abbrev S3x3x256x256 : Shape := ⟨4, ![3, 3, 256, 256]⟩
abbrev S3x256 : Shape := ⟨2, ![3, 256]⟩
abbrev S256x256 : Shape := ⟨2, ![256, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128x256 : Shape := ⟨3, ![1, 128, 256]⟩
abbrev S128x256 : Shape := ⟨2, ![128, 256]⟩
abbrev S10000x256 : Shape := ⟨2, ![10000, 256]⟩
abbrev S1x256 : Shape := ⟨2, ![1, 256]⟩
abbrev S1x1 : Shape := ⟨2, ![1, 1]⟩
abbrev S1x3x256x256 : Shape := ⟨4, ![1, 3, 256, 256]⟩
abbrev S3x256x256 : Shape := ⟨3, ![3, 256, 256]⟩
abbrev S320000x256 : Shape := ⟨2, ![320000, 256]⟩
abbrev S1x256x256 : Shape := ⟨3, ![1, 256, 256]⟩
abbrev S64x256 : Shape := ⟨2, ![64, 256]⟩
abbrev S10000x1 : Shape := ⟨2, ![10000, 1]⟩
abbrev S64x128 : Shape := ⟨2, ![64, 128]⟩
abbrev S1x128 : Shape := ⟨2, ![1, 128]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 330
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S3x128x256, .f32⟩
  | 4 => ⟨S256, .f32⟩
  | 5 => ⟨S3x3x256x256, .f32⟩
  | 6 => ⟨S3x256, .f32⟩
  | 7 => ⟨S256x256, .f32⟩
  | 8 => ⟨S256, .f32⟩
  | 9 => ⟨S256x128, .f32⟩
  | 10 => ⟨S128, .f32⟩
  | 11 => ⟨S128x10, .f32⟩
  | 12 => ⟨S10, .f32⟩
  | 13 => ⟨S1, .f32⟩
  | 14 => ⟨S1, .f32⟩
  | 15 => ⟨S1x320000, .i32⟩
  | 16 => ⟨S320000, .i32⟩
  | 17 => ⟨S1x320000, .i32⟩
  | 18 => ⟨S320000, .i32⟩
  | 19 => ⟨S_, .f32⟩
  | 20 => ⟨S320000, .f32⟩
  | 21 => ⟨S_, .f32⟩
  | 22 => ⟨S10000, .f32⟩
  | 23 => ⟨S320000x1, .i32⟩
  | 24 => ⟨S10000, .f32⟩
  | 25 => ⟨S_, .f32⟩
  | 26 => ⟨S10000, .f32⟩
  | 27 => ⟨S10000, .i1⟩
  | 28 => ⟨S10000, .f32⟩
  | 29 => ⟨S_, .f32⟩
  | 30 => ⟨S10000, .f32⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S320000, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000, .f32⟩
  | 55 => ⟨S320000, .f32⟩
  | 56 => ⟨S320000x1, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x128, .f32⟩
  | 67 => ⟨S320000x128, .f32⟩
  | 68 => ⟨S_, .f32⟩
  | 69 => ⟨S10000x128, .f32⟩
  | 70 => ⟨S320000x1, .i32⟩
  | 71 => ⟨S10000x128, .f32⟩
  | 72 => ⟨S320000x1, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x128, .f32⟩
  | 82 => ⟨S320000x128, .f32⟩
  | 83 => ⟨S320000x128, .f32⟩
  | 84 => ⟨S_, .f32⟩
  | 85 => ⟨S10000x128, .f32⟩
  | 86 => ⟨S320000x1, .i32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S1x128x256, .f32⟩
  | 93 => ⟨S128x256, .f32⟩
  | 94 => ⟨S10000x256, .f32⟩
  | 95 => ⟨S1x128x256, .f32⟩
  | 96 => ⟨S128x256, .f32⟩
  | 97 => ⟨S10000x256, .f32⟩
  | 98 => ⟨S10000x256, .f32⟩
  | 99 => ⟨S1x128x256, .f32⟩
  | 100 => ⟨S128x256, .f32⟩
  | 101 => ⟨S10000x256, .f32⟩
  | 102 => ⟨S10000x256, .f32⟩
  | 103 => ⟨S1x256, .f32⟩
  | 104 => ⟨S10000x256, .f32⟩
  | 105 => ⟨S10000x256, .f32⟩
  | 106 => ⟨S_, .f32⟩
  | 107 => ⟨S10000x256, .f32⟩
  | 108 => ⟨S10000x256, .i1⟩
  | 109 => ⟨S1x1, .f32⟩
  | 110 => ⟨S10000x256, .f32⟩
  | 111 => ⟨S10000x256, .f32⟩
  | 112 => ⟨S10000x256, .f32⟩
  | 113 => ⟨S1x3x256x256, .f32⟩
  | 114 => ⟨S3x256x256, .f32⟩
  | 115 => ⟨S1x256, .f32⟩
  | 116 => ⟨S256, .f32⟩
  | 117 => ⟨S320000x1, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000x256, .f32⟩
  | 127 => ⟨S320000x256, .f32⟩
  | _ => ⟨S10000x128, .f32⟩

abbrev hbmTy0_1 (i : Nat) : BufTy := match i % 128 with
  | 0 => ⟨S320000x256, .f32⟩
  | 1 => ⟨S_, .f32⟩
  | 2 => ⟨S10000x256, .f32⟩
  | 3 => ⟨S320000x1, .i32⟩
  | 4 => ⟨S10000x256, .f32⟩
  | 5 => ⟨S320000x1, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000x256, .f32⟩
  | 15 => ⟨S320000x256, .f32⟩
  | 16 => ⟨S320000x256, .f32⟩
  | 17 => ⟨S_, .f32⟩
  | 18 => ⟨S10000x256, .f32⟩
  | 19 => ⟨S320000x1, .i32⟩
  | 20 => ⟨S10000x256, .f32⟩
  | 21 => ⟨S_, .f32⟩
  | 22 => ⟨S10000x256, .f32⟩
  | 23 => ⟨S10000x256, .f32⟩
  | 24 => ⟨S10000x256, .f32⟩
  | 25 => ⟨S1x256x256, .f32⟩
  | 26 => ⟨S256x256, .f32⟩
  | 27 => ⟨S10000x256, .f32⟩
  | 28 => ⟨S1x256x256, .f32⟩
  | 29 => ⟨S256x256, .f32⟩
  | 30 => ⟨S10000x256, .f32⟩
  | 31 => ⟨S10000x256, .f32⟩
  | 32 => ⟨S1x256x256, .f32⟩
  | 33 => ⟨S256x256, .f32⟩
  | 34 => ⟨S10000x256, .f32⟩
  | 35 => ⟨S10000x256, .f32⟩
  | 36 => ⟨S1x256, .f32⟩
  | 37 => ⟨S10000x256, .f32⟩
  | 38 => ⟨S10000x256, .f32⟩
  | 39 => ⟨S_, .f32⟩
  | 40 => ⟨S10000x256, .f32⟩
  | 41 => ⟨S10000x256, .f32⟩
  | 42 => ⟨S1x3x256x256, .f32⟩
  | 43 => ⟨S3x256x256, .f32⟩
  | 44 => ⟨S1x256, .f32⟩
  | 45 => ⟨S256, .f32⟩
  | 46 => ⟨S320000x1, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x256, .f32⟩
  | 56 => ⟨S320000x256, .f32⟩
  | 57 => ⟨S320000x256, .f32⟩
  | 58 => ⟨S_, .f32⟩
  | 59 => ⟨S10000x256, .f32⟩
  | 60 => ⟨S320000x1, .i32⟩
  | 61 => ⟨S10000x256, .f32⟩
  | 62 => ⟨S320000x1, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x256, .f32⟩
  | 72 => ⟨S320000x256, .f32⟩
  | 73 => ⟨S320000x256, .f32⟩
  | 74 => ⟨S_, .f32⟩
  | 75 => ⟨S10000x256, .f32⟩
  | 76 => ⟨S320000x1, .i32⟩
  | 77 => ⟨S10000x256, .f32⟩
  | 78 => ⟨S_, .f32⟩
  | 79 => ⟨S10000x256, .f32⟩
  | 80 => ⟨S10000x256, .f32⟩
  | 81 => ⟨S10000x256, .f32⟩
  | 82 => ⟨S1x256x256, .f32⟩
  | 83 => ⟨S256x256, .f32⟩
  | 84 => ⟨S10000x256, .f32⟩
  | 85 => ⟨S1x256x256, .f32⟩
  | 86 => ⟨S256x256, .f32⟩
  | 87 => ⟨S10000x256, .f32⟩
  | 88 => ⟨S10000x256, .f32⟩
  | 89 => ⟨S1x256x256, .f32⟩
  | 90 => ⟨S256x256, .f32⟩
  | 91 => ⟨S10000x256, .f32⟩
  | 92 => ⟨S10000x256, .f32⟩
  | 93 => ⟨S1x256, .f32⟩
  | 94 => ⟨S10000x256, .f32⟩
  | 95 => ⟨S10000x256, .f32⟩
  | 96 => ⟨S_, .f32⟩
  | 97 => ⟨S10000x256, .f32⟩
  | 98 => ⟨S10000x256, .f32⟩
  | 99 => ⟨S1x3x256x256, .f32⟩
  | 100 => ⟨S3x256x256, .f32⟩
  | 101 => ⟨S1x256, .f32⟩
  | 102 => ⟨S256, .f32⟩
  | 103 => ⟨S320000x1, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x256, .f32⟩
  | 113 => ⟨S320000x256, .f32⟩
  | 114 => ⟨S320000x256, .f32⟩
  | 115 => ⟨S_, .f32⟩
  | 116 => ⟨S10000x256, .f32⟩
  | 117 => ⟨S320000x1, .i32⟩
  | 118 => ⟨S10000x256, .f32⟩
  | 119 => ⟨S320000x1, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x128, .f32⟩

abbrev hbmTy0_2 (i : Nat) : BufTy := match i % 128 with
  | 0 => ⟨S320000x256, .f32⟩
  | 1 => ⟨S320000x256, .f32⟩
  | 2 => ⟨S320000x256, .f32⟩
  | 3 => ⟨S_, .f32⟩
  | 4 => ⟨S10000x256, .f32⟩
  | 5 => ⟨S320000x1, .i32⟩
  | 6 => ⟨S10000x256, .f32⟩
  | 7 => ⟨S_, .f32⟩
  | 8 => ⟨S10000x256, .f32⟩
  | 9 => ⟨S10000x256, .f32⟩
  | 10 => ⟨S10000x256, .f32⟩
  | 11 => ⟨S1x256x256, .f32⟩
  | 12 => ⟨S256x256, .f32⟩
  | 13 => ⟨S10000x256, .f32⟩
  | 14 => ⟨S1x256x256, .f32⟩
  | 15 => ⟨S256x256, .f32⟩
  | 16 => ⟨S10000x256, .f32⟩
  | 17 => ⟨S10000x256, .f32⟩
  | 18 => ⟨S1x256x256, .f32⟩
  | 19 => ⟨S256x256, .f32⟩
  | 20 => ⟨S10000x256, .f32⟩
  | 21 => ⟨S10000x256, .f32⟩
  | 22 => ⟨S1x256, .f32⟩
  | 23 => ⟨S10000x256, .f32⟩
  | 24 => ⟨S10000x256, .f32⟩
  | 25 => ⟨S_, .f32⟩
  | 26 => ⟨S10000x256, .f32⟩
  | 27 => ⟨S10000x256, .f32⟩
  | 28 => ⟨S_, .f32⟩
  | 29 => ⟨S64x256, .f32⟩
  | 30 => ⟨S10000x1, .i32⟩
  | 31 => ⟨S64x256, .f32⟩
  | 32 => ⟨S64x256, .f32⟩
  | 33 => ⟨S1x256, .f32⟩
  | 34 => ⟨S64x256, .f32⟩
  | 35 => ⟨S64x256, .f32⟩
  | 36 => ⟨S_, .f32⟩
  | 37 => ⟨S64x256, .f32⟩
  | 38 => ⟨S64x256, .i1⟩
  | 39 => ⟨S1x1, .f32⟩
  | 40 => ⟨S64x256, .f32⟩
  | 41 => ⟨S64x256, .f32⟩
  | 42 => ⟨S64x256, .f32⟩
  | 43 => ⟨S64x128, .f32⟩
  | 44 => ⟨S1x128, .f32⟩
  | 45 => ⟨S64x128, .f32⟩
  | 46 => ⟨S64x128, .f32⟩
  | 47 => ⟨S64x128, .f32⟩
  | 48 => ⟨S64x128, .f32⟩
  | 49 => ⟨S_, .f32⟩
  | 50 => ⟨S64x128, .f32⟩
  | 51 => ⟨S64x128, .f32⟩
  | 52 => ⟨S_, .f32⟩
  | 53 => ⟨S64x128, .f32⟩
  | 54 => ⟨S64x128, .f32⟩
  | 55 => ⟨S64x10, .f32⟩
  | 56 => ⟨S1x10, .f32⟩
  | 57 => ⟨S64x10, .f32⟩
  | 58 => ⟨S64x10, .f32⟩
  | 59 => ⟨S_, .f32⟩
  | 60 => ⟨S64, .f32⟩
  | 61 => ⟨S_, .f32⟩
  | 62 => ⟨S64, .f32⟩
  | 63 => ⟨S64, .f32⟩
  | 64 => ⟨S64x1, .f32⟩
  | 65 => ⟨S64x10, .f32⟩
  | 66 => ⟨S64x10, .f32⟩
  | 67 => ⟨S64x10, .f32⟩
  | 68 => ⟨S_, .f32⟩
  | 69 => ⟨S64, .f32⟩
  | 70 => ⟨S64x1, .f32⟩
  | 71 => ⟨S64x1, .f32⟩
  | 72 => ⟨S64x10, .f32⟩
  | 73 => ⟨S64x10, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_12 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_15 : Ref sig .tc := ⟨.hbm, 118, rfl⟩
abbrev main_v84 : Ref sig .tc := ⟨.hbm, 119, rfl⟩
abbrev main_v85 : Ref sig .tc := ⟨.hbm, 120, rfl⟩
abbrev main_c_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_17 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_c_19 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_20 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_call2_cst : Ref sig .tc := ⟨.hbm, 167, rfl⟩
abbrev main_call2_v0 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_22 : Ref sig .tc := ⟨.hbm, 175, rfl⟩
abbrev main_v132 : Ref sig .tc := ⟨.hbm, 176, rfl⟩
abbrev main_v133 : Ref sig .tc := ⟨.hbm, 177, rfl⟩
abbrev main_c_23 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_24 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_25 : Ref sig .tc := ⟨.hbm, 191, rfl⟩
abbrev main_v145 : Ref sig .tc := ⟨.hbm, 192, rfl⟩
abbrev main_v146 : Ref sig .tc := ⟨.hbm, 193, rfl⟩
abbrev main_c_26 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_27 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_28 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_call3_cst : Ref sig .tc := ⟨.hbm, 224, rfl⟩
abbrev main_call3_v0 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_c_29 : Ref sig .tc := ⟨.hbm, 232, rfl⟩
abbrev main_v180 : Ref sig .tc := ⟨.hbm, 233, rfl⟩
abbrev main_v181 : Ref sig .tc := ⟨.hbm, 234, rfl⟩
abbrev main_c_30 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_cst_31 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_c_32 : Ref sig .tc := ⟨.hbm, 248, rfl⟩
abbrev main_v193 : Ref sig .tc := ⟨.hbm, 249, rfl⟩
abbrev main_v194 : Ref sig .tc := ⟨.hbm, 250, rfl⟩
abbrev main_c_33 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_cst_34 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_cst_35 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_call4_cst : Ref sig .tc := ⟨.hbm, 281, rfl⟩
abbrev main_call4_v0 : Ref sig .tc := ⟨.hbm, 282, rfl⟩
abbrev main_v222 : Ref sig .tc := ⟨.hbm, 283, rfl⟩
abbrev main_cst_36 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_37 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_cst_38 : Ref sig .tc := ⟨.hbm, 305, rfl⟩
abbrev main_v242 : Ref sig .tc := ⟨.hbm, 306, rfl⟩
abbrev main_v243 : Ref sig .tc := ⟨.hbm, 307, rfl⟩
abbrev main_cst_39 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_call6_cst : Ref sig .tc := ⟨.hbm, 315, rfl⟩
abbrev main_call6_v0 : Ref sig .tc := ⟨.hbm, 316, rfl⟩
abbrev main_call6_cst_0 : Ref sig .tc := ⟨.hbm, 317, rfl⟩
abbrev main_call6_v1 : Ref sig .tc := ⟨.hbm, 318, rfl⟩
abbrev main_call6_v2 : Ref sig .tc := ⟨.hbm, 319, rfl⟩
abbrev main_call6_v3 : Ref sig .tc := ⟨.hbm, 320, rfl⟩
abbrev main_call6_v4 : Ref sig .tc := ⟨.hbm, 321, rfl⟩
abbrev main_call6_v5 : Ref sig .tc := ⟨.hbm, 322, rfl⟩
abbrev main_call6_v6 : Ref sig .tc := ⟨.hbm, 323, rfl⟩
abbrev main_call6_cst_1 : Ref sig .tc := ⟨.hbm, 324, rfl⟩
abbrev main_call6_v7 : Ref sig .tc := ⟨.hbm, 325, rfl⟩
abbrev main_call6_v8 : Ref sig .tc := ⟨.hbm, 326, rfl⟩
abbrev main_call6_v9 : Ref sig .tc := ⟨.hbm, 327, rfl⟩
abbrev main_call6_v10 : Ref sig .tc := ⟨.hbm, 328, rfl⟩
abbrev main_v250 : Ref sig .tc := ⟨.hbm, 329, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  slices_S3x128x256_S1x128x256_0_0_0 : S3x128x256.Slices ![0, 0, 0] S1x128x256
  shapeCasts_S1x128x256_S128x256 : S1x128x256.ShapeCasts S128x256
  slices_S3x128x256_S1x128x256_1_0_0 : S3x128x256.Slices ![1, 0, 0] S1x128x256
  slices_S3x128x256_S1x128x256_2_0_0 : S3x128x256.Slices ![2, 0, 0] S1x128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1_S1x1_1 : S1.BroadcastsInDim S1x1 (![1] : Fin 1 → Fin S1x1.rank)
  bcast_S1x1_S10000x256_0_1 : S1x1.BroadcastsInDim S10000x256 (![0, 1] : Fin 2 → Fin S10000x256.rank)
  slices_S3x3x256x256_S1x3x256x256_0_0_0_0 : S3x3x256x256.Slices ![0, 0, 0, 0] S1x3x256x256
  shapeCasts_S1x3x256x256_S3x256x256 : S1x3x256x256.ShapeCasts S3x256x256
  slices_S3x256_S1x256_0_0 : S3x256.Slices ![0, 0] S1x256
  shapeCasts_S1x256_S256 : S1x256.ShapeCasts S256
  bcast_S320000x1_S320000x256_0_1 : S320000x1.BroadcastsInDim S320000x256 (![0, 1] : Fin 2 → Fin S320000x256.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  slices_S3x3x256x256_S1x3x256x256_1_0_0_0 : S3x3x256x256.Slices ![1, 0, 0, 0] S1x3x256x256
  slices_S3x256_S1x256_1_0 : S3x256.Slices ![1, 0] S1x256
  slices_S3x3x256x256_S1x3x256x256_2_0_0_0 : S3x3x256x256.Slices ![2, 0, 0, 0] S1x3x256x256
  slices_S3x256_S1x256_2_0 : S3x256.Slices ![2, 0] S1x256
  bcast_S_S64x256 : S_.BroadcastsInDim S64x256 (![] : Fin 0 → Fin S64x256.rank)
  bcast_S10000_S10000x1_0 : S10000.BroadcastsInDim S10000x1 (![0] : Fin 1 → Fin S10000x1.rank)
  bcast_S1x256_S64x256_0_1 : S1x256.BroadcastsInDim S64x256 (![0, 1] : Fin 2 → Fin S64x256.rank)
  bcast_S1x1_S64x256_0_1 : S1x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x256_S10000x256_1_0_0_1_n_n_wf : DotDims.WF S10000x128 S128x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  scatter_S64x256_S10000x1_S10000x256_1_0_0_1_wf : ScatterDims.WF S64x256 S10000x1 S10000x256 [1] [0] [0] 1
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  dot_S64x128_S128x10_S64x10_1_0_0_1_n_n_wf : DotDims.WF S64x128 S128x10 S64x10 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.BodiesBits.lean ====
import proofs.«163009_j11184094839450_1_alg».proof.Proof.Gen.Kernel.Launch
import proofs.«163009_j11184094839450_1_alg».proof.Proof.Gen.Kernel.Skeleton
import proofs.«163009_j11184094839450_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents is decided structurally, one step per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # Region 0: `cc0__cheb_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: when it is not fetched the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: when it is not fetched the
    block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: when it is not fetched the
    block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: when it is not fetched the
    block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1000x384 := Rect.unit (s := S1000x384) ![0, 0] S1000x384.size inb_S1000x384_S1000x384_0_0
abbrev r0_1 : Rect S384x256 := Rect.unit (s := S384x256) ![0, 0] S384x256.size inb_S384x256_S384x256_0_0
abbrev r0_2 : Rect S1x256 := Rect.unit (s := S1x256) ![0, 0] S1x256.size inb_S1x256_S1x256_0_0
abbrev r0_3 : Rect S1x1 := Rect.unit (s := S1x1) ![0, 0] S1x1.size inb_S1x1_S1x1_0_0
abbrev r0_4 : Rect S1000x256 := Rect.unit (s := S1000x256) ![0, 0] S1000x256.size inb_S1000x256_S1000x256_0_0

/-- The output window's buffer after the body, from the input windows' blocks: its one store, of the body's value at
    the blocks read whole. -/
def out0_4 (x0 : Vec F S1000x384 .f32) (x1 : Vec F S384x256 .f32) (x2 : Vec F S1x256 .f32) (x3 : Vec F S1x1 .f32) : Vec F S1000x256 .f32 :=
  View.canon [⟨r0_4, k0_pay1 (View.ld x0 r0_0) (View.ld x1 r0_1) (View.ld x2 r0_2) (View.ld x3 r0_3)⟩]

/-- The one store is of the whole buffer, so it covers it. -/
theorem cover0_4 (p0 : Vec F S1000x256 .f32) (y : S1000x256.Idx) :
    ∃ pc ∈ ([⟨r0_4, p0⟩] : List (View.Piece (Elt F) S1000x256 .f32)), y ∈ pc.1.set :=
  View.cover_of_tiled [⟨r0_4, p0⟩] S1000x256.size (by rfl) y

set_option maxHeartbeats 4000000 in
/-- The body on whole buffers, the inputs' at contents `xW` and the output's at anything, runs to the continuation
    holding the inputs' as they were and the output's at `out0_4` of the inputs'. -/
theorem sound_kernel0 (c : Dev nD) (E : Set ℕ) (i : grid0.Coords) (arg1 : Memref sig .tc .vmem S1000x384 .f32) (harg1 : arg1.IsWhole) (arg2 : Memref sig .tc .vmem S384x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x384 .f32) (x1 : Vec F S384x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cheb_kernel i arg1 harg1 arg2 harg2 arg3 harg3 arg4 harg4 arg5 harg5) K := by
  simp only [cc0__cheb_kernel_eq_skeleton]; unfold cc0__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The region's proof data on core `c`: the arrays as the region finds them; after the body at point `t` each input's
    buffer at its block and the output's at `out0_4` of the input blocks; the invariant keeps the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__cheb_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: when it is not fetched the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: when it is not fetched the
    block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: when it is not fetched the
    block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: when it is not fetched the
    block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S1000x768 := Rect.unit (s := S1000x768) ![0, 0] S1000x768.size inb_S1000x768_S1000x768_0_0
abbrev r1_1 : Rect S768x256 := Rect.unit (s := S768x256) ![0, 0] S768x256.size inb_S768x256_S768x256_0_0
abbrev r1_2 : Rect S1x256 := Rect.unit (s := S1x256) ![0, 0] S1x256.size inb_S1x256_S1x256_0_0
abbrev r1_3 : Rect S1x1 := Rect.unit (s := S1x1) ![0, 0] S1x1.size inb_S1x1_S1x1_0_0
abbrev r1_4 : Rect S1000x256 := Rect.unit (s := S1000x256) ![0, 0] S1000x256.size inb_S1000x256_S1000x256_0_0

/-- The output window's buffer after the body, from the input windows' blocks: its one store, of the body's value at
    the blocks read whole. -/
def out1_4 (x0 : Vec F S1000x768 .f32) (x1 : Vec F S768x256 .f32) (x2 : Vec F S1x256 .f32) (x3 : Vec F S1x1 .f32) : Vec F S1000x256 .f32 :=
  View.canon [⟨r1_4, k1_pay1 (View.ld x0 r1_0) (View.ld x1 r1_1) (View.ld x2 r1_2) (View.ld x3 r1_3)⟩]

/-- The one store is of the whole buffer, so it covers it. -/
theorem cover1_4 (p0 : Vec F S1000x256 .f32) (y : S1000x256.Idx) :
    ∃ pc ∈ ([⟨r1_4, p0⟩] : List (View.Piece (Elt F) S1000x256 .f32)), y ∈ pc.1.set :=
  View.cover_of_tiled [⟨r1_4, p0⟩] S1000x256.size (by rfl) y

set_option maxHeartbeats 4000000 in
/-- The body on whole buffers, the inputs' at contents `xW` and the output's at anything, runs to the continuation
    holding the inputs' as they were and the output's at `out1_4` of the inputs'. -/
theorem sound_kernel1 (c : Dev nD) (E : Set ℕ) (i : grid1.Coords) (arg1 : Memref sig .tc .vmem S1000x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x768 .f32) (x1 : Vec F S768x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__cheb_kernel i arg1 harg1 arg2 harg2 arg3 harg3 arg4 harg4 arg5 harg5) K := by
  simp only [cc1__cheb_kernel_eq_skeleton]; unfold cc1__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input's
    buffer at its block and the output's at `out1_4` of the input blocks; the invariant keeps the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-! # Region 2: `cc2__cheb_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: when it is not fetched the
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: when it is not fetched the
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: when it is not fetched the
    block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: when it is not fetched the
    block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S1000x768 := Rect.unit (s := S1000x768) ![0, 0] S1000x768.size inb_S1000x768_S1000x768_0_0
abbrev r2_1 : Rect S768x256 := Rect.unit (s := S768x256) ![0, 0] S768x256.size inb_S768x256_S768x256_0_0
abbrev r2_2 : Rect S1x256 := Rect.unit (s := S1x256) ![0, 0] S1x256.size inb_S1x256_S1x256_0_0
abbrev r2_3 : Rect S1x1 := Rect.unit (s := S1x1) ![0, 0] S1x1.size inb_S1x1_S1x1_0_0
abbrev r2_4 : Rect S1000x256 := Rect.unit (s := S1000x256) ![0, 0] S1000x256.size inb_S1000x256_S1000x256_0_0

/-- The output window's buffer after the body, from the input windows' blocks: its one store, of the body's value at
    the blocks read whole. -/
def out2_4 (x0 : Vec F S1000x768 .f32) (x1 : Vec F S768x256 .f32) (x2 : Vec F S1x256 .f32) (x3 : Vec F S1x1 .f32) : Vec F S1000x256 .f32 :=
  View.canon [⟨r2_4, k2_pay1 (View.ld x0 r2_0) (View.ld x1 r2_1) (View.ld x2 r2_2) (View.ld x3 r2_3)⟩]

/-- The one store is of the whole buffer, so it covers it. -/
theorem cover2_4 (p0 : Vec F S1000x256 .f32) (y : S1000x256.Idx) :
    ∃ pc ∈ ([⟨r2_4, p0⟩] : List (View.Piece (Elt F) S1000x256 .f32)), y ∈ pc.1.set :=
  View.cover_of_tiled [⟨r2_4, p0⟩] S1000x256.size (by rfl) y

set_option maxHeartbeats 4000000 in
/-- The body on whole buffers, the inputs' at contents `xW` and the output's at anything, runs to the continuation
    holding the inputs' as they were and the output's at `out2_4` of the inputs'. -/
theorem sound_kernel2 (c : Dev nD) (E : Set ℕ) (i : grid2.Coords) (arg1 : Memref sig .tc .vmem S1000x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x768 .f32) (x1 : Vec F S768x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__cheb_kernel i arg1 harg1 arg2 harg2 arg3 harg3 arg4 harg4 arg5 harg5) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data on core `c`: the arrays as the region finds them; after the body at point `t` each input's
    buffer at its block and the output's at `out2_4` of the input blocks; the invariant keeps the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-! # Region 3: `cc3__cheb_kernel`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not: when it is not fetched the
    block index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not: when it is not fetched the
    block index has not moved, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not: when it is not fetched the
    block index has not moved, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not: when it is not fetched the
    block index has not moved, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S1000x768 := Rect.unit (s := S1000x768) ![0, 0] S1000x768.size inb_S1000x768_S1000x768_0_0
abbrev r3_1 : Rect S768x256 := Rect.unit (s := S768x256) ![0, 0] S768x256.size inb_S768x256_S768x256_0_0
abbrev r3_2 : Rect S1x256 := Rect.unit (s := S1x256) ![0, 0] S1x256.size inb_S1x256_S1x256_0_0
abbrev r3_3 : Rect S1x1 := Rect.unit (s := S1x1) ![0, 0] S1x1.size inb_S1x1_S1x1_0_0
abbrev r3_4 : Rect S1000x256 := Rect.unit (s := S1000x256) ![0, 0] S1000x256.size inb_S1000x256_S1000x256_0_0

/-- The output window's buffer after the body, from the input windows' blocks: its one store, of the body's value at
    the blocks read whole. -/
def out3_4 (x0 : Vec F S1000x768 .f32) (x1 : Vec F S768x256 .f32) (x2 : Vec F S1x256 .f32) (x3 : Vec F S1x1 .f32) : Vec F S1000x256 .f32 :=
  View.canon [⟨r3_4, k3_pay1 (View.ld x0 r3_0) (View.ld x1 r3_1) (View.ld x2 r3_2) (View.ld x3 r3_3)⟩]

/-- The one store is of the whole buffer, so it covers it. -/
theorem cover3_4 (p0 : Vec F S1000x256 .f32) (y : S1000x256.Idx) :
    ∃ pc ∈ ([⟨r3_4, p0⟩] : List (View.Piece (Elt F) S1000x256 .f32)), y ∈ pc.1.set :=
  View.cover_of_tiled [⟨r3_4, p0⟩] S1000x256.size (by rfl) y

set_option maxHeartbeats 4000000 in
/-- The body on whole buffers, the inputs' at contents `xW` and the output's at anything, runs to the continuation
    holding the inputs' as they were and the output's at `out3_4` of the inputs'. -/
theorem sound_kernel3 (c : Dev nD) (E : Set ℕ) (i : grid3.Coords) (arg1 : Memref sig .tc .vmem S1000x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x768 .f32) (x1 : Vec F S768x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__cheb_kernel i arg1 harg1 arg2 harg2 arg3 harg3 arg4 harg4 arg5 harg5) K := by
  simp only [cc3__cheb_kernel_eq_skeleton]; unfold cc3__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input's
    buffer at its block and the output's at `out3_4` of the input blocks; the invariant keeps the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 1000000 in
/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

/-! # Region 4: `cc4__mlp_kernel`, at the entry contents `V` -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not: when it is not fetched the
    block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not: when it is not fetched the
    block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not: when it is not fetched the
    block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, fetched there or not: when it is not fetched the
    block index has not moved, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current buffer holds its block at every point, fetched there or not: when it is not fetched the
    block index has not moved, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current buffer holds its block at every point, fetched there or not: when it is not fetched the
    block index has not moved, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current buffer holds its block at every point, fetched there or not: when it is not fetched the
    block index has not moved, and the body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current buffer holds its block at every point, fetched there or not: when it is not fetched the
    block index has not moved, and the body leaves the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S64x256 := Rect.unit (s := S64x256) ![0, 0] S64x256.size inb_S64x256_S64x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0
abbrev r4_3 : Rect S1x1 := Rect.unit (s := S1x1) ![0, 0] S1x1.size inb_S1x1_S1x1_0_0
abbrev r4_4 : Rect S256x128 := Rect.unit (s := S256x128) ![0, 0] S256x128.size inb_S256x128_S256x128_0_0
abbrev r4_5 : Rect S1x128 := Rect.unit (s := S1x128) ![0, 0] S1x128.size inb_S1x128_S1x128_0_0
abbrev r4_6 : Rect S128x10 := Rect.unit (s := S128x10) ![0, 0] S128x10.size inb_S128x10_S128x10_0_0
abbrev r4_7 : Rect S1x10 := Rect.unit (s := S1x10) ![0, 0] S1x10.size inb_S1x10_S1x10_0_0
abbrev r4_8 : Rect S64x10 := Rect.unit (s := S64x10) ![0, 0] S64x10.size inb_S64x10_S64x10_0_0

/-- The output window's buffer after the body, from the input windows' blocks: its one store, of the body's value at
    the blocks read whole. -/
def out4_8 (x0 : Vec F S64x256 .f32) (x1 : Vec F S256x256 .f32) (x2 : Vec F S1x256 .f32) (x3 : Vec F S1x1 .f32) (x4 : Vec F S256x128 .f32) (x5 : Vec F S1x128 .f32) (x6 : Vec F S128x10 .f32) (x7 : Vec F S1x10 .f32) : Vec F S64x10 .f32 :=
  View.canon [⟨r4_8, k4_pay1 (k4_pay2 (View.ld x0 r4_0) (View.ld x1 r4_1) (View.ld x2 r4_2) (View.ld x3 r4_3) (View.ld x4 r4_4) (View.ld x5 r4_5) (View.ld x6 r4_6) (View.ld x7 r4_7)) (k4_pay3 (View.ld x0 r4_0) (View.ld x1 r4_1) (View.ld x2 r4_2) (View.ld x3 r4_3) (View.ld x4 r4_4) (View.ld x5 r4_5) (View.ld x6 r4_6) (View.ld x7 r4_7))⟩]

/-- The one store is of the whole buffer, so it covers it. -/
theorem cover4_8 (p0 : Vec F S64x10 .f32) (y : S64x10.Idx) :
    ∃ pc ∈ ([⟨r4_8, p0⟩] : List (View.Piece (Elt F) S64x10 .f32)), y ∈ pc.1.set :=
  View.cover_of_tiled [⟨r4_8, p0⟩] S64x10.size (by rfl) y

set_option maxHeartbeats 4000000 in
/-- The body on whole buffers, the inputs' at contents `xW` and the output's at anything, runs to the continuation
    holding the inputs' as they were and the output's at `out4_8` of the inputs'. -/
theorem sound_kernel4 (c : Dev nD) (E : Set ℕ) (i : grid4.Coords) (arg1 : Memref sig .tc .vmem S64x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S64x10 .f32) (harg9 : arg9.IsWhole)
    (x0 : Vec F S64x256 .f32) (x1 : Vec F S256x256 .f32) (x2 : Vec F S1x256 .f32) (x3 : Vec F S1x1 .f32) (x4 : Vec F S256x128 .f32) (x5 : Vec F S1x128 .f32) (x6 : Vec F S128x10 .f32) (x7 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out4_8 x0 x1 x2 x3 x4 x5 x6 x7)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9) K := by
  simp only [cc4__mlp_kernel_eq_skeleton]; unfold cc4__mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover4_8 _)

/-- The region's proof data on core `c`: the arrays as the region finds them; after the body at point `t` each input's
    buffer at its block and the output's at `out4_8` of the input blocks; the invariant keeps the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

set_option maxHeartbeats 1000000 in
/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Hand

end
-- ==== Proof.ChainBits.lean ====
import proofs.«163009_j11184094839450_1_alg».proof.Proof.BodiesBits
import proofs.«163009_j11184094839450_1_alg».proof.Proof.Gen.Kernel.Regions

-- membership in a rectangle of the blocks' extents is decided structurally, one step per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ)

/-! # The buffers' contents at each boundary, the regions' outputs filled in -/

/-- Core `c`'s unscoped buffers when region 0 is entered. -/
abbrev U3 (c : Dev nD) : Valuation τ sig (Elt F) := Gen.V3 m c
/-- The same read at the TensorCore's references (what region 0's proof data take). -/
abbrev T3 : (c : Dev nD) → (b : Ref sig .tc) → Buf (Elt F) ((c : Thread nD τ).loc b) := fun c b => U3 m c b

/-- What region 0 leaves in `main_v63`: its output window's array after the last write-back. -/
def X4 (c : Dev nD) : Buf (Elt F) ((c : Thread nD τ).loc main_v63) := (dat0 (T3 m) c).arrAt 4 cfg0.N
/-- Core `c`'s unscoped buffers when region 0 is left: `main_v63` at `X4`, every other buffer as entered. -/
def U4 (c : Dev nD) : Valuation τ sig (Elt F) := Function.update (U3 m c) main_v63 (X4 m c)
abbrev T4 : (c : Dev nD) → (b : Ref sig .tc) → Buf (Elt F) ((c : Thread nD τ).loc b) := fun c b => U4 m c b
theorem U4_self (c : Dev nD) : U4 m c main_v63 = X4 m c := by
  unfold U4; exact Function.update_self _ _ _
theorem U4_of_ne (c : Dev nD) (b : Ref sig .tc) (h : b ≠ main_v63) : U4 m c b = U3 m c b := by
  unfold U4; exact Function.update_of_ne (StableHlo.devRef_ne_of_ne h) _ _
/-- Core `c`'s unscoped buffers after the host stretch `hostOps1` (region 1's entry). -/
def U5 (c : Dev nD) : Valuation τ sig (Elt F) := StableHlo.after hostOps1 (U4 m c)
abbrev T5 : (c : Dev nD) → (b : Ref sig .tc) → Buf (Elt F) ((c : Thread nD τ).loc b) := fun c b => U5 m c b

/-- What region 1 leaves in `main_v102`: its output window's array after the last write-back. -/
def X6 (c : Dev nD) : Buf (Elt F) ((c : Thread nD τ).loc main_v102) := (dat1 (T5 m) c).arrAt 4 cfg1.N
/-- Core `c`'s unscoped buffers when region 1 is left: `main_v102` at `X6`, every other buffer as entered. -/
def U6 (c : Dev nD) : Valuation τ sig (Elt F) := Function.update (U5 m c) main_v102 (X6 m c)
abbrev T6 : (c : Dev nD) → (b : Ref sig .tc) → Buf (Elt F) ((c : Thread nD τ).loc b) := fun c b => U6 m c b
theorem U6_self (c : Dev nD) : U6 m c main_v102 = X6 m c := by
  unfold U6; exact Function.update_self _ _ _
theorem U6_of_ne (c : Dev nD) (b : Ref sig .tc) (h : b ≠ main_v102) : U6 m c b = U5 m c b := by
  unfold U6; exact Function.update_of_ne (StableHlo.devRef_ne_of_ne h) _ _
/-- Core `c`'s unscoped buffers after the host stretch `hostOps2` (region 2's entry). -/
def U7 (c : Dev nD) : Valuation τ sig (Elt F) := StableHlo.after hostOps2 (U6 m c)
abbrev T7 : (c : Dev nD) → (b : Ref sig .tc) → Buf (Elt F) ((c : Thread nD τ).loc b) := fun c b => U7 m c b

/-- What region 2 leaves in `main_v140`: its output window's array after the last write-back. -/
def X8 (c : Dev nD) : Buf (Elt F) ((c : Thread nD τ).loc main_v140) := (dat2 (T7 m) c).arrAt 4 cfg2.N
/-- Core `c`'s unscoped buffers when region 2 is left: `main_v140` at `X8`, every other buffer as entered. -/
def U8 (c : Dev nD) : Valuation τ sig (Elt F) := Function.update (U7 m c) main_v140 (X8 m c)
abbrev T8 : (c : Dev nD) → (b : Ref sig .tc) → Buf (Elt F) ((c : Thread nD τ).loc b) := fun c b => U8 m c b
theorem U8_self (c : Dev nD) : U8 m c main_v140 = X8 m c := by
  unfold U8; exact Function.update_self _ _ _
theorem U8_of_ne (c : Dev nD) (b : Ref sig .tc) (h : b ≠ main_v140) : U8 m c b = U7 m c b := by
  unfold U8; exact Function.update_of_ne (StableHlo.devRef_ne_of_ne h) _ _
/-- Core `c`'s unscoped buffers after the host stretch `hostOps3` (region 3's entry). -/
def U9 (c : Dev nD) : Valuation τ sig (Elt F) := StableHlo.after hostOps3 (U8 m c)
abbrev T9 : (c : Dev nD) → (b : Ref sig .tc) → Buf (Elt F) ((c : Thread nD τ).loc b) := fun c b => U9 m c b

/-- What region 3 leaves in `main_v178`: its output window's array after the last write-back. -/
def X10 (c : Dev nD) : Buf (Elt F) ((c : Thread nD τ).loc main_v178) := (dat3 (T9 m) c).arrAt 4 cfg3.N
/-- Core `c`'s unscoped buffers when region 3 is left: `main_v178` at `X10`, every other buffer as entered. -/
def U10 (c : Dev nD) : Valuation τ sig (Elt F) := Function.update (U9 m c) main_v178 (X10 m c)
abbrev T10 : (c : Dev nD) → (b : Ref sig .tc) → Buf (Elt F) ((c : Thread nD τ).loc b) := fun c b => U10 m c b
theorem U10_self (c : Dev nD) : U10 m c main_v178 = X10 m c := by
  unfold U10; exact Function.update_self _ _ _
theorem U10_of_ne (c : Dev nD) (b : Ref sig .tc) (h : b ≠ main_v178) : U10 m c b = U9 m c b := by
  unfold U10; exact Function.update_of_ne (StableHlo.devRef_ne_of_ne h) _ _
/-- Core `c`'s unscoped buffers after the host stretch `hostOps4` (region 4's entry). -/
def U11 (c : Dev nD) : Valuation τ sig (Elt F) := StableHlo.after hostOps4 (U10 m c)
abbrev T11 : (c : Dev nD) → (b : Ref sig .tc) → Buf (Elt F) ((c : Thread nD τ).loc b) := fun c b => U11 m c b

/-- What region 4 leaves in `main_v186`: its output window's array after the last write-back. -/
def X12 (c : Dev nD) : Buf (Elt F) ((c : Thread nD τ).loc main_v186) := (dat4 (T11 m) c).arrAt 8 cfg4.N
/-- Core `c`'s unscoped buffers when region 4 is left: `main_v186` at `X12`, every other buffer as entered. -/
def U12 (c : Dev nD) : Valuation τ sig (Elt F) := Function.update (U11 m c) main_v186 (X12 m c)
abbrev T12 : (c : Dev nD) → (b : Ref sig .tc) → Buf (Elt F) ((c : Thread nD τ).loc b) := fun c b => U12 m c b
theorem U12_self (c : Dev nD) : U12 m c main_v186 = X12 m c := by
  unfold U12; exact Function.update_self _ _ _
theorem U12_of_ne (c : Dev nD) (b : Ref sig .tc) (h : b ≠ main_v186) : U12 m c b = U11 m c b := by
  unfold U12; exact Function.update_of_ne (StableHlo.devRef_ne_of_ne h) _ _

/-- What the regions leave, as the conditional frame's unknowns: after region K every buffer at `U`'s contents there. -/
def outs : Gen.Outs (F := F) := fun J r c => match J with
  | 4 => U4 m c r
  | 6 => U6 m c r
  | 8 => U8 m c r
  | 10 => U10 m c r
  | 12 => U12 m c r
  | _ => Gen.V0 m c r

/-! ## The conditional frame's valuations at these unknowns are the `U`s -/

theorem V4_eq (c : Dev nD) : Gen.V4 m (outs m) c = U4 m c := by
  show Function.update (Gen.V3 m c) main_v63 (U4 m c main_v63) = U4 m c
  unfold U4; rw [Function.update_self]
theorem V5_eq (c : Dev nD) : Gen.V5 m (outs m) c = U5 m c := by
  show StableHlo.after hostOps1 (Gen.V4 m (outs m) c) = U5 m c
  rw [V4_eq]; rfl

theorem V6_eq (c : Dev nD) : Gen.V6 m (outs m) c = U6 m c := by
  show Function.update (Gen.V5 m (outs m) c) main_v102 (U6 m c main_v102) = U6 m c
  rw [V5_eq]; unfold U6; rw [Function.update_self]
theorem V7_eq (c : Dev nD) : Gen.V7 m (outs m) c = U7 m c := by
  show StableHlo.after hostOps2 (Gen.V6 m (outs m) c) = U7 m c
  rw [V6_eq]; rfl

theorem V8_eq (c : Dev nD) : Gen.V8 m (outs m) c = U8 m c := by
  show Function.update (Gen.V7 m (outs m) c) main_v140 (U8 m c main_v140) = U8 m c
  rw [V7_eq]; unfold U8; rw [Function.update_self]
theorem V9_eq (c : Dev nD) : Gen.V9 m (outs m) c = U9 m c := by
  show StableHlo.after hostOps3 (Gen.V8 m (outs m) c) = U9 m c
  rw [V8_eq]; rfl

theorem V10_eq (c : Dev nD) : Gen.V10 m (outs m) c = U10 m c := by
  show Function.update (Gen.V9 m (outs m) c) main_v178 (U10 m c main_v178) = U10 m c
  rw [V9_eq]; unfold U10; rw [Function.update_self]
theorem V11_eq (c : Dev nD) : Gen.V11 m (outs m) c = U11 m c := by
  show StableHlo.after hostOps4 (Gen.V10 m (outs m) c) = U11 m c
  rw [V10_eq]; rfl

theorem V12_eq (c : Dev nD) : Gen.V12 m (outs m) c = U12 m c := by
  show Function.update (Gen.V11 m (outs m) c) main_v186 (U12 m c main_v186) = U12 m c
  rw [V11_eq]; unfold U12; rw [Function.update_self]

/-! ## At a region's exit each of its arrays holds what the pipeline leaves, every other buffer what it held at entry -/

/-- A window other than the output's has another array: the windows' arrays are pairwise distinct. -/
theorem ne_out0 (w : Fin cfg0.W) (h : w.val ≠ 4) : Pipeline.arrRef spec0 w ≠ main_v63 :=
  fun e => h (congrArg Fin.val (launch0.win.arr_inj (e.trans (show main_v63 = Pipeline.arrRef spec0 4 from rfl))))
set_option maxHeartbeats 1000000 in
theorem hF0 (c : Dev nD) : ∀ w : Fin cfg0.W, (dat0 (T3 m) c).arrAt w cfg0.N = T4 m c (Pipeline.arrRef spec0 w)
  | ⟨0, _⟩ => ((dat0 (T3 m) c).arrAt_in 0 rfl _).trans ((A_eq0 (T3 m) c 0).trans (U4_of_ne m c _ (ne_out0 0 (by decide))).symm)
  | ⟨1, _⟩ => ((dat0 (T3 m) c).arrAt_in 1 rfl _).trans ((A_eq0 (T3 m) c 1).trans (U4_of_ne m c _ (ne_out0 1 (by decide))).symm)
  | ⟨2, _⟩ => ((dat0 (T3 m) c).arrAt_in 2 rfl _).trans ((A_eq0 (T3 m) c 2).trans (U4_of_ne m c _ (ne_out0 2 (by decide))).symm)
  | ⟨3, _⟩ => ((dat0 (T3 m) c).arrAt_in 3 rfl _).trans ((A_eq0 (T3 m) c 3).trans (U4_of_ne m c _ (ne_out0 3 (by decide))).symm)
  | ⟨4, _⟩ => (U4_self m c).symm
theorem hrest0 (c : Dev nD) : ∀ b, b ∉ Finset.univ.image (Pipeline.arrRef spec0) → T4 m c b = T3 m c b :=
  fun b hb => U4_of_ne m c b fun e => hb (Finset.mem_image.mpr ⟨4, Finset.mem_univ _, (show Pipeline.arrRef spec0 4 = main_v63 from rfl).trans e.symm⟩)

/-- A window other than the output's has another array: the windows' arrays are pairwise distinct. -/
theorem ne_out1 (w : Fin cfg1.W) (h : w.val ≠ 4) : Pipeline.arrRef spec1 w ≠ main_v102 :=
  fun e => h (congrArg Fin.val (launch1.win.arr_inj (e.trans (show main_v102 = Pipeline.arrRef spec1 4 from rfl))))
set_option maxHeartbeats 1000000 in
theorem hF1 (c : Dev nD) : ∀ w : Fin cfg1.W, (dat1 (T5 m) c).arrAt w cfg1.N = T6 m c (Pipeline.arrRef spec1 w)
  | ⟨0, _⟩ => ((dat1 (T5 m) c).arrAt_in 0 rfl _).trans ((A_eq1 (T5 m) c 0).trans (U6_of_ne m c _ (ne_out1 0 (by decide))).symm)
  | ⟨1, _⟩ => ((dat1 (T5 m) c).arrAt_in 1 rfl _).trans ((A_eq1 (T5 m) c 1).trans (U6_of_ne m c _ (ne_out1 1 (by decide))).symm)
  | ⟨2, _⟩ => ((dat1 (T5 m) c).arrAt_in 2 rfl _).trans ((A_eq1 (T5 m) c 2).trans (U6_of_ne m c _ (ne_out1 2 (by decide))).symm)
  | ⟨3, _⟩ => ((dat1 (T5 m) c).arrAt_in 3 rfl _).trans ((A_eq1 (T5 m) c 3).trans (U6_of_ne m c _ (ne_out1 3 (by decide))).symm)
  | ⟨4, _⟩ => (U6_self m c).symm
theorem hrest1 (c : Dev nD) : ∀ b, b ∉ Finset.univ.image (Pipeline.arrRef spec1) → T6 m c b = T5 m c b :=
  fun b hb => U6_of_ne m c b fun e => hb (Finset.mem_image.mpr ⟨4, Finset.mem_univ _, (show Pipeline.arrRef spec1 4 = main_v102 from rfl).trans e.symm⟩)

/-- A window other than the output's has another array: the windows' arrays are pairwise distinct. -/
theorem ne_out2 (w : Fin cfg2.W) (h : w.val ≠ 4) : Pipeline.arrRef spec2 w ≠ main_v140 :=
  fun e => h (congrArg Fin.val (launch2.win.arr_inj (e.trans (show main_v140 = Pipeline.arrRef spec2 4 from rfl))))
set_option maxHeartbeats 1000000 in
theorem hF2 (c : Dev nD) : ∀ w : Fin cfg2.W, (dat2 (T7 m) c).arrAt w cfg2.N = T8 m c (Pipeline.arrRef spec2 w)
  | ⟨0, _⟩ => ((dat2 (T7 m) c).arrAt_in 0 rfl _).trans ((A_eq2 (T7 m) c 0).trans (U8_of_ne m c _ (ne_out2 0 (by decide))).symm)
  | ⟨1, _⟩ => ((dat2 (T7 m) c).arrAt_in 1 rfl _).trans ((A_eq2 (T7 m) c 1).trans (U8_of_ne m c _ (ne_out2 1 (by decide))).symm)
  | ⟨2, _⟩ => ((dat2 (T7 m) c).arrAt_in 2 rfl _).trans ((A_eq2 (T7 m) c 2).trans (U8_of_ne m c _ (ne_out2 2 (by decide))).symm)
  | ⟨3, _⟩ => ((dat2 (T7 m) c).arrAt_in 3 rfl _).trans ((A_eq2 (T7 m) c 3).trans (U8_of_ne m c _ (ne_out2 3 (by decide))).symm)
  | ⟨4, _⟩ => (U8_self m c).symm
theorem hrest2 (c : Dev nD) : ∀ b, b ∉ Finset.univ.image (Pipeline.arrRef spec2) → T8 m c b = T7 m c b :=
  fun b hb => U8_of_ne m c b fun e => hb (Finset.mem_image.mpr ⟨4, Finset.mem_univ _, (show Pipeline.arrRef spec2 4 = main_v140 from rfl).trans e.symm⟩)

/-- A window other than the output's has another array: the windows' arrays are pairwise distinct. -/
theorem ne_out3 (w : Fin cfg3.W) (h : w.val ≠ 4) : Pipeline.arrRef spec3 w ≠ main_v178 :=
  fun e => h (congrArg Fin.val (launch3.win.arr_inj (e.trans (show main_v178 = Pipeline.arrRef spec3 4 from rfl))))
set_option maxHeartbeats 1000000 in
theorem hF3 (c : Dev nD) : ∀ w : Fin cfg3.W, (dat3 (T9 m) c).arrAt w cfg3.N = T10 m c (Pipeline.arrRef spec3 w)
  | ⟨0, _⟩ => ((dat3 (T9 m) c).arrAt_in 0 rfl _).trans ((A_eq3 (T9 m) c 0).trans (U10_of_ne m c _ (ne_out3 0 (by decide))).symm)
  | ⟨1, _⟩ => ((dat3 (T9 m) c).arrAt_in 1 rfl _).trans ((A_eq3 (T9 m) c 1).trans (U10_of_ne m c _ (ne_out3 1 (by decide))).symm)
  | ⟨2, _⟩ => ((dat3 (T9 m) c).arrAt_in 2 rfl _).trans ((A_eq3 (T9 m) c 2).trans (U10_of_ne m c _ (ne_out3 2 (by decide))).symm)
  | ⟨3, _⟩ => ((dat3 (T9 m) c).arrAt_in 3 rfl _).trans ((A_eq3 (T9 m) c 3).trans (U10_of_ne m c _ (ne_out3 3 (by decide))).symm)
  | ⟨4, _⟩ => (U10_self m c).symm
theorem hrest3 (c : Dev nD) : ∀ b, b ∉ Finset.univ.image (Pipeline.arrRef spec3) → T10 m c b = T9 m c b :=
  fun b hb => U10_of_ne m c b fun e => hb (Finset.mem_image.mpr ⟨4, Finset.mem_univ _, (show Pipeline.arrRef spec3 4 = main_v178 from rfl).trans e.symm⟩)

/-- A window other than the output's has another array: the windows' arrays are pairwise distinct. -/
theorem ne_out4 (w : Fin cfg4.W) (h : w.val ≠ 8) : Pipeline.arrRef spec4 w ≠ main_v186 :=
  fun e => h (congrArg Fin.val (launch4.win.arr_inj (e.trans (show main_v186 = Pipeline.arrRef spec4 8 from rfl))))
set_option maxHeartbeats 1000000 in
theorem hF4 (c : Dev nD) : ∀ w : Fin cfg4.W, (dat4 (T11 m) c).arrAt w cfg4.N = T12 m c (Pipeline.arrRef spec4 w)
  | ⟨0, _⟩ => ((dat4 (T11 m) c).arrAt_in 0 rfl _).trans ((A_eq4 (T11 m) c 0).trans (U12_of_ne m c _ (ne_out4 0 (by decide))).symm)
  | ⟨1, _⟩ => ((dat4 (T11 m) c).arrAt_in 1 rfl _).trans ((A_eq4 (T11 m) c 1).trans (U12_of_ne m c _ (ne_out4 1 (by decide))).symm)
  | ⟨2, _⟩ => ((dat4 (T11 m) c).arrAt_in 2 rfl _).trans ((A_eq4 (T11 m) c 2).trans (U12_of_ne m c _ (ne_out4 2 (by decide))).symm)
  | ⟨3, _⟩ => ((dat4 (T11 m) c).arrAt_in 3 rfl _).trans ((A_eq4 (T11 m) c 3).trans (U12_of_ne m c _ (ne_out4 3 (by decide))).symm)
  | ⟨4, _⟩ => ((dat4 (T11 m) c).arrAt_in 4 rfl _).trans ((A_eq4 (T11 m) c 4).trans (U12_of_ne m c _ (ne_out4 4 (by decide))).symm)
  | ⟨5, _⟩ => ((dat4 (T11 m) c).arrAt_in 5 rfl _).trans ((A_eq4 (T11 m) c 5).trans (U12_of_ne m c _ (ne_out4 5 (by decide))).symm)
  | ⟨6, _⟩ => ((dat4 (T11 m) c).arrAt_in 6 rfl _).trans ((A_eq4 (T11 m) c 6).trans (U12_of_ne m c _ (ne_out4 6 (by decide))).symm)
  | ⟨7, _⟩ => ((dat4 (T11 m) c).arrAt_in 7 rfl _).trans ((A_eq4 (T11 m) c 7).trans (U12_of_ne m c _ (ne_out4 7 (by decide))).symm)
  | ⟨8, _⟩ => (U12_self m c).symm
theorem hrest4 (c : Dev nD) : ∀ b, b ∉ Finset.univ.image (Pipeline.arrRef spec4) → T12 m c b = T11 m c b :=
  fun b hb => U12_of_ne m c b fun e => hb (Finset.mem_image.mpr ⟨8, Finset.mem_univ _, (show Pipeline.arrRef spec4 8 = main_v186 from rfl).trans e.symm⟩)

/-! # The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (T3 m) c
  | ⟨1, _⟩ => fun c => dat1 (T5 m) c
  | ⟨2, _⟩ => fun c => dat2 (T7 m) c
  | ⟨3, _⟩ => fun c => dat3 (T9 m) c
  | ⟨4, _⟩ => fun c => dat4 (T11 m) c
abbrev 𝒱₀ : Variants := Variants.none
/-- No core owes another anything: no level is assigned. -/
abbrev L : GSem nD τ sig → Finset Unit := fun _ => ∅
abbrev lv : GSem nD τ sig → Unit → ℕ := fun _ _ => 0
theorem hL : ∀ g : GSem nD τ sig, g.1.2 ≠ .tc → L g = ∅ := fun _ _ => rfl
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- The rest state between two items: `R` throughout. -/
abbrev E : Fin 6 → Dev nD → sProp 𝕄 := fun _ c => R c
/-- The embedding of the pipelines' cells: the whole user component. -/
abbrev EP : Emb (URounds (GSem nD τ sig) Unit) 𝕄 := emb₁
abbrev ι : Unit := ()
abbrev O₀ : Dev nD → CellTallies nD τ sig Unit := 0
abbrev G : Dev nD → sProp 𝕄 := fun _ => iprop(emp)
abbrev u₀ : UR sig nD τ := initOf (Pipeline.cells cfgs cellOf_inj) (Pipeline.launchToks cfgs cellOf_inj)

theorem hu₀ : (ownU (u₀) : sProp 𝕄) ⊢ |={Set.univ}=> iprop(BI.own (EP (F := F) (initOf (Pipeline.cells cfgs cellOf_inj) (Pipeline.launchToks cfgs cellOf_inj))) ∗ bigSep Finset.univ (G (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the first rest state on every core at once: the generator register as launched, nothing owed. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem hE5 (c : Dev nD) : E (F := F) 5 c ⊢ (iprop(∃ W, owes (c : Thread nD τ) (0 : CellTallies nD τ sig Unit) W) : sProp 𝕄) := by
  iintro ⟨-, HO⟩; iexact HO

/-! # The regions as segments -/

set_option backward.isDefEq.respectTransparency.types false in
/-- Region 0 over the thread state: entered from every unscoped buffer at `U3`, left at `U4`. Its arrays split out
    of the unscoped buffers and put back at the exit contents; the generator register into the invariant and out; nothing
    owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 0 is entered from the conditional frame's thread state before it, -/
theorem hpre0 (c : Dev nD) : iprop(StableHlo.held (c : Thread nD τ) (Pipeline.ucRefs τ sig) (Gen.V3 m c) ∗ E (F := F) 0 c) ⊢ (reg0 m).pre c := by
  exact .rfl
/-- and left at the one after it. -/
theorem hpost0 (c : Dev nD) : (reg0 m).post c ⊢ iprop(StableHlo.held (c : Thread nD τ) (Pipeline.ucRefs τ sig) (Gen.V4 m (outs m) c) ∗ E (F := F) 1 c) := by
  rw [V4_eq]; exact .rfl

set_option backward.isDefEq.respectTransparency.types false in
/-- Region 1 over the thread state: entered from every unscoped buffer at `U5`, left at `U6`. Its arrays split out
    of the unscoped buffers and put back at the exit contents; the generator register into the invariant and out; nothing
    owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 is entered from the conditional frame's thread state before it, -/
theorem hpre1 (c : Dev nD) : iprop(StableHlo.held (c : Thread nD τ) (Pipeline.ucRefs τ sig) (Gen.V5 m (outs m) c) ∗ E (F := F) 1 c) ⊢ (reg1 m).pre c := by
  rw [V5_eq]; exact .rfl
/-- and left at the one after it. -/
theorem hpost1 (c : Dev nD) : (reg1 m).post c ⊢ iprop(StableHlo.held (c : Thread nD τ) (Pipeline.ucRefs τ sig) (Gen.V6 m (outs m) c) ∗ E (F := F) 2 c) := by
  rw [V6_eq]; exact .rfl

set_option backward.isDefEq.respectTransparency.types false in
/-- Region 2 over the thread state: entered from every unscoped buffer at `U7`, left at `U8`. Its arrays split out
    of the unscoped buffers and put back at the exit contents; the generator register into the invariant and out; nothing
    owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T7 m) c).loose
  hwaits := Pipeline.hwaits_of_owed_zero _ _ _ _ L lv 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (T7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T7 m c) (T8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2 is entered from the conditional frame's thread state before it, -/
theorem hpre2 (c : Dev nD) : iprop(StableHlo.held (c : Thread nD τ) (Pipeline.ucRefs τ sig) (Gen.V7 m (outs m) c) ∗ E (F := F) 2 c) ⊢ (reg2 m).pre c := by
  rw [V7_eq]; exact .rfl
/-- and left at the one after it. -/
theorem hpost2 (c : Dev nD) : (reg2 m).post c ⊢ iprop(StableHlo.held (c : Thread nD τ) (Pipeline.ucRefs τ sig) (Gen.V8 m (outs m) c) ∗ E (F := F) 3 c) := by
  rw [V8_eq]; exact .rfl

set_option backward.isDefEq.respectTransparency.types false in
/-- Region 3 over the thread state: entered from every unscoped buffer at `U9`, left at `U10`. Its arrays split out
    of the unscoped buffers and put back at the exit contents; the generator register into the invariant and out; nothing
    owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T9 m) c).loose
  hwaits := Pipeline.hwaits_of_owed_zero _ _ _ _ L lv 3 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (T9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T9 m c) (T10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3 is entered from the conditional frame's thread state before it, -/
theorem hpre3 (c : Dev nD) : iprop(StableHlo.held (c : Thread nD τ) (Pipeline.ucRefs τ sig) (Gen.V9 m (outs m) c) ∗ E (F := F) 3 c) ⊢ (reg3 m).pre c := by
  rw [V9_eq]; exact .rfl
/-- and left at the one after it. -/
theorem hpost3 (c : Dev nD) : (reg3 m).post c ⊢ iprop(StableHlo.held (c : Thread nD τ) (Pipeline.ucRefs τ sig) (Gen.V10 m (outs m) c) ∗ E (F := F) 4 c) := by
  rw [V10_eq]; exact .rfl

set_option backward.isDefEq.respectTransparency.types false in
/-- Region 4 over the thread state: entered from every unscoped buffer at `U11`, left at `U12`. Its arrays split out
    of the unscoped buffers and put back at the exit contents; the generator register into the invariant and out; nothing
    owed; no semaphore of the kernel's own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T11 m) c).loose
  hwaits := Pipeline.hwaits_of_owed_zero _ _ _ _ L lv 4 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 4 is entered from the conditional frame's thread state before it, -/
theorem hpre4 (c : Dev nD) : iprop(StableHlo.held (c : Thread nD τ) (Pipeline.ucRefs τ sig) (Gen.V11 m (outs m) c) ∗ E (F := F) 4 c) ⊢ (reg4 m).pre c := by
  rw [V11_eq]; exact .rfl
/-- and left at the one after it. -/
theorem hpost4 (c : Dev nD) : (reg4 m).post c ⊢ iprop(StableHlo.held (c : Thread nD τ) (Pipeline.ucRefs τ sig) (Gen.V12 m (outs m) c) ∗ E (F := F) 5 c) := by
  rw [V12_eq]; exact .rfl

end Cert.Kernel.Hand

end
-- ==== Proof.FrameBits.lean ====
import proofs.«163009_j11184094839450_1_alg».proof.Proof.ChainBits

-- membership in a rectangle of the blocks' extents is decided structurally, one step per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- THE FRAME, at any `F`: at the compiled mesh, from any memory with zero counters, every weakly fair execution of @main
    on the TensorCores terminates, nothing faulting, and every final state has the argument arrays as launched — the
    conditional frame at the five regions' records, each entered from the buffers' contents before it and left at the
    contents after it, the regions' outputs being what their pipelines leave. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m (EP (F := F)) ι 𝒱₀ L lv hL ρ (outs m) (pdats m) O₀ G u₀ hu₀ E (hE0 ρ) hE5
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)

end Cert.Kernel.Hand

end
-- ==== Proof.BodiesIdeal.lean ====
import proofs.«163009_j11184094839450_1_alg».proof.Proof.Gen.KernelIdeal.Launch
import proofs.«163009_j11184094839450_1_alg».proof.Proof.Gen.KernelIdeal.Skeleton
import proofs.«163009_j11184094839450_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents is decided structurally, one step per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # Region 0: `cc0__cheb_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: when it is not fetched the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: when it is not fetched the
    block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: when it is not fetched the
    block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: when it is not fetched the
    block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1000x384 := Rect.unit (s := S1000x384) ![0, 0] S1000x384.size inb_S1000x384_S1000x384_0_0
abbrev r0_1 : Rect S384x256 := Rect.unit (s := S384x256) ![0, 0] S384x256.size inb_S384x256_S384x256_0_0
abbrev r0_2 : Rect S1x256 := Rect.unit (s := S1x256) ![0, 0] S1x256.size inb_S1x256_S1x256_0_0
abbrev r0_3 : Rect S1x1 := Rect.unit (s := S1x1) ![0, 0] S1x1.size inb_S1x1_S1x1_0_0
abbrev r0_4 : Rect S1000x256 := Rect.unit (s := S1000x256) ![0, 0] S1000x256.size inb_S1000x256_S1000x256_0_0

/-- The output window's buffer after the body, from the input windows' blocks: its one store, of the body's value at
    the blocks read whole. -/
def out0_4 (x0 : Vec F S1000x384 .f32) (x1 : Vec F S384x256 .f32) (x2 : Vec F S1x256 .f32) (x3 : Vec F S1x1 .f32) : Vec F S1000x256 .f32 :=
  View.canon [⟨r0_4, k0_pay1 (View.ld x0 r0_0) (View.ld x1 r0_1) (View.ld x2 r0_2) (View.ld x3 r0_3)⟩]

/-- The one store is of the whole buffer, so it covers it. -/
theorem cover0_4 (p0 : Vec F S1000x256 .f32) (y : S1000x256.Idx) :
    ∃ pc ∈ ([⟨r0_4, p0⟩] : List (View.Piece (Elt F) S1000x256 .f32)), y ∈ pc.1.set :=
  View.cover_of_tiled [⟨r0_4, p0⟩] S1000x256.size (by rfl) y

set_option maxHeartbeats 4000000 in
/-- The body on whole buffers, the inputs' at contents `xW` and the output's at anything, runs to the continuation
    holding the inputs' as they were and the output's at `out0_4` of the inputs'. -/
theorem sound_kernel0 (c : Dev nD) (E : Set ℕ) (i : grid0.Coords) (arg1 : Memref sig .tc .vmem S1000x384 .f32) (harg1 : arg1.IsWhole) (arg2 : Memref sig .tc .vmem S384x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x384 .f32) (x1 : Vec F S384x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cheb_kernel i arg1 harg1 arg2 harg2 arg3 harg3 arg4 harg4 arg5 harg5) K := by
  simp only [cc0__cheb_kernel_eq_skeleton]; unfold cc0__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The region's proof data on core `c`: the arrays as the region finds them; after the body at point `t` each input's
    buffer at its block and the output's at `out0_4` of the input blocks; the invariant keeps the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__cheb_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: when it is not fetched the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: when it is not fetched the
    block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: when it is not fetched the
    block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: when it is not fetched the
    block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S1000x768 := Rect.unit (s := S1000x768) ![0, 0] S1000x768.size inb_S1000x768_S1000x768_0_0
abbrev r1_1 : Rect S768x256 := Rect.unit (s := S768x256) ![0, 0] S768x256.size inb_S768x256_S768x256_0_0
abbrev r1_2 : Rect S1x256 := Rect.unit (s := S1x256) ![0, 0] S1x256.size inb_S1x256_S1x256_0_0
abbrev r1_3 : Rect S1x1 := Rect.unit (s := S1x1) ![0, 0] S1x1.size inb_S1x1_S1x1_0_0
abbrev r1_4 : Rect S1000x256 := Rect.unit (s := S1000x256) ![0, 0] S1000x256.size inb_S1000x256_S1000x256_0_0

/-- The output window's buffer after the body, from the input windows' blocks: its one store, of the body's value at
    the blocks read whole. -/
def out1_4 (x0 : Vec F S1000x768 .f32) (x1 : Vec F S768x256 .f32) (x2 : Vec F S1x256 .f32) (x3 : Vec F S1x1 .f32) : Vec F S1000x256 .f32 :=
  View.canon [⟨r1_4, k1_pay1 (View.ld x0 r1_0) (View.ld x1 r1_1) (View.ld x2 r1_2) (View.ld x3 r1_3)⟩]

/-- The one store is of the whole buffer, so it covers it. -/
theorem cover1_4 (p0 : Vec F S1000x256 .f32) (y : S1000x256.Idx) :
    ∃ pc ∈ ([⟨r1_4, p0⟩] : List (View.Piece (Elt F) S1000x256 .f32)), y ∈ pc.1.set :=
  View.cover_of_tiled [⟨r1_4, p0⟩] S1000x256.size (by rfl) y

set_option maxHeartbeats 4000000 in
/-- The body on whole buffers, the inputs' at contents `xW` and the output's at anything, runs to the continuation
    holding the inputs' as they were and the output's at `out1_4` of the inputs'. -/
theorem sound_kernel1 (c : Dev nD) (E : Set ℕ) (i : grid1.Coords) (arg1 : Memref sig .tc .vmem S1000x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x768 .f32) (x1 : Vec F S768x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__cheb_kernel i arg1 harg1 arg2 harg2 arg3 harg3 arg4 harg4 arg5 harg5) K := by
  simp only [cc1__cheb_kernel_eq_skeleton]; unfold cc1__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input's
    buffer at its block and the output's at `out1_4` of the input blocks; the invariant keeps the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-! # Region 2: `cc2__cheb_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: when it is not fetched the
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: when it is not fetched the
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: when it is not fetched the
    block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: when it is not fetched the
    block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S1000x768 := Rect.unit (s := S1000x768) ![0, 0] S1000x768.size inb_S1000x768_S1000x768_0_0
abbrev r2_1 : Rect S768x256 := Rect.unit (s := S768x256) ![0, 0] S768x256.size inb_S768x256_S768x256_0_0
abbrev r2_2 : Rect S1x256 := Rect.unit (s := S1x256) ![0, 0] S1x256.size inb_S1x256_S1x256_0_0
abbrev r2_3 : Rect S1x1 := Rect.unit (s := S1x1) ![0, 0] S1x1.size inb_S1x1_S1x1_0_0
abbrev r2_4 : Rect S1000x256 := Rect.unit (s := S1000x256) ![0, 0] S1000x256.size inb_S1000x256_S1000x256_0_0

/-- The output window's buffer after the body, from the input windows' blocks: its one store, of the body's value at
    the blocks read whole. -/
def out2_4 (x0 : Vec F S1000x768 .f32) (x1 : Vec F S768x256 .f32) (x2 : Vec F S1x256 .f32) (x3 : Vec F S1x1 .f32) : Vec F S1000x256 .f32 :=
  View.canon [⟨r2_4, k2_pay1 (View.ld x0 r2_0) (View.ld x1 r2_1) (View.ld x2 r2_2) (View.ld x3 r2_3)⟩]

/-- The one store is of the whole buffer, so it covers it. -/
theorem cover2_4 (p0 : Vec F S1000x256 .f32) (y : S1000x256.Idx) :
    ∃ pc ∈ ([⟨r2_4, p0⟩] : List (View.Piece (Elt F) S1000x256 .f32)), y ∈ pc.1.set :=
  View.cover_of_tiled [⟨r2_4, p0⟩] S1000x256.size (by rfl) y

set_option maxHeartbeats 4000000 in
/-- The body on whole buffers, the inputs' at contents `xW` and the output's at anything, runs to the continuation
    holding the inputs' as they were and the output's at `out2_4` of the inputs'. -/
theorem sound_kernel2 (c : Dev nD) (E : Set ℕ) (i : grid2.Coords) (arg1 : Memref sig .tc .vmem S1000x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x768 .f32) (x1 : Vec F S768x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__cheb_kernel i arg1 harg1 arg2 harg2 arg3 harg3 arg4 harg4 arg5 harg5) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data on core `c`: the arrays as the region finds them; after the body at point `t` each input's
    buffer at its block and the output's at `out2_4` of the input blocks; the invariant keeps the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-! # Region 3: `cc3__cheb_kernel`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not: when it is not fetched the
    block index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not: when it is not fetched the
    block index has not moved, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not: when it is not fetched the
    block index has not moved, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not: when it is not fetched the
    block index has not moved, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S1000x768 := Rect.unit (s := S1000x768) ![0, 0] S1000x768.size inb_S1000x768_S1000x768_0_0
abbrev r3_1 : Rect S768x256 := Rect.unit (s := S768x256) ![0, 0] S768x256.size inb_S768x256_S768x256_0_0
abbrev r3_2 : Rect S1x256 := Rect.unit (s := S1x256) ![0, 0] S1x256.size inb_S1x256_S1x256_0_0
abbrev r3_3 : Rect S1x1 := Rect.unit (s := S1x1) ![0, 0] S1x1.size inb_S1x1_S1x1_0_0
abbrev r3_4 : Rect S1000x256 := Rect.unit (s := S1000x256) ![0, 0] S1000x256.size inb_S1000x256_S1000x256_0_0

/-- The output window's buffer after the body, from the input windows' blocks: its one store, of the body's value at
    the blocks read whole. -/
def out3_4 (x0 : Vec F S1000x768 .f32) (x1 : Vec F S768x256 .f32) (x2 : Vec F S1x256 .f32) (x3 : Vec F S1x1 .f32) : Vec F S1000x256 .f32 :=
  View.canon [⟨r3_4, k3_pay1 (View.ld x0 r3_0) (View.ld x1 r3_1) (View.ld x2 r3_2) (View.ld x3 r3_3)⟩]

/-- The one store is of the whole buffer, so it covers it. -/
theorem cover3_4 (p0 : Vec F S1000x256 .f32) (y : S1000x256.Idx) :
    ∃ pc ∈ ([⟨r3_4, p0⟩] : List (View.Piece (Elt F) S1000x256 .f32)), y ∈ pc.1.set :=
  View.cover_of_tiled [⟨r3_4, p0⟩] S1000x256.size (by rfl) y

set_option maxHeartbeats 4000000 in
/-- The body on whole buffers, the inputs' at contents `xW` and the output's at anything, runs to the continuation
    holding the inputs' as they were and the output's at `out3_4` of the inputs'. -/
theorem sound_kernel3 (c : Dev nD) (E : Set ℕ) (i : grid3.Coords) (arg1 : Memref sig .tc .vmem S1000x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1000x256 .f32) (harg5 : arg5.IsWhole)
    (x0 : Vec F S1000x768 .f32) (x1 : Vec F S768x256 .f32) (x2 : Vec F S1x256 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__cheb_kernel i arg1 harg1 arg2 harg2 arg3 harg3 arg4 harg4 arg5 harg5) K := by
  simp only [cc3__cheb_kernel_eq_skeleton]; unfold cc3__cheb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input's
    buffer at its block and the output's at `out3_4` of the input blocks; the invariant keeps the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 1000000 in
/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

/-! # Region 4: `cc4__mlp_kernel`, at the entry contents `V` -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not: when it is not fetched the
    block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not: when it is not fetched the
    block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not: when it is not fetched the
    block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, fetched there or not: when it is not fetched the
    block index has not moved, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current buffer holds its block at every point, fetched there or not: when it is not fetched the
    block index has not moved, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current buffer holds its block at every point, fetched there or not: when it is not fetched the
    block index has not moved, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current buffer holds its block at every point, fetched there or not: when it is not fetched the
    block index has not moved, and the body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current buffer holds its block at every point, fetched there or not: when it is not fetched the
    block index has not moved, and the body leaves the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S64x256 := Rect.unit (s := S64x256) ![0, 0] S64x256.size inb_S64x256_S64x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0
abbrev r4_3 : Rect S1x1 := Rect.unit (s := S1x1) ![0, 0] S1x1.size inb_S1x1_S1x1_0_0
abbrev r4_4 : Rect S256x128 := Rect.unit (s := S256x128) ![0, 0] S256x128.size inb_S256x128_S256x128_0_0
abbrev r4_5 : Rect S1x128 := Rect.unit (s := S1x128) ![0, 0] S1x128.size inb_S1x128_S1x128_0_0
abbrev r4_6 : Rect S128x10 := Rect.unit (s := S128x10) ![0, 0] S128x10.size inb_S128x10_S128x10_0_0
abbrev r4_7 : Rect S1x10 := Rect.unit (s := S1x10) ![0, 0] S1x10.size inb_S1x10_S1x10_0_0
abbrev r4_8 : Rect S64x10 := Rect.unit (s := S64x10) ![0, 0] S64x10.size inb_S64x10_S64x10_0_0

/-- The output window's buffer after the body, from the input windows' blocks: its one store, of the body's value at
    the blocks read whole. -/
def out4_8 (x0 : Vec F S64x256 .f32) (x1 : Vec F S256x256 .f32) (x2 : Vec F S1x256 .f32) (x3 : Vec F S1x1 .f32) (x4 : Vec F S256x128 .f32) (x5 : Vec F S1x128 .f32) (x6 : Vec F S128x10 .f32) (x7 : Vec F S1x10 .f32) : Vec F S64x10 .f32 :=
  View.canon [⟨r4_8, k4_pay1 (k4_pay2 (View.ld x0 r4_0) (View.ld x1 r4_1) (View.ld x2 r4_2) (View.ld x3 r4_3) (View.ld x4 r4_4) (View.ld x5 r4_5) (View.ld x6 r4_6) (View.ld x7 r4_7)) (k4_pay3 (View.ld x0 r4_0) (View.ld x1 r4_1) (View.ld x2 r4_2) (View.ld x3 r4_3) (View.ld x4 r4_4) (View.ld x5 r4_5) (View.ld x6 r4_6) (View.ld x7 r4_7))⟩]

/-- The one store is of the whole buffer, so it covers it. -/
theorem cover4_8 (p0 : Vec F S64x10 .f32) (y : S64x10.Idx) :
    ∃ pc ∈ ([⟨r4_8, p0⟩] : List (View.Piece (Elt F) S64x10 .f32)), y ∈ pc.1.set :=
  View.cover_of_tiled [⟨r4_8, p0⟩] S64x10.size (by rfl) y

set_option maxHeartbeats 4000000 in
/-- The body on whole buffers, the inputs' at contents `xW` and the output's at anything, runs to the continuation
    holding the inputs' as they were and the output's at `out4_8` of the inputs'. -/
theorem sound_kernel4 (c : Dev nD) (E : Set ℕ) (i : grid4.Coords) (arg1 : Memref sig .tc .vmem S64x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S64x10 .f32) (harg9 : arg9.IsWhole)
    (x0 : Vec F S64x256 .f32) (x1 : Vec F S256x256 .f32) (x2 : Vec F S1x256 .f32) (x3 : Vec F S1x1 .f32) (x4 : Vec F S256x128 .f32) (x5 : Vec F S1x128 .f32) (x6 : Vec F S128x10 .f32) (x7 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out4_8 x0 x1 x2 x3 x4 x5 x6 x7)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9) K := by
  simp only [cc4__mlp_kernel_eq_skeleton]; unfold cc4__mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover4_8 _)

/-- The region's proof data on core `c`: the arrays as the region finds them; after the body at point `t` each input's
    buffer at its block and the output's at `out4_8` of the input blocks; the invariant keeps the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

set_option maxHeartbeats 1000000 in
/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Hand

end
-- ==== Proof.ChainIdeal.lean ====
import proofs.«163009_j11184094839450_1_alg».proof.Proof.BodiesIdeal
import proofs.«163009_j11184094839450_1_alg».proof.Proof.Gen.KernelIdeal.Regions

-- membership in a rectangle of the blocks' extents is decided structurally, one step per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ)

/-! # The buffers' contents at each boundary, the regions' outputs filled in -/

/-- Core `c`'s unscoped buffers when region 0 is entered. -/
abbrev U3 (c : Dev nD) : Valuation τ sig (Elt F) := Gen.V3 m c
/-- The same read at the TensorCore's references (what region 0's proof data take). -/
abbrev T3 : (c : Dev nD) → (b : Ref sig .tc) → Buf (Elt F) ((c : Thread nD τ).loc b) := fun c b => U3 m c b

/-- What region 0 leaves in `main_v63`: its output window's array after the last write-back. -/
def X4 (c : Dev nD) : Buf (Elt F) ((c : Thread nD τ).loc main_v63) := (dat0 (T3 m) c).arrAt 4 cfg0.N
/-- Core `c`'s unscoped buffers when region 0 is left: `main_v63` at `X4`, every other buffer as entered. -/
def U4 (c : Dev nD) : Valuation τ sig (Elt F) := Function.update (U3 m c) main_v63 (X4 m c)
abbrev T4 : (c : Dev nD) → (b : Ref sig .tc) → Buf (Elt F) ((c : Thread nD τ).loc b) := fun c b => U4 m c b
theorem U4_self (c : Dev nD) : U4 m c main_v63 = X4 m c := by
  unfold U4; exact Function.update_self _ _ _
theorem U4_of_ne (c : Dev nD) (b : Ref sig .tc) (h : b ≠ main_v63) : U4 m c b = U3 m c b := by
  unfold U4; exact Function.update_of_ne (StableHlo.devRef_ne_of_ne h) _ _
/-- Core `c`'s unscoped buffers after the host stretch `hostOps1` (region 1's entry). -/
def U5 (c : Dev nD) : Valuation τ sig (Elt F) := StableHlo.after hostOps1 (U4 m c)
abbrev T5 : (c : Dev nD) → (b : Ref sig .tc) → Buf (Elt F) ((c : Thread nD τ).loc b) := fun c b => U5 m c b

/-- What region 1 leaves in `main_v102`: its output window's array after the last write-back. -/
def X6 (c : Dev nD) : Buf (Elt F) ((c : Thread nD τ).loc main_v102) := (dat1 (T5 m) c).arrAt 4 cfg1.N
/-- Core `c`'s unscoped buffers when region 1 is left: `main_v102` at `X6`, every other buffer as entered. -/
def U6 (c : Dev nD) : Valuation τ sig (Elt F) := Function.update (U5 m c) main_v102 (X6 m c)
abbrev T6 : (c : Dev nD) → (b : Ref sig .tc) → Buf (Elt F) ((c : Thread nD τ).loc b) := fun c b => U6 m c b
theorem U6_self (c : Dev nD) : U6 m c main_v102 = X6 m c := by
  unfold U6; exact Function.update_self _ _ _
theorem U6_of_ne (c : Dev nD) (b : Ref sig .tc) (h : b ≠ main_v102) : U6 m c b = U5 m c b := by
  unfold U6; exact Function.update_of_ne (StableHlo.devRef_ne_of_ne h) _ _
/-- Core `c`'s unscoped buffers after the host stretch `hostOps2` (region 2's entry). -/
def U7 (c : Dev nD) : Valuation τ sig (Elt F) := StableHlo.after hostOps2 (U6 m c)
abbrev T7 : (c : Dev nD) → (b : Ref sig .tc) → Buf (Elt F) ((c : Thread nD τ).loc b) := fun c b => U7 m c b

/-- What region 2 leaves in `main_v140`: its output window's array after the last write-back. -/
def X8 (c : Dev nD) : Buf (Elt F) ((c : Thread nD τ).loc main_v140) := (dat2 (T7 m) c).arrAt 4 cfg2.N
/-- Core `c`'s unscoped buffers when region 2 is left: `main_v140` at `X8`, every other buffer as entered. -/
def U8 (c : Dev nD) : Valuation τ sig (Elt F) := Function.update (U7 m c) main_v140 (X8 m c)
abbrev T8 : (c : Dev nD) → (b : Ref sig .tc) → Buf (Elt F) ((c : Thread nD τ).loc b) := fun c b => U8 m c b
theorem U8_self (c : Dev nD) : U8 m c main_v140 = X8 m c := by
  unfold U8; exact Function.update_self _ _ _
theorem U8_of_ne (c : Dev nD) (b : Ref sig .tc) (h : b ≠ main_v140) : U8 m c b = U7 m c b := by
  unfold U8; exact Function.update_of_ne (StableHlo.devRef_ne_of_ne h) _ _
/-- Core `c`'s unscoped buffers after the host stretch `hostOps3` (region 3's entry). -/
def U9 (c : Dev nD) : Valuation τ sig (Elt F) := StableHlo.after hostOps3 (U8 m c)
abbrev T9 : (c : Dev nD) → (b : Ref sig .tc) → Buf (Elt F) ((c : Thread nD τ).loc b) := fun c b => U9 m c b

/-- What region 3 leaves in `main_v178`: its output window's array after the last write-back. -/
def X10 (c : Dev nD) : Buf (Elt F) ((c : Thread nD τ).loc main_v178) := (dat3 (T9 m) c).arrAt 4 cfg3.N
/-- Core `c`'s unscoped buffers when region 3 is left: `main_v178` at `X10`, every other buffer as entered. -/
def U10 (c : Dev nD) : Valuation τ sig (Elt F) := Function.update (U9 m c) main_v178 (X10 m c)
abbrev T10 : (c : Dev nD) → (b : Ref sig .tc) → Buf (Elt F) ((c : Thread nD τ).loc b) := fun c b => U10 m c b
theorem U10_self (c : Dev nD) : U10 m c main_v178 = X10 m c := by
  unfold U10; exact Function.update_self _ _ _
theorem U10_of_ne (c : Dev nD) (b : Ref sig .tc) (h : b ≠ main_v178) : U10 m c b = U9 m c b := by
  unfold U10; exact Function.update_of_ne (StableHlo.devRef_ne_of_ne h) _ _
/-- Core `c`'s unscoped buffers after the host stretch `hostOps4` (region 4's entry). -/
def U11 (c : Dev nD) : Valuation τ sig (Elt F) := StableHlo.after hostOps4 (U10 m c)
abbrev T11 : (c : Dev nD) → (b : Ref sig .tc) → Buf (Elt F) ((c : Thread nD τ).loc b) := fun c b => U11 m c b

/-- What region 4 leaves in `main_v186`: its output window's array after the last write-back. -/
def X12 (c : Dev nD) : Buf (Elt F) ((c : Thread nD τ).loc main_v186) := (dat4 (T11 m) c).arrAt 8 cfg4.N
/-- Core `c`'s unscoped buffers when region 4 is left: `main_v186` at `X12`, every other buffer as entered. -/
def U12 (c : Dev nD) : Valuation τ sig (Elt F) := Function.update (U11 m c) main_v186 (X12 m c)
abbrev T12 : (c : Dev nD) → (b : Ref sig .tc) → Buf (Elt F) ((c : Thread nD τ).loc b) := fun c b => U12 m c b
theorem U12_self (c : Dev nD) : U12 m c main_v186 = X12 m c := by
  unfold U12; exact Function.update_self _ _ _
theorem U12_of_ne (c : Dev nD) (b : Ref sig .tc) (h : b ≠ main_v186) : U12 m c b = U11 m c b := by
  unfold U12; exact Function.update_of_ne (StableHlo.devRef_ne_of_ne h) _ _

/-- What the regions leave, as the conditional frame's unknowns: after region K every buffer at `U`'s contents there. -/
def outs : Gen.Outs (F := F) := fun J r c => match J with
  | 4 => U4 m c r
  | 6 => U6 m c r
  | 8 => U8 m c r
  | 10 => U10 m c r
  | 12 => U12 m c r
  | _ => Gen.V0 m c r

/-! ## The conditional frame's valuations at these unknowns are the `U`s -/

theorem V4_eq (c : Dev nD) : Gen.V4 m (outs m) c = U4 m c := by
  show Function.update (Gen.V3 m c) main_v63 (U4 m c main_v63) = U4 m c
  unfold U4; rw [Function.update_self]
theorem V5_eq (c : Dev nD) : Gen.V5 m (outs m) c = U5 m c := by
  show StableHlo.after hostOps1 (Gen.V4 m (outs m) c) = U5 m c
  rw [V4_eq]; rfl

theorem V6_eq (c : Dev nD) : Gen.V6 m (outs m) c = U6 m c := by
  show Function.update (Gen.V5 m (outs m) c) main_v102 (U6 m c main_v102) = U6 m c
  rw [V5_eq]; unfold U6; rw [Function.update_self]
theorem V7_eq (c : Dev nD) : Gen.V7 m (outs m) c = U7 m c := by
  show StableHlo.after hostOps2 (Gen.V6 m (outs m) c) = U7 m c
  rw [V6_eq]; rfl

theorem V8_eq (c : Dev nD) : Gen.V8 m (outs m) c = U8 m c := by
  show Function.update (Gen.V7 m (outs m) c) main_v140 (U8 m c main_v140) = U8 m c
  rw [V7_eq]; unfold U8; rw [Function.update_self]
theorem V9_eq (c : Dev nD) : Gen.V9 m (outs m) c = U9 m c := by
  show StableHlo.after hostOps3 (Gen.V8 m (outs m) c) = U9 m c
  rw [V8_eq]; rfl

theorem V10_eq (c : Dev nD) : Gen.V10 m (outs m) c = U10 m c := by
  show Function.update (Gen.V9 m (outs m) c) main_v178 (U10 m c main_v178) = U10 m c
  rw [V9_eq]; unfold U10; rw [Function.update_self]
theorem V11_eq (c : Dev nD) : Gen.V11 m (outs m) c = U11 m c := by
  show StableHlo.after hostOps4 (Gen.V10 m (outs m) c) = U11 m c
  rw [V10_eq]; rfl

theorem V12_eq (c : Dev nD) : Gen.V12 m (outs m) c = U12 m c := by
  show Function.update (Gen.V11 m (outs m) c) main_v186 (U12 m c main_v186) = U12 m c
  rw [V11_eq]; unfold U12; rw [Function.update_self]

/-! ## At a region's exit each of its arrays holds what the pipeline leaves, every other buffer what it held at entry -/

/-- A window other than the output's has another array: the windows' arrays are pairwise distinct. -/
theorem ne_out0 (w : Fin cfg0.W) (h : w.val ≠ 4) : Pipeline.arrRef spec0 w ≠ main_v63 :=
  fun e => h (congrArg Fin.val (launch0.win.arr_inj (e.trans (show main_v63 = Pipeline.arrRef spec0 4 from rfl))))
set_option maxHeartbeats 1000000 in
theorem hF0 (c : Dev nD) : ∀ w : Fin cfg0.W, (dat0 (T3 m) c).arrAt w cfg0.N = T4 m c (Pipeline.arrRef spec0 w)
  | ⟨0, _⟩ => ((dat0 (T3 m) c).arrAt_in 0 rfl _).trans ((A_eq0 (T3 m) c 0).trans (U4_of_ne m c _ (ne_out0 0 (by decide))).symm)
  | ⟨1, _⟩ => ((dat0 (T3 m) c).arrAt_in 1 rfl _).trans ((A_eq0 (T3 m) c 1).trans (U4_of_ne m c _ (ne_out0 1 (by decide))).symm)
  | ⟨2, _⟩ => ((dat0 (T3 m) c).arrAt_in 2 rfl _).trans ((A_eq0 (T3 m) c 2).trans (U4_of_ne m c _ (ne_out0 2 (by decide))).symm)
  | ⟨3, _⟩ => ((dat0 (T3 m) c).arrAt_in 3 rfl _).trans ((A_eq0 (T3 m) c 3).trans (U4_of_ne m c _ (ne_out0 3 (by decide))).symm)
  | ⟨4, _⟩ => (U4_self m c).symm
theorem hrest0 (c : Dev nD) : ∀ b, b ∉ Finset.univ.image (Pipeline.arrRef spec0) → T4 m c b = T3 m c b :=
  fun b hb => U4_of_ne m c b fun e => hb (Finset.mem_image.mpr ⟨4, Finset.mem_univ _, (show Pipeline.arrRef spec0 4 = main_v63 from rfl).trans e.symm⟩)

/-- A window other than the output's has another array: the windows' arrays are pairwise distinct. -/
theorem ne_out1 (w : Fin cfg1.W) (h : w.val ≠ 4) : Pipeline.arrRef spec1 w ≠ main_v102 :=
  fun e => h (congrArg Fin.val (launch1.win.arr_inj (e.trans (show main_v102 = Pipeline.arrRef spec1 4 from rfl))))
set_option maxHeartbeats 1000000 in
theorem hF1 (c : Dev nD) : ∀ w : Fin cfg1.W, (dat1 (T5 m) c).arrAt w cfg1.N = T6 m c (Pipeline.arrRef spec1 w)
  | ⟨0, _⟩ => ((dat1 (T5 m) c).arrAt_in 0 rfl _).trans ((A_eq1 (T5 m) c 0).trans (U6_of_ne m c _ (ne_out1 0 (by decide))).symm)
  | ⟨1, _⟩ => ((dat1 (T5 m) c).arrAt_in 1 rfl _).trans ((A_eq1 (T5 m) c 1).trans (U6_of_ne m c _ (ne_out1 1 (by decide))).symm)
  | ⟨2, _⟩ => ((dat1 (T5 m) c).arrAt_in 2 rfl _).trans ((A_eq1 (T5 m) c 2).trans (U6_of_ne m c _ (ne_out1 2 (by decide))).symm)
  | ⟨3, _⟩ => ((dat1 (T5 m) c).arrAt_in 3 rfl _).trans ((A_eq1 (T5 m) c 3).trans (U6_of_ne m c _ (ne_out1 3 (by decide))).symm)
  | ⟨4, _⟩ => (U6_self m c).symm
theorem hrest1 (c : Dev nD) : ∀ b, b ∉ Finset.univ.image (Pipeline.arrRef spec1) → T6 m c b = T5 m c b :=
  fun b hb => U6_of_ne m c b fun e => hb (Finset.mem_image.mpr ⟨4, Finset.mem_univ _, (show Pipeline.arrRef spec1 4 = main_v102 from rfl).trans e.symm⟩)

/-- A window other than the output's has another array: the windows' arrays are pairwise distinct. -/
theorem ne_out2 (w : Fin cfg2.W) (h : w.val ≠ 4) : Pipeline.arrRef spec2 w ≠ main_v140 :=
  fun e => h (congrArg Fin.val (launch2.win.arr_inj (e.trans (show main_v140 = Pipeline.arrRef spec2 4 from rfl))))
set_option maxHeartbeats 1000000 in
theorem hF2 (c : Dev nD) : ∀ w : Fin cfg2.W, (dat2 (T7 m) c).arrAt w cfg2.N = T8 m c (Pipeline.arrRef spec2 w)
  | ⟨0, _⟩ => ((dat2 (T7 m) c).arrAt_in 0 rfl _).trans ((A_eq2 (T7 m) c 0).trans (U8_of_ne m c _ (ne_out2 0 (by decide))).symm)
  | ⟨1, _⟩ => ((dat2 (T7 m) c).arrAt_in 1 rfl _).trans ((A_eq2 (T7 m) c 1).trans (U8_of_ne m c _ (ne_out2 1 (by decide))).symm)
  | ⟨2, _⟩ => ((dat2 (T7 m) c).arrAt_in 2 rfl _).trans ((A_eq2 (T7 m) c 2).trans (U8_of_ne m c _ (ne_out2 2 (by decide))).symm)
  | ⟨3, _⟩ => ((dat2 (T7 m) c).arrAt_in 3 rfl _).trans ((A_eq2 (T7 m) c 3).trans (U8_of_ne m c _ (ne_out2 3 (by decide))).symm)
  | ⟨4, _⟩ => (U8_self m c).symm
theorem hrest2 (c : Dev nD) : ∀ b, b ∉ Finset.univ.image (Pipeline.arrRef spec2) → T8 m c b = T7 m c b :=
  fun b hb => U8_of_ne m c b fun e => hb (Finset.mem_image.mpr ⟨4, Finset.mem_univ _, (show Pipeline.arrRef spec2 4 = main_v140 from rfl).trans e.symm⟩)

/-- A window other than the output's has another array: the windows' arrays are pairwise distinct. -/
theorem ne_out3 (w : Fin cfg3.W) (h : w.val ≠ 4) : Pipeline.arrRef spec3 w ≠ main_v178 :=
  fun e => h (congrArg Fin.val (launch3.win.arr_inj (e.trans (show main_v178 = Pipeline.arrRef spec3 4 from rfl))))
set_option maxHeartbeats 1000000 in
theorem hF3 (c : Dev nD) : ∀ w : Fin cfg3.W, (dat3 (T9 m) c).arrAt w cfg3.N = T10 m c (Pipeline.arrRef spec3 w)
  | ⟨0, _⟩ => ((dat3 (T9 m) c).arrAt_in 0 rfl _).trans ((A_eq3 (T9 m) c 0).trans (U10_of_ne m c _ (ne_out3 0 (by decide))).symm)
  | ⟨1, _⟩ => ((dat3 (T9 m) c).arrAt_in 1 rfl _).trans ((A_eq3 (T9 m) c 1).trans (U10_of_ne m c _ (ne_out3 1 (by decide))).symm)
  | ⟨2, _⟩ => ((dat3 (T9 m) c).arrAt_in 2 rfl _).trans ((A_eq3 (T9 m) c 2).trans (U10_of_ne m c _ (ne_out3 2 (by decide))).symm)
  | ⟨3, _⟩ => ((dat3 (T9 m) c).arrAt_in 3 rfl _).trans ((A_eq3 (T9 m) c 3).trans (U10_of_ne m c _ (ne_out3 3 (by decide))).symm)
  | ⟨4, _⟩ => (U10_self m c).symm
theorem hrest3 (c : Dev nD) : ∀ b, b ∉ Finset.univ.image (Pipeline.arrRef spec3) → T10 m c b = T9 m c b :=
  fun b hb => U10_of_ne m c b fun e => hb (Finset.mem_image.mpr ⟨4, Finset.mem_univ _, (show Pipeline.arrRef spec3 4 = main_v178 from rfl).trans e.symm⟩)

/-- A window other than the output's has another array: the windows' arrays are pairwise distinct. -/
theorem ne_out4 (w : Fin cfg4.W) (h : w.val ≠ 8) : Pipeline.arrRef spec4 w ≠ main_v186 :=
  fun e => h (congrArg Fin.val (launch4.win.arr_inj (e.trans (show main_v186 = Pipeline.arrRef spec4 8 from rfl))))
set_option maxHeartbeats 1000000 in
theorem hF4 (c : Dev nD) : ∀ w : Fin cfg4.W, (dat4 (T11 m) c).arrAt w cfg4.N = T12 m c (Pipeline.arrRef spec4 w)
  | ⟨0, _⟩ => ((dat4 (T11 m) c).arrAt_in 0 rfl _).trans ((A_eq4 (T11 m) c 0).trans (U12_of_ne m c _ (ne_out4 0 (by decide))).symm)
  | ⟨1, _⟩ => ((dat4 (T11 m) c).arrAt_in 1 rfl _).trans ((A_eq4 (T11 m) c 1).trans (U12_of_ne m c _ (ne_out4 1 (by decide))).symm)
  | ⟨2, _⟩ => ((dat4 (T11 m) c).arrAt_in 2 rfl _).trans ((A_eq4 (T11 m) c 2).trans (U12_of_ne m c _ (ne_out4 2 (by decide))).symm)
  | ⟨3, _⟩ => ((dat4 (T11 m) c).arrAt_in 3 rfl _).trans ((A_eq4 (T11 m) c 3).trans (U12_of_ne m c _ (ne_out4 3 (by decide))).symm)
  | ⟨4, _⟩ => ((dat4 (T11 m) c).arrAt_in 4 rfl _).trans ((A_eq4 (T11 m) c 4).trans (U12_of_ne m c _ (ne_out4 4 (by decide))).symm)
  | ⟨5, _⟩ => ((dat4 (T11 m) c).arrAt_in 5 rfl _).trans ((A_eq4 (T11 m) c 5).trans (U12_of_ne m c _ (ne_out4 5 (by decide))).symm)
  | ⟨6, _⟩ => ((dat4 (T11 m) c).arrAt_in 6 rfl _).trans ((A_eq4 (T11 m) c 6).trans (U12_of_ne m c _ (ne_out4 6 (by decide))).symm)
  | ⟨7, _⟩ => ((dat4 (T11 m) c).arrAt_in 7 rfl _).trans ((A_eq4 (T11 m) c 7).trans (U12_of_ne m c _ (ne_out4 7 (by decide))).symm)
  | ⟨8, _⟩ => (U12_self m c).symm
theorem hrest4 (c : Dev nD) : ∀ b, b ∉ Finset.univ.image (Pipeline.arrRef spec4) → T12 m c b = T11 m c b :=
  fun b hb => U12_of_ne m c b fun e => hb (Finset.mem_image.mpr ⟨8, Finset.mem_univ _, (show Pipeline.arrRef spec4 8 = main_v186 from rfl).trans e.symm⟩)

/-! # The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (T3 m) c
  | ⟨1, _⟩ => fun c => dat1 (T5 m) c
  | ⟨2, _⟩ => fun c => dat2 (T7 m) c
  | ⟨3, _⟩ => fun c => dat3 (T9 m) c
  | ⟨4, _⟩ => fun c => dat4 (T11 m) c
abbrev 𝒱₀ : Variants := Variants.none
/-- No core owes another anything: no level is assigned. -/
abbrev L : GSem nD τ sig → Finset Unit := fun _ => ∅
abbrev lv : GSem nD τ sig → Unit → ℕ := fun _ _ => 0
theorem hL : ∀ g : GSem nD τ sig, g.1.2 ≠ .tc → L g = ∅ := fun _ _ => rfl
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- The rest state between two items: `R` throughout. -/
abbrev E : Fin 6 → Dev nD → sProp 𝕄 := fun _ c => R c
/-- The embedding of the pipelines' cells: the whole user component. -/
abbrev EP : Emb (URounds (GSem nD τ sig) Unit) 𝕄 := emb₁
abbrev ι : Unit := ()
abbrev O₀ : Dev nD → CellTallies nD τ sig Unit := 0
abbrev G : Dev nD → sProp 𝕄 := fun _ => iprop(emp)
abbrev u₀ : UR sig nD τ := initOf (Pipeline.cells cfgs cellOf_inj) (Pipeline.launchToks cfgs cellOf_inj)

theorem hu₀ : (ownU (u₀) : sProp 𝕄) ⊢ |={Set.univ}=> iprop(BI.own (EP (F := F) (initOf (Pipeline.cells cfgs cellOf_inj) (Pipeline.launchToks cfgs cellOf_inj))) ∗ bigSep Finset.univ (G (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the first rest state on every core at once: the generator register as launched, nothing owed. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem hE5 (c : Dev nD) : E (F := F) 5 c ⊢ (iprop(∃ W, owes (c : Thread nD τ) (0 : CellTallies nD τ sig Unit) W) : sProp 𝕄) := by
  iintro ⟨-, HO⟩; iexact HO

/-! # The regions as segments -/

set_option backward.isDefEq.respectTransparency.types false in
/-- Region 0 over the thread state: entered from every unscoped buffer at `U3`, left at `U4`. Its arrays split out
    of the unscoped buffers and put back at the exit contents; the generator register into the invariant and out; nothing
    owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 0 is entered from the conditional frame's thread state before it, -/
theorem hpre0 (c : Dev nD) : iprop(StableHlo.held (c : Thread nD τ) (Pipeline.ucRefs τ sig) (Gen.V3 m c) ∗ E (F := F) 0 c) ⊢ (reg0 m).pre c := by
  exact .rfl
/-- and left at the one after it. -/
theorem hpost0 (c : Dev nD) : (reg0 m).post c ⊢ iprop(StableHlo.held (c : Thread nD τ) (Pipeline.ucRefs τ sig) (Gen.V4 m (outs m) c) ∗ E (F := F) 1 c) := by
  rw [V4_eq]; exact .rfl

set_option backward.isDefEq.respectTransparency.types false in
/-- Region 1 over the thread state: entered from every unscoped buffer at `U5`, left at `U6`. Its arrays split out
    of the unscoped buffers and put back at the exit contents; the generator register into the invariant and out; nothing
    owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 is entered from the conditional frame's thread state before it, -/
theorem hpre1 (c : Dev nD) : iprop(StableHlo.held (c : Thread nD τ) (Pipeline.ucRefs τ sig) (Gen.V5 m (outs m) c) ∗ E (F := F) 1 c) ⊢ (reg1 m).pre c := by
  rw [V5_eq]; exact .rfl
/-- and left at the one after it. -/
theorem hpost1 (c : Dev nD) : (reg1 m).post c ⊢ iprop(StableHlo.held (c : Thread nD τ) (Pipeline.ucRefs τ sig) (Gen.V6 m (outs m) c) ∗ E (F := F) 2 c) := by
  rw [V6_eq]; exact .rfl

set_option backward.isDefEq.respectTransparency.types false in
/-- Region 2 over the thread state: entered from every unscoped buffer at `U7`, left at `U8`. Its arrays split out
    of the unscoped buffers and put back at the exit contents; the generator register into the invariant and out; nothing
    owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T7 m) c).loose
  hwaits := Pipeline.hwaits_of_owed_zero _ _ _ _ L lv 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (T7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T7 m c) (T8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2 is entered from the conditional frame's thread state before it, -/
theorem hpre2 (c : Dev nD) : iprop(StableHlo.held (c : Thread nD τ) (Pipeline.ucRefs τ sig) (Gen.V7 m (outs m) c) ∗ E (F := F) 2 c) ⊢ (reg2 m).pre c := by
  rw [V7_eq]; exact .rfl
/-- and left at the one after it. -/
theorem hpost2 (c : Dev nD) : (reg2 m).post c ⊢ iprop(StableHlo.held (c : Thread nD τ) (Pipeline.ucRefs τ sig) (Gen.V8 m (outs m) c) ∗ E (F := F) 3 c) := by
  rw [V8_eq]; exact .rfl

set_option backward.isDefEq.respectTransparency.types false in
/-- Region 3 over the thread state: entered from every unscoped buffer at `U9`, left at `U10`. Its arrays split out
    of the unscoped buffers and put back at the exit contents; the generator register into the invariant and out; nothing
    owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T9 m) c).loose
  hwaits := Pipeline.hwaits_of_owed_zero _ _ _ _ L lv 3 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (T9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T9 m c) (T10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3 is entered from the conditional frame's thread state before it, -/
theorem hpre3 (c : Dev nD) : iprop(StableHlo.held (c : Thread nD τ) (Pipeline.ucRefs τ sig) (Gen.V9 m (outs m) c) ∗ E (F := F) 3 c) ⊢ (reg3 m).pre c := by
  rw [V9_eq]; exact .rfl
/-- and left at the one after it. -/
theorem hpost3 (c : Dev nD) : (reg3 m).post c ⊢ iprop(StableHlo.held (c : Thread nD τ) (Pipeline.ucRefs τ sig) (Gen.V10 m (outs m) c) ∗ E (F := F) 4 c) := by
  rw [V10_eq]; exact .rfl

set_option backward.isDefEq.respectTransparency.types false in
/-- Region 4 over the thread state: entered from every unscoped buffer at `U11`, left at `U12`. Its arrays split out
    of the unscoped buffers and put back at the exit contents; the generator register into the invariant and out; nothing
    owed; no semaphore of the kernel's own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T11 m) c).loose
  hwaits := Pipeline.hwaits_of_owed_zero _ _ _ _ L lv 4 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 4 is entered from the conditional frame's thread state before it, -/
theorem hpre4 (c : Dev nD) : iprop(StableHlo.held (c : Thread nD τ) (Pipeline.ucRefs τ sig) (Gen.V11 m (outs m) c) ∗ E (F := F) 4 c) ⊢ (reg4 m).pre c := by
  rw [V11_eq]; exact .rfl
/-- and left at the one after it. -/
theorem hpost4 (c : Dev nD) : (reg4 m).post c ⊢ iprop(StableHlo.held (c : Thread nD τ) (Pipeline.ucRefs τ sig) (Gen.V12 m (outs m) c) ∗ E (F := F) 5 c) := by
  rw [V12_eq]; exact .rfl

end Cert.KernelIdeal.Hand

end
-- ==== Proof.FrameIdeal.lean ====
import proofs.«163009_j11184094839450_1_alg».proof.Proof.ChainIdeal

-- membership in a rectangle of the blocks' extents is decided structurally, one step per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- THE FRAME, at any `F`: at the compiled mesh, from any memory with zero counters, every weakly fair execution of @main
    on the TensorCores terminates, nothing faulting, and every final state has the argument arrays as launched — the
    conditional frame at the five regions' records, each entered from the buffers' contents before it and left at the
    contents after it, the regions' outputs being what their pipelines leave. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m (EP (F := F)) ι 𝒱₀ L lv hL ρ (outs m) (pdats m) O₀ G u₀ hu₀ E (hE0 ρ) hE5
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)

end Cert.KernelIdeal.Hand

end
-- ==== Proof.RunCond.lean ====
/-
  The idealized program's run with its result named. Between two of @main's items every unscoped buffer of a core
  is held at known contents; given one segment record per kernel region, entered from and left at those contents,
  every weakly fair execution of @main terminates, each argument array ends as launched, and the result array
  `main_v186` ends at the last boundary's contents of it — what the last region's write-backs leave there.
-/
import proofs.«163009_j11184094839450_1_alg».proof.Proof.Gen.KernelIdeal.Regions

set_option maxRecDepth 1632

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- The run, given the regions' records: the frame's conclusion together with the result array's final contents. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c)) :
    θ_run defs (onTc (τ := τ) (main (F := F))) ⟨m, fun _ => 0, ρ⟩ (fun r => ∀ c : Dev nD,
      r.2.mem ((c.tc : Thread nD τ).loc main_v186) = V12 m outs c main_v186
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, .rfl, .rfl, hpre0 c, hpost0 c, hpre1 c, hpost1 c, hpre2 c, hpost2 c, hpre3 c, hpost3 c, hpre4 c, (hpost4 c).trans (sep_mono .rfl (hE5 c))⟩)
    (hinit := ?_) (QY := fun c s => s.mem ((c.tc : Thread nD τ).loc main_v186) = V12 m outs c main_v186 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact ⟨h (Proc.devRef .tc main_v186) (Finset.mem_filter.mpr ⟨StableHlo.devRef_mem_tcRefs main_v186, by decide⟩),
        (h (Proc.devRef .tc main_arg0) (Finset.mem_filter.mpr ⟨StableHlo.devRef_mem_tcRefs main_arg0, by decide⟩)).trans (V12_main_arg0 m outs c),
        (h (Proc.devRef .tc main_arg1) (Finset.mem_filter.mpr ⟨StableHlo.devRef_mem_tcRefs main_arg1, by decide⟩)).trans (V12_main_arg1 m outs c),
        (h (Proc.devRef .tc main_arg2) (Finset.mem_filter.mpr ⟨StableHlo.devRef_mem_tcRefs main_arg2, by decide⟩)).trans (V12_main_arg2 m outs c),
        (h (Proc.devRef .tc main_arg3) (Finset.mem_filter.mpr ⟨StableHlo.devRef_mem_tcRefs main_arg3, by decide⟩)).trans (V12_main_arg3 m outs c),
        (h (Proc.devRef .tc main_arg4) (Finset.mem_filter.mpr ⟨StableHlo.devRef_mem_tcRefs main_arg4, by decide⟩)).trans (V12_main_arg4 m outs c),
        (h (Proc.devRef .tc main_arg5) (Finset.mem_filter.mpr ⟨StableHlo.devRef_mem_tcRefs main_arg5, by decide⟩)).trans (V12_main_arg5 m outs c),
        (h (Proc.devRef .tc main_arg6) (Finset.mem_filter.mpr ⟨StableHlo.devRef_mem_tcRefs main_arg6, by decide⟩)).trans (V12_main_arg6 m outs c),
        (h (Proc.devRef .tc main_arg7) (Finset.mem_filter.mpr ⟨StableHlo.devRef_mem_tcRefs main_arg7, by decide⟩)).trans (V12_main_arg7 m outs c),
        (h (Proc.devRef .tc main_arg8) (Finset.mem_filter.mpr ⟨StableHlo.devRef_mem_tcRefs main_arg8, by decide⟩)).trans (V12_main_arg8 m outs c),
        (h (Proc.devRef .tc main_arg9) (Finset.mem_filter.mpr ⟨StableHlo.devRef_mem_tcRefs main_arg9, by decide⟩)).trans (V12_main_arg9 m outs c),
        (h (Proc.devRef .tc main_arg10) (Finset.mem_filter.mpr ⟨StableHlo.devRef_mem_tcRefs main_arg10, by decide⟩)).trans (V12_main_arg10 m outs c),
        (h (Proc.devRef .tc main_arg11) (Finset.mem_filter.mpr ⟨StableHlo.devRef_mem_tcRefs main_arg11, by decide⟩)).trans (V12_main_arg11 m outs c),
        (h (Proc.devRef .tc main_arg12) (Finset.mem_filter.mpr ⟨StableHlo.devRef_mem_tcRefs main_arg12, by decide⟩)).trans (V12_main_arg12 m outs c),
        (h (Proc.devRef .tc main_arg13) (Finset.mem_filter.mpr ⟨StableHlo.devRef_mem_tcRefs main_arg13, by decide⟩)).trans (V12_main_arg13 m outs c),
        (h (Proc.devRef .tc main_arg14) (Finset.mem_filter.mpr ⟨StableHlo.devRef_mem_tcRefs main_arg14, by decide⟩)).trans (V12_main_arg14 m outs c)⟩
    · iexact HSI

end Cert.KernelIdeal.Hand

end
-- ==== Proof.KRun.lean ====
/-
  The idealized kernel program's run with its result named: every weakly fair execution of @main terminates, the
  argument arrays end as launched, and the result array ends at what the last kernel region's write-backs leave in it,
  `U12 m c main_v186` — the five regions' segment records handed to the run stated over them.
-/
import proofs.«163009_j11184094839450_1_alg».proof.Proof.ChainIdeal
import proofs.«163009_j11184094839450_1_alg».proof.Proof.RunCond

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The run with the result array at the last boundary's contents of it. -/
theorem run_named (ρ : Dev nD → PrngReg) : θ_run defs (onTc (τ := τ) (main (F := F))) ⟨m, fun _ => 0, ρ⟩ (fun r => ∀ c : Dev nD,
      r.2.mem ((c.tc : Thread nD τ).loc main_v186) = U12 m c main_v186
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (congrFun (V12_eq m c) (Proc.devRef .tc main_v186)), (h c).2⟩)
    (run_cond m (EP (F := F)) ι 𝒱₀ L lv hL ρ (outs m) (pdats m) O₀ G u₀ hu₀ E (hE0 ρ) hE5
      (reg0 m) (hpre0 m) (hpost0 m)
      (reg1 m) (hpre1 m) (hpost1 m)
      (reg2 m) (hpre2 m) (hpost2 m)
      (reg3 m) (hpre3 m) (hpost3 m)
      (reg4 m) (hpre4 m) (hpost4 m))

end Cert.KernelIdeal.Hand

end
-- ==== Proof.Spec.lean ====
/-
  What the two programs compute, entry by entry, at the extended reals.

  A Chebyshev layer's dense step is, at row r and column j, the leaky rectifier of
  (sum over k of T[r,k] * W[k,j]) + b[j], where T holds the three Chebyshev terms side by side and W the
  three weight matrices one under the other. The pooled graphs then go through a dense layer with a leaky
  rectifier, a dense layer with the logistic function, a third dense layer, and a row-wise log-softmax:
  x - max - log (sum of exp (x - max)).
-/
import Idealize.ShloMosaic.PureOps.Ideal
import Idealize.ShloMosaic.Lib.ValueIdx

noncomputable section

namespace Cert.Spec

open Idealize.ShloMosaic

/-- The float word 0.0 at the extended reals (kept as the word both programs spell). -/
abbrev z32 : Ideal .f32 := Ideal.ofBits .f32 0x00000000#32

/-- `y` where `y ≥ z`, and `a * y` elsewhere: a leaky rectifier of slope `a`, as a comparison bit and a selection. -/
def leaky (z a y : Ideal .f32) : Ideal .f32 :=
  Scalar.select (FloatOps.cmpf (F := Ideal) .oge y z) y (a * y)

/-- One entry of a dense layer: the dot product of a row with a column, plus the bias entry. -/
def affine {K : ℕ} (x : Fin K → EReal) (w : Fin K → EReal) (b : EReal) : EReal := (∑ k : Fin K, x k * w k) + b

/-- A Chebyshev layer's dense step at row `r`, column `j`. -/
def chebOut {N K D : ℕ} (T : Fin N → Fin K → EReal) (W : Fin K → Fin D → EReal) (b : Fin D → EReal) (a : EReal)
    (r : Fin N) (j : Fin D) : EReal :=
  leaky z32 a (affine (T r) (fun k => W k j) (b j))

/-- Row-wise log-softmax of one row. -/
def logSoftmaxRow {C : ℕ} (v : Fin C → EReal) (j : Fin C) : EReal :=
  (v j - ⨆ j', v j') - Ideal.log (∑ j' : Fin C, Ideal.exp (v j' - ⨆ j'', v j''))

/-- The first hidden layer of the graph-level perceptron. -/
def mlp1 {G D : ℕ} (g : Fin G → Fin D → EReal) (w1 : Fin D → Fin D → EReal) (b1 : Fin D → EReal) (a : EReal)
    (r : Fin G) (j : Fin D) : EReal :=
  leaky z32 a (affine (g r) (fun k => w1 k j) (b1 j))

/-- The second hidden layer: dense, then the logistic function. -/
def mlp2 {G D E : ℕ} (z1 : Fin G → Fin D → EReal) (w2 : Fin D → Fin E → EReal) (b2 : Fin E → EReal)
    (r : Fin G) (j : Fin E) : EReal :=
  Ideal.logistic (affine (z1 r) (fun k => w2 k j) (b2 j))

/-- The output layer before normalisation. -/
def mlp3 {G E C : ℕ} (z2 : Fin G → Fin E → EReal) (w3 : Fin E → Fin C → EReal) (b3 : Fin C → EReal)
    (r : Fin G) (j : Fin C) : EReal :=
  affine (z2 r) (fun k => w3 k j) (b3 j)

/-- The whole graph-level perceptron at graph `r`, class `j`. -/
def mlpOut {G D E C : ℕ} (g : Fin G → Fin D → EReal) (w1 : Fin D → Fin D → EReal) (b1 : Fin D → EReal) (a : EReal)
    (w2 : Fin D → Fin E → EReal) (b2 : Fin E → EReal) (w3 : Fin E → Fin C → EReal) (b3 : Fin C → EReal)
    (r : Fin G) (j : Fin C) : EReal :=
  logSoftmaxRow (mlp3 (mlp2 (mlp1 g w1 b1 a) w2 b2) w3 b3 r) j

end Cert.Spec

end
-- ==== Proof.KTerms.lean ====
/-
  The kernel program's host stretches as named terms. Between two kernel launches the program computes, from the node
  features h and the edge list, the three Chebyshev terms T0 = h, T1 = P h, T2 = 2 P T1 - h of the scaled Laplacian
  P (gather the source rows, scale by the edge weight, add up at the target), lays them side by side, and stacks the
  layer's three weight matrices; after the last layer it adds up the node rows of each graph. Each definition replays
  exactly the operations one result depends on; each theorem says the stretch, run from any contents W, leaves that
  result in its buffer.
-/
import proofs.«163009_j11184094839450_1_alg».proof.Proof.Gen.KernelIdeal.Launch
import Idealize.ShloMosaic.Lib.StableHlo.Run

noncomputable section

namespace Cert.KernelIdeal.Terms

open Cert.KernelIdeal Cert.KernelIdeal.Gen Idealize.ShloMosaic Idealize.ShloMosaic.TcCoe Idealize.SL.Sem Idealize.ShloMosaic.StableHlo

variable {F : FTy → Type} [FloatOps F]

variable [Facts]

/-- The source node of every edge: row 0 of the edge list, as a vector. -/
def kRow (xarg1 : (⟨S2x320000, .i32⟩ : BufTy).Contents (Elt F)) : (⟨S320000, .i32⟩ : BufTy).Contents (Elt F) :=
  have xv0 : (⟨S1x320000, .i32⟩ : BufTy).Contents (Elt F) := ((extractStridedSlice S1x320000 ![0, 0] · slices_S2x320000_S1x320000_0_0) : (⟨S2x320000, .i32⟩ : BufTy).Contents (Elt F) → (⟨S1x320000, .i32⟩ : BufTy).Contents (Elt F)) xarg1
  have xv1 : (⟨S320000, .i32⟩ : BufTy).Contents (Elt F) := shapeCast _ xv0 shapeCasts_S1x320000_S320000
  xv1

/-- The target node of every edge: row 1 of the edge list, as a vector. -/
def kCol (xarg1 : (⟨S2x320000, .i32⟩ : BufTy).Contents (Elt F)) : (⟨S320000, .i32⟩ : BufTy).Contents (Elt F) :=
  have xv2 : (⟨S1x320000, .i32⟩ : BufTy).Contents (Elt F) := ((extractStridedSlice S1x320000 ![1, 0] · slices_S2x320000_S1x320000_1_0) : (⟨S2x320000, .i32⟩ : BufTy).Contents (Elt F) → (⟨S1x320000, .i32⟩ : BufTy).Contents (Elt F)) xarg1
  have xv3 : (⟨S320000, .i32⟩ : BufTy).Contents (Elt F) := shapeCast _ xv2 shapeCasts_S1x320000_S320000
  xv3

/-- The edge weights of the scaled Laplacian: minus the product of deg^(-1/2) at the two ends of an edge, deg^(-1/2) read as 0 at a node of degree 0. -/
def kEdgeW (xarg1 : (⟨S2x320000, .i32⟩ : BufTy).Contents (Elt F)) : (⟨S320000, .f32⟩ : BufTy).Contents (Elt F) :=
  have xv0 : (⟨S1x320000, .i32⟩ : BufTy).Contents (Elt F) := ((extractStridedSlice S1x320000 ![0, 0] · slices_S2x320000_S1x320000_0_0) : (⟨S2x320000, .i32⟩ : BufTy).Contents (Elt F) → (⟨S1x320000, .i32⟩ : BufTy).Contents (Elt F)) xarg1
  have xv1 : (⟨S320000, .i32⟩ : BufTy).Contents (Elt F) := shapeCast _ xv0 shapeCasts_S1x320000_S320000
  have xv2 : (⟨S1x320000, .i32⟩ : BufTy).Contents (Elt F) := ((extractStridedSlice S1x320000 ![1, 0] · slices_S2x320000_S1x320000_1_0) : (⟨S2x320000, .i32⟩ : BufTy).Contents (Elt F) → (⟨S1x320000, .i32⟩ : BufTy).Contents (Elt F)) xarg1
  have xv3 : (⟨S320000, .i32⟩ : BufTy).Contents (Elt F) := shapeCast _ xv2 shapeCasts_S1x320000_S320000
  have xcst : (⟨S_, .f32⟩ : BufTy).Contents (Elt F) := (constant S_ .f32 0x3F800000#32)
  have xv4 : (⟨S320000, .f32⟩ : BufTy).Contents (Elt F) := (broadcastInDim S320000 ![] bcast_S_S320000 : (⟨S_, .f32⟩ : BufTy).Contents (Elt F) → (⟨S320000, .f32⟩ : BufTy).Contents (Elt F)) xcst
  have xcst_0 : (⟨S_, .f32⟩ : BufTy).Contents (Elt F) := (constant S_ .f32 0x00000000#32)
  have xv5 : (⟨S10000, .f32⟩ : BufTy).Contents (Elt F) := (broadcastInDim S10000 ![] bcast_S_S10000 : (⟨S_, .f32⟩ : BufTy).Contents (Elt F) → (⟨S10000, .f32⟩ : BufTy).Contents (Elt F)) xcst_0
  have xv6 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv1
  have xv7 : (⟨S10000, .f32⟩ : BufTy).Contents (Elt F) := ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) xv5 xv6 xv4
  have xcst_1 : (⟨S_, .f32⟩ : BufTy).Contents (Elt F) := (constant S_ .f32 0x00000000#32)
  have xv8 : (⟨S10000, .f32⟩ : BufTy).Contents (Elt F) := (broadcastInDim S10000 ![] bcast_S_S10000 : (⟨S_, .f32⟩ : BufTy).Contents (Elt F) → (⟨S10000, .f32⟩ : BufTy).Contents (Elt F)) xcst_1
  have xv9 : (⟨S10000, .i1⟩ : BufTy).Contents (Elt F) := (cmpf .ogt : (⟨S10000, .f32⟩ : BufTy).Contents (Elt F) → (⟨S10000, .f32⟩ : BufTy).Contents (Elt F) → (⟨S10000, .i1⟩ : BufTy).Contents (Elt F)) xv7 xv8
  have xv10 : (⟨S10000, .f32⟩ : BufTy).Contents (Elt F) := (Host.sqrt : (⟨S10000, .f32⟩ : BufTy).Contents (Elt F) → (⟨S10000, .f32⟩ : BufTy).Contents (Elt F)) xv7
  have xcst_2 : (⟨S_, .f32⟩ : BufTy).Contents (Elt F) := (constant S_ .f32 0x3F800000#32)
  have xv11 : (⟨S10000, .f32⟩ : BufTy).Contents (Elt F) := (broadcastInDim S10000 ![] bcast_S_S10000 : (⟨S_, .f32⟩ : BufTy).Contents (Elt F) → (⟨S10000, .f32⟩ : BufTy).Contents (Elt F)) xcst_2
  have xv12 : (⟨S10000, .f32⟩ : BufTy).Contents (Elt F) := (Host.divf : (⟨S10000, .f32⟩ : BufTy).Contents (Elt F) → (⟨S10000, .f32⟩ : BufTy).Contents (Elt F) → (⟨S10000, .f32⟩ : BufTy).Contents (Elt F)) xv11 xv10
  have xcst_3 : (⟨S_, .f32⟩ : BufTy).Contents (Elt F) := (constant S_ .f32 0x00000000#32)
  have xcall0_v0 : (⟨S_, .f32⟩ : BufTy).Contents (Elt F) := id xcst_3
  have xcall0_v1 : (⟨S10000, .f32⟩ : BufTy).Contents (Elt F) := (broadcastInDim S10000 ![] bcast_S_S10000) xcall0_v0
  have xv13 : (⟨S10000, .f32⟩ : BufTy).Contents (Elt F) := select xv9 xv12 xcall0_v1
  have xc : (⟨S_, .i32⟩ : BufTy).Contents (Elt F) := (constantI S_ 32 0#32)
  have xv14 : (⟨S320000, .i32⟩ : BufTy).Contents (Elt F) := (broadcastInDim S320000 ![] bcast_S_S320000 : (⟨S_, .i32⟩ : BufTy).Contents (Elt F) → (⟨S320000, .i32⟩ : BufTy).Contents (Elt F)) xc
  have xv15 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv14
  have xc_4 : (⟨S_, .i32⟩ : BufTy).Contents (Elt F) := (constantI S_ 32 10000#32)
  have xv16 : (⟨S320000, .i32⟩ : BufTy).Contents (Elt F) := (broadcastInDim S320000 ![] bcast_S_S320000 : (⟨S_, .i32⟩ : BufTy).Contents (Elt F) → (⟨S320000, .i32⟩ : BufTy).Contents (Elt F)) xc_4
  have xv17 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv16
  have xv18 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv15 xv17 xv1
  have xv19 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv18
  have xv20 : (⟨S320000, .f32⟩ : BufTy).Contents (Elt F) := ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)) xv13 xv19
  have xv21 : (⟨S320000, .f32⟩ : BufTy).Contents (Elt F) := (Host.negf : (⟨S320000, .f32⟩ : BufTy).Contents (Elt F) → (⟨S320000, .f32⟩ : BufTy).Contents (Elt F)) xv20
  have xc_5 : (⟨S_, .i32⟩ : BufTy).Contents (Elt F) := (constantI S_ 32 0#32)
  have xv22 : (⟨S320000, .i32⟩ : BufTy).Contents (Elt F) := (broadcastInDim S320000 ![] bcast_S_S320000 : (⟨S_, .i32⟩ : BufTy).Contents (Elt F) → (⟨S320000, .i32⟩ : BufTy).Contents (Elt F)) xc_5
  have xv23 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv3 xv22
  have xc_6 : (⟨S_, .i32⟩ : BufTy).Contents (Elt F) := (constantI S_ 32 10000#32)
  have xv24 : (⟨S320000, .i32⟩ : BufTy).Contents (Elt F) := (broadcastInDim S320000 ![] bcast_S_S320000 : (⟨S_, .i32⟩ : BufTy).Contents (Elt F) → (⟨S320000, .i32⟩ : BufTy).Contents (Elt F)) xc_6
  have xv25 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv3 xv24
  have xv26 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv23 xv25 xv3
  have xv27 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv26
  have xv28 : (⟨S320000, .f32⟩ : BufTy).Contents (Elt F) := ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)) xv13 xv27
  have xv29 : (⟨S320000, .f32⟩ : BufTy).Contents (Elt F) := (mulf : (⟨S320000, .f32⟩ : BufTy).Contents (Elt F) → (⟨S320000, .f32⟩ : BufTy).Contents (Elt F) → (⟨S320000, .f32⟩ : BufTy).Contents (Elt F)) xv21 xv28
  xv29

/-- One propagation step: every edge carries its weight times the source node's row, and the rows arriving at a node are added up. -/
def kT1_1 (xarg0 : (⟨S10000x128, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x128, .f32⟩ : BufTy).Contents (Elt F) :=
  have xv30 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_7 : (⟨S_, .i32⟩ : BufTy).Contents (Elt F) := (constantI S_ 32 0#32)
  have xv31 : (⟨S320000, .i32⟩ : BufTy).Contents (Elt F) := (broadcastInDim S320000 ![] bcast_S_S320000 : (⟨S_, .i32⟩ : BufTy).Contents (Elt F) → (⟨S320000, .i32⟩ : BufTy).Contents (Elt F)) xc_7
  have xv32 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv31
  have xc_8 : (⟨S_, .i32⟩ : BufTy).Contents (Elt F) := (constantI S_ 32 10000#32)
  have xv33 : (⟨S320000, .i32⟩ : BufTy).Contents (Elt F) := (broadcastInDim S320000 ![] bcast_S_S320000 : (⟨S_, .i32⟩ : BufTy).Contents (Elt F) → (⟨S320000, .i32⟩ : BufTy).Contents (Elt F)) xc_8
  have xv34 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv33
  have xv35 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv32 xv34 xv1
  have xv36 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv35
  have xv37 : (⟨S320000x128, .f32⟩ : BufTy).Contents (Elt F) := ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) xarg0 xv36
  have xv38 : (⟨S320000x128, .f32⟩ : BufTy).Contents (Elt F) := (broadcastInDim S320000x128 ![0, 1] bcast_S320000x1_S320000x128_0_1 : (⟨S320000x1, .f32⟩ : BufTy).Contents (Elt F) → (⟨S320000x128, .f32⟩ : BufTy).Contents (Elt F)) xv30
  have xv39 : (⟨S320000x128, .f32⟩ : BufTy).Contents (Elt F) := (mulf : (⟨S320000x128, .f32⟩ : BufTy).Contents (Elt F) → (⟨S320000x128, .f32⟩ : BufTy).Contents (Elt F) → (⟨S320000x128, .f32⟩ : BufTy).Contents (Elt F)) xv38 xv37
  have xcst_9 : (⟨S_, .f32⟩ : BufTy).Contents (Elt F) := (constant S_ .f32 0x00000000#32)
  have xv40 : (⟨S10000x128, .f32⟩ : BufTy).Contents (Elt F) := (broadcastInDim S10000x128 ![] bcast_S_S10000x128 : (⟨S_, .f32⟩ : BufTy).Contents (Elt F) → (⟨S10000x128, .f32⟩ : BufTy).Contents (Elt F)) xcst_9
  have xv41 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv42 : (⟨S10000x128, .f32⟩ : BufTy).Contents (Elt F) := ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) xv40 xv41 xv39
  xv42

/-- The third Chebyshev term: twice the propagation of the second term, minus the first. -/
def kT2_1 (xarg0 : (⟨S10000x128, .f32⟩ : BufTy).Contents (Elt F)) (xv42 : (⟨S10000x128, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x128, .f32⟩ : BufTy).Contents (Elt F) :=
  have xv43 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_10 : (⟨S_, .i32⟩ : BufTy).Contents (Elt F) := (constantI S_ 32 0#32)
  have xv44 : (⟨S320000, .i32⟩ : BufTy).Contents (Elt F) := (broadcastInDim S320000 ![] bcast_S_S320000 : (⟨S_, .i32⟩ : BufTy).Contents (Elt F) → (⟨S320000, .i32⟩ : BufTy).Contents (Elt F)) xc_10
  have xv45 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv44
  have xc_11 : (⟨S_, .i32⟩ : BufTy).Contents (Elt F) := (constantI S_ 32 10000#32)
  have xv46 : (⟨S320000, .i32⟩ : BufTy).Contents (Elt F) := (broadcastInDim S320000 ![] bcast_S_S320000 : (⟨S_, .i32⟩ : BufTy).Contents (Elt F) → (⟨S320000, .i32⟩ : BufTy).Contents (Elt F)) xc_11
  have xv47 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv46
  have xv48 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv45 xv47 xv1
  have xv49 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv48
  have xv50 : (⟨S320000x128, .f32⟩ : BufTy).Contents (Elt F) := ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) xv42 xv49
  have xv51 : (⟨S320000x128, .f32⟩ : BufTy).Contents (Elt F) := (broadcastInDim S320000x128 ![0, 1] bcast_S320000x1_S320000x128_0_1 : (⟨S320000x1, .f32⟩ : BufTy).Contents (Elt F) → (⟨S320000x128, .f32⟩ : BufTy).Contents (Elt F)) xv43
  have xv52 : (⟨S320000x128, .f32⟩ : BufTy).Contents (Elt F) := (mulf : (⟨S320000x128, .f32⟩ : BufTy).Contents (Elt F) → (⟨S320000x128, .f32⟩ : BufTy).Contents (Elt F) → (⟨S320000x128, .f32⟩ : BufTy).Contents (Elt F)) xv51 xv50
  have xcst_12 : (⟨S_, .f32⟩ : BufTy).Contents (Elt F) := (constant S_ .f32 0x00000000#32)
  have xv53 : (⟨S10000x128, .f32⟩ : BufTy).Contents (Elt F) := (broadcastInDim S10000x128 ![] bcast_S_S10000x128 : (⟨S_, .f32⟩ : BufTy).Contents (Elt F) → (⟨S10000x128, .f32⟩ : BufTy).Contents (Elt F)) xcst_12
  have xv54 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv55 : (⟨S10000x128, .f32⟩ : BufTy).Contents (Elt F) := ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) xv53 xv54 xv52
  have xcst_13 : (⟨S_, .f32⟩ : BufTy).Contents (Elt F) := (constant S_ .f32 0x40000000#32)
  have xv56 : (⟨S10000x128, .f32⟩ : BufTy).Contents (Elt F) := (broadcastInDim S10000x128 ![] bcast_S_S10000x128 : (⟨S_, .f32⟩ : BufTy).Contents (Elt F) → (⟨S10000x128, .f32⟩ : BufTy).Contents (Elt F)) xcst_13
  have xv57 : (⟨S10000x128, .f32⟩ : BufTy).Contents (Elt F) := (mulf : (⟨S10000x128, .f32⟩ : BufTy).Contents (Elt F) → (⟨S10000x128, .f32⟩ : BufTy).Contents (Elt F) → (⟨S10000x128, .f32⟩ : BufTy).Contents (Elt F)) xv56 xv55
  have xv58 : (⟨S10000x128, .f32⟩ : BufTy).Contents (Elt F) := (subf : (⟨S10000x128, .f32⟩ : BufTy).Contents (Elt F) → (⟨S10000x128, .f32⟩ : BufTy).Contents (Elt F) → (⟨S10000x128, .f32⟩ : BufTy).Contents (Elt F)) xv57 xarg0
  xv58

/-- The three Chebyshev terms side by side along the columns. -/
def kTcat_1 (xarg0 : (⟨S10000x128, .f32⟩ : BufTy).Contents (Elt F)) (xv42 : (⟨S10000x128, .f32⟩ : BufTy).Contents (Elt F)) (xv58 : (⟨S10000x128, .f32⟩ : BufTy).Contents (Elt F)) : (⟨S10000x384, .f32⟩ : BufTy).Contents (Elt F) :=
  have xv59 : (⟨S10000x384, .f32⟩ : BufTy).Contents (Elt F) := concatenate S10000x384 1 [⟨S10000x128, xarg0⟩, ⟨S10000x128, xv42⟩, ⟨S10000x128, xv58⟩] concatenates_S10000x128_S10000x128_S10000x128_S10000x384_d1
  xv59

/-- The layer's three weight matrices one under the other. -/
def kWc_1 (xarg3 : (⟨S3x128x256, .f32⟩ : BufTy).Contents (Elt F)) : (⟨S384x256, .f32⟩ : BufTy).Contents (Elt F) :=
  have xv60 : (⟨S384x256, .f32⟩ : BufTy).Contents (Elt F) := shapeCast _ xarg3 shapeCasts_S3x128x256_S384x256
  xv60

/-- The layer's bias as a one-row matrix. -/
def kB_1 (xarg4 : (⟨S256, .f32⟩ : BufTy).Contents (Elt F)) : (⟨S1x256, .f32⟩ : BufTy).Contents (Elt F) :=
  have xv61 : (⟨S1x256, .f32⟩ : BufTy).Contents (Elt F) := shapeCast _ xarg4 shapeCasts_S256_S1x256
  xv61

/-- The rectifier's slope as a one-by-one matrix. -/
def kA_1 (xarg13 : (⟨S1, .f32⟩ : BufTy).Contents (Elt F)) : (⟨S1x1, .f32⟩ : BufTy).Contents (Elt F) :=
  have xv62 : (⟨S1x1, .f32⟩ : BufTy).Contents (Elt F) := shapeCast _ xarg13 shapeCasts_S1_S1x1
  xv62

/-- One propagation step: every edge carries its weight times the source node's row, and the rows arriving at a node are added up. -/
def kT1_2 (xv63 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv69 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_15 : (⟨S_, .i32⟩ : BufTy).Contents (Elt F) := (constantI S_ 32 0#32)
  have xv70 : (⟨S320000, .i32⟩ : BufTy).Contents (Elt F) := (broadcastInDim S320000 ![] bcast_S_S320000 : (⟨S_, .i32⟩ : BufTy).Contents (Elt F) → (⟨S320000, .i32⟩ : BufTy).Contents (Elt F)) xc_15
  have xv71 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv70
  have xc_16 : (⟨S_, .i32⟩ : BufTy).Contents (Elt F) := (constantI S_ 32 10000#32)
  have xv72 : (⟨S320000, .i32⟩ : BufTy).Contents (Elt F) := (broadcastInDim S320000 ![] bcast_S_S320000 : (⟨S_, .i32⟩ : BufTy).Contents (Elt F) → (⟨S320000, .i32⟩ : BufTy).Contents (Elt F)) xc_16
  have xv73 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv72
  have xv74 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv71 xv73 xv1
  have xv75 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv74
  have xv76 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv63 xv75
  have xv77 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv69
  have xv78 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv77 xv76
  have xcst_17 : (⟨S_, .f32⟩ : BufTy).Contents (Elt F) := (constant S_ .f32 0x00000000#32)
  have xv79 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_17
  have xv80 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv81 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv79 xv80 xv78
  xv81

/-- The third Chebyshev term: twice the propagation of the second term, minus the first. -/
def kT2_2 (xv63 : (⟨S10000x256, .f32⟩ : BufTy).Contents (Elt F)) (xv81 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv82 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_18 : (⟨S_, .i32⟩ : BufTy).Contents (Elt F) := (constantI S_ 32 0#32)
  have xv83 : (⟨S320000, .i32⟩ : BufTy).Contents (Elt F) := (broadcastInDim S320000 ![] bcast_S_S320000 : (⟨S_, .i32⟩ : BufTy).Contents (Elt F) → (⟨S320000, .i32⟩ : BufTy).Contents (Elt F)) xc_18
  have xv84 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv83
  have xc_19 : (⟨S_, .i32⟩ : BufTy).Contents (Elt F) := (constantI S_ 32 10000#32)
  have xv85 : (⟨S320000, .i32⟩ : BufTy).Contents (Elt F) := (broadcastInDim S320000 ![] bcast_S_S320000 : (⟨S_, .i32⟩ : BufTy).Contents (Elt F) → (⟨S320000, .i32⟩ : BufTy).Contents (Elt F)) xc_19
  have xv86 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv85
  have xv87 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv84 xv86 xv1
  have xv88 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv87
  have xv89 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv81 xv88
  have xv90 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv82
  have xv91 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv90 xv89
  have xcst_20 : (⟨S_, .f32⟩ : BufTy).Contents (Elt F) := (constant S_ .f32 0x00000000#32)
  have xv92 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_20
  have xv93 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv94 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv92 xv93 xv91
  have xcst_21 : (⟨S_, .f32⟩ : BufTy).Contents (Elt F) := (constant S_ .f32 0x40000000#32)
  have xv95 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_21
  have xv96 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) xv95 xv94
  have xv97 : (⟨S10000x256, .f32⟩ : BufTy).Contents (Elt F) := (subf : (⟨S10000x256, .f32⟩ : BufTy).Contents (Elt F) → (⟨S10000x256, .f32⟩ : BufTy).Contents (Elt F) → (⟨S10000x256, .f32⟩ : BufTy).Contents (Elt F)) xv96 xv63
  xv97

/-- The three Chebyshev terms side by side along the columns. -/
def kTcat_2 (xv63 : (⟨S10000x256, .f32⟩ : BufTy).Contents (Elt F)) (xv81 : (⟨S10000x256, .f32⟩ : BufTy).Contents (Elt F)) (xv97 : (⟨S10000x256, .f32⟩ : BufTy).Contents (Elt F)) : (⟨S10000x768, .f32⟩ : BufTy).Contents (Elt F) :=
  have xv98 : (⟨S10000x768, .f32⟩ : BufTy).Contents (Elt F) := concatenate S10000x768 1 [⟨S10000x256, xv63⟩, ⟨S10000x256, xv81⟩, ⟨S10000x256, xv97⟩] concatenates_S10000x256_S10000x256_S10000x256_S10000x768_d1
  xv98

/-- The layer's three weight matrices one under the other. -/
def kWc_2 (xarg5 : (⟨S3x3x256x256, .f32⟩ : BufTy).Contents (Elt F)) : (⟨S768x256, .f32⟩ : BufTy).Contents (Elt F) :=
  have xv65 : (⟨S1x3x256x256, .f32⟩ : BufTy).Contents (Elt F) := ((extractStridedSlice S1x3x256x256 ![0, 0, 0, 0] · slices_S3x3x256x256_S1x3x256x256_0_0_0_0) : (⟨S3x3x256x256, .f32⟩ : BufTy).Contents (Elt F) → (⟨S1x3x256x256, .f32⟩ : BufTy).Contents (Elt F)) xarg5
  have xv66 : (⟨S3x256x256, .f32⟩ : BufTy).Contents (Elt F) := shapeCast _ xv65 shapeCasts_S1x3x256x256_S3x256x256
  have xv99 : (⟨S768x256, .f32⟩ : BufTy).Contents (Elt F) := shapeCast _ xv66 shapeCasts_S3x256x256_S768x256
  xv99

/-- The layer's bias as a one-row matrix. -/
def kB_2 (xarg6 : (⟨S3x256, .f32⟩ : BufTy).Contents (Elt F)) : (⟨S1x256, .f32⟩ : BufTy).Contents (Elt F) :=
  have xv67 : (⟨S1x256, .f32⟩ : BufTy).Contents (Elt F) := ((extractStridedSlice S1x256 ![0, 0] · slices_S3x256_S1x256_0_0) : (⟨S3x256, .f32⟩ : BufTy).Contents (Elt F) → (⟨S1x256, .f32⟩ : BufTy).Contents (Elt F)) xarg6
  have xv68 : (⟨S256, .f32⟩ : BufTy).Contents (Elt F) := shapeCast _ xv67 shapeCasts_S1x256_S256
  have xv100 : (⟨S1x256, .f32⟩ : BufTy).Contents (Elt F) := shapeCast _ xv68 shapeCasts_S256_S1x256
  xv100

/-- The rectifier's slope as a one-by-one matrix. -/
def kA_2 (xv64 : (⟨S1, .f32⟩ : BufTy).Contents (Elt F)) : (⟨S1x1, .f32⟩ : BufTy).Contents (Elt F) :=
  have xv101 : (⟨S1x1, .f32⟩ : BufTy).Contents (Elt F) := shapeCast _ xv64 shapeCasts_S1_S1x1
  xv101

/-- One propagation step: every edge carries its weight times the source node's row, and the rows arriving at a node are added up. -/
def kT1_3 (xv102 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv107 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_22 : (⟨S_, .i32⟩ : BufTy).Contents (Elt F) := (constantI S_ 32 0#32)
  have xv108 : (⟨S320000, .i32⟩ : BufTy).Contents (Elt F) := (broadcastInDim S320000 ![] bcast_S_S320000 : (⟨S_, .i32⟩ : BufTy).Contents (Elt F) → (⟨S320000, .i32⟩ : BufTy).Contents (Elt F)) xc_22
  have xv109 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv108
  have xc_23 : (⟨S_, .i32⟩ : BufTy).Contents (Elt F) := (constantI S_ 32 10000#32)
  have xv110 : (⟨S320000, .i32⟩ : BufTy).Contents (Elt F) := (broadcastInDim S320000 ![] bcast_S_S320000 : (⟨S_, .i32⟩ : BufTy).Contents (Elt F) → (⟨S320000, .i32⟩ : BufTy).Contents (Elt F)) xc_23
  have xv111 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv110
  have xv112 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv109 xv111 xv1
  have xv113 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv112
  have xv114 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv102 xv113
  have xv115 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv107
  have xv116 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv115 xv114
  have xcst_24 : (⟨S_, .f32⟩ : BufTy).Contents (Elt F) := (constant S_ .f32 0x00000000#32)
  have xv117 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_24
  have xv118 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv119 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv117 xv118 xv116
  xv119

/-- The third Chebyshev term: twice the propagation of the second term, minus the first. -/
def kT2_3 (xv102 : (⟨S10000x256, .f32⟩ : BufTy).Contents (Elt F)) (xv119 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv120 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_25 : (⟨S_, .i32⟩ : BufTy).Contents (Elt F) := (constantI S_ 32 0#32)
  have xv121 : (⟨S320000, .i32⟩ : BufTy).Contents (Elt F) := (broadcastInDim S320000 ![] bcast_S_S320000 : (⟨S_, .i32⟩ : BufTy).Contents (Elt F) → (⟨S320000, .i32⟩ : BufTy).Contents (Elt F)) xc_25
  have xv122 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv121
  have xc_26 : (⟨S_, .i32⟩ : BufTy).Contents (Elt F) := (constantI S_ 32 10000#32)
  have xv123 : (⟨S320000, .i32⟩ : BufTy).Contents (Elt F) := (broadcastInDim S320000 ![] bcast_S_S320000 : (⟨S_, .i32⟩ : BufTy).Contents (Elt F) → (⟨S320000, .i32⟩ : BufTy).Contents (Elt F)) xc_26
  have xv124 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv123
  have xv125 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv122 xv124 xv1
  have xv126 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv125
  have xv127 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv119 xv126
  have xv128 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv120
  have xv129 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv128 xv127
  have xcst_27 : (⟨S_, .f32⟩ : BufTy).Contents (Elt F) := (constant S_ .f32 0x00000000#32)
  have xv130 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_27
  have xv131 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv132 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv130 xv131 xv129
  have xcst_28 : (⟨S_, .f32⟩ : BufTy).Contents (Elt F) := (constant S_ .f32 0x40000000#32)
  have xv133 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_28
  have xv134 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) xv133 xv132
  have xv135 : (⟨S10000x256, .f32⟩ : BufTy).Contents (Elt F) := (subf : (⟨S10000x256, .f32⟩ : BufTy).Contents (Elt F) → (⟨S10000x256, .f32⟩ : BufTy).Contents (Elt F) → (⟨S10000x256, .f32⟩ : BufTy).Contents (Elt F)) xv134 xv102
  xv135

/-- The three Chebyshev terms side by side along the columns. -/
def kTcat_3 (xv102 : (⟨S10000x256, .f32⟩ : BufTy).Contents (Elt F)) (xv119 : (⟨S10000x256, .f32⟩ : BufTy).Contents (Elt F)) (xv135 : (⟨S10000x256, .f32⟩ : BufTy).Contents (Elt F)) : (⟨S10000x768, .f32⟩ : BufTy).Contents (Elt F) :=
  have xv136 : (⟨S10000x768, .f32⟩ : BufTy).Contents (Elt F) := concatenate S10000x768 1 [⟨S10000x256, xv102⟩, ⟨S10000x256, xv119⟩, ⟨S10000x256, xv135⟩] concatenates_S10000x256_S10000x256_S10000x256_S10000x768_d1
  xv136

/-- The layer's three weight matrices one under the other. -/
def kWc_3 (xarg5 : (⟨S3x3x256x256, .f32⟩ : BufTy).Contents (Elt F)) : (⟨S768x256, .f32⟩ : BufTy).Contents (Elt F) :=
  have xv103 : (⟨S1x3x256x256, .f32⟩ : BufTy).Contents (Elt F) := ((extractStridedSlice S1x3x256x256 ![1, 0, 0, 0] · slices_S3x3x256x256_S1x3x256x256_1_0_0_0) : (⟨S3x3x256x256, .f32⟩ : BufTy).Contents (Elt F) → (⟨S1x3x256x256, .f32⟩ : BufTy).Contents (Elt F)) xarg5
  have xv104 : (⟨S3x256x256, .f32⟩ : BufTy).Contents (Elt F) := shapeCast _ xv103 shapeCasts_S1x3x256x256_S3x256x256
  have xv137 : (⟨S768x256, .f32⟩ : BufTy).Contents (Elt F) := shapeCast _ xv104 shapeCasts_S3x256x256_S768x256
  xv137

/-- The layer's bias as a one-row matrix. -/
def kB_3 (xarg6 : (⟨S3x256, .f32⟩ : BufTy).Contents (Elt F)) : (⟨S1x256, .f32⟩ : BufTy).Contents (Elt F) :=
  have xv105 : (⟨S1x256, .f32⟩ : BufTy).Contents (Elt F) := ((extractStridedSlice S1x256 ![1, 0] · slices_S3x256_S1x256_1_0) : (⟨S3x256, .f32⟩ : BufTy).Contents (Elt F) → (⟨S1x256, .f32⟩ : BufTy).Contents (Elt F)) xarg6
  have xv106 : (⟨S256, .f32⟩ : BufTy).Contents (Elt F) := shapeCast _ xv105 shapeCasts_S1x256_S256
  have xv138 : (⟨S1x256, .f32⟩ : BufTy).Contents (Elt F) := shapeCast _ xv106 shapeCasts_S256_S1x256
  xv138

/-- The rectifier's slope as a one-by-one matrix. -/
def kA_3 (xv64 : (⟨S1, .f32⟩ : BufTy).Contents (Elt F)) : (⟨S1x1, .f32⟩ : BufTy).Contents (Elt F) :=
  have xv139 : (⟨S1x1, .f32⟩ : BufTy).Contents (Elt F) := shapeCast _ xv64 shapeCasts_S1_S1x1
  xv139

/-- One propagation step: every edge carries its weight times the source node's row, and the rows arriving at a node are added up. -/
def kT1_4 (xv140 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv145 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_29 : (⟨S_, .i32⟩ : BufTy).Contents (Elt F) := (constantI S_ 32 0#32)
  have xv146 : (⟨S320000, .i32⟩ : BufTy).Contents (Elt F) := (broadcastInDim S320000 ![] bcast_S_S320000 : (⟨S_, .i32⟩ : BufTy).Contents (Elt F) → (⟨S320000, .i32⟩ : BufTy).Contents (Elt F)) xc_29
  have xv147 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv146
  have xc_30 : (⟨S_, .i32⟩ : BufTy).Contents (Elt F) := (constantI S_ 32 10000#32)
  have xv148 : (⟨S320000, .i32⟩ : BufTy).Contents (Elt F) := (broadcastInDim S320000 ![] bcast_S_S320000 : (⟨S_, .i32⟩ : BufTy).Contents (Elt F) → (⟨S320000, .i32⟩ : BufTy).Contents (Elt F)) xc_30
  have xv149 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv148
  have xv150 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv147 xv149 xv1
  have xv151 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv150
  have xv152 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv140 xv151
  have xv153 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv145
  have xv154 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv153 xv152
  have xcst_31 : (⟨S_, .f32⟩ : BufTy).Contents (Elt F) := (constant S_ .f32 0x00000000#32)
  have xv155 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_31
  have xv156 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv157 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv155 xv156 xv154
  xv157

/-- The third Chebyshev term: twice the propagation of the second term, minus the first. -/
def kT2_4 (xv140 : (⟨S10000x256, .f32⟩ : BufTy).Contents (Elt F)) (xv157 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv158 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_32 : (⟨S_, .i32⟩ : BufTy).Contents (Elt F) := (constantI S_ 32 0#32)
  have xv159 : (⟨S320000, .i32⟩ : BufTy).Contents (Elt F) := (broadcastInDim S320000 ![] bcast_S_S320000 : (⟨S_, .i32⟩ : BufTy).Contents (Elt F) → (⟨S320000, .i32⟩ : BufTy).Contents (Elt F)) xc_32
  have xv160 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv159
  have xc_33 : (⟨S_, .i32⟩ : BufTy).Contents (Elt F) := (constantI S_ 32 10000#32)
  have xv161 : (⟨S320000, .i32⟩ : BufTy).Contents (Elt F) := (broadcastInDim S320000 ![] bcast_S_S320000 : (⟨S_, .i32⟩ : BufTy).Contents (Elt F) → (⟨S320000, .i32⟩ : BufTy).Contents (Elt F)) xc_33
  have xv162 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv161
  have xv163 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv160 xv162 xv1
  have xv164 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv163
  have xv165 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv157 xv164
  have xv166 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv158
  have xv167 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv166 xv165
  have xcst_34 : (⟨S_, .f32⟩ : BufTy).Contents (Elt F) := (constant S_ .f32 0x00000000#32)
  have xv168 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_34
  have xv169 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv170 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv168 xv169 xv167
  have xcst_35 : (⟨S_, .f32⟩ : BufTy).Contents (Elt F) := (constant S_ .f32 0x40000000#32)
  have xv171 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_35
  have xv172 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) xv171 xv170
  have xv173 : (⟨S10000x256, .f32⟩ : BufTy).Contents (Elt F) := (subf : (⟨S10000x256, .f32⟩ : BufTy).Contents (Elt F) → (⟨S10000x256, .f32⟩ : BufTy).Contents (Elt F) → (⟨S10000x256, .f32⟩ : BufTy).Contents (Elt F)) xv172 xv140
  xv173

/-- The three Chebyshev terms side by side along the columns. -/
def kTcat_4 (xv140 : (⟨S10000x256, .f32⟩ : BufTy).Contents (Elt F)) (xv157 : (⟨S10000x256, .f32⟩ : BufTy).Contents (Elt F)) (xv173 : (⟨S10000x256, .f32⟩ : BufTy).Contents (Elt F)) : (⟨S10000x768, .f32⟩ : BufTy).Contents (Elt F) :=
  have xv174 : (⟨S10000x768, .f32⟩ : BufTy).Contents (Elt F) := concatenate S10000x768 1 [⟨S10000x256, xv140⟩, ⟨S10000x256, xv157⟩, ⟨S10000x256, xv173⟩] concatenates_S10000x256_S10000x256_S10000x256_S10000x768_d1
  xv174

/-- The layer's three weight matrices one under the other. -/
def kWc_4 (xarg5 : (⟨S3x3x256x256, .f32⟩ : BufTy).Contents (Elt F)) : (⟨S768x256, .f32⟩ : BufTy).Contents (Elt F) :=
  have xv141 : (⟨S1x3x256x256, .f32⟩ : BufTy).Contents (Elt F) := ((extractStridedSlice S1x3x256x256 ![2, 0, 0, 0] · slices_S3x3x256x256_S1x3x256x256_2_0_0_0) : (⟨S3x3x256x256, .f32⟩ : BufTy).Contents (Elt F) → (⟨S1x3x256x256, .f32⟩ : BufTy).Contents (Elt F)) xarg5
  have xv142 : (⟨S3x256x256, .f32⟩ : BufTy).Contents (Elt F) := shapeCast _ xv141 shapeCasts_S1x3x256x256_S3x256x256
  have xv175 : (⟨S768x256, .f32⟩ : BufTy).Contents (Elt F) := shapeCast _ xv142 shapeCasts_S3x256x256_S768x256
  xv175

/-- The layer's bias as a one-row matrix. -/
def kB_4 (xarg6 : (⟨S3x256, .f32⟩ : BufTy).Contents (Elt F)) : (⟨S1x256, .f32⟩ : BufTy).Contents (Elt F) :=
  have xv143 : (⟨S1x256, .f32⟩ : BufTy).Contents (Elt F) := ((extractStridedSlice S1x256 ![2, 0] · slices_S3x256_S1x256_2_0) : (⟨S3x256, .f32⟩ : BufTy).Contents (Elt F) → (⟨S1x256, .f32⟩ : BufTy).Contents (Elt F)) xarg6
  have xv144 : (⟨S256, .f32⟩ : BufTy).Contents (Elt F) := shapeCast _ xv143 shapeCasts_S1x256_S256
  have xv176 : (⟨S1x256, .f32⟩ : BufTy).Contents (Elt F) := shapeCast _ xv144 shapeCasts_S256_S1x256
  xv176

/-- The rectifier's slope as a one-by-one matrix. -/
def kA_4 (xv64 : (⟨S1, .f32⟩ : BufTy).Contents (Elt F)) : (⟨S1x1, .f32⟩ : BufTy).Contents (Elt F) :=
  have xv177 : (⟨S1x1, .f32⟩ : BufTy).Contents (Elt F) := shapeCast _ xv64 shapeCasts_S1_S1x1
  xv177

/-- The slope 0.0 of a plain rectifier, as a one-entry vector. -/
def kZeroSlope  : (⟨S1, .f32⟩ : BufTy).Contents (Elt F) :=
  have xcst_14 : (⟨S_, .f32⟩ : BufTy).Contents (Elt F) := (constant S_ .f32 0x00000000#32)
  have xv64 : (⟨S1, .f32⟩ : BufTy).Contents (Elt F) := (broadcastInDim S1 ![] bcast_S_S1 : (⟨S_, .f32⟩ : BufTy).Contents (Elt F) → (⟨S1, .f32⟩ : BufTy).Contents (Elt F)) xcst_14
  xv64

/-- The node rows of each graph added up: a scatter-add of the rows into 64 zero rows by the graph labels. -/
def kPooled (xv178 : (⟨S10000x256, .f32⟩ : BufTy).Contents (Elt F)) (xarg2 : (⟨S10000, .i32⟩ : BufTy).Contents (Elt F)) : (⟨S64x256, .f32⟩ : BufTy).Contents (Elt F) :=
  have xcst_36 : (⟨S_, .f32⟩ : BufTy).Contents (Elt F) := (constant S_ .f32 0x00000000#32)
  have xv179 : (⟨S64x256, .f32⟩ : BufTy).Contents (Elt F) := (broadcastInDim S64x256 ![] bcast_S_S64x256 : (⟨S_, .f32⟩ : BufTy).Contents (Elt F) → (⟨S64x256, .f32⟩ : BufTy).Contents (Elt F)) xcst_36
  have xv180 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) xarg2
  have xv181 : (⟨S64x256, .f32⟩ : BufTy).Contents (Elt F) := ((fun x i u => Host.scatterAdd scatter_S64x256_S10000x1_S10000x256_1_0_0_1 x i u) : (⟨S64x256, .f32⟩ : BufTy).Contents (Elt F) → (⟨S10000x1, .i32⟩ : BufTy).Contents (Elt F) → (⟨S10000x256, .f32⟩ : BufTy).Contents (Elt F) → (⟨S64x256, .f32⟩ : BufTy).Contents (Elt F)) xv179 xv180 xv178
  xv181

/-- The first dense layer's bias as a one-row matrix. -/
def kFc1b (xarg8 : (⟨S256, .f32⟩ : BufTy).Contents (Elt F)) : (⟨S1x256, .f32⟩ : BufTy).Contents (Elt F) :=
  have xv182 : (⟨S1x256, .f32⟩ : BufTy).Contents (Elt F) := shapeCast _ xarg8 shapeCasts_S256_S1x256
  xv182

/-- The perceptron's rectifier slope as a one-by-one matrix. -/
def kFcA (xarg14 : (⟨S1, .f32⟩ : BufTy).Contents (Elt F)) : (⟨S1x1, .f32⟩ : BufTy).Contents (Elt F) :=
  have xv183 : (⟨S1x1, .f32⟩ : BufTy).Contents (Elt F) := shapeCast _ xarg14 shapeCasts_S1_S1x1
  xv183

/-- The second dense layer's bias as a one-row matrix. -/
def kFc2b (xarg10 : (⟨S128, .f32⟩ : BufTy).Contents (Elt F)) : (⟨S1x128, .f32⟩ : BufTy).Contents (Elt F) :=
  have xv184 : (⟨S1x128, .f32⟩ : BufTy).Contents (Elt F) := shapeCast _ xarg10 shapeCasts_S128_S1x128
  xv184

/-- The third dense layer's bias as a one-row matrix. -/
def kFc3b (xarg12 : (⟨S10, .f32⟩ : BufTy).Contents (Elt F)) : (⟨S1x10, .f32⟩ : BufTy).Contents (Elt F) :=
  have xv185 : (⟨S1x10, .f32⟩ : BufTy).Contents (Elt F) := shapeCast _ xarg12 shapeCasts_S10_S1x10
  xv185

set_option maxHeartbeats 4000000 in
theorem pre_row (W : Valuation τ sig (Elt F)) :
    StableHlo.after (hostOps0_2 (F := F)) (StableHlo.after (hostOps0_1 (F := F)) (StableHlo.after (hostOps0 (F := F)) W)) (Proc.devRef .tc main_v1) = (kRow (W (Proc.devRef .tc main_arg1))) := by
  after_results; rfl

set_option maxHeartbeats 4000000 in
theorem pre_col (W : Valuation τ sig (Elt F)) :
    StableHlo.after (hostOps0_2 (F := F)) (StableHlo.after (hostOps0_1 (F := F)) (StableHlo.after (hostOps0 (F := F)) W)) (Proc.devRef .tc main_v3) = (kCol (W (Proc.devRef .tc main_arg1))) := by
  after_results; rfl

set_option maxHeartbeats 4000000 in
theorem pre_edgeW (W : Valuation τ sig (Elt F)) :
    StableHlo.after (hostOps0_2 (F := F)) (StableHlo.after (hostOps0_1 (F := F)) (StableHlo.after (hostOps0 (F := F)) W)) (Proc.devRef .tc main_v29) = (kEdgeW (W (Proc.devRef .tc main_arg1))) := by
  after_results; rfl

set_option maxHeartbeats 4000000 in
theorem pre_tcat (W : Valuation τ sig (Elt F)) :
    StableHlo.after (hostOps0_2 (F := F)) (StableHlo.after (hostOps0_1 (F := F)) (StableHlo.after (hostOps0 (F := F)) W)) (Proc.devRef .tc main_v59) = (kTcat_1 (W (Proc.devRef .tc main_arg0)) (kT1_1 (W (Proc.devRef .tc main_arg0)) (kEdgeW (W (Proc.devRef .tc main_arg1))) (kRow (W (Proc.devRef .tc main_arg1))) (kCol (W (Proc.devRef .tc main_arg1)))) (kT2_1 (W (Proc.devRef .tc main_arg0)) (kT1_1 (W (Proc.devRef .tc main_arg0)) (kEdgeW (W (Proc.devRef .tc main_arg1))) (kRow (W (Proc.devRef .tc main_arg1))) (kCol (W (Proc.devRef .tc main_arg1)))) (kEdgeW (W (Proc.devRef .tc main_arg1))) (kRow (W (Proc.devRef .tc main_arg1))) (kCol (W (Proc.devRef .tc main_arg1))))) := by
  after_results; rfl

set_option maxHeartbeats 4000000 in
theorem pre_wcat (W : Valuation τ sig (Elt F)) :
    StableHlo.after (hostOps0_2 (F := F)) (StableHlo.after (hostOps0_1 (F := F)) (StableHlo.after (hostOps0 (F := F)) W)) (Proc.devRef .tc main_v60) = (kWc_1 (W (Proc.devRef .tc main_arg3))) := by
  after_results; rfl

set_option maxHeartbeats 4000000 in
theorem pre_bias (W : Valuation τ sig (Elt F)) :
    StableHlo.after (hostOps0_2 (F := F)) (StableHlo.after (hostOps0_1 (F := F)) (StableHlo.after (hostOps0 (F := F)) W)) (Proc.devRef .tc main_v61) = (kB_1 (W (Proc.devRef .tc main_arg4))) := by
  after_results; rfl

set_option maxHeartbeats 4000000 in
theorem pre_slope (W : Valuation τ sig (Elt F)) :
    StableHlo.after (hostOps0_2 (F := F)) (StableHlo.after (hostOps0_1 (F := F)) (StableHlo.after (hostOps0 (F := F)) W)) (Proc.devRef .tc main_v62) = (kA_1 (W (Proc.devRef .tc main_arg13))) := by
  after_results; rfl

set_option maxHeartbeats 4000000 in
theorem hostOps1_tcat (W : Valuation τ sig (Elt F)) :
    StableHlo.after (hostOps1 (F := F)) W (Proc.devRef .tc main_v98) = (kTcat_2 (W (Proc.devRef .tc main_v63)) (kT1_2 (W (Proc.devRef .tc main_v63)) (W (Proc.devRef .tc main_v29)) (W (Proc.devRef .tc main_v1)) (W (Proc.devRef .tc main_v3))) (kT2_2 (W (Proc.devRef .tc main_v63)) (kT1_2 (W (Proc.devRef .tc main_v63)) (W (Proc.devRef .tc main_v29)) (W (Proc.devRef .tc main_v1)) (W (Proc.devRef .tc main_v3))) (W (Proc.devRef .tc main_v29)) (W (Proc.devRef .tc main_v1)) (W (Proc.devRef .tc main_v3)))) := by
  after_results; rfl

set_option maxHeartbeats 4000000 in
theorem hostOps1_wcat (W : Valuation τ sig (Elt F)) :
    StableHlo.after (hostOps1 (F := F)) W (Proc.devRef .tc main_v99) = (kWc_2 (W (Proc.devRef .tc main_arg5))) := by
  after_results; rfl

set_option maxHeartbeats 4000000 in
theorem hostOps1_bias (W : Valuation τ sig (Elt F)) :
    StableHlo.after (hostOps1 (F := F)) W (Proc.devRef .tc main_v100) = (kB_2 (W (Proc.devRef .tc main_arg6))) := by
  after_results; rfl

set_option maxHeartbeats 4000000 in
theorem hostOps1_slope (W : Valuation τ sig (Elt F)) :
    StableHlo.after (hostOps1 (F := F)) W (Proc.devRef .tc main_v101) = (kA_2 kZeroSlope) := by
  after_results; rfl

set_option maxHeartbeats 4000000 in
theorem hostOps2_tcat (W : Valuation τ sig (Elt F)) :
    StableHlo.after (hostOps2 (F := F)) W (Proc.devRef .tc main_v136) = (kTcat_3 (W (Proc.devRef .tc main_v102)) (kT1_3 (W (Proc.devRef .tc main_v102)) (W (Proc.devRef .tc main_v29)) (W (Proc.devRef .tc main_v1)) (W (Proc.devRef .tc main_v3))) (kT2_3 (W (Proc.devRef .tc main_v102)) (kT1_3 (W (Proc.devRef .tc main_v102)) (W (Proc.devRef .tc main_v29)) (W (Proc.devRef .tc main_v1)) (W (Proc.devRef .tc main_v3))) (W (Proc.devRef .tc main_v29)) (W (Proc.devRef .tc main_v1)) (W (Proc.devRef .tc main_v3)))) := by
  after_results; rfl

set_option maxHeartbeats 4000000 in
theorem hostOps2_wcat (W : Valuation τ sig (Elt F)) :
    StableHlo.after (hostOps2 (F := F)) W (Proc.devRef .tc main_v137) = (kWc_3 (W (Proc.devRef .tc main_arg5))) := by
  after_results; rfl

set_option maxHeartbeats 4000000 in
theorem hostOps2_bias (W : Valuation τ sig (Elt F)) :
    StableHlo.after (hostOps2 (F := F)) W (Proc.devRef .tc main_v138) = (kB_3 (W (Proc.devRef .tc main_arg6))) := by
  after_results; rfl

set_option maxHeartbeats 4000000 in
theorem hostOps2_slope (W : Valuation τ sig (Elt F)) :
    StableHlo.after (hostOps2 (F := F)) W (Proc.devRef .tc main_v139) = (kA_3 (W (Proc.devRef .tc main_v64))) := by
  after_results; rfl

set_option maxHeartbeats 4000000 in
theorem hostOps3_tcat (W : Valuation τ sig (Elt F)) :
    StableHlo.after (hostOps3 (F := F)) W (Proc.devRef .tc main_v174) = (kTcat_4 (W (Proc.devRef .tc main_v140)) (kT1_4 (W (Proc.devRef .tc main_v140)) (W (Proc.devRef .tc main_v29)) (W (Proc.devRef .tc main_v1)) (W (Proc.devRef .tc main_v3))) (kT2_4 (W (Proc.devRef .tc main_v140)) (kT1_4 (W (Proc.devRef .tc main_v140)) (W (Proc.devRef .tc main_v29)) (W (Proc.devRef .tc main_v1)) (W (Proc.devRef .tc main_v3))) (W (Proc.devRef .tc main_v29)) (W (Proc.devRef .tc main_v1)) (W (Proc.devRef .tc main_v3)))) := by
  after_results; rfl

set_option maxHeartbeats 4000000 in
theorem hostOps3_wcat (W : Valuation τ sig (Elt F)) :
    StableHlo.after (hostOps3 (F := F)) W (Proc.devRef .tc main_v175) = (kWc_4 (W (Proc.devRef .tc main_arg5))) := by
  after_results; rfl

set_option maxHeartbeats 4000000 in
theorem hostOps3_bias (W : Valuation τ sig (Elt F)) :
    StableHlo.after (hostOps3 (F := F)) W (Proc.devRef .tc main_v176) = (kB_4 (W (Proc.devRef .tc main_arg6))) := by
  after_results; rfl

set_option maxHeartbeats 4000000 in
theorem hostOps3_slope (W : Valuation τ sig (Elt F)) :
    StableHlo.after (hostOps3 (F := F)) W (Proc.devRef .tc main_v177) = (kA_4 (W (Proc.devRef .tc main_v64))) := by
  after_results; rfl

set_option maxHeartbeats 4000000 in
theorem hostOps1_zeroSlope (W : Valuation τ sig (Elt F)) :
    StableHlo.after (hostOps1 (F := F)) W (Proc.devRef .tc main_v64) = kZeroSlope := by
  after_results; rfl

set_option maxHeartbeats 4000000 in
theorem hostOps4_pooled (W : Valuation τ sig (Elt F)) :
    StableHlo.after (hostOps4 (F := F)) W (Proc.devRef .tc main_v181) = (kPooled (W (Proc.devRef .tc main_v178)) (W (Proc.devRef .tc main_arg2))) := by
  after_results; rfl

set_option maxHeartbeats 4000000 in
theorem hostOps4_fc1b (W : Valuation τ sig (Elt F)) :
    StableHlo.after (hostOps4 (F := F)) W (Proc.devRef .tc main_v182) = (kFc1b (W (Proc.devRef .tc main_arg8))) := by
  after_results; rfl

set_option maxHeartbeats 4000000 in
theorem hostOps4_slope (W : Valuation τ sig (Elt F)) :
    StableHlo.after (hostOps4 (F := F)) W (Proc.devRef .tc main_v183) = (kFcA (W (Proc.devRef .tc main_arg14))) := by
  after_results; rfl

set_option maxHeartbeats 4000000 in
theorem hostOps4_fc2b (W : Valuation τ sig (Elt F)) :
    StableHlo.after (hostOps4 (F := F)) W (Proc.devRef .tc main_v184) = (kFc2b (W (Proc.devRef .tc main_arg10))) := by
  after_results; rfl

set_option maxHeartbeats 4000000 in
theorem hostOps4_fc3b (W : Valuation τ sig (Elt F)) :
    StableHlo.after (hostOps4 (F := F)) W (Proc.devRef .tc main_v185) = (kFc3b (W (Proc.devRef .tc main_arg12))) := by
  after_results; rfl

end Cert.KernelIdeal.Terms

end
-- ==== Proof.KResult.lean ====
/-
  The kernel program's result as one function of its arguments. Layer by layer: the features h go to the three
  Chebyshev terms laid side by side, and the dense step of the specification (product with the stacked weights, bias,
  leaky rectifier) gives the next features; the last features are added up per graph and go through the graph-level
  perceptron of the specification.
-/
import proofs.«163009_j11184094839450_1_alg».proof.Proof.Spec
import proofs.«163009_j11184094839450_1_alg».proof.Proof.KTerms
import Idealize.ShloMosaic.Lib.ValueIdx

noncomputable section

namespace Cert.KernelIdeal.KV

open Cert.KernelIdeal Cert.KernelIdeal.Terms Idealize.ShloMosaic Idealize.ShloMosaic.ValueIdx

variable [Facts]

/-- The three Chebyshev terms of the features `h` side by side, for layer `1` (128 features). -/
def terms1 (h : FVec Ideal S10000x128 .f32) (a1 : IVec S2x320000 32) : FVec Ideal S10000x384 .f32 :=
  kTcat_1 (F := Ideal) h (kT1_1 h (kEdgeW a1) (kRow a1) (kCol a1))
    (kT2_1 h (kT1_1 h (kEdgeW a1) (kRow a1) (kCol a1)) (kEdgeW a1) (kRow a1) (kCol a1))

/-- The same for layers 2, 3 and 4 (256 features). -/
def terms2 (h : FVec Ideal S10000x256 .f32) (a1 : IVec S2x320000 32) : FVec Ideal S10000x768 .f32 :=
  kTcat_2 (F := Ideal) h (kT1_2 h (kEdgeW a1) (kRow a1) (kCol a1))
    (kT2_2 h (kT1_2 h (kEdgeW a1) (kRow a1) (kCol a1)) (kEdgeW a1) (kRow a1) (kCol a1))
def terms3 (h : FVec Ideal S10000x256 .f32) (a1 : IVec S2x320000 32) : FVec Ideal S10000x768 .f32 :=
  kTcat_3 (F := Ideal) h (kT1_3 h (kEdgeW a1) (kRow a1) (kCol a1))
    (kT2_3 h (kT1_3 h (kEdgeW a1) (kRow a1) (kCol a1)) (kEdgeW a1) (kRow a1) (kCol a1))
def terms4 (h : FVec Ideal S10000x256 .f32) (a1 : IVec S2x320000 32) : FVec Ideal S10000x768 .f32 :=
  kTcat_4 (F := Ideal) h (kT1_4 h (kEdgeW a1) (kRow a1) (kCol a1))
    (kT2_4 h (kT1_4 h (kEdgeW a1) (kRow a1) (kCol a1)) (kEdgeW a1) (kRow a1) (kCol a1))

/-- The features after layer 1. -/
def feat1 (a0 : FVec Ideal S10000x128 .f32) (a1 : IVec S2x320000 32) (a3 : FVec Ideal S3x128x256 .f32) (a4 : FVec Ideal S256 .f32)
    (a13 : FVec Ideal S1 .f32) : FVec Ideal S10000x256 .f32 := fun (i : S10000x256.Idx) =>
  Cert.Spec.chebOut (fun r k => terms1 a0 a1 (ix2 r k)) (fun k j => kWc_1 (F := Ideal) a3 (ix2 k j)) (fun j => kB_1 (F := Ideal) a4 (ix2 0 j))
    (kA_1 (F := Ideal) a13 (ix2 0 0)) (i 0) (i 1)

/-- The features after layers 2, 3 and 4, each from the features before it. -/
def feat2 (h : FVec Ideal S10000x256 .f32) (a1 : IVec S2x320000 32) (a5 : FVec Ideal S3x3x256x256 .f32) (a6 : FVec Ideal S3x256 .f32) :
    FVec Ideal S10000x256 .f32 := fun (i : S10000x256.Idx) =>
  Cert.Spec.chebOut (fun r k => terms2 h a1 (ix2 r k)) (fun k j => kWc_2 (F := Ideal) a5 (ix2 k j)) (fun j => kB_2 (F := Ideal) a6 (ix2 0 j))
    (kA_2 (F := Ideal) kZeroSlope (ix2 0 0)) (i 0) (i 1)
def feat3 (h : FVec Ideal S10000x256 .f32) (a1 : IVec S2x320000 32) (a5 : FVec Ideal S3x3x256x256 .f32) (a6 : FVec Ideal S3x256 .f32) :
    FVec Ideal S10000x256 .f32 := fun (i : S10000x256.Idx) =>
  Cert.Spec.chebOut (fun r k => terms3 h a1 (ix2 r k)) (fun k j => kWc_3 (F := Ideal) a5 (ix2 k j)) (fun j => kB_3 (F := Ideal) a6 (ix2 0 j))
    (kA_3 (F := Ideal) kZeroSlope (ix2 0 0)) (i 0) (i 1)
def feat4 (h : FVec Ideal S10000x256 .f32) (a1 : IVec S2x320000 32) (a5 : FVec Ideal S3x3x256x256 .f32) (a6 : FVec Ideal S3x256 .f32) :
    FVec Ideal S10000x256 .f32 := fun (i : S10000x256.Idx) =>
  Cert.Spec.chebOut (fun r k => terms4 h a1 (ix2 r k)) (fun k j => kWc_4 (F := Ideal) a5 (ix2 k j)) (fun j => kB_4 (F := Ideal) a6 (ix2 0 j))
    (kA_4 (F := Ideal) kZeroSlope (ix2 0 0)) (i 0) (i 1)

/-- The perceptron of the specification on the pooled last features. -/
def head (h : FVec Ideal S10000x256 .f32) (a2 : IVec S10000 32) (a7 : FVec Ideal S256x256 .f32) (a8 : FVec Ideal S256 .f32)
    (a9 : FVec Ideal S256x128 .f32) (a10 : FVec Ideal S128 .f32) (a11 : FVec Ideal S128x10 .f32) (a12 : FVec Ideal S10 .f32)
    (a14 : FVec Ideal S1 .f32) : FVec Ideal S64x10 .f32 := fun (i : S64x10.Idx) =>
  Cert.Spec.mlpOut (fun r k => kPooled (F := Ideal) h a2 (ix2 r k)) (fun k j => a7 (ix2 k j)) (fun j => kFc1b (F := Ideal) a8 (ix2 0 j))
    (kFcA (F := Ideal) a14 (ix2 0 0)) (fun k j => a9 (ix2 k j)) (fun j => kFc2b (F := Ideal) a10 (ix2 0 j)) (fun k j => a11 (ix2 k j))
    (fun j => kFc3b (F := Ideal) a12 (ix2 0 j)) (i 0) (i 1)

/-- The kernel program's result from its fifteen arguments. -/
def result (a0 : FVec Ideal S10000x128 .f32) (a1 : IVec S2x320000 32) (a2 : IVec S10000 32) (a3 : FVec Ideal S3x128x256 .f32)
    (a4 : FVec Ideal S256 .f32) (a5 : FVec Ideal S3x3x256x256 .f32) (a6 : FVec Ideal S3x256 .f32) (a7 : FVec Ideal S256x256 .f32)
    (a8 : FVec Ideal S256 .f32) (a9 : FVec Ideal S256x128 .f32) (a10 : FVec Ideal S128 .f32) (a11 : FVec Ideal S128x10 .f32)
    (a12 : FVec Ideal S10 .f32) (a13 : FVec Ideal S1 .f32) (a14 : FVec Ideal S1 .f32) : FVec Ideal S64x10 .f32 :=
  head (feat4 (feat3 (feat2 (feat1 a0 a1 a3 a4 a13) a1 a5 a6) a1 a5 a6) a1 a5 a6) a2 a7 a8 a9 a10 a11 a12 a14

end Cert.KernelIdeal.KV

end
-- ==== Proof.KKeeps.lean ====
/-
  What the kernel program's host stretches leave alone: no stretch writes an argument array, and the edge weights,
  the edge list's two rows and the zero slope, once computed, are only read by the later stretches.
-/
import proofs.«163009_j11184094839450_1_alg».proof.Proof.Gen.KernelIdeal.Launch
import Idealize.ShloMosaic.Lib.StableHlo.Run

noncomputable section

namespace Cert.KernelIdeal.Terms

open Cert.KernelIdeal Cert.KernelIdeal.Gen Idealize.ShloMosaic Idealize.ShloMosaic.TcCoe Idealize.SL.Sem Idealize.ShloMosaic.StableHlo

variable {F : FTy → Type} [FloatOps F]

variable [Facts]

set_option maxHeartbeats 4000000 in
theorem pre_keeps_arg0 (W : Valuation τ sig (Elt F)) :
    StableHlo.after (hostOps0_2 (F := F)) (StableHlo.after (hostOps0_1 (F := F)) (StableHlo.after (hostOps0 (F := F)) W)) (Proc.devRef .tc main_arg0) = W (Proc.devRef .tc main_arg0) := by
  after_results_simp <;> rfl

set_option maxHeartbeats 4000000 in
theorem pre_keeps_arg1 (W : Valuation τ sig (Elt F)) :
    StableHlo.after (hostOps0_2 (F := F)) (StableHlo.after (hostOps0_1 (F := F)) (StableHlo.after (hostOps0 (F := F)) W)) (Proc.devRef .tc main_arg1) = W (Proc.devRef .tc main_arg1) := by
  after_results_simp <;> rfl

set_option maxHeartbeats 4000000 in
theorem pre_keeps_arg2 (W : Valuation τ sig (Elt F)) :
    StableHlo.after (hostOps0_2 (F := F)) (StableHlo.after (hostOps0_1 (F := F)) (StableHlo.after (hostOps0 (F := F)) W)) (Proc.devRef .tc main_arg2) = W (Proc.devRef .tc main_arg2) := by
  after_results_simp <;> rfl

set_option maxHeartbeats 4000000 in
theorem pre_keeps_arg3 (W : Valuation τ sig (Elt F)) :
    StableHlo.after (hostOps0_2 (F := F)) (StableHlo.after (hostOps0_1 (F := F)) (StableHlo.after (hostOps0 (F := F)) W)) (Proc.devRef .tc main_arg3) = W (Proc.devRef .tc main_arg3) := by
  after_results_simp <;> rfl

set_option maxHeartbeats 4000000 in
theorem pre_keeps_arg4 (W : Valuation τ sig (Elt F)) :
    StableHlo.after (hostOps0_2 (F := F)) (StableHlo.after (hostOps0_1 (F := F)) (StableHlo.after (hostOps0 (F := F)) W)) (Proc.devRef .tc main_arg4) = W (Proc.devRef .tc main_arg4) := by
  after_results_simp <;> rfl

set_option maxHeartbeats 4000000 in
theorem pre_keeps_arg5 (W : Valuation τ sig (Elt F)) :
    StableHlo.after (hostOps0_2 (F := F)) (StableHlo.after (hostOps0_1 (F := F)) (StableHlo.after (hostOps0 (F := F)) W)) (Proc.devRef .tc main_arg5) = W (Proc.devRef .tc main_arg5) := by
  after_results_simp <;> rfl

set_option maxHeartbeats 4000000 in
theorem pre_keeps_arg6 (W : Valuation τ sig (Elt F)) :
    StableHlo.after (hostOps0_2 (F := F)) (StableHlo.after (hostOps0_1 (F := F)) (StableHlo.after (hostOps0 (F := F)) W)) (Proc.devRef .tc main_arg6) = W (Proc.devRef .tc main_arg6) := by
  after_results_simp <;> rfl

set_option maxHeartbeats 4000000 in
theorem pre_keeps_arg7 (W : Valuation τ sig (Elt F)) :
    StableHlo.after (hostOps0_2 (F := F)) (StableHlo.after (hostOps0_1 (F := F)) (StableHlo.after (hostOps0 (F := F)) W)) (Proc.devRef .tc main_arg7) = W (Proc.devRef .tc main_arg7) := by
  after_results_simp <;> rfl

set_option maxHeartbeats 4000000 in
theorem pre_keeps_arg8 (W : Valuation τ sig (Elt F)) :
    StableHlo.after (hostOps0_2 (F := F)) (StableHlo.after (hostOps0_1 (F := F)) (StableHlo.after (hostOps0 (F := F)) W)) (Proc.devRef .tc main_arg8) = W (Proc.devRef .tc main_arg8) := by
  after_results_simp <;> rfl

set_option maxHeartbeats 4000000 in
theorem pre_keeps_arg9 (W : Valuation τ sig (Elt F)) :
    StableHlo.after (hostOps0_2 (F := F)) (StableHlo.after (hostOps0_1 (F := F)) (StableHlo.after (hostOps0 (F := F)) W)) (Proc.devRef .tc main_arg9) = W (Proc.devRef .tc main_arg9) := by
  after_results_simp <;> rfl

set_option maxHeartbeats 4000000 in
theorem pre_keeps_arg10 (W : Valuation τ sig (Elt F)) :
    StableHlo.after (hostOps0_2 (F := F)) (StableHlo.after (hostOps0_1 (F := F)) (StableHlo.after (hostOps0 (F := F)) W)) (Proc.devRef .tc main_arg10) = W (Proc.devRef .tc main_arg10) := by
  after_results_simp <;> rfl

set_option maxHeartbeats 4000000 in
theorem pre_keeps_arg11 (W : Valuation τ sig (Elt F)) :
    StableHlo.after (hostOps0_2 (F := F)) (StableHlo.after (hostOps0_1 (F := F)) (StableHlo.after (hostOps0 (F := F)) W)) (Proc.devRef .tc main_arg11) = W (Proc.devRef .tc main_arg11) := by
  after_results_simp <;> rfl

set_option maxHeartbeats 4000000 in
theorem pre_keeps_arg12 (W : Valuation τ sig (Elt F)) :
    StableHlo.after (hostOps0_2 (F := F)) (StableHlo.after (hostOps0_1 (F := F)) (StableHlo.after (hostOps0 (F := F)) W)) (Proc.devRef .tc main_arg12) = W (Proc.devRef .tc main_arg12) := by
  after_results_simp <;> rfl

set_option maxHeartbeats 4000000 in
theorem pre_keeps_arg13 (W : Valuation τ sig (Elt F)) :
    StableHlo.after (hostOps0_2 (F := F)) (StableHlo.after (hostOps0_1 (F := F)) (StableHlo.after (hostOps0 (F := F)) W)) (Proc.devRef .tc main_arg13) = W (Proc.devRef .tc main_arg13) := by
  after_results_simp <;> rfl

set_option maxHeartbeats 4000000 in
theorem pre_keeps_arg14 (W : Valuation τ sig (Elt F)) :
    StableHlo.after (hostOps0_2 (F := F)) (StableHlo.after (hostOps0_1 (F := F)) (StableHlo.after (hostOps0 (F := F)) W)) (Proc.devRef .tc main_arg14) = W (Proc.devRef .tc main_arg14) := by
  after_results_simp <;> rfl

set_option maxHeartbeats 4000000 in
theorem hostOps1_keeps_arg0 (W : Valuation τ sig (Elt F)) :
    StableHlo.after (hostOps1 (F := F)) W (Proc.devRef .tc main_arg0) = W (Proc.devRef .tc main_arg0) := by
  after_results_simp <;> rfl

set_option maxHeartbeats 4000000 in
theorem hostOps1_keeps_arg1 (W : Valuation τ sig (Elt F)) :
    StableHlo.after (hostOps1 (F := F)) W (Proc.devRef .tc main_arg1) = W (Proc.devRef .tc main_arg1) := by
  after_results_simp <;> rfl

set_option maxHeartbeats 4000000 in
theorem hostOps1_keeps_arg2 (W : Valuation τ sig (Elt F)) :
    StableHlo.after (hostOps1 (F := F)) W (Proc.devRef .tc main_arg2) = W (Proc.devRef .tc main_arg2) := by
  after_results_simp <;> rfl

set_option maxHeartbeats 4000000 in
theorem hostOps1_keeps_arg3 (W : Valuation τ sig (Elt F)) :
    StableHlo.after (hostOps1 (F := F)) W (Proc.devRef .tc main_arg3) = W (Proc.devRef .tc main_arg3) := by
  after_results_simp <;> rfl

set_option maxHeartbeats 4000000 in
theorem hostOps1_keeps_arg4 (W : Valuation τ sig (Elt F)) :
    StableHlo.after (hostOps1 (F := F)) W (Proc.devRef .tc main_arg4) = W (Proc.devRef .tc main_arg4) := by
  after_results_simp <;> rfl

set_option maxHeartbeats 4000000 in
theorem hostOps1_keeps_arg5 (W : Valuation τ sig (Elt F)) :
    StableHlo.after (hostOps1 (F := F)) W (Proc.devRef .tc main_arg5) = W (Proc.devRef .tc main_arg5) := by
  after_results_simp <;> rfl

set_option maxHeartbeats 4000000 in
theorem hostOps1_keeps_arg6 (W : Valuation τ sig (Elt F)) :
    StableHlo.after (hostOps1 (F := F)) W (Proc.devRef .tc main_arg6) = W (Proc.devRef .tc main_arg6) := by
  after_results_simp <;> rfl

set_option maxHeartbeats 4000000 in
theorem hostOps1_keeps_arg7 (W : Valuation τ sig (Elt F)) :
    StableHlo.after (hostOps1 (F := F)) W (Proc.devRef .tc main_arg7) = W (Proc.devRef .tc main_arg7) := by
  after_results_simp <;> rfl

set_option maxHeartbeats 4000000 in
theorem hostOps1_keeps_arg8 (W : Valuation τ sig (Elt F)) :
    StableHlo.after (hostOps1 (F := F)) W (Proc.devRef .tc main_arg8) = W (Proc.devRef .tc main_arg8) := by
  after_results_simp <;> rfl

set_option maxHeartbeats 4000000 in
theorem hostOps1_keeps_arg9 (W : Valuation τ sig (Elt F)) :
    StableHlo.after (hostOps1 (F := F)) W (Proc.devRef .tc main_arg9) = W (Proc.devRef .tc main_arg9) := by
  after_results_simp <;> rfl

set_option maxHeartbeats 4000000 in
theorem hostOps1_keeps_arg10 (W : Valuation τ sig (Elt F)) :
    StableHlo.after (hostOps1 (F := F)) W (Proc.devRef .tc main_arg10) = W (Proc.devRef .tc main_arg10) := by
  after_results_simp <;> rfl

set_option maxHeartbeats 4000000 in
theorem hostOps1_keeps_arg11 (W : Valuation τ sig (Elt F)) :
    StableHlo.after (hostOps1 (F := F)) W (Proc.devRef .tc main_arg11) = W (Proc.devRef .tc main_arg11) := by
  after_results_simp <;> rfl

set_option maxHeartbeats 4000000 in
theorem hostOps1_keeps_arg12 (W : Valuation τ sig (Elt F)) :
    StableHlo.after (hostOps1 (F := F)) W (Proc.devRef .tc main_arg12) = W (Proc.devRef .tc main_arg12) := by
  after_results_simp <;> rfl

set_option maxHeartbeats 4000000 in
theorem hostOps1_keeps_arg13 (W : Valuation τ sig (Elt F)) :
    StableHlo.after (hostOps1 (F := F)) W (Proc.devRef .tc main_arg13) = W (Proc.devRef .tc main_arg13) := by
  after_results_simp <;> rfl

set_option maxHeartbeats 4000000 in
theorem hostOps1_keeps_arg14 (W : Valuation τ sig (Elt F)) :
    StableHlo.after (hostOps1 (F := F)) W (Proc.devRef .tc main_arg14) = W (Proc.devRef .tc main_arg14) := by
  after_results_simp <;> rfl

set_option maxHeartbeats 4000000 in
theorem hostOps1_keeps_v29 (W : Valuation τ sig (Elt F)) :
    StableHlo.after (hostOps1 (F := F)) W (Proc.devRef .tc main_v29) = W (Proc.devRef .tc main_v29) := by
  after_results_simp <;> rfl

set_option maxHeartbeats 4000000 in
theorem hostOps1_keeps_v1 (W : Valuation τ sig (Elt F)) :
    StableHlo.after (hostOps1 (F := F)) W (Proc.devRef .tc main_v1) = W (Proc.devRef .tc main_v1) := by
  after_results_simp <;> rfl

set_option maxHeartbeats 4000000 in
theorem hostOps1_keeps_v3 (W : Valuation τ sig (Elt F)) :
    StableHlo.after (hostOps1 (F := F)) W (Proc.devRef .tc main_v3) = W (Proc.devRef .tc main_v3) := by
  after_results_simp <;> rfl

set_option maxHeartbeats 4000000 in
theorem hostOps2_keeps_arg0 (W : Valuation τ sig (Elt F)) :
    StableHlo.after (hostOps2 (F := F)) W (Proc.devRef .tc main_arg0) = W (Proc.devRef .tc main_arg0) := by
  after_results_simp <;> rfl

set_option maxHeartbeats 4000000 in
theorem hostOps2_keeps_arg1 (W : Valuation τ sig (Elt F)) :
    StableHlo.after (hostOps2 (F := F)) W (Proc.devRef .tc main_arg1) = W (Proc.devRef .tc main_arg1) := by
  after_results_simp <;> rfl

set_option maxHeartbeats 4000000 in
theorem hostOps2_keeps_arg2 (W : Valuation τ sig (Elt F)) :
    StableHlo.after (hostOps2 (F := F)) W (Proc.devRef .tc main_arg2) = W (Proc.devRef .tc main_arg2) := by
  after_results_simp <;> rfl

set_option maxHeartbeats 4000000 in
theorem hostOps2_keeps_arg3 (W : Valuation τ sig (Elt F)) :
    StableHlo.after (hostOps2 (F := F)) W (Proc.devRef .tc main_arg3) = W (Proc.devRef .tc main_arg3) := by
  after_results_simp <;> rfl

set_option maxHeartbeats 4000000 in
theorem hostOps2_keeps_arg4 (W : Valuation τ sig (Elt F)) :
    StableHlo.after (hostOps2 (F := F)) W (Proc.devRef .tc main_arg4) = W (Proc.devRef .tc main_arg4) := by
  after_results_simp <;> rfl

set_option maxHeartbeats 4000000 in
theorem hostOps2_keeps_arg5 (W : Valuation τ sig (Elt F)) :
    StableHlo.after (hostOps2 (F := F)) W (Proc.devRef .tc main_arg5) = W (Proc.devRef .tc main_arg5) := by
  after_results_simp <;> rfl

set_option maxHeartbeats 4000000 in
theorem hostOps2_keeps_arg6 (W : Valuation τ sig (Elt F)) :
    StableHlo.after (hostOps2 (F := F)) W (Proc.devRef .tc main_arg6) = W (Proc.devRef .tc main_arg6) := by
  after_results_simp <;> rfl

set_option maxHeartbeats 4000000 in
theorem hostOps2_keeps_arg7 (W : Valuation τ sig (Elt F)) :
    StableHlo.after (hostOps2 (F := F)) W (Proc.devRef .tc main_arg7) = W (Proc.devRef .tc main_arg7) := by
  after_results_simp <;> rfl

set_option maxHeartbeats 4000000 in
theorem hostOps2_keeps_arg8 (W : Valuation τ sig (Elt F)) :
    StableHlo.after (hostOps2 (F := F)) W (Proc.devRef .tc main_arg8) = W (Proc.devRef .tc main_arg8) := by
  after_results_simp <;> rfl

set_option maxHeartbeats 4000000 in
theorem hostOps2_keeps_arg9 (W : Valuation τ sig (Elt F)) :
    StableHlo.after (hostOps2 (F := F)) W (Proc.devRef .tc main_arg9) = W (Proc.devRef .tc main_arg9) := by
  after_results_simp <;> rfl

set_option maxHeartbeats 4000000 in
theorem hostOps2_keeps_arg10 (W : Valuation τ sig (Elt F)) :
    StableHlo.after (hostOps2 (F := F)) W (Proc.devRef .tc main_arg10) = W (Proc.devRef .tc main_arg10) := by
  after_results_simp <;> rfl

set_option maxHeartbeats 4000000 in
theorem hostOps2_keeps_arg11 (W : Valuation τ sig (Elt F)) :
    StableHlo.after (hostOps2 (F := F)) W (Proc.devRef .tc main_arg11) = W (Proc.devRef .tc main_arg11) := by
  after_results_simp <;> rfl

set_option maxHeartbeats 4000000 in
theorem hostOps2_keeps_arg12 (W : Valuation τ sig (Elt F)) :
    StableHlo.after (hostOps2 (F := F)) W (Proc.devRef .tc main_arg12) = W (Proc.devRef .tc main_arg12) := by
  after_results_simp <;> rfl

set_option maxHeartbeats 4000000 in
theorem hostOps2_keeps_arg13 (W : Valuation τ sig (Elt F)) :
    StableHlo.after (hostOps2 (F := F)) W (Proc.devRef .tc main_arg13) = W (Proc.devRef .tc main_arg13) := by
  after_results_simp <;> rfl

set_option maxHeartbeats 4000000 in
theorem hostOps2_keeps_arg14 (W : Valuation τ sig (Elt F)) :
    StableHlo.after (hostOps2 (F := F)) W (Proc.devRef .tc main_arg14) = W (Proc.devRef .tc main_arg14) := by
  after_results_simp <;> rfl

set_option maxHeartbeats 4000000 in
theorem hostOps2_keeps_v29 (W : Valuation τ sig (Elt F)) :
    StableHlo.after (hostOps2 (F := F)) W (Proc.devRef .tc main_v29) = W (Proc.devRef .tc main_v29) := by
  after_results_simp <;> rfl

set_option maxHeartbeats 4000000 in
theorem hostOps2_keeps_v1 (W : Valuation τ sig (Elt F)) :
    StableHlo.after (hostOps2 (F := F)) W (Proc.devRef .tc main_v1) = W (Proc.devRef .tc main_v1) := by
  after_results_simp <;> rfl

set_option maxHeartbeats 4000000 in
theorem hostOps2_keeps_v3 (W : Valuation τ sig (Elt F)) :
    StableHlo.after (hostOps2 (F := F)) W (Proc.devRef .tc main_v3) = W (Proc.devRef .tc main_v3) := by
  after_results_simp <;> rfl

set_option maxHeartbeats 4000000 in
theorem hostOps2_keeps_v64 (W : Valuation τ sig (Elt F)) :
    StableHlo.after (hostOps2 (F := F)) W (Proc.devRef .tc main_v64) = W (Proc.devRef .tc main_v64) := by
  after_results_simp <;> rfl

set_option maxHeartbeats 4000000 in
theorem hostOps3_keeps_arg0 (W : Valuation τ sig (Elt F)) :
    StableHlo.after (hostOps3 (F := F)) W (Proc.devRef .tc main_arg0) = W (Proc.devRef .tc main_arg0) := by
  after_results_simp <;> rfl

set_option maxHeartbeats 4000000 in
theorem hostOps3_keeps_arg1 (W : Valuation τ sig (Elt F)) :
    StableHlo.after (hostOps3 (F := F)) W (Proc.devRef .tc main_arg1) = W (Proc.devRef .tc main_arg1) := by
  after_results_simp <;> rfl

set_option maxHeartbeats 4000000 in
theorem hostOps3_keeps_arg2 (W : Valuation τ sig (Elt F)) :
    StableHlo.after (hostOps3 (F := F)) W (Proc.devRef .tc main_arg2) = W (Proc.devRef .tc main_arg2) := by
  after_results_simp <;> rfl

set_option maxHeartbeats 4000000 in
theorem hostOps3_keeps_arg3 (W : Valuation τ sig (Elt F)) :
    StableHlo.after (hostOps3 (F := F)) W (Proc.devRef .tc main_arg3) = W (Proc.devRef .tc main_arg3) := by
  after_results_simp <;> rfl

set_option maxHeartbeats 4000000 in
theorem hostOps3_keeps_arg4 (W : Valuation τ sig (Elt F)) :
    StableHlo.after (hostOps3 (F := F)) W (Proc.devRef .tc main_arg4) = W (Proc.devRef .tc main_arg4) := by
  after_results_simp <;> rfl

set_option maxHeartbeats 4000000 in
theorem hostOps3_keeps_arg5 (W : Valuation τ sig (Elt F)) :
    StableHlo.after (hostOps3 (F := F)) W (Proc.devRef .tc main_arg5) = W (Proc.devRef .tc main_arg5) := by
  after_results_simp <;> rfl

set_option maxHeartbeats 4000000 in
theorem hostOps3_keeps_arg6 (W : Valuation τ sig (Elt F)) :
    StableHlo.after (hostOps3 (F := F)) W (Proc.devRef .tc main_arg6) = W (Proc.devRef .tc main_arg6) := by
  after_results_simp <;> rfl

set_option maxHeartbeats 4000000 in
theorem hostOps3_keeps_arg7 (W : Valuation τ sig (Elt F)) :
    StableHlo.after (hostOps3 (F := F)) W (Proc.devRef .tc main_arg7) = W (Proc.devRef .tc main_arg7) := by
  after_results_simp <;> rfl

set_option maxHeartbeats 4000000 in
theorem hostOps3_keeps_arg8 (W : Valuation τ sig (Elt F)) :
    StableHlo.after (hostOps3 (F := F)) W (Proc.devRef .tc main_arg8) = W (Proc.devRef .tc main_arg8) := by
  after_results_simp <;> rfl

set_option maxHeartbeats 4000000 in
theorem hostOps3_keeps_arg9 (W : Valuation τ sig (Elt F)) :
    StableHlo.after (hostOps3 (F := F)) W (Proc.devRef .tc main_arg9) = W (Proc.devRef .tc main_arg9) := by
  after_results_simp <;> rfl

set_option maxHeartbeats 4000000 in
theorem hostOps3_keeps_arg10 (W : Valuation τ sig (Elt F)) :
    StableHlo.after (hostOps3 (F := F)) W (Proc.devRef .tc main_arg10) = W (Proc.devRef .tc main_arg10) := by
  after_results_simp <;> rfl

set_option maxHeartbeats 4000000 in
theorem hostOps3_keeps_arg11 (W : Valuation τ sig (Elt F)) :
    StableHlo.after (hostOps3 (F := F)) W (Proc.devRef .tc main_arg11) = W (Proc.devRef .tc main_arg11) := by
  after_results_simp <;> rfl

set_option maxHeartbeats 4000000 in
theorem hostOps3_keeps_arg12 (W : Valuation τ sig (Elt F)) :
    StableHlo.after (hostOps3 (F := F)) W (Proc.devRef .tc main_arg12) = W (Proc.devRef .tc main_arg12) := by
  after_results_simp <;> rfl

set_option maxHeartbeats 4000000 in
theorem hostOps3_keeps_arg13 (W : Valuation τ sig (Elt F)) :
    StableHlo.after (hostOps3 (F := F)) W (Proc.devRef .tc main_arg13) = W (Proc.devRef .tc main_arg13) := by
  after_results_simp <;> rfl

set_option maxHeartbeats 4000000 in
theorem hostOps3_keeps_arg14 (W : Valuation τ sig (Elt F)) :
    StableHlo.after (hostOps3 (F := F)) W (Proc.devRef .tc main_arg14) = W (Proc.devRef .tc main_arg14) := by
  after_results_simp <;> rfl

set_option maxHeartbeats 4000000 in
theorem hostOps3_keeps_v29 (W : Valuation τ sig (Elt F)) :
    StableHlo.after (hostOps3 (F := F)) W (Proc.devRef .tc main_v29) = W (Proc.devRef .tc main_v29) := by
  after_results_simp <;> rfl

set_option maxHeartbeats 4000000 in
theorem hostOps3_keeps_v1 (W : Valuation τ sig (Elt F)) :
    StableHlo.after (hostOps3 (F := F)) W (Proc.devRef .tc main_v1) = W (Proc.devRef .tc main_v1) := by
  after_results_simp <;> rfl

set_option maxHeartbeats 4000000 in
theorem hostOps3_keeps_v3 (W : Valuation τ sig (Elt F)) :
    StableHlo.after (hostOps3 (F := F)) W (Proc.devRef .tc main_v3) = W (Proc.devRef .tc main_v3) := by
  after_results_simp <;> rfl

set_option maxHeartbeats 4000000 in
theorem hostOps3_keeps_v64 (W : Valuation τ sig (Elt F)) :
    StableHlo.after (hostOps3 (F := F)) W (Proc.devRef .tc main_v64) = W (Proc.devRef .tc main_v64) := by
  after_results_simp <;> rfl

set_option maxHeartbeats 4000000 in
theorem hostOps4_keeps_arg0 (W : Valuation τ sig (Elt F)) :
    StableHlo.after (hostOps4 (F := F)) W (Proc.devRef .tc main_arg0) = W (Proc.devRef .tc main_arg0) := by
  after_results_simp <;> rfl

set_option maxHeartbeats 4000000 in
theorem hostOps4_keeps_arg1 (W : Valuation τ sig (Elt F)) :
    StableHlo.after (hostOps4 (F := F)) W (Proc.devRef .tc main_arg1) = W (Proc.devRef .tc main_arg1) := by
  after_results_simp <;> rfl

set_option maxHeartbeats 4000000 in
theorem hostOps4_keeps_arg2 (W : Valuation τ sig (Elt F)) :
    StableHlo.after (hostOps4 (F := F)) W (Proc.devRef .tc main_arg2) = W (Proc.devRef .tc main_arg2) := by
  after_results_simp <;> rfl

set_option maxHeartbeats 4000000 in
theorem hostOps4_keeps_arg3 (W : Valuation τ sig (Elt F)) :
    StableHlo.after (hostOps4 (F := F)) W (Proc.devRef .tc main_arg3) = W (Proc.devRef .tc main_arg3) := by
  after_results_simp <;> rfl

set_option maxHeartbeats 4000000 in
theorem hostOps4_keeps_arg4 (W : Valuation τ sig (Elt F)) :
    StableHlo.after (hostOps4 (F := F)) W (Proc.devRef .tc main_arg4) = W (Proc.devRef .tc main_arg4) := by
  after_results_simp <;> rfl

set_option maxHeartbeats 4000000 in
theorem hostOps4_keeps_arg5 (W : Valuation τ sig (Elt F)) :
    StableHlo.after (hostOps4 (F := F)) W (Proc.devRef .tc main_arg5) = W (Proc.devRef .tc main_arg5) := by
  after_results_simp <;> rfl

set_option maxHeartbeats 4000000 in
theorem hostOps4_keeps_arg6 (W : Valuation τ sig (Elt F)) :
    StableHlo.after (hostOps4 (F := F)) W (Proc.devRef .tc main_arg6) = W (Proc.devRef .tc main_arg6) := by
  after_results_simp <;> rfl

set_option maxHeartbeats 4000000 in
theorem hostOps4_keeps_arg7 (W : Valuation τ sig (Elt F)) :
    StableHlo.after (hostOps4 (F := F)) W (Proc.devRef .tc main_arg7) = W (Proc.devRef .tc main_arg7) := by
  after_results_simp <;> rfl

set_option maxHeartbeats 4000000 in
theorem hostOps4_keeps_arg8 (W : Valuation τ sig (Elt F)) :
    StableHlo.after (hostOps4 (F := F)) W (Proc.devRef .tc main_arg8) = W (Proc.devRef .tc main_arg8) := by
  after_results_simp <;> rfl

set_option maxHeartbeats 4000000 in
theorem hostOps4_keeps_arg9 (W : Valuation τ sig (Elt F)) :
    StableHlo.after (hostOps4 (F := F)) W (Proc.devRef .tc main_arg9) = W (Proc.devRef .tc main_arg9) := by
  after_results_simp <;> rfl

set_option maxHeartbeats 4000000 in
theorem hostOps4_keeps_arg10 (W : Valuation τ sig (Elt F)) :
    StableHlo.after (hostOps4 (F := F)) W (Proc.devRef .tc main_arg10) = W (Proc.devRef .tc main_arg10) := by
  after_results_simp <;> rfl

set_option maxHeartbeats 4000000 in
theorem hostOps4_keeps_arg11 (W : Valuation τ sig (Elt F)) :
    StableHlo.after (hostOps4 (F := F)) W (Proc.devRef .tc main_arg11) = W (Proc.devRef .tc main_arg11) := by
  after_results_simp <;> rfl

set_option maxHeartbeats 4000000 in
theorem hostOps4_keeps_arg12 (W : Valuation τ sig (Elt F)) :
    StableHlo.after (hostOps4 (F := F)) W (Proc.devRef .tc main_arg12) = W (Proc.devRef .tc main_arg12) := by
  after_results_simp <;> rfl

set_option maxHeartbeats 4000000 in
theorem hostOps4_keeps_arg13 (W : Valuation τ sig (Elt F)) :
    StableHlo.after (hostOps4 (F := F)) W (Proc.devRef .tc main_arg13) = W (Proc.devRef .tc main_arg13) := by
  after_results_simp <;> rfl

set_option maxHeartbeats 4000000 in
theorem hostOps4_keeps_arg14 (W : Valuation τ sig (Elt F)) :
    StableHlo.after (hostOps4 (F := F)) W (Proc.devRef .tc main_arg14) = W (Proc.devRef .tc main_arg14) := by
  after_results_simp <;> rfl

end Cert.KernelIdeal.Terms

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.ChebPayload.lean ====
/-
  The dense step of a Chebyshev layer, read at one entry of its output block, at the extended reals.

  The kernel's block of 1000 rows is the product of a [1000, K] block T with the [K, 256] weights W accumulated
  into the zero block, plus the bias row b, passed through the leaky rectifier whose slope is the single entry a:
  entry (p, q) is  leaky 0 a ((sum over k < K of T[p,k] * W[k,q]) + b[q]).  Rounding to the narrower float format
  before the product is the identity at the extended reals. K is 384 for the first layer and 768 for the others.
-/
import proofs.«163009_j11184094839450_1_alg».proof.Proof.Spec
import proofs.«163009_j11184094839450_1_alg».proof.Proof.LibOneAxisDot
import proofs.«163009_j11184094839450_1_alg».proof.Proof.Gen.KernelIdeal.Skeleton
import Idealize.ShloMosaic.Lib.ValueLayout

noncomputable section

open scoped BigOperators

namespace Cert.KernelIdeal.ChebValue

open Idealize.ShloMosaic Idealize.ShloMosaic.ValueIdx Cert.KernelIdeal

/-! ## The matrix product at an entry -/

theorem lhs384_0 (i : S1000x256.Idx) (c : dot_S1000x384_S384x256_S1000x256_1_0_0_1_n_n.contr.Idx) :
    (dot_S1000x384_S384x256_S1000x256_1_0_0_1_n_n.lhsIdx i c 0).val = (i 0).val := by
  unfold DotDims.lhsIdx
  rw [dif_neg (show ¬(0 : Fin S1000x384.rank) ∈ dot_S1000x384_S384x256_S1000x256_1_0_0_1_n_n.lhsBatch by decide),
    dif_pos (show (0 : Fin S1000x384.rank) ∈ dot_S1000x384_S384x256_S1000x256_1_0_0_1_n_n.lhsNonContracting by decide)]
  rfl
theorem lhs384_1 (i : S1000x256.Idx) (c : dot_S1000x384_S384x256_S1000x256_1_0_0_1_n_n.contr.Idx) :
    (dot_S1000x384_S384x256_S1000x256_1_0_0_1_n_n.lhsIdx i c 1).val = (c ⟨0, by decide⟩).val :=
  dot_S1000x384_S384x256_S1000x256_1_0_0_1_n_n.lhsIdx_val_of_single rfl i c
theorem rhs384_0 (i : S1000x256.Idx) (c : dot_S1000x384_S384x256_S1000x256_1_0_0_1_n_n.contr.Idx) :
    (dot_S1000x384_S384x256_S1000x256_1_0_0_1_n_n.rhsIdx i c 0).val = (c ⟨0, by decide⟩).val :=
  dot_S1000x384_S384x256_S1000x256_1_0_0_1_n_n.rhsIdx_val_of_single rfl i c
theorem rhs384_1 (i : S1000x256.Idx) (c : dot_S1000x384_S384x256_S1000x256_1_0_0_1_n_n.contr.Idx) :
    (dot_S1000x384_S384x256_S1000x256_1_0_0_1_n_n.rhsIdx i c 1).val = (i 1).val := by
  unfold DotDims.rhsIdx
  rw [dif_neg (show ¬(1 : Fin S384x256.rank) ∈ dot_S1000x384_S384x256_S1000x256_1_0_0_1_n_n.rhsBatch by decide),
    dif_pos (show (1 : Fin S384x256.rank) ∈ dot_S1000x384_S384x256_S1000x256_1_0_0_1_n_n.rhsNonContracting by decide)]
  rfl

/-- The [1000, 384] by [384, 256] product into the zero block, at (p, q): the sum over k of l[p,k] * r[k,q]. -/
theorem matmul384_apply (l : FVec Ideal S1000x384 .bf16) (r : FVec Ideal S384x256 .bf16) (p : Fin 1000) (q : Fin 256) :
    matmul dot_S1000x384_S384x256_S1000x256_1_0_0_1_n_n none l r (constant (F := Ideal) S1000x256 .f32 0x00000000#32) (ix2 p q)
      = ∑ k : Fin 384, l (ix2 p k) * r (ix2 k q) := by
  refine Cert.Lib.OneAxisDot.matmul_zero_apply_at dot_S1000x384_S384x256_S1000x256_1_0_0_1_n_n 384 rfl rfl none l r (ix2 p q)
    (fun k => ix2 p k) (fun k => ix2 k q) (fun k => ?_) (fun k => ?_)
  · have hk := contrEquiv1_symm_val dot_S1000x384_S384x256_S1000x256_1_0_0_1_n_n 384 rfl rfl k
    exact funext fun a => Fin.ext (by
      match a with
      | ⟨0, _⟩ => exact lhs384_0 _ _
      | ⟨1, _⟩ => exact (lhs384_1 _ _).trans hk)
  · have hk := contrEquiv1_symm_val dot_S1000x384_S384x256_S1000x256_1_0_0_1_n_n 384 rfl rfl k
    exact funext fun a => Fin.ext (by
      match a with
      | ⟨0, _⟩ => exact (rhs384_0 _ _).trans hk
      | ⟨1, _⟩ => exact rhs384_1 _ _)

theorem lhs768_0 (i : S1000x256.Idx) (c : dot_S1000x768_S768x256_S1000x256_1_0_0_1_n_n.contr.Idx) :
    (dot_S1000x768_S768x256_S1000x256_1_0_0_1_n_n.lhsIdx i c 0).val = (i 0).val := by
  unfold DotDims.lhsIdx
  rw [dif_neg (show ¬(0 : Fin S1000x768.rank) ∈ dot_S1000x768_S768x256_S1000x256_1_0_0_1_n_n.lhsBatch by decide),
    dif_pos (show (0 : Fin S1000x768.rank) ∈ dot_S1000x768_S768x256_S1000x256_1_0_0_1_n_n.lhsNonContracting by decide)]
  rfl
theorem lhs768_1 (i : S1000x256.Idx) (c : dot_S1000x768_S768x256_S1000x256_1_0_0_1_n_n.contr.Idx) :
    (dot_S1000x768_S768x256_S1000x256_1_0_0_1_n_n.lhsIdx i c 1).val = (c ⟨0, by decide⟩).val :=
  dot_S1000x768_S768x256_S1000x256_1_0_0_1_n_n.lhsIdx_val_of_single rfl i c
theorem rhs768_0 (i : S1000x256.Idx) (c : dot_S1000x768_S768x256_S1000x256_1_0_0_1_n_n.contr.Idx) :
    (dot_S1000x768_S768x256_S1000x256_1_0_0_1_n_n.rhsIdx i c 0).val = (c ⟨0, by decide⟩).val :=
  dot_S1000x768_S768x256_S1000x256_1_0_0_1_n_n.rhsIdx_val_of_single rfl i c
theorem rhs768_1 (i : S1000x256.Idx) (c : dot_S1000x768_S768x256_S1000x256_1_0_0_1_n_n.contr.Idx) :
    (dot_S1000x768_S768x256_S1000x256_1_0_0_1_n_n.rhsIdx i c 1).val = (i 1).val := by
  unfold DotDims.rhsIdx
  rw [dif_neg (show ¬(1 : Fin S768x256.rank) ∈ dot_S1000x768_S768x256_S1000x256_1_0_0_1_n_n.rhsBatch by decide),
    dif_pos (show (1 : Fin S768x256.rank) ∈ dot_S1000x768_S768x256_S1000x256_1_0_0_1_n_n.rhsNonContracting by decide)]
  rfl

/-- The [1000, 768] by [768, 256] product into the zero block, at (p, q): the sum over k of l[p,k] * r[k,q]. -/
theorem matmul768_apply (l : FVec Ideal S1000x768 .bf16) (r : FVec Ideal S768x256 .bf16) (p : Fin 1000) (q : Fin 256) :
    matmul dot_S1000x768_S768x256_S1000x256_1_0_0_1_n_n none l r (constant (F := Ideal) S1000x256 .f32 0x00000000#32) (ix2 p q)
      = ∑ k : Fin 768, l (ix2 p k) * r (ix2 k q) := by
  refine Cert.Lib.OneAxisDot.matmul_zero_apply_at dot_S1000x768_S768x256_S1000x256_1_0_0_1_n_n 768 rfl rfl none l r (ix2 p q)
    (fun k => ix2 p k) (fun k => ix2 k q) (fun k => ?_) (fun k => ?_)
  · have hk := contrEquiv1_symm_val dot_S1000x768_S768x256_S1000x256_1_0_0_1_n_n 768 rfl rfl k
    exact funext fun a => Fin.ext (by
      match a with
      | ⟨0, _⟩ => exact lhs768_0 _ _
      | ⟨1, _⟩ => exact (lhs768_1 _ _).trans hk)
  · have hk := contrEquiv1_symm_val dot_S1000x768_S768x256_S1000x256_1_0_0_1_n_n 768 rfl rfl k
    exact funext fun a => Fin.ext (by
      match a with
      | ⟨0, _⟩ => exact (rhs768_0 _ _).trans hk
      | ⟨1, _⟩ => exact rhs768_1 _ _)

/-- The product of the rounded [1000, 384] block with the rounded [384, 256] weights, at (p, q): rounding is the
    identity at the extended reals, so it is the sum over k of x[p,k] * w[k,q]. -/
theorem product384_apply (x0 : Vec Ideal S1000x384 .f32) (w : Vec Ideal S384x256 .f32)
    (h0 : S1000x384.ShapeCasts S1000x384) (h1 : S384x256.ShapeCasts S384x256) (hb : FTy.bits .bf16 < FTy.bits .f32)
    (p : Fin 1000) (q : Fin 256) :
    matmul dot_S1000x384_S384x256_S1000x256_1_0_0_1_n_n none
        (truncf .bf16 (shapeCast S1000x384 x0 h0) hb) (truncf .bf16 (shapeCast S384x256 w h1) hb)
        (constant (F := Ideal) S1000x256 .f32 0x00000000#32) (ix2 p q)
      = ∑ k : Fin 384, x0 (ix2 p k) * w (ix2 k q) := by
  refine (matmul384_apply _ _ p q).trans ?_
  rw [shapeCast_self, shapeCast_self]
  rfl

/-- The product of the rounded [1000, 768] block with the rounded [768, 256] weights, at (p, q): rounding is the
    identity at the extended reals, so it is the sum over k of x[p,k] * w[k,q]. -/
theorem product768_apply (x0 : Vec Ideal S1000x768 .f32) (w : Vec Ideal S768x256 .f32)
    (h0 : S1000x768.ShapeCasts S1000x768) (h1 : S768x256.ShapeCasts S768x256) (hb : FTy.bits .bf16 < FTy.bits .f32)
    (p : Fin 1000) (q : Fin 256) :
    matmul dot_S1000x768_S768x256_S1000x256_1_0_0_1_n_n none
        (truncf .bf16 (shapeCast S1000x768 x0 h0) hb) (truncf .bf16 (shapeCast S768x256 w h1) hb)
        (constant (F := Ideal) S1000x256 .f32 0x00000000#32) (ix2 p q)
      = ∑ k : Fin 768, x0 (ix2 p k) * w (ix2 k q) := by
  refine (matmul768_apply _ _ p q).trans ?_
  rw [shapeCast_self, shapeCast_self]
  rfl

/-! ## The bias row and the slope, spread over the block -/

/-- The bias row spread over the 1000 rows reads, at (p, q), its entry q. -/
theorem biasRow_apply (b : Vec Ideal S1x256 .f32) (h : S1x256.ShapeCasts S1x256) (h' : S1x256.Broadcasts S1000x256)
    (p : Fin 1000) (q : Fin 256) :
    broadcastTo S1000x256 (shapeCast S1x256 b h) h' (ix2 p q) = b (ix2 0 q) := by
  rw [shapeCast_self]
  exact broadcastTo_1b_ab_apply b h' p q

/-- The slope, a [1, 1] array spread over the whole block, reads everywhere its one entry. -/
theorem slope_apply (a : Vec Ideal S1x1 .f32) (h : S1x1.ShapeCasts S1x1) (h' : S1x1.Broadcasts S1000x256)
    (p : Fin 1000) (q : Fin 256) :
    broadcastTo S1000x256 (shapeCast S1x1 a h) h' (ix2 p q) = a (ix2 0 0) := by
  rw [shapeCast_self]
  refine broadcastTo_apply a h' (ix2 p q) (ix2 0 0) fun ax => ?_
  match ax with
  | ⟨0, _⟩ => rfl
  | ⟨1, _⟩ => rfl

/-! ## The rectifier over a block -/

/-- A block M + B compared with the zero word, kept where it is at least zero and multiplied from the left by the
    block A elsewhere: at an entry where M, B, A read mm, bb, aa this is the leaky rectifier of slope aa at mm + bb. -/
theorem dense_entry (M B A : FVec Ideal S1000x256 .f32) (mm bb aa : EReal) (p : Fin 1000) (q : Fin 256)
    (hM : M (ix2 p q) = mm) (hB : B (ix2 p q) = bb) (hA : A (ix2 p q) = aa) :
    select (cmpf .oge (addf M B) (broadcast S1000x256 (FloatOps.ofBits (F := Ideal) .f32 0x00000000#32))) (addf M B)
        (mulf A (addf M B)) (ix2 p q)
      = Cert.Spec.leaky Cert.Spec.z32 aa (mm + bb) := by
  show Scalar.select (FloatOps.cmpf (F := Ideal) .oge (M (ix2 p q) + B (ix2 p q)) (FloatOps.ofBits (F := Ideal) .f32 0x00000000#32))
      (M (ix2 p q) + B (ix2 p q)) (A (ix2 p q) * (M (ix2 p q) + B (ix2 p q))) = _
  rw [hM, hB, hA]
  rfl

/-! ## The four layers' blocks -/

theorem k0_pay1_apply (x0 : Vec Ideal S1000x384 .f32) (w : Vec Ideal S384x256 .f32) (b : Vec Ideal S1x256 .f32)
    (a : Vec Ideal S1x1 .f32) (p : Fin 1000) (q : Fin 256) :
    Gen.k0_pay1 (F := Ideal) x0 w b a (ix2 p q)
      = Cert.Spec.chebOut (fun p k => x0 (ix2 p k)) (fun k j => w (ix2 k j)) (fun j => b (ix2 0 j)) (a (ix2 0 0)) p q := by
  unfold Gen.k0_pay1
  exact dense_entry _ _ _ _ _ _ p q (product384_apply x0 w _ _ _ p q) (biasRow_apply b _ _ p q) (slope_apply a _ _ p q)

theorem k1_pay1_apply (x0 : Vec Ideal S1000x768 .f32) (w : Vec Ideal S768x256 .f32) (b : Vec Ideal S1x256 .f32)
    (a : Vec Ideal S1x1 .f32) (p : Fin 1000) (q : Fin 256) :
    Gen.k1_pay1 (F := Ideal) x0 w b a (ix2 p q)
      = Cert.Spec.chebOut (fun p k => x0 (ix2 p k)) (fun k j => w (ix2 k j)) (fun j => b (ix2 0 j)) (a (ix2 0 0)) p q := by
  unfold Gen.k1_pay1
  exact dense_entry _ _ _ _ _ _ p q (product768_apply x0 w _ _ _ p q) (biasRow_apply b _ _ p q) (slope_apply a _ _ p q)

theorem k2_pay1_apply (x0 : Vec Ideal S1000x768 .f32) (w : Vec Ideal S768x256 .f32) (b : Vec Ideal S1x256 .f32)
    (a : Vec Ideal S1x1 .f32) (p : Fin 1000) (q : Fin 256) :
    Gen.k2_pay1 (F := Ideal) x0 w b a (ix2 p q)
      = Cert.Spec.chebOut (fun p k => x0 (ix2 p k)) (fun k j => w (ix2 k j)) (fun j => b (ix2 0 j)) (a (ix2 0 0)) p q := by
  unfold Gen.k2_pay1
  exact dense_entry _ _ _ _ _ _ p q (product768_apply x0 w _ _ _ p q) (biasRow_apply b _ _ p q) (slope_apply a _ _ p q)

theorem k3_pay1_apply (x0 : Vec Ideal S1000x768 .f32) (w : Vec Ideal S768x256 .f32) (b : Vec Ideal S1x256 .f32)
    (a : Vec Ideal S1x1 .f32) (p : Fin 1000) (q : Fin 256) :
    Gen.k3_pay1 (F := Ideal) x0 w b a (ix2 p q)
      = Cert.Spec.chebOut (fun p k => x0 (ix2 p k)) (fun k j => w (ix2 k j)) (fun j => b (ix2 0 j)) (a (ix2 0 0)) p q := by
  unfold Gen.k3_pay1
  exact dense_entry _ _ _ _ _ _ p q (product768_apply x0 w _ _ _ p q) (biasRow_apply b _ _ p q) (slope_apply a _ _ p q)

end Cert.KernelIdeal.ChebValue

end
-- ==== Proof.ChebBlocks.lean ====
/-
  Each dense layer's output array as one function of the contents its region is entered with.

  A layer's region runs over ten grid points. Point t takes rows 1000 t … 1000 t + 999 of the [10000, K] input, the
  whole weights, bias row and slope, and writes back the dense step of those rows as block t of the [10000, 256]
  output. The ten blocks tile the output (row r is in block r / 1000), so after the region entry (r, j) of the output
  is  leaky 0 a ((sum over k of T[r,k] * W[k,j]) + b[j])  of the arrays as the region found them.
-/
import proofs.«163009_j11184094839450_1_alg».proof.Proof.ChebPayload
import proofs.«163009_j11184094839450_1_alg».proof.Proof.BodiesIdeal
import Idealize.ShloMosaic.Lib.Pipeline.Value

noncomputable section

open scoped BigOperators

namespace Cert.KernelIdeal.ChebValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- Every access of the body starts at the origin of its buffer. -/
theorem origin : (![0, 0] : Fin 2 → Nat) = fun _ => 0 := funext fun a => by fin_cases a <;> rfl

/-- The dense step depends on its arrays only through the row read, the column read, the bias entry and the slope. -/
theorem chebOut_congr {N N' K D D' : ℕ} (T : Fin N → Fin K → EReal) (W : Fin K → Fin D → EReal) (b : Fin D → EReal) (a : EReal)
    (T' : Fin N' → Fin K → EReal) (W' : Fin K → Fin D' → EReal) (b' : Fin D' → EReal) (a' : EReal)
    (r : Fin N) (j : Fin D) (r' : Fin N') (j' : Fin D')
    (hT : ∀ k, T r k = T' r' k) (hW : ∀ k, W k j = W' k j') (hb : b j = b' j') (ha : a = a') :
    Cert.Spec.chebOut T W b a r j = Cert.Spec.chebOut T' W' b' a' r' j' := by
  unfold Cert.Spec.chebOut Cert.Spec.affine
  rw [hb, ha]
  exact congrArg (fun s => Cert.Spec.leaky Cert.Spec.z32 a' (s + b' j')) (Finset.sum_congr rfl fun k _ => by
    show T r k * W k j = T' r' k * W' k j'; rw [hT k, hW k])

section Layers
-- the TensorCore's buffer contents when a region is entered
variable (V : (c : Dev nD) → (b : Ref sig .tc) → Buf (Elt Ideal) ((c : Thread nD τ).loc b))

/-! # Layer 0: the [10000, 384] array times the [384, 256] weights, in ten blocks of 1000 rows -/

/-- What layer 0 leaves in its output array, entry by entry, from the contents its region is entered with. -/
def layer0 (c : Dev nD) : S10000x256.Idx → EReal := fun i =>
  Cert.Spec.chebOut (fun r k => (V c main_v59 : S10000x384.Idx → EReal) (ix2 r k))
    (fun k j => (V c main_v60 : S384x256.Idx → EReal) (ix2 k j))
    (fun j => (V c main_v61 : S1x256.Idx → EReal) (ix2 0 j))
    ((V c main_v62 : S1x1.Idx → EReal) (ix2 0 0)) (i 0) (i 1)

/-- The index maps over the grid: at point t the input's and the output's block is the t-th block of 1000 rows; the
    weights, the bias and the slope are taken whole at every point. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The input block at point t is rows 1000 t … 1000 t + 999 of the input array. -/
theorem rows0_apply (c : Dev nD) (t : Fin cfg0.N) (x : S1000x384.Idx) (k : S10000x384.Idx)
    (hk0 : (k 0).val = t.val * 1000 + (x 0).val) (hk1 : (k 1).val = (x 1).val) :
    (iblk0 V c 0 t : Vec Ideal S1000x384 .f32) x = (V c main_v59 : S10000x384.Idx → EReal) k := by
  obtain ⟨e0, e1, -⟩ := blocks0 t
  unfold iblk0
  rw [View.read_apply]
  show V c main_v59 _ = V c main_v59 _
  refine congrArg _ (funext fun a => Fin.ext ?_)
  match a with
  | ⟨0, _⟩ => show win0_0.index t (0 : Fin 2) * 1000 + 1 * (x 0).val = (k 0).val; rw [e0, hk0]; omega
  | ⟨1, _⟩ => show win0_0.index t (1 : Fin 2) * 384 + 1 * (x 1).val = (k 1).val; rw [e1, hk1]; omega

/-- The weights' block at every point is the weights' array. -/
theorem weights0_apply (c : Dev nD) (t : Fin cfg0.N) (x : S384x256.Idx) :
    (iblk0 V c 1 t : Vec Ideal S384x256 .f32) x = (V c main_v60 : S384x256.Idx → EReal) x := by
  obtain ⟨-, -, e0, e1, -⟩ := blocks0 t
  unfold iblk0
  rw [View.read_apply]
  show V c main_v60 _ = V c main_v60 _
  refine congrArg _ (funext fun a => Fin.ext ?_)
  match a with
  | ⟨0, _⟩ => show win0_1.index t (0 : Fin 2) * 384 + 1 * (x 0).val = (x 0).val; rw [e0]; omega
  | ⟨1, _⟩ => show win0_1.index t (1 : Fin 2) * 256 + 1 * (x 1).val = (x 1).val; rw [e1]; omega

/-- The bias block at every point is the bias row. -/
theorem bias0_apply (c : Dev nD) (t : Fin cfg0.N) (x : S1x256.Idx) :
    (iblk0 V c 2 t : Vec Ideal S1x256 .f32) x = (V c main_v61 : S1x256.Idx → EReal) x := by
  obtain ⟨-, -, -, -, e0, e1, -⟩ := blocks0 t
  unfold iblk0
  rw [View.read_apply]
  show V c main_v61 _ = V c main_v61 _
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The slope's block at every point is the slope's one entry. -/
theorem slope0_apply (c : Dev nD) (t : Fin cfg0.N) (x : S1x1.Idx) :
    (iblk0 V c 3 t : Vec Ideal S1x1 .f32) x = (V c main_v62 : S1x1.Idx → EReal) x := by
  obtain ⟨-, -, -, -, -, -, e0, e1, -⟩ := blocks0 t
  unfold iblk0
  rw [View.read_apply]
  show V c main_v62 _ = V c main_v62 _
  refine congrArg _ (funext fun a => Fin.ext ?_)
  match a with
  | ⟨0, _⟩ => show win0_3.index t (0 : Fin 2) * 1 + 1 * (x 0).val = (x 0).val; rw [e0]; omega
  | ⟨1, _⟩ => show win0_3.index t (1 : Fin 2) * 1 + 1 * (x 1).val = (x 1).val; rw [e1]; omega

/-- What point t writes back is block t of the layer's result: the dense step of rows 1000 t … 1000 t + 999. -/
theorem written0 (c : Dev nD) (t : Fin cfg0.N) :
    (dat0 V c).flushed 4 t = ((cfg0.win 4).blk t).view.read (Elt Ideal) (layer0 V c) := by
  show (cfg0.win 4).cut (grid0.coords t) ((dat0 V c).after 4 t) = _
  rw [after0_4]
  unfold out0_4
  rw [View.canon_unit_zero origin]
  simp only [View.ld_unit_zero (S := S1000x384) origin, View.ld_unit_zero (S := S384x256) origin,
    View.ld_unit_zero (S := S1x256) origin, View.ld_unit_zero (S := S1x1) origin]
  obtain ⟨-, -, -, -, -, -, -, -, e0, e1⟩ := blocks0 t
  funext y
  obtain ⟨p, q, rfl⟩ : ∃ (p : Fin 1000) (q : Fin 256), y = ix2 p q := ⟨y 0, y 1, eq_ix2 y⟩
  show Gen.k0_pay1 (F := Ideal) (iblk0 V c 0 t) (iblk0 V c 1 t) (iblk0 V c 2 t) (iblk0 V c 3 t) (ix2 p q)
    = layer0 V c (((cfg0.win 4).blk t).view.emb (ix2 p q))
  refine (k0_pay1_apply (iblk0 V c 0 t) (iblk0 V c 1 t) (iblk0 V c 2 t) (iblk0 V c 3 t) p q).trans ?_
  have h0 : ((((cfg0.win 4).blk t).view.emb (ix2 p q)) 0).val = t.val * 1000 + p.val := by
    show win0_4.index t (0 : Fin 2) * 1000 + 1 * p.val = _; rw [e0]; omega
  have h1 : ((((cfg0.win 4).blk t).view.emb (ix2 p q)) 1).val = q.val := by
    show win0_4.index t (1 : Fin 2) * 256 + 1 * q.val = _; rw [e1]; omega
  unfold layer0
  refine chebOut_congr _ _ _ _ _ _ _ _ _ _ _ _ (fun k => ?_) (fun k => ?_) ?_ ?_
  · exact rows0_apply V c t (ix2 p k) _ h0 rfl
  · exact (weights0_apply V c t (ix2 k q)).trans (congrArg _ (funext fun a => Fin.ext (by
      match a with
      | ⟨0, _⟩ => rfl
      | ⟨1, _⟩ => exact h1.symm)))
  · exact (bias0_apply V c t (ix2 0 q)).trans (congrArg _ (funext fun a => Fin.ext (by
      match a with
      | ⟨0, _⟩ => rfl
      | ⟨1, _⟩ => exact h1.symm)))
  · exact slope0_apply V c t (ix2 0 0)

/-- An entry of the output array is in point t's block iff each coordinate is in the block's range on its axis. -/
theorem mem_block0 (t : Fin cfg0.N) (i : S10000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole main_v63).slice (win0_4.rect t)).set ↔ _
  rw [View.set_slice_whole, Rect.mem_set_unit]
  exact Iff.rfl

/-- Row r of the output is written back by point r / 1000. -/
theorem covered0 (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  have hN : cfg0.N = 10 := N_0
  refine ⟨⟨(i 0).val / 1000, by rw [hN]; omega⟩, flush0_4 _, ?_⟩
  obtain ⟨-, -, -, -, -, -, -, -, e0, e1⟩ := blocks0 ⟨(i 0).val / 1000, by rw [hN]; omega⟩
  rw [mem_block0]
  intro a
  match a with
  | ⟨0, _⟩ =>
    show win0_4.index _ (0 : Fin 2) * 1000 ≤ (i 0).val ∧ (i 0).val < win0_4.index _ (0 : Fin 2) * 1000 + 1000
    rw [e0]; show (i 0).val / 1000 * 1000 ≤ (i 0).val ∧ (i 0).val < (i 0).val / 1000 * 1000 + 1000; omega
  | ⟨1, _⟩ =>
    show win0_4.index _ (1 : Fin 2) * 256 ≤ (i 1).val ∧ (i 1).val < win0_4.index _ (1 : Fin 2) * 256 + 256
    rw [e1]; omega

/-- The output array after the region: the layer's result at every entry. -/
theorem final0 (c : Dev nD) : (dat0 V c).arrAt 4 cfg0.N = layer0 V c :=
  (dat0 V c).arrAt_eq_of_cover 4 (layer0 V c) (fun t _ => written0 V c t) covered0

/-! # Layer 1: the [10000, 768] array times the [768, 256] weights, in ten blocks of 1000 rows -/

/-- What layer 1 leaves in its output array, entry by entry, from the contents its region is entered with. -/
def layer1 (c : Dev nD) : S10000x256.Idx → EReal := fun i =>
  Cert.Spec.chebOut (fun r k => (V c main_v98 : S10000x768.Idx → EReal) (ix2 r k))
    (fun k j => (V c main_v99 : S768x256.Idx → EReal) (ix2 k j))
    (fun j => (V c main_v100 : S1x256.Idx → EReal) (ix2 0 j))
    ((V c main_v101 : S1x1.Idx → EReal) (ix2 0 0)) (i 0) (i 1)

/-- The index maps over the grid: at point t the input's and the output's block is the t-th block of 1000 rows; the
    weights, the bias and the slope are taken whole at every point. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The input block at point t is rows 1000 t … 1000 t + 999 of the input array. -/
theorem rows1_apply (c : Dev nD) (t : Fin cfg1.N) (x : S1000x768.Idx) (k : S10000x768.Idx)
    (hk0 : (k 0).val = t.val * 1000 + (x 0).val) (hk1 : (k 1).val = (x 1).val) :
    (iblk1 V c 0 t : Vec Ideal S1000x768 .f32) x = (V c main_v98 : S10000x768.Idx → EReal) k := by
  obtain ⟨e0, e1, -⟩ := blocks1 t
  unfold iblk1
  rw [View.read_apply]
  show V c main_v98 _ = V c main_v98 _
  refine congrArg _ (funext fun a => Fin.ext ?_)
  match a with
  | ⟨0, _⟩ => show win1_0.index t (0 : Fin 2) * 1000 + 1 * (x 0).val = (k 0).val; rw [e0, hk0]; omega
  | ⟨1, _⟩ => show win1_0.index t (1 : Fin 2) * 768 + 1 * (x 1).val = (k 1).val; rw [e1, hk1]; omega

/-- The weights' block at every point is the weights' array. -/
theorem weights1_apply (c : Dev nD) (t : Fin cfg1.N) (x : S768x256.Idx) :
    (iblk1 V c 1 t : Vec Ideal S768x256 .f32) x = (V c main_v99 : S768x256.Idx → EReal) x := by
  obtain ⟨-, -, e0, e1, -⟩ := blocks1 t
  unfold iblk1
  rw [View.read_apply]
  show V c main_v99 _ = V c main_v99 _
  refine congrArg _ (funext fun a => Fin.ext ?_)
  match a with
  | ⟨0, _⟩ => show win1_1.index t (0 : Fin 2) * 768 + 1 * (x 0).val = (x 0).val; rw [e0]; omega
  | ⟨1, _⟩ => show win1_1.index t (1 : Fin 2) * 256 + 1 * (x 1).val = (x 1).val; rw [e1]; omega

/-- The bias block at every point is the bias row. -/
theorem bias1_apply (c : Dev nD) (t : Fin cfg1.N) (x : S1x256.Idx) :
    (iblk1 V c 2 t : Vec Ideal S1x256 .f32) x = (V c main_v100 : S1x256.Idx → EReal) x := by
  obtain ⟨-, -, -, -, e0, e1, -⟩ := blocks1 t
  unfold iblk1
  rw [View.read_apply]
  show V c main_v100 _ = V c main_v100 _
  refine congrArg _ (funext fun a => Fin.ext ?_)
  match a with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- The slope's block at every point is the slope's one entry. -/
theorem slope1_apply (c : Dev nD) (t : Fin cfg1.N) (x : S1x1.Idx) :
    (iblk1 V c 3 t : Vec Ideal S1x1 .f32) x = (V c main_v101 : S1x1.Idx → EReal) x := by
  obtain ⟨-, -, -, -, -, -, e0, e1, -⟩ := blocks1 t
  unfold iblk1
  rw [View.read_apply]
  show V c main_v101 _ = V c main_v101 _
  refine congrArg _ (funext fun a => Fin.ext ?_)
  match a with
  | ⟨0, _⟩ => show win1_3.index t (0 : Fin 2) * 1 + 1 * (x 0).val = (x 0).val; rw [e0]; omega
  | ⟨1, _⟩ => show win1_3.index t (1 : Fin 2) * 1 + 1 * (x 1).val = (x 1).val; rw [e1]; omega

/-- What point t writes back is block t of the layer's result: the dense step of rows 1000 t … 1000 t + 999. -/
theorem written1 (c : Dev nD) (t : Fin cfg1.N) :
    (dat1 V c).flushed 4 t = ((cfg1.win 4).blk t).view.read (Elt Ideal) (layer1 V c) := by
  show (cfg1.win 4).cut (grid1.coords t) ((dat1 V c).after 4 t) = _
  rw [after1_4]
  unfold out1_4
  rw [View.canon_unit_zero origin]
  simp only [View.ld_unit_zero (S := S1000x768) origin, View.ld_unit_zero (S := S768x256) origin,
    View.ld_unit_zero (S := S1x256) origin, View.ld_unit_zero (S := S1x1) origin]
  obtain ⟨-, -, -, -, -, -, -, -, e0, e1⟩ := blocks1 t
  funext y
  obtain ⟨p, q, rfl⟩ : ∃ (p : Fin 1000) (q : Fin 256), y = ix2 p q := ⟨y 0, y 1, eq_ix2 y⟩
  show Gen.k1_pay1 (F := Ideal) (iblk1 V c 0 t) (iblk1 V c 1 t) (iblk1 V c 2 t) (iblk1 V c 3 t) (ix2 p q)
    = layer1 V c (((cfg1.win 4).blk t).view.emb (ix2 p q))
  refine (k1_pay1_apply (iblk1 V c 0 t) (iblk1 V c 1 t) (iblk1 V c 2 t) (iblk1 V c 3 t) p q).trans ?_
  have h0 : ((((cfg1.win 4).blk t).view.emb (ix2 p q)) 0).val = t.val * 1000 + p.val := by
    show win1_4.index t (0 : Fin 2) * 1000 + 1 * p.val = _; rw [e0]; omega
  have h1 : ((((cfg1.win 4).blk t).view.emb (ix2 p q)) 1).val = q.val := by
    show win1_4.index t (1 : Fin 2) * 256 + 1 * q.val = _; rw [e1]; omega
  unfold layer1
  refine chebOut_congr _ _ _ _ _ _ _ _ _ _ _ _ (fun k => ?_) (fun k => ?_) ?_ ?_
  · exact rows1_apply V c t (ix2 p k) _ h0 rfl
  · exact (weights1_apply V c t (ix2 k q)).trans (congrArg _ (funext fun a => Fin.ext (by
      match a with
      | ⟨0, _⟩ => rfl
      | ⟨1, _⟩ => exact h1.symm)))
  · exact (bias1_apply V c t (ix2 0 q)).trans (congrArg _ (funext fun a => Fin.ext (by
      match a with
      | ⟨0, _⟩ => rfl
      | ⟨1, _⟩ => exact h1.symm)))
  · exact slope1_apply V c t (ix2 0 0)

/-- An entry of the output array is in point t's block iff each coordinate is in the block's range on its axis. -/
theorem mem_block1 (t : Fin cfg1.N) (i : S10000x256.Idx) :
    i ∈ ((cfg1.win 4).blk t).view.set ↔ ∀ a : Fin 2, win1_4.index t a * S1000x256.size a ≤ (i a).val
      ∧ (i a).val < win1_4.index t a * S1000x256.size a + S1000x256.size a := by
  show i ∈ ((View.whole main_v102).slice (win1_4.rect t)).set ↔ _
  rw [View.set_slice_whole, Rect.mem_set_unit]
  exact Iff.rfl

/-- Row r of the output is written back by point r / 1000. -/
theorem covered1 (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  have hN : cfg1.N = 10 := N_1
  refine ⟨⟨(i 0).val / 1000, by rw [hN]; omega⟩, flush1_4 _, ?_⟩
  obtain ⟨-, -, -, -, -, -, -, -, e0, e1⟩ := blocks1 ⟨(i 0).val / 1000, by rw [hN]; omega⟩
  rw [mem_block1]
  intro a
  match a with
  | ⟨0, _⟩ =>
    show win1_4.index _ (0 : Fin 2) * 1000 ≤ (i 0).val ∧ (i 0).val < win1_4.index _ (0 : Fin 2) * 1000 + 1000
    rw [e0]; show (i 0).val / 1000 * 1000 ≤ (i 0).val ∧ (i 0).val < (i 0).val / 1000 * 1000 + 1000; omega
  | ⟨1, _⟩ =>
    show win1_4.index _ (1 : Fin 2) * 256 ≤ (i 1).val ∧ (i 1).val < win1_4.index _ (1 : Fin 2) * 256 + 256
    rw [e1]; omega

/-- The output array after the region: the layer's result at every entry. -/
theorem final1 (c : Dev nD) : (dat1 V c).arrAt 4 cfg1.N = layer1 V c :=
  (dat1 V c).arrAt_eq_of_cover 4 (layer1 V c) (fun t _ => written1 V c t) covered1

/-! # Layer 2: the [10000, 768] array times the [768, 256] weights, in ten blocks of 1000 rows -/

/-- What layer 2 leaves in its output array, entry by entry, from the contents its region is entered with. -/
def layer2 (c : Dev nD) : S10000x256.Idx → EReal := fun i =>
  Cert.Spec.chebOut (fun r k => (V c main_v136 : S10000x768.Idx → EReal) (ix2 r k))
    (fun k j => (V c main_v137 : S768x256.Idx → EReal) (ix2 k j))
    (fun j => (V c main_v138 : S1x256.Idx → EReal) (ix2 0 j))
    ((V c main_v139 : S1x1.Idx → EReal) (ix2 0 0)) (i 0) (i 1)

/-- The index maps over the grid: at point t the input's and the output's block is the t-th block of 1000 rows; the
    weights, the bias and the slope are taken whole at every point. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The input block at point t is rows 1000 t … 1000 t + 999 of the input array. -/
theorem rows2_apply (c : Dev nD) (t : Fin cfg2.N) (x : S1000x768.Idx) (k : S10000x768.Idx)
    (hk0 : (k 0).val = t.val * 1000 + (x 0).val) (hk1 : (k 1).val = (x 1).val) :
    (iblk2 V c 0 t : Vec Ideal S1000x768 .f32) x = (V c main_v136 : S10000x768.Idx → EReal) k := by
  obtain ⟨e0, e1, -⟩ := blocks2 t
  unfold iblk2
  rw [View.read_apply]
  show V c main_v136 _ = V c main_v136 _
  refine congrArg _ (funext fun a => Fin.ext ?_)
  match a with
  | ⟨0, _⟩ => show win2_0.index t (0 : Fin 2) * 1000 + 1 * (x 0).val = (k 0).val; rw [e0, hk0]; omega
  | ⟨1, _⟩ => show win2_0.index t (1 : Fin 2) * 768 + 1 * (x 1).val = (k 1).val; rw [e1, hk1]; omega

/-- The weights' block at every point is the weights' array. -/
theorem weights2_apply (c : Dev nD) (t : Fin cfg2.N) (x : S768x256.Idx) :
    (iblk2 V c 1 t : Vec Ideal S768x256 .f32) x = (V c main_v137 : S768x256.Idx → EReal) x := by
  obtain ⟨-, -, e0, e1, -⟩ := blocks2 t
  unfold iblk2
  rw [View.read_apply]
  show V c main_v137 _ = V c main_v137 _
  refine congrArg _ (funext fun a => Fin.ext ?_)
  match a with
  | ⟨0, _⟩ => show win2_1.index t (0 : Fin 2) * 768 + 1 * (x 0).val = (x 0).val; rw [e0]; omega
  | ⟨1, _⟩ => show win2_1.index t (1 : Fin 2) * 256 + 1 * (x 1).val = (x 1).val; rw [e1]; omega

/-- The bias block at every point is the bias row. -/
theorem bias2_apply (c : Dev nD) (t : Fin cfg2.N) (x : S1x256.Idx) :
    (iblk2 V c 2 t : Vec Ideal S1x256 .f32) x = (V c main_v138 : S1x256.Idx → EReal) x := by
  obtain ⟨-, -, -, -, e0, e1, -⟩ := blocks2 t
  unfold iblk2
  rw [View.read_apply]
  show V c main_v138 _ = V c main_v138 _
  refine congrArg _ (funext fun a => Fin.ext ?_)
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-- The slope's block at every point is the slope's one entry. -/
theorem slope2_apply (c : Dev nD) (t : Fin cfg2.N) (x : S1x1.Idx) :
    (iblk2 V c 3 t : Vec Ideal S1x1 .f32) x = (V c main_v139 : S1x1.Idx → EReal) x := by
  obtain ⟨-, -, -, -, -, -, e0, e1, -⟩ := blocks2 t
  unfold iblk2
  rw [View.read_apply]
  show V c main_v139 _ = V c main_v139 _
  refine congrArg _ (funext fun a => Fin.ext ?_)
  match a with
  | ⟨0, _⟩ => show win2_3.index t (0 : Fin 2) * 1 + 1 * (x 0).val = (x 0).val; rw [e0]; omega
  | ⟨1, _⟩ => show win2_3.index t (1 : Fin 2) * 1 + 1 * (x 1).val = (x 1).val; rw [e1]; omega

/-- What point t writes back is block t of the layer's result: the dense step of rows 1000 t … 1000 t + 999. -/
theorem written2 (c : Dev nD) (t : Fin cfg2.N) :
    (dat2 V c).flushed 4 t = ((cfg2.win 4).blk t).view.read (Elt Ideal) (layer2 V c) := by
  show (cfg2.win 4).cut (grid2.coords t) ((dat2 V c).after 4 t) = _
  rw [after2_4]
  unfold out2_4
  rw [View.canon_unit_zero origin]
  simp only [View.ld_unit_zero (S := S1000x768) origin, View.ld_unit_zero (S := S768x256) origin,
    View.ld_unit_zero (S := S1x256) origin, View.ld_unit_zero (S := S1x1) origin]
  obtain ⟨-, -, -, -, -, -, -, -, e0, e1⟩ := blocks2 t
  funext y
  obtain ⟨p, q, rfl⟩ : ∃ (p : Fin 1000) (q : Fin 256), y = ix2 p q := ⟨y 0, y 1, eq_ix2 y⟩
  show Gen.k2_pay1 (F := Ideal) (iblk2 V c 0 t) (iblk2 V c 1 t) (iblk2 V c 2 t) (iblk2 V c 3 t) (ix2 p q)
    = layer2 V c (((cfg2.win 4).blk t).view.emb (ix2 p q))
  refine (k2_pay1_apply (iblk2 V c 0 t) (iblk2 V c 1 t) (iblk2 V c 2 t) (iblk2 V c 3 t) p q).trans ?_
  have h0 : ((((cfg2.win 4).blk t).view.emb (ix2 p q)) 0).val = t.val * 1000 + p.val := by
    show win2_4.index t (0 : Fin 2) * 1000 + 1 * p.val = _; rw [e0]; omega
  have h1 : ((((cfg2.win 4).blk t).view.emb (ix2 p q)) 1).val = q.val := by
    show win2_4.index t (1 : Fin 2) * 256 + 1 * q.val = _; rw [e1]; omega
  unfold layer2
  refine chebOut_congr _ _ _ _ _ _ _ _ _ _ _ _ (fun k => ?_) (fun k => ?_) ?_ ?_
  · exact rows2_apply V c t (ix2 p k) _ h0 rfl
  · exact (weights2_apply V c t (ix2 k q)).trans (congrArg _ (funext fun a => Fin.ext (by
      match a with
      | ⟨0, _⟩ => rfl
      | ⟨1, _⟩ => exact h1.symm)))
  · exact (bias2_apply V c t (ix2 0 q)).trans (congrArg _ (funext fun a => Fin.ext (by
      match a with
      | ⟨0, _⟩ => rfl
      | ⟨1, _⟩ => exact h1.symm)))
  · exact slope2_apply V c t (ix2 0 0)

/-- An entry of the output array is in point t's block iff each coordinate is in the block's range on its axis. -/
theorem mem_block2 (t : Fin cfg2.N) (i : S10000x256.Idx) :
    i ∈ ((cfg2.win 4).blk t).view.set ↔ ∀ a : Fin 2, win2_4.index t a * S1000x256.size a ≤ (i a).val
      ∧ (i a).val < win2_4.index t a * S1000x256.size a + S1000x256.size a := by
  show i ∈ ((View.whole main_v140).slice (win2_4.rect t)).set ↔ _
  rw [View.set_slice_whole, Rect.mem_set_unit]
  exact Iff.rfl

/-- Row r of the output is written back by point r / 1000. -/
theorem covered2 (i : S10000x256.Idx) :
    ∃ t : Fin cfg2.N, (cfg2.win 4).flush t = true ∧ i ∈ ((cfg2.win 4).blk t).view.set := by
  have hi0 : (i 0).val < 10000 := (i 0).isLt
  have hi1 : (i 1).val < 256 := (i 1).isLt
  have hN : cfg2.N = 10 := N_2
  refine ⟨⟨(i 0).val / 1000, by rw [hN]; omega⟩, flush2_4 _, ?_⟩
  obtain ⟨-, -, -, -, -, -, -, -, e0, e1⟩ := blocks2 ⟨(i 0).val / 1000, by rw [hN]; omega⟩
  rw [mem_block2]
  intro a
  match a with
  | ⟨0, _⟩ =>
    show win2_4.index _ (0 : Fin 2) * 1000 ≤ (i 0).val ∧ (i 0).val < win2_4.index _ (0 : Fin 2) * 1000 + 1000
    rw [e0]; show (i 0).val / 1000 * 1000 ≤ (i 0).val ∧ (i 0).val < (i 0).val / 1000 * 1000 + 1000; omega
  | ⟨1, _⟩ =>
    show win2_4.index _ (1 : Fin 2) * 256 ≤ (i 1).val ∧ (i 1).val < win2_4.index _ (1 : Fin 2) * 256 + 256
    rw [e1]; omega

/-- The output array after the region: the layer's result at every entry. -/
theorem final2 (c : Dev nD) : (dat2 V c).arrAt 4 cfg2.N = layer2 V c :=
  (dat2 V c).arrAt_eq_of_cover 4 (layer2 V c) (fun t _ => written2 V c t) covered2

/-! # Layer 3: the [10000, 768] array times the [768, 256] weights, in ten blocks of 1000 rows -/

/-- What layer 3 leaves in its output array, entry by entry, from the contents its region is entered with. -/
def layer3 (c : Dev nD) : S10000x256.Idx → EReal := fun i =>
  Cert.Spec.chebOut (fun r k => (V c main_v174 : S10000x768.Idx → EReal) (ix2 r k))
    (fun k j => (V c main_v175 : S768x256.Idx → EReal) (ix2 k j))
    (fun j => (V c main_v176 : S1x256.Idx → EReal) (ix2 0 j))
    ((V c main_v177 : S1x1.Idx → EReal) (ix2 0 0)) (i 0) (i 1)

/-- The index maps over the grid: at point t the input's and the output's block is the t-th block of 1000 rows; the
    weights, the bias and the slope are taken whole at every point. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The input block at point t is rows 1000 t … 1000 t + 999 of the input array. -/
theorem rows3_apply (c : Dev nD) (t : Fin cfg3.N) (x : S1000x768.Idx) (k : S10000x768.Idx)
    (hk0 : (k 0).val = t.val * 1000 + (x 0).val) (hk1 : (k 1).val = (x 1).val) :
    (iblk3 V c 0 t : Vec Ideal S1000x768 .f32) x = (V c main_v174 : S10000x768.Idx → EReal) k := by
  obtain ⟨e0, e1, -⟩ := blocks3 t
  unfold iblk3
  rw [View.read_apply]
  show V c main_v174 _ = V c main_v174 _
  refine congrArg _ (funext fun a => Fin.ext ?_)
  match a with
  | ⟨0, _⟩ => show win3_0.index t (0 : Fin 2) * 1000 + 1 * (x 0).val = (k 0).val; rw [e0, hk0]; omega
  | ⟨1, _⟩ => show win3_0.index t (1 : Fin 2) * 768 + 1 * (x 1).val = (k 1).val; rw [e1, hk1]; omega

/-- The weights' block at every point is the weights' array. -/
theorem weights3_apply (c : Dev nD) (t : Fin cfg3.N) (x : S768x256.Idx) :
    (iblk3 V c 1 t : Vec Ideal S768x256 .f32) x = (V c main_v175 : S768x256.Idx → EReal) x := by
  obtain ⟨-, -, e0, e1, -⟩ := blocks3 t
  unfold iblk3
  rw [View.read_apply]
  show V c main_v175 _ = V c main_v175 _
  refine congrArg _ (funext fun a => Fin.ext ?_)
  match a with
  | ⟨0, _⟩ => show win3_1.index t (0 : Fin 2) * 768 + 1 * (x 0).val = (x 0).val; rw [e0]; omega
  | ⟨1, _⟩ => show win3_1.index t (1 : Fin 2) * 256 + 1 * (x 1).val = (x 1).val; rw [e1]; omega

/-- The bias block at every point is the bias row. -/
theorem bias3_apply (c : Dev nD) (t : Fin cfg3.N) (x : S1x256.Idx) :
    (iblk3 V c 2 t : Vec Ideal S1x256 .f32) x = (V c main_v176 : S1x256.Idx → EReal) x := by
  obtain ⟨-, -, -, -, e0, e1, -⟩ := blocks3 t
  unfold iblk3
  rw [View.read_apply]
  show V c main_v176 _ = V c main_v176 _
  refine congrArg _ (funext fun a => Fin.ext ?_)
  match a with
  | ⟨0, _⟩ => show win3_2.index t (0 : Fin 2) * 1 + 1 * (x 0).val = (x 0).val; rw [e0]; omega
  | ⟨1, _⟩ => show win3_2.index t (1 : Fin 2) * 256 + 1 * (x 1).val = (x 1).val; rw [e1]; omega

/-- The slope's block at every point is the slope's one entry. -/
theorem slope3_apply (c : Dev nD) (t : Fin cfg3.N) (x : S1x1.Idx) :
    (iblk3 V c 3 t : Vec Ideal S1x1 .f32) x = (V c main_v177 : S1x1.Idx → EReal) x := by
  obtain ⟨-, -, -, -, -, -, e0, e1, -⟩ := blocks3 t
  unfold iblk3
  rw [View.read_apply]
  show V c main_v177 _ = V c main_v177 _
  refine congrArg _ (funext fun a => Fin.ext ?_)
  match a with
  | ⟨0, _⟩ => show win3_3.index t (0 : Fin 2) * 1 + 1 * (x 0).val = (x 0).val; rw [e0]; omega
  | ⟨1, _⟩ => show win3_3.index t (1 : Fin 2) * 1 + 1 * (x 1).val = (x 1).val; rw [e1]; omega

/-- What point t writes back is block t of the layer's result: the dense step of rows 1000 t … 1000 t + 999. -/
theorem written3 (c : Dev nD) (t : Fin cfg3.N) :
    (dat3 V c).flushed 4 t = ((cfg3.win 4).blk t).view.read (Elt Ideal) (layer3 V c) := by
  show (cfg3.win 4).cut (grid3.coords t) ((dat3 V c).after 4 t) = _
  rw [after3_4]
  unfold out3_4
  rw [View.canon_unit_zero origin]
  simp only [View.ld_unit_zero (S := S1000x768) origin, View.ld_unit_zero (S := S768x256) origin,
    View.ld_unit_zero (S := S1x256) origin, View.ld_unit_zero (S := S1x1) origin]
  obtain ⟨-, -, -, -, -, -, -, -, e0, e1⟩ := blocks3 t
  funext y
  obtain ⟨p, q, rfl⟩ : ∃ (p : Fin 1000) (q : Fin 256), y = ix2 p q := ⟨y 0, y 1, eq_ix2 y⟩
  show Gen.k3_pay1 (F := Ideal) (iblk3 V c 0 t) (iblk3 V c 1 t) (iblk3 V c 2 t) (iblk3 V c 3 t) (ix2 p q)
    = layer3 V c (((cfg3.win 4).blk t).view.emb (ix2 p q))
  refine (k3_pay1_apply (iblk3 V c 0 t) (iblk3 V c 1 t) (iblk3 V c 2 t) (iblk3 V c 3 t) p q).trans ?_
  have h0 : ((((cfg3.win 4).blk t).view.emb (ix2 p q)) 0).val = t.val * 1000 + p.val := by
    show win3_4.index t (0 : Fin 2) * 1000 + 1 * p.val = _; rw [e0]; omega
  have h1 : ((((cfg3.win 4).blk t).view.emb (ix2 p q)) 1).val = q.val := by
    show win3_4.index t (1 : Fin 2) * 256 + 1 * q.val = _; rw [e1]; omega
  unfold layer3
  refine chebOut_congr _ _ _ _ _ _ _ _ _ _ _ _ (fun k => ?_) (fun k => ?_) ?_ ?_
  · exact rows3_apply V c t (ix2 p k) _ h0 rfl
  · exact (weights3_apply V c t (ix2 k q)).trans (congrArg _ (funext fun a => Fin.ext (by
      match a with
      | ⟨0, _⟩ => rfl
      | ⟨1, _⟩ => exact h1.symm)))
  · exact (bias3_apply V c t (ix2 0 q)).trans (congrArg _ (funext fun a => Fin.ext (by
      match a with
      | ⟨0, _⟩ => rfl
      | ⟨1, _⟩ => exact h1.symm)))
  · exact slope3_apply V c t (ix2 0 0)

/-- An entry of the output array is in point t's block iff each coordinate is in the block's range on its axis. -/
theorem mem_block3 (t : Fin cfg3.N) (i : S10000x256.Idx) :
    i ∈ ((cfg3.win 4).blk t).view.set ↔ ∀ a : Fin 2, win3_4.index t a * S1000x256.size a ≤ (i a).val
      ∧ (i a).val < win3_4.index t a * S1000x256.size a + S1000x256.size a := by
  show i ∈ ((View.whole main_v178).slice (win3_4.rect t)).set ↔ _
  rw [View.set_slice_whole, Rect.mem_set_unit]
  exact Iff.rfl

/-- Row r of the output is written back by point r / 1000. -/
theorem covered3 (i : S10000x256.Idx) :
    ∃ t : Fin cfg3.N, (cfg3.win 4).flush t = true ∧ i ∈ ((cfg3.win 4).blk t).view.set := by
  have hi0 : (i 0).val < 10000 := (i 0).isLt
  have hi1 : (i 1).val < 256 := (i 1).isLt
  have hN : cfg3.N = 10 := N_3
  refine ⟨⟨(i 0).val / 1000, by rw [hN]; omega⟩, flush3_4 _, ?_⟩
  obtain ⟨-, -, -, -, -, -, -, -, e0, e1⟩ := blocks3 ⟨(i 0).val / 1000, by rw [hN]; omega⟩
  rw [mem_block3]
  intro a
  match a with
  | ⟨0, _⟩ =>
    show win3_4.index _ (0 : Fin 2) * 1000 ≤ (i 0).val ∧ (i 0).val < win3_4.index _ (0 : Fin 2) * 1000 + 1000
    rw [e0]; show (i 0).val / 1000 * 1000 ≤ (i 0).val ∧ (i 0).val < (i 0).val / 1000 * 1000 + 1000; omega
  | ⟨1, _⟩ =>
    show win3_4.index _ (1 : Fin 2) * 256 ≤ (i 1).val ∧ (i 1).val < win3_4.index _ (1 : Fin 2) * 256 + 256
    rw [e1]; omega

/-- The output array after the region: the layer's result at every entry. -/
theorem final3 (c : Dev nD) : (dat3 V c).arrAt 4 cfg3.N = layer3 V c :=
  (dat3 V c).arrAt_eq_of_cover 4 (layer3 V c) (fun t _ => written3 V c t) covered3

end Layers

end Cert.KernelIdeal.ChebValue

end
-- ==== Proof.ChebFinal.lean ====
/-
  What each dense layer's region leaves in its output array, as one function of the buffers' contents when the
  region is entered: entry (r, j) is the leaky rectifier of (sum over k of T[r,k] * W[k,j]) + b[j], with T, W, b and
  the slope read from the region's four input arrays at that boundary.
-/
import proofs.«163009_j11184094839450_1_alg».proof.Proof.ChebBlocks
import proofs.«163009_j11184094839450_1_alg».proof.Proof.ChainIdeal

noncomputable section

namespace Cert.KernelIdeal.ChebValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The first layer's output, from the contents at its region's entry. -/
theorem X4_eq (c : Dev nD) : Hand.X4 (F := Ideal) m c = fun i =>
    Cert.Spec.chebOut (fun r k => (Hand.U3 m c main_v59 : S10000x384.Idx → EReal) (ix2 r k))
      (fun k j => (Hand.U3 m c main_v60 : S384x256.Idx → EReal) (ix2 k j))
      (fun j => (Hand.U3 m c main_v61 : S1x256.Idx → EReal) (ix2 0 j))
      ((Hand.U3 m c main_v62 : S1x1.Idx → EReal) (ix2 0 0)) (i 0) (i 1) := by
  unfold Hand.X4
  exact final0 (Hand.T3 m) c

/-- The second layer's output, from the contents at its region's entry. -/
theorem X6_eq (c : Dev nD) : Hand.X6 (F := Ideal) m c = fun i =>
    Cert.Spec.chebOut (fun r k => (Hand.U5 m c main_v98 : S10000x768.Idx → EReal) (ix2 r k))
      (fun k j => (Hand.U5 m c main_v99 : S768x256.Idx → EReal) (ix2 k j))
      (fun j => (Hand.U5 m c main_v100 : S1x256.Idx → EReal) (ix2 0 j))
      ((Hand.U5 m c main_v101 : S1x1.Idx → EReal) (ix2 0 0)) (i 0) (i 1) := by
  unfold Hand.X6
  exact final1 (Hand.T5 m) c

/-- The third layer's output, from the contents at its region's entry. -/
theorem X8_eq (c : Dev nD) : Hand.X8 (F := Ideal) m c = fun i =>
    Cert.Spec.chebOut (fun r k => (Hand.U7 m c main_v136 : S10000x768.Idx → EReal) (ix2 r k))
      (fun k j => (Hand.U7 m c main_v137 : S768x256.Idx → EReal) (ix2 k j))
      (fun j => (Hand.U7 m c main_v138 : S1x256.Idx → EReal) (ix2 0 j))
      ((Hand.U7 m c main_v139 : S1x1.Idx → EReal) (ix2 0 0)) (i 0) (i 1) := by
  unfold Hand.X8
  exact final2 (Hand.T7 m) c

/-- The fourth layer's output, from the contents at its region's entry. -/
theorem X10_eq (c : Dev nD) : Hand.X10 (F := Ideal) m c = fun i =>
    Cert.Spec.chebOut (fun r k => (Hand.U9 m c main_v174 : S10000x768.Idx → EReal) (ix2 r k))
      (fun k j => (Hand.U9 m c main_v175 : S768x256.Idx → EReal) (ix2 k j))
      (fun j => (Hand.U9 m c main_v176 : S1x256.Idx → EReal) (ix2 0 j))
      ((Hand.U9 m c main_v177 : S1x1.Idx → EReal) (ix2 0 0)) (i 0) (i 1) := by
  unfold Hand.X10
  exact final3 (Hand.T9 m) c

end Cert.KernelIdeal.ChebValue

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«163009_j11184094839450_1_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibRowOps.lean ====
/-
  A kernel body's operations on one block of rows, read at an entry, at the extended reals.

  Each lemma reads one spelling at one entry (p, q) of its result: a lane sum or a lane maximum (from -inf) kept
  as a column, a [1, b] row repeated over a block of rows, and the sums of a matrix's rows laid out as a [1, n] row — for any
  extents. (A column repeated along the columns is read by the keepdims-column lemmas this file imports.)
-/
import Idealize.ShloMosaic.PureOps.Ideal.Laws
import Idealize.ShloMosaic.Lib.ValueIdx
import Idealize.ShloMosaic.Lib.Pipeline.Value
import proofs.«163009_j11184094839450_1_alg».proof.Proof.LibKeepdimsColumn
import proofs.«163009_j11184094839450_1_alg».proof.Proof.LibMaxLane

noncomputable section

open scoped BigOperators

namespace Cert.Dual.Body

open Idealize.ShloMosaic Idealize.ShloMosaic.ValueIdx

/-- The index of an [a, b] array over the reduced index p of its rows with column k put back is (p, k). -/
theorem lift_cols {a b : Nat} (h : Shape.Reduces ⟨2, ![a, b]⟩ [1] ⟨1, ![a]⟩) (p : Fin a) (k : Fin b) :
    h.lift (ix1 p) k = ix2 p k := funext fun d => Fin.ext (by
  match d with
  | ⟨0, _⟩ => rfl
  | ⟨1, _⟩ => rfl)

/-- A lane sum of an [a, b] block kept as an [a, 1] column, at row p: the sum of row p. -/
theorem rowSum_at {a b : Nat} (v : FVec Ideal ⟨2, ![a, b]⟩ .f32)
    (hr : Shape.Reduces ⟨2, ![a, b]⟩ [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (p : Fin a) :
    shapeCast ⟨2, ![a, 1]⟩ (multiReduction .add [1] ⟨1, ![a]⟩ v 0x00000000#32 hr hφ hacc) hc
        (ix2 (n0 := a) (n1 := 1) p ⟨0, Nat.one_pos⟩)
      = ∑ k : Fin b, v (ix2 p k) := by
  rw [Cert.Lib.KeepdimsColumn.column_cast_at _ hc p, Ideal.multiReduction_add_single v _ hr hφ hacc (ix1 p)]
  exact Finset.sum_congr rfl fun k _ => by rw [lift_cols hr p k]

/-- A lane maximum from -inf of an [a, b] block kept as an [a, 1] column, at row p: the supremum of row p. -/
theorem rowMax_at {a b : Nat} (v : FVec Ideal ⟨2, ![a, b]⟩ .f32)
    (hr : Shape.Reduces ⟨2, ![a, b]⟩ [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc
        (ix2 (n0 := a) (n1 := 1) p ⟨0, Nat.one_pos⟩)
      = ⨆ k : Fin b, v (ix2 p k) := by
  rw [Cert.Lib.KeepdimsColumn.column_cast_at _ hc p, Cert.Lib.MaxLane.maxReduce_single v hr hφ hacc (ix1 p)]
  exact iSup_congr fun k => by rw [lift_cols hr p k]

/-- A [1, b] row repeated over a block of a rows, at (p, q): the row's entry q. -/
theorem rowBcast_at {α : Type} {a b : Nat} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (n0 := 1) (n1 := b) ⟨0, Nat.one_pos⟩ q) :=
  broadcastTo_apply v h (ix2 p q) _ (fun d => by
    match d with
    | ⟨0, _⟩ => exact (if_pos rfl).symm
    | ⟨1, _⟩ =>
      show q.val = if b = 1 then 0 else q.val
      split
      · have := q.isLt; omega
      · rfl)

/-- The sums of the rows of an [n, b] matrix laid out as a [1, n] row, at entry h: the sum of row h. -/
theorem rowSums_row_at {n b : Nat} (w : FVec Ideal ⟨2, ![n, b]⟩ .f32)
    (hr : Shape.Reduces ⟨2, ![n, b]⟩ [1] ⟨1, ![n]⟩) (hφ : FKind.Formats .f32)
    (hacc : (0x00000000#32 : BitVec FTy.f32.bits) = FKind.add.neutral .f32 hφ)
    (hc : (⟨1, ![n]⟩ : Shape).ShapeCasts ⟨2, ![1, n]⟩) (h : Fin n) :
    shapeCast ⟨2, ![1, n]⟩ (multiReduction .add [1] ⟨1, ![n]⟩ w 0x00000000#32 hr hφ hacc) hc
        (ix2 (n0 := 1) (n1 := n) ⟨0, Nat.one_pos⟩ h)
      = ∑ d : Fin b, w (ix2 h d) := by
  rw [shapeCast_addUnit_apply ![n] _ hc _]
  have e : (fun a : Fin 1 => (ix2 (n0 := 1) (n1 := n) ⟨0, Nat.one_pos⟩ h) a.succ) = ix1 h :=
    funext fun a => by match a with | ⟨0, _⟩ => rfl
  rw [e, Ideal.multiReduction_add_single w _ hr hφ hacc (ix1 h)]
  exact Finset.sum_congr rfl fun k _ => by rw [lift_cols hr h k]

end Cert.Dual.Body

end
-- ==== Proof.MlpPayload.lean ====
/-
  The graph-level perceptron's stored block, entry by entry, at the extended reals.

  The body multiplies the pooled graphs by the first weight matrix into a zero block, adds the bias row, applies the
  leaky rectifier; multiplies by the second matrix, adds its bias row, applies the logistic function; multiplies by the
  third matrix and adds its bias row. It then takes each row's maximum (a lane maximum from -inf), subtracts it,
  exponentiates, sums each row (a lane sum from the zero word), takes the logarithm and subtracts. Narrowing an operand
  to a shorter format is the identity on extended reals, a product into the zero block is the contraction's sum, -inf is
  the least extended real and the zero word adds nothing, so entry (r, j) of the stored block is the specification's
  perceptron of the eight blocks read by coordinates.
-/
import proofs.«163009_j11184094839450_1_alg».proof.Proof.Spec
import proofs.«163009_j11184094839450_1_alg».proof.Proof.Gen.KernelIdeal.Skeleton
import proofs.«163009_j11184094839450_1_alg».proof.Proof.LibOneAxisDot
import proofs.«163009_j11184094839450_1_alg».proof.Proof.LibRowOps

noncomputable section

open scoped BigOperators

namespace Cert.KernelIdeal.MlpValue

open Cert.KernelIdeal.Gen
open Idealize.ShloMosaic Idealize.ShloMosaic.ValueIdx

/-! ## The three products' operand indices -/

/-- In the first product the left operand's index at output (r, j) and contraction position k is (r, k). -/
theorem dot1_lhs (r : Fin 64) (j : Fin 256) (k : Fin 256) :
    dot_S64x256_S256x256_S64x256_1_0_0_1_n_n.lhsIdx (ix2 r j) ((contrEquiv1 dot_S64x256_S256x256_S64x256_1_0_0_1_n_n 256 rfl rfl).symm k) = ix2 r k := by
  funext a
  apply Fin.ext
  match a with
  | ⟨0, _⟩ => simp [DotDims.lhsIdx, dot_S64x256_S256x256_S64x256_1_0_0_1_n_n]; rfl
  | ⟨1, _⟩ =>
    exact (DotDims.lhsIdx_val_of_single _ (cl := (1 : Fin 2)) rfl _ _).trans
      (contrEquiv1_symm_val dot_S64x256_S256x256_S64x256_1_0_0_1_n_n 256 rfl rfl k)

/-- In the first product the right operand's index at output (r, j) and contraction position k is (k, j). -/
theorem dot1_rhs (r : Fin 64) (j : Fin 256) (k : Fin 256) :
    dot_S64x256_S256x256_S64x256_1_0_0_1_n_n.rhsIdx (ix2 r j) ((contrEquiv1 dot_S64x256_S256x256_S64x256_1_0_0_1_n_n 256 rfl rfl).symm k) = ix2 k j := by
  funext a
  apply Fin.ext
  match a with
  | ⟨0, _⟩ =>
    exact (DotDims.rhsIdx_val_of_single _ (cr := (0 : Fin 2)) rfl _ _).trans
      (contrEquiv1_symm_val dot_S64x256_S256x256_S64x256_1_0_0_1_n_n 256 rfl rfl k)
  | ⟨1, _⟩ => simp [DotDims.rhsIdx, dot_S64x256_S256x256_S64x256_1_0_0_1_n_n]; rfl

/-- In the second product the left operand's index at output (r, j) and contraction position k is (r, k). -/
theorem dot2_lhs (r : Fin 64) (j : Fin 128) (k : Fin 256) :
    dot_S64x256_S256x128_S64x128_1_0_0_1_n_n.lhsIdx (ix2 r j) ((contrEquiv1 dot_S64x256_S256x128_S64x128_1_0_0_1_n_n 256 rfl rfl).symm k) = ix2 r k := by
  funext a
  apply Fin.ext
  match a with
  | ⟨0, _⟩ => simp [DotDims.lhsIdx, dot_S64x256_S256x128_S64x128_1_0_0_1_n_n]; rfl
  | ⟨1, _⟩ =>
    exact (DotDims.lhsIdx_val_of_single _ (cl := (1 : Fin 2)) rfl _ _).trans
      (contrEquiv1_symm_val dot_S64x256_S256x128_S64x128_1_0_0_1_n_n 256 rfl rfl k)

/-- In the second product the right operand's index at output (r, j) and contraction position k is (k, j). -/
theorem dot2_rhs (r : Fin 64) (j : Fin 128) (k : Fin 256) :
    dot_S64x256_S256x128_S64x128_1_0_0_1_n_n.rhsIdx (ix2 r j) ((contrEquiv1 dot_S64x256_S256x128_S64x128_1_0_0_1_n_n 256 rfl rfl).symm k) = ix2 k j := by
  funext a
  apply Fin.ext
  match a with
  | ⟨0, _⟩ =>
    exact (DotDims.rhsIdx_val_of_single _ (cr := (0 : Fin 2)) rfl _ _).trans
      (contrEquiv1_symm_val dot_S64x256_S256x128_S64x128_1_0_0_1_n_n 256 rfl rfl k)
  | ⟨1, _⟩ => simp [DotDims.rhsIdx, dot_S64x256_S256x128_S64x128_1_0_0_1_n_n]; rfl

/-- In the third product the left operand's index at output (r, j) and contraction position k is (r, k). -/
theorem dot3_lhs (r : Fin 64) (j : Fin 10) (k : Fin 128) :
    dot_S64x128_S128x10_S64x10_1_0_0_1_n_n.lhsIdx (ix2 r j) ((contrEquiv1 dot_S64x128_S128x10_S64x10_1_0_0_1_n_n 128 rfl rfl).symm k) = ix2 r k := by
  funext a
  apply Fin.ext
  match a with
  | ⟨0, _⟩ => simp [DotDims.lhsIdx, dot_S64x128_S128x10_S64x10_1_0_0_1_n_n]; rfl
  | ⟨1, _⟩ =>
    exact (DotDims.lhsIdx_val_of_single _ (cl := (1 : Fin 2)) rfl _ _).trans
      (contrEquiv1_symm_val dot_S64x128_S128x10_S64x10_1_0_0_1_n_n 128 rfl rfl k)

/-- In the third product the right operand's index at output (r, j) and contraction position k is (k, j). -/
theorem dot3_rhs (r : Fin 64) (j : Fin 10) (k : Fin 128) :
    dot_S64x128_S128x10_S64x10_1_0_0_1_n_n.rhsIdx (ix2 r j) ((contrEquiv1 dot_S64x128_S128x10_S64x10_1_0_0_1_n_n 128 rfl rfl).symm k) = ix2 k j := by
  funext a
  apply Fin.ext
  match a with
  | ⟨0, _⟩ =>
    exact (DotDims.rhsIdx_val_of_single _ (cr := (0 : Fin 2)) rfl _ _).trans
      (contrEquiv1_symm_val dot_S64x128_S128x10_S64x10_1_0_0_1_n_n 128 rfl rfl k)
  | ⟨1, _⟩ => simp [DotDims.rhsIdx, dot_S64x128_S128x10_S64x10_1_0_0_1_n_n]; rfl

/-! ## Layout at an entry -/

/-- A [1, 1] block repeated over an [a, b] block reads its one entry everywhere. -/
theorem scalarBcast_at {α : Type} {a b : Nat} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (n0 := 1) (n1 := 1) ⟨0, Nat.one_pos⟩ ⟨0, Nat.one_pos⟩) :=
  broadcastTo_apply v h (ix2 p q) _ (fun d => by
    match d with
    | ⟨0, _⟩ => exact (if_pos rfl).symm
    | ⟨1, _⟩ => exact (if_pos rfl).symm)

/-! ## The dense layers at an entry -/

/-- The first dense layer's block: the product into the zero block, plus the bias row repeated over the rows. -/
def dense1 (x : FVec Ideal S64x256 .bf16) (w : FVec Ideal S256x256 .bf16) (bb : FVec Ideal S1x256 .f32) : FVec Ideal S64x256 .f32 :=
  addf (matmul dot_S64x256_S256x256_S64x256_1_0_0_1_n_n none x w (constant (F := Ideal) S64x256 .f32 0x00000000#32))
    (broadcastTo S64x256 bb broadcasts_S1x256_S64x256)

/-- Its entry (r, j): the dot product of row r of the left operand with column j of the right one, plus the bias's entry j. -/
theorem dense1_at (x : FVec Ideal S64x256 .bf16) (w : FVec Ideal S256x256 .bf16) (bb : FVec Ideal S1x256 .f32)
    (r : Fin 64) (j : Fin 256) :
    dense1 x w bb (ix2 r j) = Spec.affine (fun k => x (ix2 r k)) (fun k => w (ix2 k j)) (bb (ix2 0 j)) := by
  show matmul dot_S64x256_S256x256_S64x256_1_0_0_1_n_n none x w (constant (F := Ideal) S64x256 .f32 0x00000000#32) (ix2 r j)
      + broadcastTo S64x256 bb broadcasts_S1x256_S64x256 (ix2 r j) = _
  rw [Cert.Lib.OneAxisDot.matmul_zero_apply_at dot_S64x256_S256x256_S64x256_1_0_0_1_n_n 256 rfl rfl none x w (ix2 r j)
      (fun k => ix2 r k) (fun k => ix2 k j) (dot1_lhs r j) (dot1_rhs r j),
    Cert.Dual.Body.rowBcast_at bb broadcasts_S1x256_S64x256 r j]
  rfl

/-- The second dense layer's block: the product into the zero block, plus the bias row repeated over the rows. -/
def dense2 (x : FVec Ideal S64x256 .bf16) (w : FVec Ideal S256x128 .bf16) (bb : FVec Ideal S1x128 .f32) : FVec Ideal S64x128 .f32 :=
  addf (matmul dot_S64x256_S256x128_S64x128_1_0_0_1_n_n none x w (constant (F := Ideal) S64x128 .f32 0x00000000#32))
    (broadcastTo S64x128 bb broadcasts_S1x128_S64x128)

/-- Its entry (r, j): the dot product of row r of the left operand with column j of the right one, plus the bias's entry j. -/
theorem dense2_at (x : FVec Ideal S64x256 .bf16) (w : FVec Ideal S256x128 .bf16) (bb : FVec Ideal S1x128 .f32)
    (r : Fin 64) (j : Fin 128) :
    dense2 x w bb (ix2 r j) = Spec.affine (fun k => x (ix2 r k)) (fun k => w (ix2 k j)) (bb (ix2 0 j)) := by
  show matmul dot_S64x256_S256x128_S64x128_1_0_0_1_n_n none x w (constant (F := Ideal) S64x128 .f32 0x00000000#32) (ix2 r j)
      + broadcastTo S64x128 bb broadcasts_S1x128_S64x128 (ix2 r j) = _
  rw [Cert.Lib.OneAxisDot.matmul_zero_apply_at dot_S64x256_S256x128_S64x128_1_0_0_1_n_n 256 rfl rfl none x w (ix2 r j)
      (fun k => ix2 r k) (fun k => ix2 k j) (dot2_lhs r j) (dot2_rhs r j),
    Cert.Dual.Body.rowBcast_at bb broadcasts_S1x128_S64x128 r j]
  rfl

/-- The third dense layer's block: the product into the zero block, plus the bias row repeated over the rows. -/
def dense3 (x : FVec Ideal S64x128 .bf16) (w : FVec Ideal S128x10 .bf16) (bb : FVec Ideal S1x10 .f32) : FVec Ideal S64x10 .f32 :=
  addf (matmul dot_S64x128_S128x10_S64x10_1_0_0_1_n_n none x w (constant (F := Ideal) S64x10 .f32 0x00000000#32))
    (broadcastTo S64x10 bb broadcasts_S1x10_S64x10)

/-- Its entry (r, j): the dot product of row r of the left operand with column j of the right one, plus the bias's entry j. -/
theorem dense3_at (x : FVec Ideal S64x128 .bf16) (w : FVec Ideal S128x10 .bf16) (bb : FVec Ideal S1x10 .f32)
    (r : Fin 64) (j : Fin 10) :
    dense3 x w bb (ix2 r j) = Spec.affine (fun k => x (ix2 r k)) (fun k => w (ix2 k j)) (bb (ix2 0 j)) := by
  show matmul dot_S64x128_S128x10_S64x10_1_0_0_1_n_n none x w (constant (F := Ideal) S64x10 .f32 0x00000000#32) (ix2 r j)
      + broadcastTo S64x10 bb broadcasts_S1x10_S64x10 (ix2 r j) = _
  rw [Cert.Lib.OneAxisDot.matmul_zero_apply_at dot_S64x128_S128x10_S64x10_1_0_0_1_n_n 128 rfl rfl none x w (ix2 r j)
      (fun k => ix2 r k) (fun k => ix2 k j) (dot3_lhs r j) (dot3_rhs r j),
    Cert.Dual.Body.rowBcast_at bb broadcasts_S1x10_S64x10 r j]
  rfl

/-- The leaky rectifier of a block, its slope a [1, 1] block: a comparison with the zero word and a selection. -/
def leakyB (y : FVec Ideal S64x256 .f32) (aa : FVec Ideal S1x1 .f32) : FVec Ideal S64x256 .f32 :=
  select (cmpf .oge y (broadcast S64x256 (FloatOps.ofBits (F := Ideal) .f32 0x00000000#32))) y
    (mulf (broadcastTo S64x256 aa broadcasts_S1x1_S64x256) y)

theorem leakyB_at (y : FVec Ideal S64x256 .f32) (aa : FVec Ideal S1x1 .f32) (r : Fin 64) (j : Fin 256) :
    leakyB y aa (ix2 r j) = Spec.leaky Spec.z32 (aa (ix2 0 0)) (y (ix2 r j)) := by
  show Scalar.select (FloatOps.cmpf .oge (y (ix2 r j)) (Ideal.ofBits .f32 0x00000000#32)) (y (ix2 r j))
      (broadcastTo S64x256 aa broadcasts_S1x1_S64x256 (ix2 r j) * y (ix2 r j)) = _
  rw [scalarBcast_at aa broadcasts_S1x1_S64x256 r j]
  rfl

/-! ## The three layers as the body computes them -/

/-- The first hidden layer's block: operands narrowed, dense layer, leaky rectifier. -/
def layer1 (g : Vec Ideal S64x256 .f32) (w1 : Vec Ideal S256x256 .f32) (b1 : Vec Ideal S1x256 .f32) (a : Vec Ideal S1x1 .f32) :
    FVec Ideal S64x256 .f32 :=
  leakyB (dense1 (truncf .bf16 (shapeCast S64x256 g shapeCasts_S64x256_S64x256) bitsLt_bf16_f32) (truncf .bf16 w1 bitsLt_bf16_f32)
    (shapeCast S1x256 b1 shapeCasts_S1x256_S1x256)) (shapeCast S1x1 a shapeCasts_S1x1_S1x1)

/-- The second hidden layer's block: operands narrowed, dense layer, logistic function. -/
def layer2 (h1 : FVec Ideal S64x256 .f32) (w2 : Vec Ideal S256x128 .f32) (b2 : Vec Ideal S1x128 .f32) : FVec Ideal S64x128 .f32 :=
  logistic (dense2 (truncf .bf16 h1 bitsLt_bf16_f32) (truncf .bf16 w2 bitsLt_bf16_f32) (shapeCast S1x128 b2 shapeCasts_S1x128_S1x128))

/-- The output layer's block before normalisation: operands narrowed, dense layer. -/
def layer3 (h2 : FVec Ideal S64x128 .f32) (w3 : Vec Ideal S128x10 .f32) (b3 : Vec Ideal S1x10 .f32) : FVec Ideal S64x10 .f32 :=
  dense3 (truncf .bf16 h2 bitsLt_bf16_f32) (truncf .bf16 w3 bitsLt_bf16_f32) (shapeCast S1x10 b3 shapeCasts_S1x10_S1x10)

/-- The body's unnormalised block is the three layers in turn. -/
theorem pay2_eq (g : Vec Ideal S64x256 .f32) (w1 : Vec Ideal S256x256 .f32) (b1 : Vec Ideal S1x256 .f32)
    (a : Vec Ideal S1x1 .f32) (w2 : Vec Ideal S256x128 .f32) (b2 : Vec Ideal S1x128 .f32) (w3 : Vec Ideal S128x10 .f32)
    (b3 : Vec Ideal S1x10 .f32) :
    Gen.k4_pay2 (F := Ideal) g w1 b1 a w2 b2 w3 b3 = layer3 (layer2 (layer1 g w1 b1 a) w2 b2) w3 b3 := rfl

/-- Narrowing is the identity on extended reals and a cast to the same shape moves nothing, so entry (r, j) of the first
    layer's block is the specification's. -/
theorem layer1_at (g : Vec Ideal S64x256 .f32) (w1 : Vec Ideal S256x256 .f32) (b1 : Vec Ideal S1x256 .f32) (a : Vec Ideal S1x1 .f32)
    (r : Fin 64) (j : Fin 256) :
    layer1 g w1 b1 a (ix2 r j)
      = Spec.mlp1 (fun r k => g (ix2 r k)) (fun k j => w1 (ix2 k j)) (fun j => b1 (ix2 0 j)) (a (ix2 0 0)) r j := by
  unfold layer1
  rw [leakyB_at, dense1_at, shapeCast_self g, shapeCast_self b1, shapeCast_self a]
  rfl

theorem layer2_at (h1 : FVec Ideal S64x256 .f32) (w2 : Vec Ideal S256x128 .f32) (b2 : Vec Ideal S1x128 .f32)
    (r : Fin 64) (j : Fin 128) :
    layer2 h1 w2 b2 (ix2 r j)
      = Spec.mlp2 (fun r k => h1 (ix2 r k)) (fun k j => w2 (ix2 k j)) (fun j => b2 (ix2 0 j)) r j := by
  unfold layer2
  show Ideal.logistic (dense2 _ _ _ (ix2 r j)) = _
  rw [dense2_at, shapeCast_self b2]
  rfl

theorem layer3_at (h2 : FVec Ideal S64x128 .f32) (w3 : Vec Ideal S128x10 .f32) (b3 : Vec Ideal S1x10 .f32)
    (r : Fin 64) (j : Fin 10) :
    layer3 h2 w3 b3 (ix2 r j)
      = Spec.mlp3 (fun r k => h2 (ix2 r k)) (fun k j => w3 (ix2 k j)) (fun j => b3 (ix2 0 j)) r j := by
  unfold layer3
  rw [dense3_at, shapeCast_self b3]
  rfl

/-- Entry (r, j) of the body's unnormalised block: the three layers of the specification. -/
theorem pay2_at (g : Vec Ideal S64x256 .f32) (w1 : Vec Ideal S256x256 .f32) (b1 : Vec Ideal S1x256 .f32)
    (a : Vec Ideal S1x1 .f32) (w2 : Vec Ideal S256x128 .f32) (b2 : Vec Ideal S1x128 .f32) (w3 : Vec Ideal S128x10 .f32)
    (b3 : Vec Ideal S1x10 .f32) (r : Fin 64) (j : Fin 10) :
    Gen.k4_pay2 (F := Ideal) g w1 b1 a w2 b2 w3 b3 (ix2 r j)
      = (Spec.mlp3 (Spec.mlp2 (Spec.mlp1 (fun r k => g (ix2 r k)) (fun k j => w1 (ix2 k j)) (fun j => b1 (ix2 0 j)) (a (ix2 0 0)))
        (fun k j => w2 (ix2 k j)) (fun j => b2 (ix2 0 j)))
        (fun k j => w3 (ix2 k j)) (fun j => b3 (ix2 0 j))) r j := by
  have e1 : (fun (r : Fin 64) (k : Fin 256) => layer1 g w1 b1 a (ix2 r k))
      = (Spec.mlp1 (fun r k => g (ix2 r k)) (fun k j => w1 (ix2 k j)) (fun j => b1 (ix2 0 j)) (a (ix2 0 0))) :=
    funext fun r => funext fun k => layer1_at g w1 b1 a r k
  have e2 : (fun (r : Fin 64) (k : Fin 128) => layer2 (layer1 g w1 b1 a) w2 b2 (ix2 r k))
      = (Spec.mlp2 (Spec.mlp1 (fun r k => g (ix2 r k)) (fun k j => w1 (ix2 k j)) (fun j => b1 (ix2 0 j)) (a (ix2 0 0)))
        (fun k j => w2 (ix2 k j)) (fun j => b2 (ix2 0 j))) :=
    funext fun r => funext fun k => by rw [layer2_at, e1]
  rw [pay2_eq, layer3_at, e2]

/-! ## The row maximum -/

/-- The rows' maxima as the body takes them: a lane maximum from -inf, then a maximum with -inf. -/
def rowMaxV (z : FVec Ideal S64x10 .f32) : FVec Ideal S64 .f32 :=
  maximumf (broadcast S64 (FloatOps.ofBits (F := Ideal) .f32 0xFF800000#32))
    (multiReduction (F := Ideal) .maximumf [1] S64 z 0xFF800000#32 reduces_S64x10_S64 (.inl rfl) rfl)

theorem pay3_eq (g : Vec Ideal S64x256 .f32) (w1 : Vec Ideal S256x256 .f32) (b1 : Vec Ideal S1x256 .f32)
    (a : Vec Ideal S1x1 .f32) (w2 : Vec Ideal S256x128 .f32) (b2 : Vec Ideal S1x128 .f32) (w3 : Vec Ideal S128x10 .f32)
    (b3 : Vec Ideal S1x10 .f32) :
    Gen.k4_pay3 (F := Ideal) g w1 b1 a w2 b2 w3 b3 = rowMaxV (Gen.k4_pay2 (F := Ideal) g w1 b1 a w2 b2 w3 b3) := rfl

/-- Row r's maximum is the supremum of the row: -inf is the least extended real. -/
theorem rowMaxV_at (z : FVec Ideal S64x10 .f32) (r : Fin 64) : rowMaxV z (ix1 r) = ⨆ k : Fin 10, z (ix2 r k) := by
  show max (Ideal.ofBits .f32 0xFF800000#32)
      (multiReduction (F := Ideal) .maximumf [1] S64 z 0xFF800000#32 reduces_S64x10_S64 (.inl rfl) rfl (ix1 r)) = _
  rw [Cert.Lib.MaxReduce.ofBits_neg_inf_f32, max_bot_left]
  refine (Cert.Lib.MaxLane.maxReduce_single z reduces_S64x10_S64 (.inl rfl) rfl (ix1 r)).trans ?_
  exact iSup_congr fun k => by rw [Cert.Dual.Body.lift_cols reduces_S64x10_S64 r k]

/-! ## The normalisation -/

/-- The stored block from the unnormalised block z and the rows' maxima mx, at entry (r, j): the maximum of row r is
    carried back through a column, so is the logarithm of the row's sum of exponentials (whose accumulator, the zero word,
    adds nothing). -/
theorem pay1_at (z : FVec Ideal S64x10 .f32) (mx : FVec Ideal S64 .f32) (r : Fin 64) (j : Fin 10) :
    Gen.k4_pay1 (F := Ideal) z mx (ix2 r j)
      = (z (ix2 r j) - mx (ix1 r)) - Ideal.log (∑ k : Fin 10, Ideal.exp (z (ix2 r k) - mx (ix1 r))) := by
  have hcol : ∀ q : Fin 10,
      broadcastTo S64x10 (shapeCast S64x1 mx shapeCasts_S64_S64x1) broadcasts_S64x1_S64x10 (ix2 r q) = mx (ix1 r) :=
    fun q => Cert.Lib.KeepdimsColumn.column_at mx shapeCasts_S64_S64x1 broadcasts_S64x1_S64x10 r q
  unfold Gen.k4_pay1
  simp only [subf_apply]
  rw [hcol j, Cert.Lib.KeepdimsColumn.column_broadcast_at _ broadcasts_S64x1_S64x10 r j]
  show _ - Ideal.log (shapeCast S64x1 _ shapeCasts_S64_S64x1 (ix2 (n0 := 64) (n1 := 1) r ⟨0, Nat.one_pos⟩)) = _
  rw [Cert.Dual.Body.rowSum_at _ reduces_S64x10_S64 (.inl rfl) rfl shapeCasts_S64_S64x1 r]
  refine congrArg (fun s => (z (ix2 r j) - mx (ix1 r)) - Ideal.log s) (Finset.sum_congr rfl fun k _ => ?_)
  show Ideal.exp (z (ix2 r k) - broadcastTo S64x10 (shapeCast S64x1 mx shapeCasts_S64_S64x1) broadcasts_S64x1_S64x10 (ix2 r k)) = _
  rw [hcol k]

/-! ## The stored block -/

/-- THE STORED BLOCK at entry (r, j): the specification's perceptron of the eight blocks read by coordinates. -/
theorem stored_at (g : Vec Ideal S64x256 .f32) (w1 : Vec Ideal S256x256 .f32) (b1 : Vec Ideal S1x256 .f32)
    (a : Vec Ideal S1x1 .f32) (w2 : Vec Ideal S256x128 .f32) (b2 : Vec Ideal S1x128 .f32) (w3 : Vec Ideal S128x10 .f32)
    (b3 : Vec Ideal S1x10 .f32) (r : Fin 64) (j : Fin 10) :
    Gen.k4_pay1 (F := Ideal) (Gen.k4_pay2 (F := Ideal) g w1 b1 a w2 b2 w3 b3) (Gen.k4_pay3 (F := Ideal) g w1 b1 a w2 b2 w3 b3) (ix2 r j)
      = Spec.mlpOut (fun r k => g (ix2 r k)) (fun k j => w1 (ix2 k j)) (fun j => b1 (ix2 0 j)) (a (ix2 0 0))
        (fun k j => w2 (ix2 k j)) (fun j => b2 (ix2 0 j)) (fun k j => w3 (ix2 k j)) (fun j => b3 (ix2 0 j)) r j := by
  have hP : ∀ k : Fin 10, Gen.k4_pay2 (F := Ideal) g w1 b1 a w2 b2 w3 b3 (ix2 r k)
      = (Spec.mlp3 (Spec.mlp2 (Spec.mlp1 (fun r k => g (ix2 r k)) (fun k j => w1 (ix2 k j)) (fun j => b1 (ix2 0 j)) (a (ix2 0 0)))
        (fun k j => w2 (ix2 k j)) (fun j => b2 (ix2 0 j)))
        (fun k j => w3 (ix2 k j)) (fun j => b3 (ix2 0 j))) r k :=
    fun k => pay2_at g w1 b1 a w2 b2 w3 b3 r k
  rw [pay1_at, pay3_eq, rowMaxV_at]
  simp only [hP]
  rfl

end Cert.KernelIdeal.MlpValue

end
-- ==== Proof.MlpFinal.lean ====
/-
  What the graph-level perceptron's region leaves in its output array.

  The region's grid has one point and each of its nine windows is its whole array there, so every input block is the
  array as the region finds it, the body's one store covers the output buffer, and the one block written back covers the
  output array. The output array therefore ends holding the stored block of the input arrays, which is, entry by entry,
  the specification's perceptron of them.
-/
import proofs.«163009_j11184094839450_1_alg».proof.Proof.MlpPayload
import proofs.«163009_j11184094839450_1_alg».proof.Proof.ChainIdeal

noncomputable section

open scoped BigOperators

namespace Cert.KernelIdeal.MlpValue

open Cert.KernelIdeal.Gen Cert.KernelIdeal.Hand
open Idealize.ShloMosaic Idealize.ShloMosaic.ValueIdx Idealize.ShloMosaic.TcCoe
open Idealize.SL.Sem
open Idealize.ShloMosaic.Pipeline (Dat Cfg Window)

section Entry
-- the TensorCore's buffer contents when the region is entered
variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-- The region's result as ONE function of the contents it finds: the perceptron of the eight input arrays. -/
def G4 (c : Dev nD) : Buf (Elt Ideal) ((c : Thread nD τ).loc main_v186) := fun (i : S64x10.Idx) =>
  Spec.mlpOut (fun r k => V c main_v181 (ix2 r k)) (fun k j => V c main_arg7 (ix2 k j)) (fun j => V c main_v182 (ix2 0 j))
    (V c main_v183 (ix2 0 0)) (fun k j => V c main_arg9 (ix2 k j)) (fun j => V c main_v184 (ix2 0 j))
    (fun k j => V c main_arg11 (ix2 k j)) (fun j => V c main_v185 (ix2 0 j)) (i 0) (i 1)

/-- The grid has one point and every window's block index there is (0, 0): each block is its whole array. -/
theorem idx_facts4 : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0 :=
  (by decide +kernel : ∀ t : Fin grid4.N, _)

/-! ## Each input block is its whole array -/

theorem iblk4_0 (c : Dev nD) (t : Fin cfg4.N) : (iblk4 V c 0 t : Vec Ideal S64x256 .f32) = V c main_v181 := by
  obtain ⟨e00, e01, e10, e11, e20, e21, e30, e31, e40, e41, e50, e51, e60, e61, e70, e71, e80, e81⟩ := idx_facts4 t
  funext y
  show V c main_v181 (((cfg4.win 0).blk t).view.emb y) = V c main_v181 y
  refine congrArg (V c main_v181) (funext fun a => Fin.ext ?_)
  match a with
  | ⟨0, _⟩ => show win4_0.index t (0 : Fin 2) * 64 + 1 * (y 0).val = (y 0).val; omega
  | ⟨1, _⟩ => show win4_0.index t (1 : Fin 2) * 256 + 1 * (y 1).val = (y 1).val; omega

theorem iblk4_1 (c : Dev nD) (t : Fin cfg4.N) : (iblk4 V c 1 t : Vec Ideal S256x256 .f32) = V c main_arg7 := by
  obtain ⟨e00, e01, e10, e11, e20, e21, e30, e31, e40, e41, e50, e51, e60, e61, e70, e71, e80, e81⟩ := idx_facts4 t
  funext y
  show V c main_arg7 (((cfg4.win 1).blk t).view.emb y) = V c main_arg7 y
  refine congrArg (V c main_arg7) (funext fun a => Fin.ext ?_)
  match a with
  | ⟨0, _⟩ => show win4_1.index t (0 : Fin 2) * 256 + 1 * (y 0).val = (y 0).val; omega
  | ⟨1, _⟩ => show win4_1.index t (1 : Fin 2) * 256 + 1 * (y 1).val = (y 1).val; omega

theorem iblk4_2 (c : Dev nD) (t : Fin cfg4.N) : (iblk4 V c 2 t : Vec Ideal S1x256 .f32) = V c main_v182 := by
  obtain ⟨e00, e01, e10, e11, e20, e21, e30, e31, e40, e41, e50, e51, e60, e61, e70, e71, e80, e81⟩ := idx_facts4 t
  funext y
  show V c main_v182 (((cfg4.win 2).blk t).view.emb y) = V c main_v182 y
  refine congrArg (V c main_v182) (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega

theorem iblk4_3 (c : Dev nD) (t : Fin cfg4.N) : (iblk4 V c 3 t : Vec Ideal S1x1 .f32) = V c main_v183 := by
  obtain ⟨e00, e01, e10, e11, e20, e21, e30, e31, e40, e41, e50, e51, e60, e61, e70, e71, e80, e81⟩ := idx_facts4 t
  funext y
  show V c main_v183 (((cfg4.win 3).blk t).view.emb y) = V c main_v183 y
  refine congrArg (V c main_v183) (funext fun a => Fin.ext ?_)
  match a with
  | ⟨0, _⟩ => show win4_3.index t (0 : Fin 2) * 1 + 1 * (y 0).val = (y 0).val; omega
  | ⟨1, _⟩ => show win4_3.index t (1 : Fin 2) * 1 + 1 * (y 1).val = (y 1).val; omega

theorem iblk4_4 (c : Dev nD) (t : Fin cfg4.N) : (iblk4 V c 4 t : Vec Ideal S256x128 .f32) = V c main_arg9 := by
  obtain ⟨e00, e01, e10, e11, e20, e21, e30, e31, e40, e41, e50, e51, e60, e61, e70, e71, e80, e81⟩ := idx_facts4 t
  funext y
  show V c main_arg9 (((cfg4.win 4).blk t).view.emb y) = V c main_arg9 y
  refine congrArg (V c main_arg9) (funext fun a => Fin.ext ?_)
  match a with
  | ⟨0, _⟩ => show win4_4.index t (0 : Fin 2) * 256 + 1 * (y 0).val = (y 0).val; omega
  | ⟨1, _⟩ => show win4_4.index t (1 : Fin 2) * 128 + 1 * (y 1).val = (y 1).val; omega

theorem iblk4_5 (c : Dev nD) (t : Fin cfg4.N) : (iblk4 V c 5 t : Vec Ideal S1x128 .f32) = V c main_v184 := by
  obtain ⟨e00, e01, e10, e11, e20, e21, e30, e31, e40, e41, e50, e51, e60, e61, e70, e71, e80, e81⟩ := idx_facts4 t
  funext y
  show V c main_v184 (((cfg4.win 5).blk t).view.emb y) = V c main_v184 y
  refine congrArg (V c main_v184) (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

theorem iblk4_6 (c : Dev nD) (t : Fin cfg4.N) : (iblk4 V c 6 t : Vec Ideal S128x10 .f32) = V c main_arg11 := by
  obtain ⟨e00, e01, e10, e11, e20, e21, e30, e31, e40, e41, e50, e51, e60, e61, e70, e71, e80, e81⟩ := idx_facts4 t
  funext y
  show V c main_arg11 (((cfg4.win 6).blk t).view.emb y) = V c main_arg11 y
  refine congrArg (V c main_arg11) (funext fun a => Fin.ext ?_)
  match a with
  | ⟨0, _⟩ => show win4_6.index t (0 : Fin 2) * 128 + 1 * (y 0).val = (y 0).val; omega
  | ⟨1, _⟩ => show win4_6.index t (1 : Fin 2) * 10 + 1 * (y 1).val = (y 1).val; omega

theorem iblk4_7 (c : Dev nD) (t : Fin cfg4.N) : (iblk4 V c 7 t : Vec Ideal S1x10 .f32) = V c main_v185 := by
  obtain ⟨e00, e01, e10, e11, e20, e21, e30, e31, e40, e41, e50, e51, e60, e61, e70, e71, e80, e81⟩ := idx_facts4 t
  funext y
  show V c main_v185 (((cfg4.win 7).blk t).view.emb y) = V c main_v185 y
  refine congrArg (V c main_v185) (funext fun a => Fin.ext ?_)
  match a with
  | ⟨0, _⟩ => show win4_7.index t (0 : Fin 2) * 1 + 1 * (y 0).val = (y 0).val; omega
  | ⟨1, _⟩ => show win4_7.index t (1 : Fin 2) * 10 + 1 * (y 1).val = (y 1).val; omega

/-- WHAT THE ONE POINT WRITES BACK is the block of `G4`: the stored block at the input arrays read whole. -/
theorem flushed4_eq (c : Dev nD) (t : Fin cfg4.N) :
    (dat4 V c).flushed 8 t = ((cfg4.win 8).blk t).view.read (Elt Ideal) (G4 V c) := by
  show (cfg4.win 8).cut (grid4.coords t) ((dat4 V c).after 8 t) = _
  rw [after4_8]
  unfold out4_8
  rw [View.canon_unit_zero hz]
  simp only [View.ld_unit_zero (S := S64x256) hz, View.ld_unit_zero (S := S256x256) hz, View.ld_unit_zero (S := S1x256) hz, View.ld_unit_zero (S := S1x1) hz, View.ld_unit_zero (S := S256x128) hz, View.ld_unit_zero (S := S1x128) hz, View.ld_unit_zero (S := S128x10) hz, View.ld_unit_zero (S := S1x10) hz]
  rw [iblk4_0 V c t, iblk4_1 V c t, iblk4_2 V c t, iblk4_3 V c t, iblk4_4 V c t, iblk4_5 V c t, iblk4_6 V c t, iblk4_7 V c t]
  obtain ⟨e00, e01, e10, e11, e20, e21, e30, e31, e40, e41, e50, e51, e60, e61, e70, e71, e80, e81⟩ := idx_facts4 t
  refine funext fun (y : S64x10.Idx) => ?_
  obtain ⟨r, j, rfl⟩ : ∃ (r : Fin 64) (j : Fin 10), y = ix2 r j := ⟨y 0, y 1, eq_ix2 y⟩
  have he : ((cfg4.win 8).blk t).view.emb (ix2 r j) = ix2 r j := funext fun a => Fin.ext (by
    match a with
    | ⟨0, _⟩ => show win4_8.index t (0 : Fin 2) * 64 + 1 * r.val = r.val; omega
    | ⟨1, _⟩ => show win4_8.index t (1 : Fin 2) * 10 + 1 * j.val = j.val; omega)
  show Gen.k4_pay1 (F := Ideal) (Gen.k4_pay2 (F := Ideal) (V c main_v181) (V c main_arg7) (V c main_v182) (V c main_v183) (V c main_arg9) (V c main_v184) (V c main_arg11) (V c main_v185))
      (Gen.k4_pay3 (F := Ideal) (V c main_v181) (V c main_arg7) (V c main_v182) (V c main_v183) (V c main_arg9) (V c main_v184) (V c main_arg11) (V c main_v185)) (ix2 r j)
    = G4 V c (((cfg4.win 8).blk t).view.emb (ix2 r j))
  rw [he]
  exact stored_at (V c main_v181) (V c main_arg7) (V c main_v182) (V c main_v183) (V c main_arg9) (V c main_v184) (V c main_arg11) (V c main_v185) r j

/-- An index of the output array is in the point's block iff each coordinate is in the block's range on its axis. -/
theorem mem_blk4 (t : Fin cfg4.N) (i : S64x10.Idx) :
    i ∈ ((cfg4.win 8).blk t).view.set ↔ ∀ a : Fin 2, win4_8.index t a * S64x10.size a ≤ (i a).val ∧ (i a).val < win4_8.index t a * S64x10.size a + S64x10.size a := by
  show i ∈ ((View.whole main_v186).slice (win4_8.rect t)).set ↔ _
  rw [View.set_slice_whole, Rect.mem_set_unit]
  exact Iff.rfl

/-- THE OUTPUT ARRAY after the region: `G4` of the contents the region finds. The one block is the whole array. -/
theorem final4 (c : Dev nD) : (dat4 V c).arrAt 8 cfg4.N = G4 V c :=
  (dat4 V c).arrAt_eq_of_cover 8 (G4 V c) (fun t _ => flushed4_eq V c t) (fun (i : S64x10.Idx) => by
    obtain ⟨e00, e01, e10, e11, e20, e21, e30, e31, e40, e41, e50, e51, e60, e61, e70, e71, e80, e81⟩ := idx_facts4 t4_0
    refine ⟨t4_0, flush4_8 t4_0, ?_⟩
    rw [mem_blk4]
    intro a
    have h0 : (i 0).val < 64 := (i 0).isLt
    have h1 : (i 1).val < 10 := (i 1).isLt
    match a with
    | ⟨0, _⟩ => show win4_8.index t4_0 (0 : Fin 2) * 64 ≤ (i 0).val ∧ (i 0).val < win4_8.index t4_0 (0 : Fin 2) * 64 + 64; omega
    | ⟨1, _⟩ => show win4_8.index t4_0 (1 : Fin 2) * 10 ≤ (i 1).val ∧ (i 1).val < win4_8.index t4_0 (1 : Fin 2) * 10 + 10; omega)

end Entry

/-- What region 4 leaves in its output array, as one function of the contents at its entry. -/
theorem X12_eq (m : (ℓ : Loc nD τ sig) → Buf (Elt Ideal) ℓ) (c : Dev nD) :
    Hand.X12 m c = fun (i : S64x10.Idx) =>
  Spec.mlpOut (fun r k => Hand.U11 m c main_v181 (ix2 r k)) (fun k j => Hand.U11 m c main_arg7 (ix2 k j)) (fun j => Hand.U11 m c main_v182 (ix2 0 j))
    (Hand.U11 m c main_v183 (ix2 0 0)) (fun k j => Hand.U11 m c main_arg9 (ix2 k j)) (fun j => Hand.U11 m c main_v184 (ix2 0 j))
    (fun k j => Hand.U11 m c main_arg11 (ix2 k j)) (fun j => Hand.U11 m c main_v185 (ix2 0 j)) (i 0) (i 1) :=
  final4 (Hand.T11 m) c

end Cert.KernelIdeal.MlpValue

end
-- ==== Proof.KValue.lean ====
/-
  The kernel program's output array as one function of its fifteen arguments.

  The program alternates host stretches and kernel launches. Walking the boundaries in order: no stretch and no launch
  touches an argument array, and the edge list's two rows and the edge weights, computed once before the first launch,
  are only read afterwards; so at every boundary they hold what the launch memory gives. Each dense layer's launch leaves
  the specification's dense step of the three Chebyshev terms that the stretch before it laid side by side from the
  features of the layer before; the last launch leaves the specification's perceptron of the pooled last features.
-/
import proofs.«163009_j11184094839450_1_alg».proof.Proof.KResult
import proofs.«163009_j11184094839450_1_alg».proof.Proof.KKeeps
import proofs.«163009_j11184094839450_1_alg».proof.Proof.ChebFinal
import proofs.«163009_j11184094839450_1_alg».proof.Proof.MlpFinal

noncomputable section

namespace Cert.KernelIdeal.KV

open Cert.KernelIdeal Cert.KernelIdeal.Gen Cert.KernelIdeal.Terms
open Idealize.ShloMosaic Idealize.ShloMosaic.TcCoe Idealize.ShloMosaic.ValueIdx Idealize.SL.Sem Idealize.ShloMosaic.StableHlo

variable [Facts]

variable (m : (ℓ : Loc nD τ sig) → Buf (Elt Ideal) ℓ) (c : Dev nD)

/-! ## What every boundary keeps -/

/-- Contents `W` of core `c`'s buffers that hold every argument array as launched, and in the buffers of the edge list's
    two rows and of the edge weights what the first stretch computes there from the edge list. -/
structure Carried (W : Valuation τ sig (Elt Ideal)) : Prop where
  a0 : W (Proc.devRef .tc main_arg0) = (m ((c : Thread nD τ).loc main_arg0))
  a1 : W (Proc.devRef .tc main_arg1) = (m ((c : Thread nD τ).loc main_arg1))
  a2 : W (Proc.devRef .tc main_arg2) = (m ((c : Thread nD τ).loc main_arg2))
  a3 : W (Proc.devRef .tc main_arg3) = (m ((c : Thread nD τ).loc main_arg3))
  a4 : W (Proc.devRef .tc main_arg4) = (m ((c : Thread nD τ).loc main_arg4))
  a5 : W (Proc.devRef .tc main_arg5) = (m ((c : Thread nD τ).loc main_arg5))
  a6 : W (Proc.devRef .tc main_arg6) = (m ((c : Thread nD τ).loc main_arg6))
  a7 : W (Proc.devRef .tc main_arg7) = (m ((c : Thread nD τ).loc main_arg7))
  a8 : W (Proc.devRef .tc main_arg8) = (m ((c : Thread nD τ).loc main_arg8))
  a9 : W (Proc.devRef .tc main_arg9) = (m ((c : Thread nD τ).loc main_arg9))
  a10 : W (Proc.devRef .tc main_arg10) = (m ((c : Thread nD τ).loc main_arg10))
  a11 : W (Proc.devRef .tc main_arg11) = (m ((c : Thread nD τ).loc main_arg11))
  a12 : W (Proc.devRef .tc main_arg12) = (m ((c : Thread nD τ).loc main_arg12))
  a13 : W (Proc.devRef .tc main_arg13) = (m ((c : Thread nD τ).loc main_arg13))
  a14 : W (Proc.devRef .tc main_arg14) = (m ((c : Thread nD τ).loc main_arg14))
  row : W (Proc.devRef .tc main_v1) = kRow (F := Ideal) (m ((c : Thread nD τ).loc main_arg1))
  col : W (Proc.devRef .tc main_v3) = kCol (F := Ideal) (m ((c : Thread nD τ).loc main_arg1))
  ew : W (Proc.devRef .tc main_v29) = kEdgeW (F := Ideal) (m ((c : Thread nD τ).loc main_arg1))

/-- Contents that agree with carried ones on those buffers are carried too. -/
theorem Carried.congr {W W' : Valuation τ sig (Elt Ideal)} (h : Carried m c W)
    (e_a0 : W' (Proc.devRef .tc main_arg0) = W (Proc.devRef .tc main_arg0))
    (e_a1 : W' (Proc.devRef .tc main_arg1) = W (Proc.devRef .tc main_arg1))
    (e_a2 : W' (Proc.devRef .tc main_arg2) = W (Proc.devRef .tc main_arg2))
    (e_a3 : W' (Proc.devRef .tc main_arg3) = W (Proc.devRef .tc main_arg3))
    (e_a4 : W' (Proc.devRef .tc main_arg4) = W (Proc.devRef .tc main_arg4))
    (e_a5 : W' (Proc.devRef .tc main_arg5) = W (Proc.devRef .tc main_arg5))
    (e_a6 : W' (Proc.devRef .tc main_arg6) = W (Proc.devRef .tc main_arg6))
    (e_a7 : W' (Proc.devRef .tc main_arg7) = W (Proc.devRef .tc main_arg7))
    (e_a8 : W' (Proc.devRef .tc main_arg8) = W (Proc.devRef .tc main_arg8))
    (e_a9 : W' (Proc.devRef .tc main_arg9) = W (Proc.devRef .tc main_arg9))
    (e_a10 : W' (Proc.devRef .tc main_arg10) = W (Proc.devRef .tc main_arg10))
    (e_a11 : W' (Proc.devRef .tc main_arg11) = W (Proc.devRef .tc main_arg11))
    (e_a12 : W' (Proc.devRef .tc main_arg12) = W (Proc.devRef .tc main_arg12))
    (e_a13 : W' (Proc.devRef .tc main_arg13) = W (Proc.devRef .tc main_arg13))
    (e_a14 : W' (Proc.devRef .tc main_arg14) = W (Proc.devRef .tc main_arg14))
    (e_row : W' (Proc.devRef .tc main_v1) = W (Proc.devRef .tc main_v1))
    (e_col : W' (Proc.devRef .tc main_v3) = W (Proc.devRef .tc main_v3))
    (e_ew : W' (Proc.devRef .tc main_v29) = W (Proc.devRef .tc main_v29)) :
    Carried m c W' :=
  ⟨e_a0.trans h.a0, e_a1.trans h.a1, e_a2.trans h.a2, e_a3.trans h.a3, e_a4.trans h.a4, e_a5.trans h.a5, e_a6.trans h.a6, e_a7.trans h.a7, e_a8.trans h.a8, e_a9.trans h.a9, e_a10.trans h.a10, e_a11.trans h.a11, e_a12.trans h.a12, e_a13.trans h.a13, e_a14.trans h.a14, e_row.trans h.row, e_col.trans h.col, e_ew.trans h.ew⟩

/-- Before the first launch: the opening stretches leave the arguments alone and compute the rows and the weights. -/
theorem carried3 : Carried m c (Hand.U3 m c) :=
  ⟨pre_keeps_arg0 (Gen.V0 m c), pre_keeps_arg1 (Gen.V0 m c), pre_keeps_arg2 (Gen.V0 m c), pre_keeps_arg3 (Gen.V0 m c), pre_keeps_arg4 (Gen.V0 m c), pre_keeps_arg5 (Gen.V0 m c), pre_keeps_arg6 (Gen.V0 m c), pre_keeps_arg7 (Gen.V0 m c), pre_keeps_arg8 (Gen.V0 m c), pre_keeps_arg9 (Gen.V0 m c), pre_keeps_arg10 (Gen.V0 m c), pre_keeps_arg11 (Gen.V0 m c), pre_keeps_arg12 (Gen.V0 m c), pre_keeps_arg13 (Gen.V0 m c), pre_keeps_arg14 (Gen.V0 m c),
    pre_row (Gen.V0 m c), pre_col (Gen.V0 m c), pre_edgeW (Gen.V0 m c)⟩

/-- A launch writes its output array only. -/
theorem carried4 : Carried m c (Hand.U4 m c) :=
  (carried3 m c).congr m c
    (Hand.U4_of_ne m c main_arg0 (by decide))
    (Hand.U4_of_ne m c main_arg1 (by decide))
    (Hand.U4_of_ne m c main_arg2 (by decide))
    (Hand.U4_of_ne m c main_arg3 (by decide))
    (Hand.U4_of_ne m c main_arg4 (by decide))
    (Hand.U4_of_ne m c main_arg5 (by decide))
    (Hand.U4_of_ne m c main_arg6 (by decide))
    (Hand.U4_of_ne m c main_arg7 (by decide))
    (Hand.U4_of_ne m c main_arg8 (by decide))
    (Hand.U4_of_ne m c main_arg9 (by decide))
    (Hand.U4_of_ne m c main_arg10 (by decide))
    (Hand.U4_of_ne m c main_arg11 (by decide))
    (Hand.U4_of_ne m c main_arg12 (by decide))
    (Hand.U4_of_ne m c main_arg13 (by decide))
    (Hand.U4_of_ne m c main_arg14 (by decide))
    (Hand.U4_of_ne m c main_v1 (by decide))
    (Hand.U4_of_ne m c main_v3 (by decide))
    (Hand.U4_of_ne m c main_v29 (by decide))
/-- A later stretch writes none of them. -/
theorem carried5 : Carried m c (Hand.U5 m c) :=
  (carried4 m c).congr m c
    (hostOps1_keeps_arg0 (Hand.U4 m c))
    (hostOps1_keeps_arg1 (Hand.U4 m c))
    (hostOps1_keeps_arg2 (Hand.U4 m c))
    (hostOps1_keeps_arg3 (Hand.U4 m c))
    (hostOps1_keeps_arg4 (Hand.U4 m c))
    (hostOps1_keeps_arg5 (Hand.U4 m c))
    (hostOps1_keeps_arg6 (Hand.U4 m c))
    (hostOps1_keeps_arg7 (Hand.U4 m c))
    (hostOps1_keeps_arg8 (Hand.U4 m c))
    (hostOps1_keeps_arg9 (Hand.U4 m c))
    (hostOps1_keeps_arg10 (Hand.U4 m c))
    (hostOps1_keeps_arg11 (Hand.U4 m c))
    (hostOps1_keeps_arg12 (Hand.U4 m c))
    (hostOps1_keeps_arg13 (Hand.U4 m c))
    (hostOps1_keeps_arg14 (Hand.U4 m c))
    (hostOps1_keeps_v1 (Hand.U4 m c))
    (hostOps1_keeps_v3 (Hand.U4 m c))
    (hostOps1_keeps_v29 (Hand.U4 m c))
theorem carried6 : Carried m c (Hand.U6 m c) :=
  (carried5 m c).congr m c
    (Hand.U6_of_ne m c main_arg0 (by decide))
    (Hand.U6_of_ne m c main_arg1 (by decide))
    (Hand.U6_of_ne m c main_arg2 (by decide))
    (Hand.U6_of_ne m c main_arg3 (by decide))
    (Hand.U6_of_ne m c main_arg4 (by decide))
    (Hand.U6_of_ne m c main_arg5 (by decide))
    (Hand.U6_of_ne m c main_arg6 (by decide))
    (Hand.U6_of_ne m c main_arg7 (by decide))
    (Hand.U6_of_ne m c main_arg8 (by decide))
    (Hand.U6_of_ne m c main_arg9 (by decide))
    (Hand.U6_of_ne m c main_arg10 (by decide))
    (Hand.U6_of_ne m c main_arg11 (by decide))
    (Hand.U6_of_ne m c main_arg12 (by decide))
    (Hand.U6_of_ne m c main_arg13 (by decide))
    (Hand.U6_of_ne m c main_arg14 (by decide))
    (Hand.U6_of_ne m c main_v1 (by decide))
    (Hand.U6_of_ne m c main_v3 (by decide))
    (Hand.U6_of_ne m c main_v29 (by decide))
theorem carried7 : Carried m c (Hand.U7 m c) :=
  (carried6 m c).congr m c
    (hostOps2_keeps_arg0 (Hand.U6 m c))
    (hostOps2_keeps_arg1 (Hand.U6 m c))
    (hostOps2_keeps_arg2 (Hand.U6 m c))
    (hostOps2_keeps_arg3 (Hand.U6 m c))
    (hostOps2_keeps_arg4 (Hand.U6 m c))
    (hostOps2_keeps_arg5 (Hand.U6 m c))
    (hostOps2_keeps_arg6 (Hand.U6 m c))
    (hostOps2_keeps_arg7 (Hand.U6 m c))
    (hostOps2_keeps_arg8 (Hand.U6 m c))
    (hostOps2_keeps_arg9 (Hand.U6 m c))
    (hostOps2_keeps_arg10 (Hand.U6 m c))
    (hostOps2_keeps_arg11 (Hand.U6 m c))
    (hostOps2_keeps_arg12 (Hand.U6 m c))
    (hostOps2_keeps_arg13 (Hand.U6 m c))
    (hostOps2_keeps_arg14 (Hand.U6 m c))
    (hostOps2_keeps_v1 (Hand.U6 m c))
    (hostOps2_keeps_v3 (Hand.U6 m c))
    (hostOps2_keeps_v29 (Hand.U6 m c))
theorem carried8 : Carried m c (Hand.U8 m c) :=
  (carried7 m c).congr m c
    (Hand.U8_of_ne m c main_arg0 (by decide))
    (Hand.U8_of_ne m c main_arg1 (by decide))
    (Hand.U8_of_ne m c main_arg2 (by decide))
    (Hand.U8_of_ne m c main_arg3 (by decide))
    (Hand.U8_of_ne m c main_arg4 (by decide))
    (Hand.U8_of_ne m c main_arg5 (by decide))
    (Hand.U8_of_ne m c main_arg6 (by decide))
    (Hand.U8_of_ne m c main_arg7 (by decide))
    (Hand.U8_of_ne m c main_arg8 (by decide))
    (Hand.U8_of_ne m c main_arg9 (by decide))
    (Hand.U8_of_ne m c main_arg10 (by decide))
    (Hand.U8_of_ne m c main_arg11 (by decide))
    (Hand.U8_of_ne m c main_arg12 (by decide))
    (Hand.U8_of_ne m c main_arg13 (by decide))
    (Hand.U8_of_ne m c main_arg14 (by decide))
    (Hand.U8_of_ne m c main_v1 (by decide))
    (Hand.U8_of_ne m c main_v3 (by decide))
    (Hand.U8_of_ne m c main_v29 (by decide))
theorem carried9 : Carried m c (Hand.U9 m c) :=
  (carried8 m c).congr m c
    (hostOps3_keeps_arg0 (Hand.U8 m c))
    (hostOps3_keeps_arg1 (Hand.U8 m c))
    (hostOps3_keeps_arg2 (Hand.U8 m c))
    (hostOps3_keeps_arg3 (Hand.U8 m c))
    (hostOps3_keeps_arg4 (Hand.U8 m c))
    (hostOps3_keeps_arg5 (Hand.U8 m c))
    (hostOps3_keeps_arg6 (Hand.U8 m c))
    (hostOps3_keeps_arg7 (Hand.U8 m c))
    (hostOps3_keeps_arg8 (Hand.U8 m c))
    (hostOps3_keeps_arg9 (Hand.U8 m c))
    (hostOps3_keeps_arg10 (Hand.U8 m c))
    (hostOps3_keeps_arg11 (Hand.U8 m c))
    (hostOps3_keeps_arg12 (Hand.U8 m c))
    (hostOps3_keeps_arg13 (Hand.U8 m c))
    (hostOps3_keeps_arg14 (Hand.U8 m c))
    (hostOps3_keeps_v1 (Hand.U8 m c))
    (hostOps3_keeps_v3 (Hand.U8 m c))
    (hostOps3_keeps_v29 (Hand.U8 m c))
theorem carried10 : Carried m c (Hand.U10 m c) :=
  (carried9 m c).congr m c
    (Hand.U10_of_ne m c main_arg0 (by decide))
    (Hand.U10_of_ne m c main_arg1 (by decide))
    (Hand.U10_of_ne m c main_arg2 (by decide))
    (Hand.U10_of_ne m c main_arg3 (by decide))
    (Hand.U10_of_ne m c main_arg4 (by decide))
    (Hand.U10_of_ne m c main_arg5 (by decide))
    (Hand.U10_of_ne m c main_arg6 (by decide))
    (Hand.U10_of_ne m c main_arg7 (by decide))
    (Hand.U10_of_ne m c main_arg8 (by decide))
    (Hand.U10_of_ne m c main_arg9 (by decide))
    (Hand.U10_of_ne m c main_arg10 (by decide))
    (Hand.U10_of_ne m c main_arg11 (by decide))
    (Hand.U10_of_ne m c main_arg12 (by decide))
    (Hand.U10_of_ne m c main_arg13 (by decide))
    (Hand.U10_of_ne m c main_arg14 (by decide))
    (Hand.U10_of_ne m c main_v1 (by decide))
    (Hand.U10_of_ne m c main_v3 (by decide))
    (Hand.U10_of_ne m c main_v29 (by decide))

/-! ## The slope of the later layers: a constant the second stretch writes, kept from then on -/

theorem U5_zero : Hand.U5 m c main_v64 = kZeroSlope (F := Ideal) := hostOps1_zeroSlope (Hand.U4 m c)
theorem U6_zero : Hand.U6 m c main_v64 = kZeroSlope (F := Ideal) := (Hand.U6_of_ne m c main_v64 (by decide)).trans (U5_zero m c)
theorem U7_zero : Hand.U7 m c main_v64 = kZeroSlope (F := Ideal) := (hostOps2_keeps_v64 (Hand.U6 m c)).trans (U6_zero m c)
theorem U8_zero : Hand.U8 m c main_v64 = kZeroSlope (F := Ideal) := (Hand.U8_of_ne m c main_v64 (by decide)).trans (U7_zero m c)

/-! ## Layer 1 -/

theorem U3_tcat : Hand.U3 m c main_v59 = terms1 (m ((c : Thread nD τ).loc main_arg0)) (m ((c : Thread nD τ).loc main_arg1)) := pre_tcat (Gen.V0 m c)
theorem U3_wcat : Hand.U3 m c main_v60 = kWc_1 (F := Ideal) (m ((c : Thread nD τ).loc main_arg3)) := pre_wcat (Gen.V0 m c)
theorem U3_bias : Hand.U3 m c main_v61 = kB_1 (F := Ideal) (m ((c : Thread nD τ).loc main_arg4)) := pre_bias (Gen.V0 m c)
theorem U3_slope : Hand.U3 m c main_v62 = kA_1 (F := Ideal) (m ((c : Thread nD τ).loc main_arg13)) := pre_slope (Gen.V0 m c)

/-- The features after layer 1, from the launch memory. -/
abbrev F1 : FVec Ideal S10000x256 .f32 := feat1 (m ((c : Thread nD τ).loc main_arg0)) (m ((c : Thread nD τ).loc main_arg1)) (m ((c : Thread nD τ).loc main_arg3)) (m ((c : Thread nD τ).loc main_arg4)) (m ((c : Thread nD τ).loc main_arg13))

theorem U4_feat : Hand.U4 m c main_v63 = F1 m c := by
  rw [Hand.U4_self, ChebValue.X4_eq, U3_tcat, U3_wcat, U3_bias, U3_slope]
  rfl

/-! ## Layer 2 -/

theorem U5_tcat : Hand.U5 m c main_v98 = terms2 (F1 m c) (m ((c : Thread nD τ).loc main_arg1)) := by
  show StableHlo.after hostOps1 (Hand.U4 m c) (Proc.devRef .tc main_v98) = _
  rw [hostOps1_tcat, U4_feat, (carried4 m c).ew, (carried4 m c).row, (carried4 m c).col]
  rfl
theorem U5_wcat : Hand.U5 m c main_v99 = kWc_2 (F := Ideal) (m ((c : Thread nD τ).loc main_arg5)) := by
  show StableHlo.after hostOps1 (Hand.U4 m c) (Proc.devRef .tc main_v99) = _
  rw [hostOps1_wcat, (carried4 m c).a5]
theorem U5_bias : Hand.U5 m c main_v100 = kB_2 (F := Ideal) (m ((c : Thread nD τ).loc main_arg6)) := by
  show StableHlo.after hostOps1 (Hand.U4 m c) (Proc.devRef .tc main_v100) = _
  rw [hostOps1_bias, (carried4 m c).a6]
theorem U5_slope : Hand.U5 m c main_v101 = kA_2 (F := Ideal) kZeroSlope := hostOps1_slope (Hand.U4 m c)

/-- The features after layer 2. -/
abbrev F2 : FVec Ideal S10000x256 .f32 := feat2 (F1 m c) (m ((c : Thread nD τ).loc main_arg1)) (m ((c : Thread nD τ).loc main_arg5)) (m ((c : Thread nD τ).loc main_arg6))

theorem U6_feat : Hand.U6 m c main_v102 = F2 m c := by
  rw [Hand.U6_self, ChebValue.X6_eq, U5_tcat, U5_wcat, U5_bias, U5_slope]
  rfl

/-! ## Layer 3 -/

theorem U7_tcat : Hand.U7 m c main_v136 = terms3 (F2 m c) (m ((c : Thread nD τ).loc main_arg1)) := by
  show StableHlo.after hostOps2 (Hand.U6 m c) (Proc.devRef .tc main_v136) = _
  rw [hostOps2_tcat, U6_feat, (carried6 m c).ew, (carried6 m c).row, (carried6 m c).col]
  rfl
theorem U7_wcat : Hand.U7 m c main_v137 = kWc_3 (F := Ideal) (m ((c : Thread nD τ).loc main_arg5)) := by
  show StableHlo.after hostOps2 (Hand.U6 m c) (Proc.devRef .tc main_v137) = _
  rw [hostOps2_wcat, (carried6 m c).a5]
theorem U7_bias : Hand.U7 m c main_v138 = kB_3 (F := Ideal) (m ((c : Thread nD τ).loc main_arg6)) := by
  show StableHlo.after hostOps2 (Hand.U6 m c) (Proc.devRef .tc main_v138) = _
  rw [hostOps2_bias, (carried6 m c).a6]
theorem U7_slope : Hand.U7 m c main_v139 = kA_3 (F := Ideal) kZeroSlope := by
  show StableHlo.after hostOps2 (Hand.U6 m c) (Proc.devRef .tc main_v139) = _
  rw [hostOps2_slope, U6_zero]

/-- The features after layer 3. -/
abbrev F3 : FVec Ideal S10000x256 .f32 := feat3 (F2 m c) (m ((c : Thread nD τ).loc main_arg1)) (m ((c : Thread nD τ).loc main_arg5)) (m ((c : Thread nD τ).loc main_arg6))

theorem U8_feat : Hand.U8 m c main_v140 = F3 m c := by
  rw [Hand.U8_self, ChebValue.X8_eq, U7_tcat, U7_wcat, U7_bias, U7_slope]
  rfl

/-! ## Layer 4 -/

theorem U9_tcat : Hand.U9 m c main_v174 = terms4 (F3 m c) (m ((c : Thread nD τ).loc main_arg1)) := by
  show StableHlo.after hostOps3 (Hand.U8 m c) (Proc.devRef .tc main_v174) = _
  rw [hostOps3_tcat, U8_feat, (carried8 m c).ew, (carried8 m c).row, (carried8 m c).col]
  rfl
theorem U9_wcat : Hand.U9 m c main_v175 = kWc_4 (F := Ideal) (m ((c : Thread nD τ).loc main_arg5)) := by
  show StableHlo.after hostOps3 (Hand.U8 m c) (Proc.devRef .tc main_v175) = _
  rw [hostOps3_wcat, (carried8 m c).a5]
theorem U9_bias : Hand.U9 m c main_v176 = kB_4 (F := Ideal) (m ((c : Thread nD τ).loc main_arg6)) := by
  show StableHlo.after hostOps3 (Hand.U8 m c) (Proc.devRef .tc main_v176) = _
  rw [hostOps3_bias, (carried8 m c).a6]
theorem U9_slope : Hand.U9 m c main_v177 = kA_4 (F := Ideal) kZeroSlope := by
  show StableHlo.after hostOps3 (Hand.U8 m c) (Proc.devRef .tc main_v177) = _
  rw [hostOps3_slope, U8_zero]

/-- The features after layer 4. -/
abbrev F4 : FVec Ideal S10000x256 .f32 := feat4 (F3 m c) (m ((c : Thread nD τ).loc main_arg1)) (m ((c : Thread nD τ).loc main_arg5)) (m ((c : Thread nD τ).loc main_arg6))

theorem U10_feat : Hand.U10 m c main_v178 = F4 m c := by
  rw [Hand.U10_self, ChebValue.X10_eq, U9_tcat, U9_wcat, U9_bias, U9_slope]
  rfl

/-! ## The perceptron -/

theorem U11_pooled : Hand.U11 m c main_v181 = kPooled (F := Ideal) (F4 m c) (m ((c : Thread nD τ).loc main_arg2)) := by
  show StableHlo.after hostOps4 (Hand.U10 m c) (Proc.devRef .tc main_v181) = _
  rw [hostOps4_pooled, U10_feat, (carried10 m c).a2]
theorem U11_fc1b : Hand.U11 m c main_v182 = kFc1b (F := Ideal) (m ((c : Thread nD τ).loc main_arg8)) := by
  show StableHlo.after hostOps4 (Hand.U10 m c) (Proc.devRef .tc main_v182) = _
  rw [hostOps4_fc1b, (carried10 m c).a8]
theorem U11_slope : Hand.U11 m c main_v183 = kFcA (F := Ideal) (m ((c : Thread nD τ).loc main_arg14)) := by
  show StableHlo.after hostOps4 (Hand.U10 m c) (Proc.devRef .tc main_v183) = _
  rw [hostOps4_slope, (carried10 m c).a14]
theorem U11_fc2b : Hand.U11 m c main_v184 = kFc2b (F := Ideal) (m ((c : Thread nD τ).loc main_arg10)) := by
  show StableHlo.after hostOps4 (Hand.U10 m c) (Proc.devRef .tc main_v184) = _
  rw [hostOps4_fc2b, (carried10 m c).a10]
theorem U11_fc3b : Hand.U11 m c main_v185 = kFc3b (F := Ideal) (m ((c : Thread nD τ).loc main_arg12)) := by
  show StableHlo.after hostOps4 (Hand.U10 m c) (Proc.devRef .tc main_v185) = _
  rw [hostOps4_fc3b, (carried10 m c).a12]
theorem U11_w1 : Hand.U11 m c main_arg7 = (m ((c : Thread nD τ).loc main_arg7)) :=
  (hostOps4_keeps_arg7 (Hand.U10 m c)).trans (carried10 m c).a7
theorem U11_w2 : Hand.U11 m c main_arg9 = (m ((c : Thread nD τ).loc main_arg9)) :=
  (hostOps4_keeps_arg9 (Hand.U10 m c)).trans (carried10 m c).a9
theorem U11_w3 : Hand.U11 m c main_arg11 = (m ((c : Thread nD τ).loc main_arg11)) :=
  (hostOps4_keeps_arg11 (Hand.U10 m c)).trans (carried10 m c).a11

/-- THE KERNEL PROGRAM'S OUTPUT ARRAY when the last region is left, from the launch memory. -/
theorem kernel_value : Hand.U12 m c main_v186 = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Hand.U12_self, MlpValue.X12_eq, U11_pooled, U11_w1, U11_fc1b, U11_slope, U11_w2, U11_fc2b, U11_w3, U11_fc3b]
  rfl

end Cert.KernelIdeal.KV

end
-- ==== Proof.RTerms.lean ====
/-
  The reference program's pieces as named terms. From the node features h and the edge list the reference computes,
  per layer, the three Chebyshev terms T0 = h, T1 = P h, T2 = 2 P T1 - h of the scaled Laplacian P, multiplies each
  by its own weight matrix, adds the three products and the bias, and applies the rectifier; after the last layer it
  adds up the node rows of each graph and runs the graph-level perceptron. Each definition replays exactly the
  operations one result depends on.
-/
import proofs.«163009_j11184094839450_1_alg».proof.Proof.Gen.ReferenceIdeal
import Idealize.ShloMosaic.Lib.StableHlo.Run

noncomputable section

namespace Cert.ReferenceIdeal.Terms

open Cert.ReferenceIdeal Cert.ReferenceIdeal.Gen Idealize.ShloMosaic Idealize.ShloMosaic.TcCoe Idealize.SL.Sem Idealize.ShloMosaic.StableHlo

variable {F : FTy → Type} [FloatOps F]

variable [Facts]

/-- The source node of every edge: row 0 of the edge list, as a vector. -/
def rRow (xarg1 : (⟨S2x320000, .i32⟩ : BufTy).Contents (Elt F)) : (⟨S320000, .i32⟩ : BufTy).Contents (Elt F) :=
  have xv0 : (⟨S1x320000, .i32⟩ : BufTy).Contents (Elt F) := ((extractStridedSlice S1x320000 ![0, 0] · slices_S2x320000_S1x320000_0_0) : (⟨S2x320000, .i32⟩ : BufTy).Contents (Elt F) → (⟨S1x320000, .i32⟩ : BufTy).Contents (Elt F)) xarg1
  have xv1 : (⟨S320000, .i32⟩ : BufTy).Contents (Elt F) := shapeCast _ xv0 shapeCasts_S1x320000_S320000
  xv1

/-- The target node of every edge: row 1 of the edge list, as a vector. -/
def rCol (xarg1 : (⟨S2x320000, .i32⟩ : BufTy).Contents (Elt F)) : (⟨S320000, .i32⟩ : BufTy).Contents (Elt F) :=
  have xv2 : (⟨S1x320000, .i32⟩ : BufTy).Contents (Elt F) := ((extractStridedSlice S1x320000 ![1, 0] · slices_S2x320000_S1x320000_1_0) : (⟨S2x320000, .i32⟩ : BufTy).Contents (Elt F) → (⟨S1x320000, .i32⟩ : BufTy).Contents (Elt F)) xarg1
  have xv3 : (⟨S320000, .i32⟩ : BufTy).Contents (Elt F) := shapeCast _ xv2 shapeCasts_S1x320000_S320000
  xv3

/-- The edge weights of the scaled Laplacian: minus the product of deg^(-1/2) at the two ends of an edge, deg^(-1/2) read as 0 at a node of degree 0. -/
def rEdgeW (xarg1 : (⟨S2x320000, .i32⟩ : BufTy).Contents (Elt F)) : (⟨S320000, .f32⟩ : BufTy).Contents (Elt F) :=
  have xv0 : (⟨S1x320000, .i32⟩ : BufTy).Contents (Elt F) := ((extractStridedSlice S1x320000 ![0, 0] · slices_S2x320000_S1x320000_0_0) : (⟨S2x320000, .i32⟩ : BufTy).Contents (Elt F) → (⟨S1x320000, .i32⟩ : BufTy).Contents (Elt F)) xarg1
  have xv1 : (⟨S320000, .i32⟩ : BufTy).Contents (Elt F) := shapeCast _ xv0 shapeCasts_S1x320000_S320000
  have xv2 : (⟨S1x320000, .i32⟩ : BufTy).Contents (Elt F) := ((extractStridedSlice S1x320000 ![1, 0] · slices_S2x320000_S1x320000_1_0) : (⟨S2x320000, .i32⟩ : BufTy).Contents (Elt F) → (⟨S1x320000, .i32⟩ : BufTy).Contents (Elt F)) xarg1
  have xv3 : (⟨S320000, .i32⟩ : BufTy).Contents (Elt F) := shapeCast _ xv2 shapeCasts_S1x320000_S320000
  have xcst : (⟨S_, .f32⟩ : BufTy).Contents (Elt F) := (constant S_ .f32 0x3F800000#32)
  have xv4 : (⟨S320000, .f32⟩ : BufTy).Contents (Elt F) := (broadcastInDim S320000 ![] bcast_S_S320000 : (⟨S_, .f32⟩ : BufTy).Contents (Elt F) → (⟨S320000, .f32⟩ : BufTy).Contents (Elt F)) xcst
  have xcst_0 : (⟨S_, .f32⟩ : BufTy).Contents (Elt F) := (constant S_ .f32 0x00000000#32)
  have xv5 : (⟨S10000, .f32⟩ : BufTy).Contents (Elt F) := (broadcastInDim S10000 ![] bcast_S_S10000 : (⟨S_, .f32⟩ : BufTy).Contents (Elt F) → (⟨S10000, .f32⟩ : BufTy).Contents (Elt F)) xcst_0
  have xv6 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv1
  have xv7 : (⟨S10000, .f32⟩ : BufTy).Contents (Elt F) := ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) xv5 xv6 xv4
  have xcst_1 : (⟨S_, .f32⟩ : BufTy).Contents (Elt F) := (constant S_ .f32 0x00000000#32)
  have xv8 : (⟨S10000, .f32⟩ : BufTy).Contents (Elt F) := (broadcastInDim S10000 ![] bcast_S_S10000 : (⟨S_, .f32⟩ : BufTy).Contents (Elt F) → (⟨S10000, .f32⟩ : BufTy).Contents (Elt F)) xcst_1
  have xv9 : (⟨S10000, .i1⟩ : BufTy).Contents (Elt F) := (cmpf .ogt : (⟨S10000, .f32⟩ : BufTy).Contents (Elt F) → (⟨S10000, .f32⟩ : BufTy).Contents (Elt F) → (⟨S10000, .i1⟩ : BufTy).Contents (Elt F)) xv7 xv8
  have xv10 : (⟨S10000, .f32⟩ : BufTy).Contents (Elt F) := (Host.sqrt : (⟨S10000, .f32⟩ : BufTy).Contents (Elt F) → (⟨S10000, .f32⟩ : BufTy).Contents (Elt F)) xv7
  have xcst_2 : (⟨S_, .f32⟩ : BufTy).Contents (Elt F) := (constant S_ .f32 0x3F800000#32)
  have xv11 : (⟨S10000, .f32⟩ : BufTy).Contents (Elt F) := (broadcastInDim S10000 ![] bcast_S_S10000 : (⟨S_, .f32⟩ : BufTy).Contents (Elt F) → (⟨S10000, .f32⟩ : BufTy).Contents (Elt F)) xcst_2
  have xv12 : (⟨S10000, .f32⟩ : BufTy).Contents (Elt F) := (Host.divf : (⟨S10000, .f32⟩ : BufTy).Contents (Elt F) → (⟨S10000, .f32⟩ : BufTy).Contents (Elt F) → (⟨S10000, .f32⟩ : BufTy).Contents (Elt F)) xv11 xv10
  have xcst_3 : (⟨S_, .f32⟩ : BufTy).Contents (Elt F) := (constant S_ .f32 0x00000000#32)
  have xcall0_v0 : (⟨S_, .f32⟩ : BufTy).Contents (Elt F) := id xcst_3
  have xcall0_v1 : (⟨S10000, .f32⟩ : BufTy).Contents (Elt F) := (broadcastInDim S10000 ![] bcast_S_S10000) xcall0_v0
  have xv13 : (⟨S10000, .f32⟩ : BufTy).Contents (Elt F) := select xv9 xv12 xcall0_v1
  have xc : (⟨S_, .i32⟩ : BufTy).Contents (Elt F) := (constantI S_ 32 0#32)
  have xv14 : (⟨S320000, .i32⟩ : BufTy).Contents (Elt F) := (broadcastInDim S320000 ![] bcast_S_S320000 : (⟨S_, .i32⟩ : BufTy).Contents (Elt F) → (⟨S320000, .i32⟩ : BufTy).Contents (Elt F)) xc
  have xv15 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv14
  have xc_4 : (⟨S_, .i32⟩ : BufTy).Contents (Elt F) := (constantI S_ 32 10000#32)
  have xv16 : (⟨S320000, .i32⟩ : BufTy).Contents (Elt F) := (broadcastInDim S320000 ![] bcast_S_S320000 : (⟨S_, .i32⟩ : BufTy).Contents (Elt F) → (⟨S320000, .i32⟩ : BufTy).Contents (Elt F)) xc_4
  have xv17 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv16
  have xv18 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv15 xv17 xv1
  have xv19 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv18
  have xv20 : (⟨S320000, .f32⟩ : BufTy).Contents (Elt F) := ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)) xv13 xv19
  have xv21 : (⟨S320000, .f32⟩ : BufTy).Contents (Elt F) := (Host.negf : (⟨S320000, .f32⟩ : BufTy).Contents (Elt F) → (⟨S320000, .f32⟩ : BufTy).Contents (Elt F)) xv20
  have xc_5 : (⟨S_, .i32⟩ : BufTy).Contents (Elt F) := (constantI S_ 32 0#32)
  have xv22 : (⟨S320000, .i32⟩ : BufTy).Contents (Elt F) := (broadcastInDim S320000 ![] bcast_S_S320000 : (⟨S_, .i32⟩ : BufTy).Contents (Elt F) → (⟨S320000, .i32⟩ : BufTy).Contents (Elt F)) xc_5
  have xv23 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv3 xv22
  have xc_6 : (⟨S_, .i32⟩ : BufTy).Contents (Elt F) := (constantI S_ 32 10000#32)
  have xv24 : (⟨S320000, .i32⟩ : BufTy).Contents (Elt F) := (broadcastInDim S320000 ![] bcast_S_S320000 : (⟨S_, .i32⟩ : BufTy).Contents (Elt F) → (⟨S320000, .i32⟩ : BufTy).Contents (Elt F)) xc_6
  have xv25 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv3 xv24
  have xv26 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv23 xv25 xv3
  have xv27 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv26
  have xv28 : (⟨S320000, .f32⟩ : BufTy).Contents (Elt F) := ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)) xv13 xv27
  have xv29 : (⟨S320000, .f32⟩ : BufTy).Contents (Elt F) := (mulf : (⟨S320000, .f32⟩ : BufTy).Contents (Elt F) → (⟨S320000, .f32⟩ : BufTy).Contents (Elt F) → (⟨S320000, .f32⟩ : BufTy).Contents (Elt F)) xv21 xv28
  xv29

/-- One propagation step: every edge carries its weight times the source node's row, and the rows arriving at a node are added up. -/
def rT1_1 (xarg0 : (⟨S10000x128, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x128, .f32⟩ : BufTy).Contents (Elt F) :=
  have xv30 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_7 : (⟨S_, .i32⟩ : BufTy).Contents (Elt F) := (constantI S_ 32 0#32)
  have xv31 : (⟨S320000, .i32⟩ : BufTy).Contents (Elt F) := (broadcastInDim S320000 ![] bcast_S_S320000 : (⟨S_, .i32⟩ : BufTy).Contents (Elt F) → (⟨S320000, .i32⟩ : BufTy).Contents (Elt F)) xc_7
  have xv32 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv31
  have xc_8 : (⟨S_, .i32⟩ : BufTy).Contents (Elt F) := (constantI S_ 32 10000#32)
  have xv33 : (⟨S320000, .i32⟩ : BufTy).Contents (Elt F) := (broadcastInDim S320000 ![] bcast_S_S320000 : (⟨S_, .i32⟩ : BufTy).Contents (Elt F) → (⟨S320000, .i32⟩ : BufTy).Contents (Elt F)) xc_8
  have xv34 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv33
  have xv35 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv32 xv34 xv1
  have xv36 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv35
  have xv37 : (⟨S320000x128, .f32⟩ : BufTy).Contents (Elt F) := ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) xarg0 xv36
  have xv38 : (⟨S320000x128, .f32⟩ : BufTy).Contents (Elt F) := (broadcastInDim S320000x128 ![0, 1] bcast_S320000x1_S320000x128_0_1 : (⟨S320000x1, .f32⟩ : BufTy).Contents (Elt F) → (⟨S320000x128, .f32⟩ : BufTy).Contents (Elt F)) xv30
  have xv39 : (⟨S320000x128, .f32⟩ : BufTy).Contents (Elt F) := (mulf : (⟨S320000x128, .f32⟩ : BufTy).Contents (Elt F) → (⟨S320000x128, .f32⟩ : BufTy).Contents (Elt F) → (⟨S320000x128, .f32⟩ : BufTy).Contents (Elt F)) xv38 xv37
  have xcst_9 : (⟨S_, .f32⟩ : BufTy).Contents (Elt F) := (constant S_ .f32 0x00000000#32)
  have xv40 : (⟨S10000x128, .f32⟩ : BufTy).Contents (Elt F) := (broadcastInDim S10000x128 ![] bcast_S_S10000x128 : (⟨S_, .f32⟩ : BufTy).Contents (Elt F) → (⟨S10000x128, .f32⟩ : BufTy).Contents (Elt F)) xcst_9
  have xv41 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv42 : (⟨S10000x128, .f32⟩ : BufTy).Contents (Elt F) := ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) xv40 xv41 xv39
  xv42

/-- The third Chebyshev term: twice the propagation of the second term, minus the first. -/
def rT2_1 (xarg0 : (⟨S10000x128, .f32⟩ : BufTy).Contents (Elt F)) (xv42 : (⟨S10000x128, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x128, .f32⟩ : BufTy).Contents (Elt F) :=
  have xv43 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_10 : (⟨S_, .i32⟩ : BufTy).Contents (Elt F) := (constantI S_ 32 0#32)
  have xv44 : (⟨S320000, .i32⟩ : BufTy).Contents (Elt F) := (broadcastInDim S320000 ![] bcast_S_S320000 : (⟨S_, .i32⟩ : BufTy).Contents (Elt F) → (⟨S320000, .i32⟩ : BufTy).Contents (Elt F)) xc_10
  have xv45 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv44
  have xc_11 : (⟨S_, .i32⟩ : BufTy).Contents (Elt F) := (constantI S_ 32 10000#32)
  have xv46 : (⟨S320000, .i32⟩ : BufTy).Contents (Elt F) := (broadcastInDim S320000 ![] bcast_S_S320000 : (⟨S_, .i32⟩ : BufTy).Contents (Elt F) → (⟨S320000, .i32⟩ : BufTy).Contents (Elt F)) xc_11
  have xv47 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv46
  have xv48 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv45 xv47 xv1
  have xv49 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv48
  have xv50 : (⟨S320000x128, .f32⟩ : BufTy).Contents (Elt F) := ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) xv42 xv49
  have xv51 : (⟨S320000x128, .f32⟩ : BufTy).Contents (Elt F) := (broadcastInDim S320000x128 ![0, 1] bcast_S320000x1_S320000x128_0_1 : (⟨S320000x1, .f32⟩ : BufTy).Contents (Elt F) → (⟨S320000x128, .f32⟩ : BufTy).Contents (Elt F)) xv43
  have xv52 : (⟨S320000x128, .f32⟩ : BufTy).Contents (Elt F) := (mulf : (⟨S320000x128, .f32⟩ : BufTy).Contents (Elt F) → (⟨S320000x128, .f32⟩ : BufTy).Contents (Elt F) → (⟨S320000x128, .f32⟩ : BufTy).Contents (Elt F)) xv51 xv50
  have xcst_12 : (⟨S_, .f32⟩ : BufTy).Contents (Elt F) := (constant S_ .f32 0x00000000#32)
  have xv53 : (⟨S10000x128, .f32⟩ : BufTy).Contents (Elt F) := (broadcastInDim S10000x128 ![] bcast_S_S10000x128 : (⟨S_, .f32⟩ : BufTy).Contents (Elt F) → (⟨S10000x128, .f32⟩ : BufTy).Contents (Elt F)) xcst_12
  have xv54 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv55 : (⟨S10000x128, .f32⟩ : BufTy).Contents (Elt F) := ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) xv53 xv54 xv52
  have xcst_13 : (⟨S_, .f32⟩ : BufTy).Contents (Elt F) := (constant S_ .f32 0x40000000#32)
  have xv56 : (⟨S10000x128, .f32⟩ : BufTy).Contents (Elt F) := (broadcastInDim S10000x128 ![] bcast_S_S10000x128 : (⟨S_, .f32⟩ : BufTy).Contents (Elt F) → (⟨S10000x128, .f32⟩ : BufTy).Contents (Elt F)) xcst_13
  have xv57 : (⟨S10000x128, .f32⟩ : BufTy).Contents (Elt F) := (mulf : (⟨S10000x128, .f32⟩ : BufTy).Contents (Elt F) → (⟨S10000x128, .f32⟩ : BufTy).Contents (Elt F) → (⟨S10000x128, .f32⟩ : BufTy).Contents (Elt F)) xv56 xv55
  have xv58 : (⟨S10000x128, .f32⟩ : BufTy).Contents (Elt F) := (subf : (⟨S10000x128, .f32⟩ : BufTy).Contents (Elt F) → (⟨S10000x128, .f32⟩ : BufTy).Contents (Elt F) → (⟨S10000x128, .f32⟩ : BufTy).Contents (Elt F)) xv57 xarg0
  xv58

/-- The layer's output from its three Chebyshev terms: the three products with the layer's weight matrices added up, plus the bias row, through the rectifier. -/
def rOut_1 (xarg0 : (⟨S10000x128, .f32⟩ : BufTy).Contents (Elt F)) (xv42 : (⟨S10000x128, .f32⟩ : BufTy).Contents (Elt F)) (xv58 : (⟨S10000x128, .f32⟩ : BufTy).Contents (Elt F)) (xarg3 : (⟨S3x128x256, .f32⟩ : BufTy).Contents (Elt F)) (xarg4 : (⟨S256, .f32⟩ : BufTy).Contents (Elt F)) (xarg13 : (⟨S1, .f32⟩ : BufTy).Contents (Elt F)) : (⟨S10000x256, .f32⟩ : BufTy).Contents (Elt F) :=
  have xv59 : (⟨S1x128x256, .f32⟩ : BufTy).Contents (Elt F) := ((extractStridedSlice S1x128x256 ![0, 0, 0] · slices_S3x128x256_S1x128x256_0_0_0) : (⟨S3x128x256, .f32⟩ : BufTy).Contents (Elt F) → (⟨S1x128x256, .f32⟩ : BufTy).Contents (Elt F)) xarg3
  have xv60 : (⟨S128x256, .f32⟩ : BufTy).Contents (Elt F) := shapeCast _ xv59 shapeCasts_S1x128x256_S128x256
  have xv61 : (⟨S10000x256, .f32⟩ : BufTy).Contents (Elt F) := ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)) xarg0 xv60
  have xv62 : (⟨S1x128x256, .f32⟩ : BufTy).Contents (Elt F) := ((extractStridedSlice S1x128x256 ![1, 0, 0] · slices_S3x128x256_S1x128x256_1_0_0) : (⟨S3x128x256, .f32⟩ : BufTy).Contents (Elt F) → (⟨S1x128x256, .f32⟩ : BufTy).Contents (Elt F)) xarg3
  have xv63 : (⟨S128x256, .f32⟩ : BufTy).Contents (Elt F) := shapeCast _ xv62 shapeCasts_S1x128x256_S128x256
  have xv64 : (⟨S10000x256, .f32⟩ : BufTy).Contents (Elt F) := ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)) xv42 xv63
  have xv65 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv61 xv64
  have xv66 : (⟨S1x128x256, .f32⟩ : BufTy).Contents (Elt F) := ((extractStridedSlice S1x128x256 ![2, 0, 0] · slices_S3x128x256_S1x128x256_2_0_0) : (⟨S3x128x256, .f32⟩ : BufTy).Contents (Elt F) → (⟨S1x128x256, .f32⟩ : BufTy).Contents (Elt F)) xarg3
  have xv67 : (⟨S128x256, .f32⟩ : BufTy).Contents (Elt F) := shapeCast _ xv66 shapeCasts_S1x128x256_S128x256
  have xv68 : (⟨S10000x256, .f32⟩ : BufTy).Contents (Elt F) := ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)) xv58 xv67
  have xv69 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv65 xv68
  have xv70 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) xarg4
  have xv71 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) xv70
  have xv72 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv69 xv71
  have xcst_14 : (⟨S_, .f32⟩ : BufTy).Contents (Elt F) := (constant S_ .f32 0x00000000#32)
  have xv73 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_14
  have xv74 : (⟨S10000x256, .i1⟩ : BufTy).Contents (Elt F) := (cmpf .oge : (⟨S10000x256, .f32⟩ : BufTy).Contents (Elt F) → (⟨S10000x256, .f32⟩ : BufTy).Contents (Elt F) → (⟨S10000x256, .i1⟩ : BufTy).Contents (Elt F)) xv72 xv73
  have xv75 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) xarg13
  have xv76 : (⟨S10000x256, .f32⟩ : BufTy).Contents (Elt F) := (broadcastInDim S10000x256 ![0, 1] bcast_S1x1_S10000x256_0_1 : (⟨S1x1, .f32⟩ : BufTy).Contents (Elt F) → (⟨S10000x256, .f32⟩ : BufTy).Contents (Elt F)) xv75
  have xv77 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) xv76 xv72
  have xv78 : (⟨S10000x256, .f32⟩ : BufTy).Contents (Elt F) := select xv74 xv72 xv77
  xv78

/-- One propagation step: every edge carries its weight times the source node's row, and the rows arriving at a node are added up. -/
def rT1_2 (xv78 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv83 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_15 : (⟨S_, .i32⟩ : BufTy).Contents (Elt F) := (constantI S_ 32 0#32)
  have xv84 : (⟨S320000, .i32⟩ : BufTy).Contents (Elt F) := (broadcastInDim S320000 ![] bcast_S_S320000 : (⟨S_, .i32⟩ : BufTy).Contents (Elt F) → (⟨S320000, .i32⟩ : BufTy).Contents (Elt F)) xc_15
  have xv85 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv84
  have xc_16 : (⟨S_, .i32⟩ : BufTy).Contents (Elt F) := (constantI S_ 32 10000#32)
  have xv86 : (⟨S320000, .i32⟩ : BufTy).Contents (Elt F) := (broadcastInDim S320000 ![] bcast_S_S320000 : (⟨S_, .i32⟩ : BufTy).Contents (Elt F) → (⟨S320000, .i32⟩ : BufTy).Contents (Elt F)) xc_16
  have xv87 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv86
  have xv88 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv85 xv87 xv1
  have xv89 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv88
  have xv90 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv78 xv89
  have xv91 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv83
  have xv92 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv91 xv90
  have xcst_17 : (⟨S_, .f32⟩ : BufTy).Contents (Elt F) := (constant S_ .f32 0x00000000#32)
  have xv93 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_17
  have xv94 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv95 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv93 xv94 xv92
  xv95

/-- The third Chebyshev term: twice the propagation of the second term, minus the first. -/
def rT2_2 (xv78 : (⟨S10000x256, .f32⟩ : BufTy).Contents (Elt F)) (xv95 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv96 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_18 : (⟨S_, .i32⟩ : BufTy).Contents (Elt F) := (constantI S_ 32 0#32)
  have xv97 : (⟨S320000, .i32⟩ : BufTy).Contents (Elt F) := (broadcastInDim S320000 ![] bcast_S_S320000 : (⟨S_, .i32⟩ : BufTy).Contents (Elt F) → (⟨S320000, .i32⟩ : BufTy).Contents (Elt F)) xc_18
  have xv98 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv97
  have xc_19 : (⟨S_, .i32⟩ : BufTy).Contents (Elt F) := (constantI S_ 32 10000#32)
  have xv99 : (⟨S320000, .i32⟩ : BufTy).Contents (Elt F) := (broadcastInDim S320000 ![] bcast_S_S320000 : (⟨S_, .i32⟩ : BufTy).Contents (Elt F) → (⟨S320000, .i32⟩ : BufTy).Contents (Elt F)) xc_19
  have xv100 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv99
  have xv101 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv98 xv100 xv1
  have xv102 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv101
  have xv103 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv95 xv102
  have xv104 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv96
  have xv105 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv104 xv103
  have xcst_20 : (⟨S_, .f32⟩ : BufTy).Contents (Elt F) := (constant S_ .f32 0x00000000#32)
  have xv106 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_20
  have xv107 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv108 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv106 xv107 xv105
  have xcst_21 : (⟨S_, .f32⟩ : BufTy).Contents (Elt F) := (constant S_ .f32 0x40000000#32)
  have xv109 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_21
  have xv110 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) xv109 xv108
  have xv111 : (⟨S10000x256, .f32⟩ : BufTy).Contents (Elt F) := (subf : (⟨S10000x256, .f32⟩ : BufTy).Contents (Elt F) → (⟨S10000x256, .f32⟩ : BufTy).Contents (Elt F) → (⟨S10000x256, .f32⟩ : BufTy).Contents (Elt F)) xv110 xv78
  xv111

/-- The layer's output from its three Chebyshev terms: the three products with the layer's weight matrices added up, plus the bias row, through the rectifier. -/
def rOut_2 (xv78 : (⟨S10000x256, .f32⟩ : BufTy).Contents (Elt F)) (xv95 : (⟨S10000x256, .f32⟩ : BufTy).Contents (Elt F)) (xv111 : (⟨S10000x256, .f32⟩ : BufTy).Contents (Elt F)) (xarg5 : (⟨S3x3x256x256, .f32⟩ : BufTy).Contents (Elt F)) (xarg6 : (⟨S3x256, .f32⟩ : BufTy).Contents (Elt F)) : (⟨S10000x256, .f32⟩ : BufTy).Contents (Elt F) :=
  have xv79 : (⟨S1x3x256x256, .f32⟩ : BufTy).Contents (Elt F) := ((extractStridedSlice S1x3x256x256 ![0, 0, 0, 0] · slices_S3x3x256x256_S1x3x256x256_0_0_0_0) : (⟨S3x3x256x256, .f32⟩ : BufTy).Contents (Elt F) → (⟨S1x3x256x256, .f32⟩ : BufTy).Contents (Elt F)) xarg5
  have xv80 : (⟨S3x256x256, .f32⟩ : BufTy).Contents (Elt F) := shapeCast _ xv79 shapeCasts_S1x3x256x256_S3x256x256
  have xv81 : (⟨S1x256, .f32⟩ : BufTy).Contents (Elt F) := ((extractStridedSlice S1x256 ![0, 0] · slices_S3x256_S1x256_0_0) : (⟨S3x256, .f32⟩ : BufTy).Contents (Elt F) → (⟨S1x256, .f32⟩ : BufTy).Contents (Elt F)) xarg6
  have xv82 : (⟨S256, .f32⟩ : BufTy).Contents (Elt F) := shapeCast _ xv81 shapeCasts_S1x256_S256
  have xv112 : (⟨S1x256x256, .f32⟩ : BufTy).Contents (Elt F) := ((extractStridedSlice S1x256x256 ![0, 0, 0] · slices_S3x256x256_S1x256x256_0_0_0) : (⟨S3x256x256, .f32⟩ : BufTy).Contents (Elt F) → (⟨S1x256x256, .f32⟩ : BufTy).Contents (Elt F)) xv80
  have xv113 : (⟨S256x256, .f32⟩ : BufTy).Contents (Elt F) := shapeCast _ xv112 shapeCasts_S1x256x256_S256x256
  have xv114 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv78 xv113
  have xv115 : (⟨S1x256x256, .f32⟩ : BufTy).Contents (Elt F) := ((extractStridedSlice S1x256x256 ![1, 0, 0] · slices_S3x256x256_S1x256x256_1_0_0) : (⟨S3x256x256, .f32⟩ : BufTy).Contents (Elt F) → (⟨S1x256x256, .f32⟩ : BufTy).Contents (Elt F)) xv80
  have xv116 : (⟨S256x256, .f32⟩ : BufTy).Contents (Elt F) := shapeCast _ xv115 shapeCasts_S1x256x256_S256x256
  have xv117 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv95 xv116
  have xv118 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv114 xv117
  have xv119 : (⟨S1x256x256, .f32⟩ : BufTy).Contents (Elt F) := ((extractStridedSlice S1x256x256 ![2, 0, 0] · slices_S3x256x256_S1x256x256_2_0_0) : (⟨S3x256x256, .f32⟩ : BufTy).Contents (Elt F) → (⟨S1x256x256, .f32⟩ : BufTy).Contents (Elt F)) xv80
  have xv120 : (⟨S256x256, .f32⟩ : BufTy).Contents (Elt F) := shapeCast _ xv119 shapeCasts_S1x256x256_S256x256
  have xv121 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv111 xv120
  have xv122 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv118 xv121
  have xv123 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) xv82
  have xv124 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) xv123
  have xv125 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv122 xv124
  have xcall2_cst : (⟨S_, .f32⟩ : BufTy).Contents (Elt F) := (constant S_ .f32 0x00000000#32)
  have xcall2_v0 : (⟨S10000x256, .f32⟩ : BufTy).Contents (Elt F) := (broadcastInDim S10000x256 ![] bcast_S_S10000x256) xcall2_cst
  have xv126 : (⟨S10000x256, .f32⟩ : BufTy).Contents (Elt F) := maximumf xv125 xcall2_v0
  xv126

/-- One propagation step: every edge carries its weight times the source node's row, and the rows arriving at a node are added up. -/
def rT1_3 (xv126 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv131 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_22 : (⟨S_, .i32⟩ : BufTy).Contents (Elt F) := (constantI S_ 32 0#32)
  have xv132 : (⟨S320000, .i32⟩ : BufTy).Contents (Elt F) := (broadcastInDim S320000 ![] bcast_S_S320000 : (⟨S_, .i32⟩ : BufTy).Contents (Elt F) → (⟨S320000, .i32⟩ : BufTy).Contents (Elt F)) xc_22
  have xv133 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv132
  have xc_23 : (⟨S_, .i32⟩ : BufTy).Contents (Elt F) := (constantI S_ 32 10000#32)
  have xv134 : (⟨S320000, .i32⟩ : BufTy).Contents (Elt F) := (broadcastInDim S320000 ![] bcast_S_S320000 : (⟨S_, .i32⟩ : BufTy).Contents (Elt F) → (⟨S320000, .i32⟩ : BufTy).Contents (Elt F)) xc_23
  have xv135 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv134
  have xv136 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv133 xv135 xv1
  have xv137 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv136
  have xv138 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv126 xv137
  have xv139 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv131
  have xv140 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv139 xv138
  have xcst_24 : (⟨S_, .f32⟩ : BufTy).Contents (Elt F) := (constant S_ .f32 0x00000000#32)
  have xv141 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_24
  have xv142 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv143 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv141 xv142 xv140
  xv143

/-- The third Chebyshev term: twice the propagation of the second term, minus the first. -/
def rT2_3 (xv126 : (⟨S10000x256, .f32⟩ : BufTy).Contents (Elt F)) (xv143 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv144 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_25 : (⟨S_, .i32⟩ : BufTy).Contents (Elt F) := (constantI S_ 32 0#32)
  have xv145 : (⟨S320000, .i32⟩ : BufTy).Contents (Elt F) := (broadcastInDim S320000 ![] bcast_S_S320000 : (⟨S_, .i32⟩ : BufTy).Contents (Elt F) → (⟨S320000, .i32⟩ : BufTy).Contents (Elt F)) xc_25
  have xv146 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv145
  have xc_26 : (⟨S_, .i32⟩ : BufTy).Contents (Elt F) := (constantI S_ 32 10000#32)
  have xv147 : (⟨S320000, .i32⟩ : BufTy).Contents (Elt F) := (broadcastInDim S320000 ![] bcast_S_S320000 : (⟨S_, .i32⟩ : BufTy).Contents (Elt F) → (⟨S320000, .i32⟩ : BufTy).Contents (Elt F)) xc_26
  have xv148 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv147
  have xv149 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv146 xv148 xv1
  have xv150 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv149
  have xv151 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv143 xv150
  have xv152 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv144
  have xv153 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv152 xv151
  have xcst_27 : (⟨S_, .f32⟩ : BufTy).Contents (Elt F) := (constant S_ .f32 0x00000000#32)
  have xv154 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_27
  have xv155 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv156 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv154 xv155 xv153
  have xcst_28 : (⟨S_, .f32⟩ : BufTy).Contents (Elt F) := (constant S_ .f32 0x40000000#32)
  have xv157 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_28
  have xv158 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) xv157 xv156
  have xv159 : (⟨S10000x256, .f32⟩ : BufTy).Contents (Elt F) := (subf : (⟨S10000x256, .f32⟩ : BufTy).Contents (Elt F) → (⟨S10000x256, .f32⟩ : BufTy).Contents (Elt F) → (⟨S10000x256, .f32⟩ : BufTy).Contents (Elt F)) xv158 xv126
  xv159

/-- The layer's output from its three Chebyshev terms: the three products with the layer's weight matrices added up, plus the bias row, through the rectifier. -/
def rOut_3 (xv126 : (⟨S10000x256, .f32⟩ : BufTy).Contents (Elt F)) (xv143 : (⟨S10000x256, .f32⟩ : BufTy).Contents (Elt F)) (xv159 : (⟨S10000x256, .f32⟩ : BufTy).Contents (Elt F)) (xarg5 : (⟨S3x3x256x256, .f32⟩ : BufTy).Contents (Elt F)) (xarg6 : (⟨S3x256, .f32⟩ : BufTy).Contents (Elt F)) : (⟨S10000x256, .f32⟩ : BufTy).Contents (Elt F) :=
  have xv127 : (⟨S1x3x256x256, .f32⟩ : BufTy).Contents (Elt F) := ((extractStridedSlice S1x3x256x256 ![1, 0, 0, 0] · slices_S3x3x256x256_S1x3x256x256_1_0_0_0) : (⟨S3x3x256x256, .f32⟩ : BufTy).Contents (Elt F) → (⟨S1x3x256x256, .f32⟩ : BufTy).Contents (Elt F)) xarg5
  have xv128 : (⟨S3x256x256, .f32⟩ : BufTy).Contents (Elt F) := shapeCast _ xv127 shapeCasts_S1x3x256x256_S3x256x256
  have xv129 : (⟨S1x256, .f32⟩ : BufTy).Contents (Elt F) := ((extractStridedSlice S1x256 ![1, 0] · slices_S3x256_S1x256_1_0) : (⟨S3x256, .f32⟩ : BufTy).Contents (Elt F) → (⟨S1x256, .f32⟩ : BufTy).Contents (Elt F)) xarg6
  have xv130 : (⟨S256, .f32⟩ : BufTy).Contents (Elt F) := shapeCast _ xv129 shapeCasts_S1x256_S256
  have xv160 : (⟨S1x256x256, .f32⟩ : BufTy).Contents (Elt F) := ((extractStridedSlice S1x256x256 ![0, 0, 0] · slices_S3x256x256_S1x256x256_0_0_0) : (⟨S3x256x256, .f32⟩ : BufTy).Contents (Elt F) → (⟨S1x256x256, .f32⟩ : BufTy).Contents (Elt F)) xv128
  have xv161 : (⟨S256x256, .f32⟩ : BufTy).Contents (Elt F) := shapeCast _ xv160 shapeCasts_S1x256x256_S256x256
  have xv162 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv126 xv161
  have xv163 : (⟨S1x256x256, .f32⟩ : BufTy).Contents (Elt F) := ((extractStridedSlice S1x256x256 ![1, 0, 0] · slices_S3x256x256_S1x256x256_1_0_0) : (⟨S3x256x256, .f32⟩ : BufTy).Contents (Elt F) → (⟨S1x256x256, .f32⟩ : BufTy).Contents (Elt F)) xv128
  have xv164 : (⟨S256x256, .f32⟩ : BufTy).Contents (Elt F) := shapeCast _ xv163 shapeCasts_S1x256x256_S256x256
  have xv165 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv143 xv164
  have xv166 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv162 xv165
  have xv167 : (⟨S1x256x256, .f32⟩ : BufTy).Contents (Elt F) := ((extractStridedSlice S1x256x256 ![2, 0, 0] · slices_S3x256x256_S1x256x256_2_0_0) : (⟨S3x256x256, .f32⟩ : BufTy).Contents (Elt F) → (⟨S1x256x256, .f32⟩ : BufTy).Contents (Elt F)) xv128
  have xv168 : (⟨S256x256, .f32⟩ : BufTy).Contents (Elt F) := shapeCast _ xv167 shapeCasts_S1x256x256_S256x256
  have xv169 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv159 xv168
  have xv170 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv166 xv169
  have xv171 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) xv130
  have xv172 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) xv171
  have xv173 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv170 xv172
  have xcall3_cst : (⟨S_, .f32⟩ : BufTy).Contents (Elt F) := (constant S_ .f32 0x00000000#32)
  have xcall3_v0 : (⟨S10000x256, .f32⟩ : BufTy).Contents (Elt F) := (broadcastInDim S10000x256 ![] bcast_S_S10000x256) xcall3_cst
  have xv174 : (⟨S10000x256, .f32⟩ : BufTy).Contents (Elt F) := maximumf xv173 xcall3_v0
  xv174

/-- One propagation step: every edge carries its weight times the source node's row, and the rows arriving at a node are added up. -/
def rT1_4 (xv174 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv179 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_29 : (⟨S_, .i32⟩ : BufTy).Contents (Elt F) := (constantI S_ 32 0#32)
  have xv180 : (⟨S320000, .i32⟩ : BufTy).Contents (Elt F) := (broadcastInDim S320000 ![] bcast_S_S320000 : (⟨S_, .i32⟩ : BufTy).Contents (Elt F) → (⟨S320000, .i32⟩ : BufTy).Contents (Elt F)) xc_29
  have xv181 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv180
  have xc_30 : (⟨S_, .i32⟩ : BufTy).Contents (Elt F) := (constantI S_ 32 10000#32)
  have xv182 : (⟨S320000, .i32⟩ : BufTy).Contents (Elt F) := (broadcastInDim S320000 ![] bcast_S_S320000 : (⟨S_, .i32⟩ : BufTy).Contents (Elt F) → (⟨S320000, .i32⟩ : BufTy).Contents (Elt F)) xc_30
  have xv183 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv182
  have xv184 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv181 xv183 xv1
  have xv185 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv184
  have xv186 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv174 xv185
  have xv187 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv179
  have xv188 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv187 xv186
  have xcst_31 : (⟨S_, .f32⟩ : BufTy).Contents (Elt F) := (constant S_ .f32 0x00000000#32)
  have xv189 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_31
  have xv190 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv191 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv189 xv190 xv188
  xv191

/-- The third Chebyshev term: twice the propagation of the second term, minus the first. -/
def rT2_4 (xv174 : (⟨S10000x256, .f32⟩ : BufTy).Contents (Elt F)) (xv191 : (⟨S10000x256, .f32⟩ : BufTy).Contents (Elt F)) (xv29 : (⟨S320000, .f32⟩ : BufTy).Contents (Elt F)) (xv1 : (⟨S320000, .i32⟩ : BufTy).Contents (Elt F)) (xv3 : (⟨S320000, .i32⟩ : BufTy).Contents (Elt F)) : (⟨S10000x256, .f32⟩ : BufTy).Contents (Elt F) :=
  have xv192 : (⟨S320000x1, .f32⟩ : BufTy).Contents (Elt F) := (broadcastInDim S320000x1 ![0] bcast_S320000_S320000x1_0 : (⟨S320000, .f32⟩ : BufTy).Contents (Elt F) → (⟨S320000x1, .f32⟩ : BufTy).Contents (Elt F)) xv29
  have xc_32 : (⟨S_, .i32⟩ : BufTy).Contents (Elt F) := (constantI S_ 32 0#32)
  have xv193 : (⟨S320000, .i32⟩ : BufTy).Contents (Elt F) := (broadcastInDim S320000 ![] bcast_S_S320000 : (⟨S_, .i32⟩ : BufTy).Contents (Elt F) → (⟨S320000, .i32⟩ : BufTy).Contents (Elt F)) xc_32
  have xv194 : (⟨S320000, .i1⟩ : BufTy).Contents (Elt F) := (cmpi .slt : (⟨S320000, .i32⟩ : BufTy).Contents (Elt F) → (⟨S320000, .i32⟩ : BufTy).Contents (Elt F) → (⟨S320000, .i1⟩ : BufTy).Contents (Elt F)) xv1 xv193
  have xc_33 : (⟨S_, .i32⟩ : BufTy).Contents (Elt F) := (constantI S_ 32 10000#32)
  have xv195 : (⟨S320000, .i32⟩ : BufTy).Contents (Elt F) := (broadcastInDim S320000 ![] bcast_S_S320000 : (⟨S_, .i32⟩ : BufTy).Contents (Elt F) → (⟨S320000, .i32⟩ : BufTy).Contents (Elt F)) xc_33
  have xv196 : (⟨S320000, .i32⟩ : BufTy).Contents (Elt F) := (addi : (⟨S320000, .i32⟩ : BufTy).Contents (Elt F) → (⟨S320000, .i32⟩ : BufTy).Contents (Elt F) → (⟨S320000, .i32⟩ : BufTy).Contents (Elt F)) xv1 xv195
  have xv197 : (⟨S320000, .i32⟩ : BufTy).Contents (Elt F) := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) xv194 xv196 xv1
  have xv198 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv197
  have xv199 : (⟨S320000x256, .f32⟩ : BufTy).Contents (Elt F) := ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) xv191 xv198
  have xv200 : (⟨S320000x256, .f32⟩ : BufTy).Contents (Elt F) := (broadcastInDim S320000x256 ![0, 1] bcast_S320000x1_S320000x256_0_1 : (⟨S320000x1, .f32⟩ : BufTy).Contents (Elt F) → (⟨S320000x256, .f32⟩ : BufTy).Contents (Elt F)) xv192
  have xv201 : (⟨S320000x256, .f32⟩ : BufTy).Contents (Elt F) := (mulf : (⟨S320000x256, .f32⟩ : BufTy).Contents (Elt F) → (⟨S320000x256, .f32⟩ : BufTy).Contents (Elt F) → (⟨S320000x256, .f32⟩ : BufTy).Contents (Elt F)) xv200 xv199
  have xcst_34 : (⟨S_, .f32⟩ : BufTy).Contents (Elt F) := (constant S_ .f32 0x00000000#32)
  have xv202 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_34
  have xv203 : (⟨S320000x1, .i32⟩ : BufTy).Contents (Elt F) := (broadcastInDim S320000x1 ![0] bcast_S320000_S320000x1_0 : (⟨S320000, .i32⟩ : BufTy).Contents (Elt F) → (⟨S320000x1, .i32⟩ : BufTy).Contents (Elt F)) xv3
  have xv204 : (⟨S10000x256, .f32⟩ : BufTy).Contents (Elt F) := ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) xv202 xv203 xv201
  have xcst_35 : (⟨S_, .f32⟩ : BufTy).Contents (Elt F) := (constant S_ .f32 0x40000000#32)
  have xv205 : (⟨S10000x256, .f32⟩ : BufTy).Contents (Elt F) := (broadcastInDim S10000x256 ![] bcast_S_S10000x256 : (⟨S_, .f32⟩ : BufTy).Contents (Elt F) → (⟨S10000x256, .f32⟩ : BufTy).Contents (Elt F)) xcst_35
  have xv206 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) xv205 xv204
  have xv207 : (⟨S10000x256, .f32⟩ : BufTy).Contents (Elt F) := (subf : (⟨S10000x256, .f32⟩ : BufTy).Contents (Elt F) → (⟨S10000x256, .f32⟩ : BufTy).Contents (Elt F) → (⟨S10000x256, .f32⟩ : BufTy).Contents (Elt F)) xv206 xv174
  xv207

/-- The layer's output from its three Chebyshev terms: the three products with the layer's weight matrices added up, plus the bias row, through the rectifier. -/
def rOut_4 (xv174 : (⟨S10000x256, .f32⟩ : BufTy).Contents (Elt F)) (xv191 : (⟨S10000x256, .f32⟩ : BufTy).Contents (Elt F)) (xv207 : (⟨S10000x256, .f32⟩ : BufTy).Contents (Elt F)) (xarg5 : (⟨S3x3x256x256, .f32⟩ : BufTy).Contents (Elt F)) (xarg6 : (⟨S3x256, .f32⟩ : BufTy).Contents (Elt F)) : (⟨S10000x256, .f32⟩ : BufTy).Contents (Elt F) :=
  have xv175 : (⟨S1x3x256x256, .f32⟩ : BufTy).Contents (Elt F) := ((extractStridedSlice S1x3x256x256 ![2, 0, 0, 0] · slices_S3x3x256x256_S1x3x256x256_2_0_0_0) : (⟨S3x3x256x256, .f32⟩ : BufTy).Contents (Elt F) → (⟨S1x3x256x256, .f32⟩ : BufTy).Contents (Elt F)) xarg5
  have xv176 : (⟨S3x256x256, .f32⟩ : BufTy).Contents (Elt F) := shapeCast _ xv175 shapeCasts_S1x3x256x256_S3x256x256
  have xv177 : (⟨S1x256, .f32⟩ : BufTy).Contents (Elt F) := ((extractStridedSlice S1x256 ![2, 0] · slices_S3x256_S1x256_2_0) : (⟨S3x256, .f32⟩ : BufTy).Contents (Elt F) → (⟨S1x256, .f32⟩ : BufTy).Contents (Elt F)) xarg6
  have xv178 : (⟨S256, .f32⟩ : BufTy).Contents (Elt F) := shapeCast _ xv177 shapeCasts_S1x256_S256
  have xv208 : (⟨S1x256x256, .f32⟩ : BufTy).Contents (Elt F) := ((extractStridedSlice S1x256x256 ![0, 0, 0] · slices_S3x256x256_S1x256x256_0_0_0) : (⟨S3x256x256, .f32⟩ : BufTy).Contents (Elt F) → (⟨S1x256x256, .f32⟩ : BufTy).Contents (Elt F)) xv176
  have xv209 : (⟨S256x256, .f32⟩ : BufTy).Contents (Elt F) := shapeCast _ xv208 shapeCasts_S1x256x256_S256x256
  have xv210 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv174 xv209
  have xv211 : (⟨S1x256x256, .f32⟩ : BufTy).Contents (Elt F) := ((extractStridedSlice S1x256x256 ![1, 0, 0] · slices_S3x256x256_S1x256x256_1_0_0) : (⟨S3x256x256, .f32⟩ : BufTy).Contents (Elt F) → (⟨S1x256x256, .f32⟩ : BufTy).Contents (Elt F)) xv176
  have xv212 : (⟨S256x256, .f32⟩ : BufTy).Contents (Elt F) := shapeCast _ xv211 shapeCasts_S1x256x256_S256x256
  have xv213 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv191 xv212
  have xv214 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv210 xv213
  have xv215 : (⟨S1x256x256, .f32⟩ : BufTy).Contents (Elt F) := ((extractStridedSlice S1x256x256 ![2, 0, 0] · slices_S3x256x256_S1x256x256_2_0_0) : (⟨S3x256x256, .f32⟩ : BufTy).Contents (Elt F) → (⟨S1x256x256, .f32⟩ : BufTy).Contents (Elt F)) xv176
  have xv216 : (⟨S256x256, .f32⟩ : BufTy).Contents (Elt F) := shapeCast _ xv215 shapeCasts_S1x256x256_S256x256
  have xv217 : (⟨S10000x256, .f32⟩ : BufTy).Contents (Elt F) := ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) xv207 xv216
  have xv218 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv214 xv217
  have xv219 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) xv178
  have xv220 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) xv219
  have xv221 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) xv218 xv220
  have xcall4_cst : (⟨S_, .f32⟩ : BufTy).Contents (Elt F) := (constant S_ .f32 0x00000000#32)
  have xcall4_v0 : (⟨S10000x256, .f32⟩ : BufTy).Contents (Elt F) := (broadcastInDim S10000x256 ![] bcast_S_S10000x256) xcall4_cst
  have xv222 : (⟨S10000x256, .f32⟩ : BufTy).Contents (Elt F) := maximumf xv221 xcall4_v0
  xv222

/-- The node rows of each graph added up: a scatter-add of the rows into 64 zero rows by the graph labels. -/
def rPooled (xv222 : (⟨S10000x256, .f32⟩ : BufTy).Contents (Elt F)) (xarg2 : (⟨S10000, .i32⟩ : BufTy).Contents (Elt F)) : (⟨S64x256, .f32⟩ : BufTy).Contents (Elt F) :=
  have xcst_36 : (⟨S_, .f32⟩ : BufTy).Contents (Elt F) := (constant S_ .f32 0x00000000#32)
  have xv223 : (⟨S64x256, .f32⟩ : BufTy).Contents (Elt F) := (broadcastInDim S64x256 ![] bcast_S_S64x256 : (⟨S_, .f32⟩ : BufTy).Contents (Elt F) → (⟨S64x256, .f32⟩ : BufTy).Contents (Elt F)) xcst_36
  have xv224 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) xarg2
  have xv225 : (⟨S64x256, .f32⟩ : BufTy).Contents (Elt F) := ((fun x i u => Host.scatterAdd scatter_S64x256_S10000x1_S10000x256_1_0_0_1 x i u) : (⟨S64x256, .f32⟩ : BufTy).Contents (Elt F) → (⟨S10000x1, .i32⟩ : BufTy).Contents (Elt F) → (⟨S10000x256, .f32⟩ : BufTy).Contents (Elt F) → (⟨S64x256, .f32⟩ : BufTy).Contents (Elt F)) xv223 xv224 xv222
  xv225

/-- The graph-level perceptron on the pooled rows: dense and leaky rectifier, dense and logistic function, dense, row-wise log-softmax. -/
def rMlp (xv225 : (⟨S64x256, .f32⟩ : BufTy).Contents (Elt F)) (xarg7 : (⟨S256x256, .f32⟩ : BufTy).Contents (Elt F)) (xarg8 : (⟨S256, .f32⟩ : BufTy).Contents (Elt F)) (xarg14 : (⟨S1, .f32⟩ : BufTy).Contents (Elt F)) (xarg9 : (⟨S256x128, .f32⟩ : BufTy).Contents (Elt F)) (xarg10 : (⟨S128, .f32⟩ : BufTy).Contents (Elt F)) (xarg11 : (⟨S128x10, .f32⟩ : BufTy).Contents (Elt F)) (xarg12 : (⟨S10, .f32⟩ : BufTy).Contents (Elt F)) : (⟨S64x10, .f32⟩ : BufTy).Contents (Elt F) :=
  have xv226 : (⟨S64x256, .f32⟩ : BufTy).Contents (Elt F) := ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)) xv225 xarg7
  have xv227 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) xarg8
  have xv228 : (⟨S64x256, .f32⟩ : BufTy).Contents (Elt F) := (broadcastInDim S64x256 ![0, 1] bcast_S1x256_S64x256_0_1 : (⟨S1x256, .f32⟩ : BufTy).Contents (Elt F) → (⟨S64x256, .f32⟩ : BufTy).Contents (Elt F)) xv227
  have xv229 : (⟨S64x256, .f32⟩ : BufTy).Contents (Elt F) := (addf : (⟨S64x256, .f32⟩ : BufTy).Contents (Elt F) → (⟨S64x256, .f32⟩ : BufTy).Contents (Elt F) → (⟨S64x256, .f32⟩ : BufTy).Contents (Elt F)) xv226 xv228
  have xcst_37 : (⟨S_, .f32⟩ : BufTy).Contents (Elt F) := (constant S_ .f32 0x00000000#32)
  have xv230 : (⟨S64x256, .f32⟩ : BufTy).Contents (Elt F) := (broadcastInDim S64x256 ![] bcast_S_S64x256 : (⟨S_, .f32⟩ : BufTy).Contents (Elt F) → (⟨S64x256, .f32⟩ : BufTy).Contents (Elt F)) xcst_37
  have xv231 : (⟨S64x256, .i1⟩ : BufTy).Contents (Elt F) := (cmpf .oge : (⟨S64x256, .f32⟩ : BufTy).Contents (Elt F) → (⟨S64x256, .f32⟩ : BufTy).Contents (Elt F) → (⟨S64x256, .i1⟩ : BufTy).Contents (Elt F)) xv229 xv230
  have xv232 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) xarg14
  have xv233 : (⟨S64x256, .f32⟩ : BufTy).Contents (Elt F) := (broadcastInDim S64x256 ![0, 1] bcast_S1x1_S64x256_0_1 : (⟨S1x1, .f32⟩ : BufTy).Contents (Elt F) → (⟨S64x256, .f32⟩ : BufTy).Contents (Elt F)) xv232
  have xv234 : (⟨S64x256, .f32⟩ : BufTy).Contents (Elt F) := (mulf : (⟨S64x256, .f32⟩ : BufTy).Contents (Elt F) → (⟨S64x256, .f32⟩ : BufTy).Contents (Elt F) → (⟨S64x256, .f32⟩ : BufTy).Contents (Elt F)) xv233 xv229
  have xv235 : (⟨S64x256, .f32⟩ : BufTy).Contents (Elt F) := select xv231 xv229 xv234
  have xv236 : (⟨S64x128, .f32⟩ : BufTy).Contents (Elt F) := ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)) xv235 xarg9
  have xv237 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) xarg10
  have xv238 : (⟨S64x128, .f32⟩ : BufTy).Contents (Elt F) := (broadcastInDim S64x128 ![0, 1] bcast_S1x128_S64x128_0_1 : (⟨S1x128, .f32⟩ : BufTy).Contents (Elt F) → (⟨S64x128, .f32⟩ : BufTy).Contents (Elt F)) xv237
  have xv239 : (⟨S64x128, .f32⟩ : BufTy).Contents (Elt F) := (addf : (⟨S64x128, .f32⟩ : BufTy).Contents (Elt F) → (⟨S64x128, .f32⟩ : BufTy).Contents (Elt F) → (⟨S64x128, .f32⟩ : BufTy).Contents (Elt F)) xv236 xv238
  have xv240 : (⟨S64x128, .f32⟩ : BufTy).Contents (Elt F) := (Host.negf : (⟨S64x128, .f32⟩ : BufTy).Contents (Elt F) → (⟨S64x128, .f32⟩ : BufTy).Contents (Elt F)) xv239
  have xv241 : (⟨S64x128, .f32⟩ : BufTy).Contents (Elt F) := (Host.exp : (⟨S64x128, .f32⟩ : BufTy).Contents (Elt F) → (⟨S64x128, .f32⟩ : BufTy).Contents (Elt F)) xv240
  have xcst_38 : (⟨S_, .f32⟩ : BufTy).Contents (Elt F) := (constant S_ .f32 0x3F800000#32)
  have xv242 : (⟨S64x128, .f32⟩ : BufTy).Contents (Elt F) := (broadcastInDim S64x128 ![] bcast_S_S64x128 : (⟨S_, .f32⟩ : BufTy).Contents (Elt F) → (⟨S64x128, .f32⟩ : BufTy).Contents (Elt F)) xcst_38
  have xv243 : (⟨S64x128, .f32⟩ : BufTy).Contents (Elt F) := (addf : (⟨S64x128, .f32⟩ : BufTy).Contents (Elt F) → (⟨S64x128, .f32⟩ : BufTy).Contents (Elt F) → (⟨S64x128, .f32⟩ : BufTy).Contents (Elt F)) xv242 xv241
  have xcst_39 : (⟨S_, .f32⟩ : BufTy).Contents (Elt F) := (constant S_ .f32 0x3F800000#32)
  have xv244 : (⟨S64x128, .f32⟩ : BufTy).Contents (Elt F) := (broadcastInDim S64x128 ![] bcast_S_S64x128 : (⟨S_, .f32⟩ : BufTy).Contents (Elt F) → (⟨S64x128, .f32⟩ : BufTy).Contents (Elt F)) xcst_39
  have xv245 : (⟨S64x128, .f32⟩ : BufTy).Contents (Elt F) := (Host.divf : (⟨S64x128, .f32⟩ : BufTy).Contents (Elt F) → (⟨S64x128, .f32⟩ : BufTy).Contents (Elt F) → (⟨S64x128, .f32⟩ : BufTy).Contents (Elt F)) xv244 xv243
  have xv246 : (⟨S64x10, .f32⟩ : BufTy).Contents (Elt F) := ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)) xv245 xarg11
  have xv247 : (⟨S1x10, .f32⟩ : BufTy).Contents (Elt F) := (broadcastInDim S1x10 ![1] bcast_S10_S1x10_1 : (⟨S10, .f32⟩ : BufTy).Contents (Elt F) → (⟨S1x10, .f32⟩ : BufTy).Contents (Elt F)) xarg12
  have xv248 : (⟨S64x10, .f32⟩ : BufTy).Contents (Elt F) := (broadcastInDim S64x10 ![0, 1] bcast_S1x10_S64x10_0_1 : (⟨S1x10, .f32⟩ : BufTy).Contents (Elt F) → (⟨S64x10, .f32⟩ : BufTy).Contents (Elt F)) xv247
  have xv249 : (⟨S64x10, .f32⟩ : BufTy).Contents (Elt F) := (addf : (⟨S64x10, .f32⟩ : BufTy).Contents (Elt F) → (⟨S64x10, .f32⟩ : BufTy).Contents (Elt F) → (⟨S64x10, .f32⟩ : BufTy).Contents (Elt F)) xv246 xv248
  have xcall6_cst : (⟨S_, .f32⟩ : BufTy).Contents (Elt F) := (constant S_ .f32 0xFF800000#32)
  have xcall6_v0 : (⟨S64, .f32⟩ : BufTy).Contents (Elt F) := (fun x v => Host.reduce FloatOps.maximumf x v reducesTo_S64x10_S64_d1 h_S_) xv249 xcall6_cst
  have xcall6_cst_0 : (⟨S_, .f32⟩ : BufTy).Contents (Elt F) := (constant S_ .f32 0xFF800000#32)
  have xcall6_v1 : (⟨S64, .f32⟩ : BufTy).Contents (Elt F) := (broadcastInDim S64 ![] bcast_S_S64) xcall6_cst_0
  have xcall6_v2 : (⟨S64, .f32⟩ : BufTy).Contents (Elt F) := maximumf xcall6_v1 xcall6_v0
  have xcall6_v3 : (⟨S64x1, .f32⟩ : BufTy).Contents (Elt F) := (broadcastInDim S64x1 ![0] bcast_S64_S64x1_0) xcall6_v2
  have xcall6_v4 : (⟨S64x10, .f32⟩ : BufTy).Contents (Elt F) := (broadcastInDim S64x10 ![0, 1] bcast_S64x1_S64x10_0_1) xcall6_v3
  have xcall6_v5 : (⟨S64x10, .f32⟩ : BufTy).Contents (Elt F) := subf xv249 xcall6_v4
  have xcall6_v6 : (⟨S64x10, .f32⟩ : BufTy).Contents (Elt F) := Host.exp xcall6_v5
  have xcall6_cst_1 : (⟨S_, .f32⟩ : BufTy).Contents (Elt F) := (constant S_ .f32 0x00000000#32)
  have xcall6_v7 : (⟨S64, .f32⟩ : BufTy).Contents (Elt F) := (fun x v => Host.reduceAdd x v reducesTo_S64x10_S64_d1 h_S_) xcall6_v6 xcall6_cst_1
  have xcall6_v8 : (⟨S64x1, .f32⟩ : BufTy).Contents (Elt F) := (broadcastInDim S64x1 ![0] bcast_S64_S64x1_0) xcall6_v7
  have xcall6_v9 : (⟨S64x1, .f32⟩ : BufTy).Contents (Elt F) := Host.log xcall6_v8
  have xcall6_v10 : (⟨S64x10, .f32⟩ : BufTy).Contents (Elt F) := (broadcastInDim S64x10 ![0, 1] bcast_S64x1_S64x10_0_1) xcall6_v9
  have xv250 : (⟨S64x10, .f32⟩ : BufTy).Contents (Elt F) := subf xcall6_v5 xcall6_v10
  xv250

end Cert.ReferenceIdeal.Terms

end
-- ==== Proof.RSegs.lean ====
/-
  The reference program's six pieces against its named terms: a piece of @main, run from any contents W, leaves each
  layer's output (or the edge weights, or the final result) in its buffer as the named term of what it read, and
  leaves every earlier buffer alone.
-/
import proofs.«163009_j11184094839450_1_alg».proof.Proof.RTerms
import proofs.«163009_j11184094839450_1_alg».proof.Proof.RefRun
import Idealize.ShloMosaic.Lib.StableHlo.Run

noncomputable section

namespace Cert.ReferenceIdeal.Terms

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

variable [Facts]

set_option maxHeartbeats 4000000 in
theorem seg0_row (W : Valuation τ sig (Elt F)) :
    StableHlo.after (seg0 (F := F)) W (Proc.devRef .tc main_v1) = (rRow (W (Proc.devRef .tc main_arg1))) := by
  after_results_simp <;> rfl

set_option maxHeartbeats 4000000 in
theorem seg0_col (W : Valuation τ sig (Elt F)) :
    StableHlo.after (seg0 (F := F)) W (Proc.devRef .tc main_v3) = (rCol (W (Proc.devRef .tc main_arg1))) := by
  after_results_simp <;> rfl

set_option maxHeartbeats 4000000 in
theorem seg0_edgeW (W : Valuation τ sig (Elt F)) :
    StableHlo.after (seg0 (F := F)) W (Proc.devRef .tc main_v29) = (rEdgeW (W (Proc.devRef .tc main_arg1))) := by
  after_results_simp <;> rfl

set_option maxHeartbeats 4000000 in
theorem seg1_out (W : Valuation τ sig (Elt F)) :
    StableHlo.after (seg1 (F := F)) W (Proc.devRef .tc main_v78) = (rOut_1 (W (Proc.devRef .tc main_arg0)) (rT1_1 (W (Proc.devRef .tc main_arg0)) (W (Proc.devRef .tc main_v29)) (W (Proc.devRef .tc main_v1)) (W (Proc.devRef .tc main_v3))) (rT2_1 (W (Proc.devRef .tc main_arg0)) (rT1_1 (W (Proc.devRef .tc main_arg0)) (W (Proc.devRef .tc main_v29)) (W (Proc.devRef .tc main_v1)) (W (Proc.devRef .tc main_v3))) (W (Proc.devRef .tc main_v29)) (W (Proc.devRef .tc main_v1)) (W (Proc.devRef .tc main_v3))) (W (Proc.devRef .tc main_arg3)) (W (Proc.devRef .tc main_arg4)) (W (Proc.devRef .tc main_arg13))) := by
  after_results_simp <;> rfl

set_option maxHeartbeats 4000000 in
theorem seg2_out (W : Valuation τ sig (Elt F)) :
    StableHlo.after (seg2 (F := F)) W (Proc.devRef .tc main_v126) = (rOut_2 (W (Proc.devRef .tc main_v78)) (rT1_2 (W (Proc.devRef .tc main_v78)) (W (Proc.devRef .tc main_v29)) (W (Proc.devRef .tc main_v1)) (W (Proc.devRef .tc main_v3))) (rT2_2 (W (Proc.devRef .tc main_v78)) (rT1_2 (W (Proc.devRef .tc main_v78)) (W (Proc.devRef .tc main_v29)) (W (Proc.devRef .tc main_v1)) (W (Proc.devRef .tc main_v3))) (W (Proc.devRef .tc main_v29)) (W (Proc.devRef .tc main_v1)) (W (Proc.devRef .tc main_v3))) (W (Proc.devRef .tc main_arg5)) (W (Proc.devRef .tc main_arg6))) := by
  after_results_simp <;> rfl

set_option maxHeartbeats 4000000 in
theorem seg3_out (W : Valuation τ sig (Elt F)) :
    StableHlo.after (seg3 (F := F)) W (Proc.devRef .tc main_v174) = (rOut_3 (W (Proc.devRef .tc main_v126)) (rT1_3 (W (Proc.devRef .tc main_v126)) (W (Proc.devRef .tc main_v29)) (W (Proc.devRef .tc main_v1)) (W (Proc.devRef .tc main_v3))) (rT2_3 (W (Proc.devRef .tc main_v126)) (rT1_3 (W (Proc.devRef .tc main_v126)) (W (Proc.devRef .tc main_v29)) (W (Proc.devRef .tc main_v1)) (W (Proc.devRef .tc main_v3))) (W (Proc.devRef .tc main_v29)) (W (Proc.devRef .tc main_v1)) (W (Proc.devRef .tc main_v3))) (W (Proc.devRef .tc main_arg5)) (W (Proc.devRef .tc main_arg6))) := by
  after_results_simp <;> rfl

set_option maxHeartbeats 4000000 in
theorem seg4_out (W : Valuation τ sig (Elt F)) :
    StableHlo.after (seg4 (F := F)) W (Proc.devRef .tc main_v222) = (rOut_4 (W (Proc.devRef .tc main_v174)) (rT1_4 (W (Proc.devRef .tc main_v174)) (W (Proc.devRef .tc main_v29)) (W (Proc.devRef .tc main_v1)) (W (Proc.devRef .tc main_v3))) (rT2_4 (W (Proc.devRef .tc main_v174)) (rT1_4 (W (Proc.devRef .tc main_v174)) (W (Proc.devRef .tc main_v29)) (W (Proc.devRef .tc main_v1)) (W (Proc.devRef .tc main_v3))) (W (Proc.devRef .tc main_v29)) (W (Proc.devRef .tc main_v1)) (W (Proc.devRef .tc main_v3))) (W (Proc.devRef .tc main_arg5)) (W (Proc.devRef .tc main_arg6))) := by
  after_results_simp <;> rfl

set_option maxHeartbeats 4000000 in
theorem seg5_out (W : Valuation τ sig (Elt F)) :
    StableHlo.after (seg5 (F := F)) W (Proc.devRef .tc main_v250) = (rMlp (rPooled (W (Proc.devRef .tc main_v222)) (W (Proc.devRef .tc main_arg2))) (W (Proc.devRef .tc main_arg7)) (W (Proc.devRef .tc main_arg8)) (W (Proc.devRef .tc main_arg14)) (W (Proc.devRef .tc main_arg9)) (W (Proc.devRef .tc main_arg10)) (W (Proc.devRef .tc main_arg11)) (W (Proc.devRef .tc main_arg12))) := by
  after_results_simp <;> rfl

set_option maxHeartbeats 4000000 in
theorem seg0_keeps_arg0 (W : Valuation τ sig (Elt F)) :
    StableHlo.after (seg0 (F := F)) W (Proc.devRef .tc main_arg0) = W (Proc.devRef .tc main_arg0) := by
  after_results_simp <;> rfl

set_option maxHeartbeats 4000000 in
theorem seg0_keeps_arg1 (W : Valuation τ sig (Elt F)) :
    StableHlo.after (seg0 (F := F)) W (Proc.devRef .tc main_arg1) = W (Proc.devRef .tc main_arg1) := by
  after_results_simp <;> rfl

set_option maxHeartbeats 4000000 in
theorem seg0_keeps_arg2 (W : Valuation τ sig (Elt F)) :
    StableHlo.after (seg0 (F := F)) W (Proc.devRef .tc main_arg2) = W (Proc.devRef .tc main_arg2) := by
  after_results_simp <;> rfl

set_option maxHeartbeats 4000000 in
theorem seg0_keeps_arg3 (W : Valuation τ sig (Elt F)) :
    StableHlo.after (seg0 (F := F)) W (Proc.devRef .tc main_arg3) = W (Proc.devRef .tc main_arg3) := by
  after_results_simp <;> rfl

set_option maxHeartbeats 4000000 in
theorem seg0_keeps_arg4 (W : Valuation τ sig (Elt F)) :
    StableHlo.after (seg0 (F := F)) W (Proc.devRef .tc main_arg4) = W (Proc.devRef .tc main_arg4) := by
  after_results_simp <;> rfl

set_option maxHeartbeats 4000000 in
theorem seg0_keeps_arg5 (W : Valuation τ sig (Elt F)) :
    StableHlo.after (seg0 (F := F)) W (Proc.devRef .tc main_arg5) = W (Proc.devRef .tc main_arg5) := by
  after_results_simp <;> rfl

set_option maxHeartbeats 4000000 in
theorem seg0_keeps_arg6 (W : Valuation τ sig (Elt F)) :
    StableHlo.after (seg0 (F := F)) W (Proc.devRef .tc main_arg6) = W (Proc.devRef .tc main_arg6) := by
  after_results_simp <;> rfl

set_option maxHeartbeats 4000000 in
theorem seg0_keeps_arg7 (W : Valuation τ sig (Elt F)) :
    StableHlo.after (seg0 (F := F)) W (Proc.devRef .tc main_arg7) = W (Proc.devRef .tc main_arg7) := by
  after_results_simp <;> rfl

set_option maxHeartbeats 4000000 in
theorem seg0_keeps_arg8 (W : Valuation τ sig (Elt F)) :
    StableHlo.after (seg0 (F := F)) W (Proc.devRef .tc main_arg8) = W (Proc.devRef .tc main_arg8) := by
  after_results_simp <;> rfl

set_option maxHeartbeats 4000000 in
theorem seg0_keeps_arg9 (W : Valuation τ sig (Elt F)) :
    StableHlo.after (seg0 (F := F)) W (Proc.devRef .tc main_arg9) = W (Proc.devRef .tc main_arg9) := by
  after_results_simp <;> rfl

set_option maxHeartbeats 4000000 in
theorem seg0_keeps_arg10 (W : Valuation τ sig (Elt F)) :
    StableHlo.after (seg0 (F := F)) W (Proc.devRef .tc main_arg10) = W (Proc.devRef .tc main_arg10) := by
  after_results_simp <;> rfl

set_option maxHeartbeats 4000000 in
theorem seg0_keeps_arg11 (W : Valuation τ sig (Elt F)) :
    StableHlo.after (seg0 (F := F)) W (Proc.devRef .tc main_arg11) = W (Proc.devRef .tc main_arg11) := by
  after_results_simp <;> rfl

set_option maxHeartbeats 4000000 in
theorem seg0_keeps_arg12 (W : Valuation τ sig (Elt F)) :
    StableHlo.after (seg0 (F := F)) W (Proc.devRef .tc main_arg12) = W (Proc.devRef .tc main_arg12) := by
  after_results_simp <;> rfl

set_option maxHeartbeats 4000000 in
theorem seg0_keeps_arg13 (W : Valuation τ sig (Elt F)) :
    StableHlo.after (seg0 (F := F)) W (Proc.devRef .tc main_arg13) = W (Proc.devRef .tc main_arg13) := by
  after_results_simp <;> rfl

set_option maxHeartbeats 4000000 in
theorem seg0_keeps_arg14 (W : Valuation τ sig (Elt F)) :
    StableHlo.after (seg0 (F := F)) W (Proc.devRef .tc main_arg14) = W (Proc.devRef .tc main_arg14) := by
  after_results_simp <;> rfl

set_option maxHeartbeats 4000000 in
theorem seg1_keeps_arg0 (W : Valuation τ sig (Elt F)) :
    StableHlo.after (seg1 (F := F)) W (Proc.devRef .tc main_arg0) = W (Proc.devRef .tc main_arg0) := by
  after_results_simp <;> rfl

set_option maxHeartbeats 4000000 in
theorem seg1_keeps_arg1 (W : Valuation τ sig (Elt F)) :
    StableHlo.after (seg1 (F := F)) W (Proc.devRef .tc main_arg1) = W (Proc.devRef .tc main_arg1) := by
  after_results_simp <;> rfl

set_option maxHeartbeats 4000000 in
theorem seg1_keeps_arg2 (W : Valuation τ sig (Elt F)) :
    StableHlo.after (seg1 (F := F)) W (Proc.devRef .tc main_arg2) = W (Proc.devRef .tc main_arg2) := by
  after_results_simp <;> rfl

set_option maxHeartbeats 4000000 in
theorem seg1_keeps_arg3 (W : Valuation τ sig (Elt F)) :
    StableHlo.after (seg1 (F := F)) W (Proc.devRef .tc main_arg3) = W (Proc.devRef .tc main_arg3) := by
  after_results_simp <;> rfl

set_option maxHeartbeats 4000000 in
theorem seg1_keeps_arg4 (W : Valuation τ sig (Elt F)) :
    StableHlo.after (seg1 (F := F)) W (Proc.devRef .tc main_arg4) = W (Proc.devRef .tc main_arg4) := by
  after_results_simp <;> rfl

set_option maxHeartbeats 4000000 in
theorem seg1_keeps_arg5 (W : Valuation τ sig (Elt F)) :
    StableHlo.after (seg1 (F := F)) W (Proc.devRef .tc main_arg5) = W (Proc.devRef .tc main_arg5) := by
  after_results_simp <;> rfl

set_option maxHeartbeats 4000000 in
theorem seg1_keeps_arg6 (W : Valuation τ sig (Elt F)) :
    StableHlo.after (seg1 (F := F)) W (Proc.devRef .tc main_arg6) = W (Proc.devRef .tc main_arg6) := by
  after_results_simp <;> rfl

set_option maxHeartbeats 4000000 in
theorem seg1_keeps_arg7 (W : Valuation τ sig (Elt F)) :
    StableHlo.after (seg1 (F := F)) W (Proc.devRef .tc main_arg7) = W (Proc.devRef .tc main_arg7) := by
  after_results_simp <;> rfl

set_option maxHeartbeats 4000000 in
theorem seg1_keeps_arg8 (W : Valuation τ sig (Elt F)) :
    StableHlo.after (seg1 (F := F)) W (Proc.devRef .tc main_arg8) = W (Proc.devRef .tc main_arg8) := by
  after_results_simp <;> rfl

set_option maxHeartbeats 4000000 in
theorem seg1_keeps_arg9 (W : Valuation τ sig (Elt F)) :
    StableHlo.after (seg1 (F := F)) W (Proc.devRef .tc main_arg9) = W (Proc.devRef .tc main_arg9) := by
  after_results_simp <;> rfl

set_option maxHeartbeats 4000000 in
theorem seg1_keeps_arg10 (W : Valuation τ sig (Elt F)) :
    StableHlo.after (seg1 (F := F)) W (Proc.devRef .tc main_arg10) = W (Proc.devRef .tc main_arg10) := by
  after_results_simp <;> rfl

set_option maxHeartbeats 4000000 in
theorem seg1_keeps_arg11 (W : Valuation τ sig (Elt F)) :
    StableHlo.after (seg1 (F := F)) W (Proc.devRef .tc main_arg11) = W (Proc.devRef .tc main_arg11) := by
  after_results_simp <;> rfl

set_option maxHeartbeats 4000000 in
theorem seg1_keeps_arg12 (W : Valuation τ sig (Elt F)) :
    StableHlo.after (seg1 (F := F)) W (Proc.devRef .tc main_arg12) = W (Proc.devRef .tc main_arg12) := by
  after_results_simp <;> rfl

set_option maxHeartbeats 4000000 in
theorem seg1_keeps_arg13 (W : Valuation τ sig (Elt F)) :
    StableHlo.after (seg1 (F := F)) W (Proc.devRef .tc main_arg13) = W (Proc.devRef .tc main_arg13) := by
  after_results_simp <;> rfl

set_option maxHeartbeats 4000000 in
theorem seg1_keeps_arg14 (W : Valuation τ sig (Elt F)) :
    StableHlo.after (seg1 (F := F)) W (Proc.devRef .tc main_arg14) = W (Proc.devRef .tc main_arg14) := by
  after_results_simp <;> rfl

set_option maxHeartbeats 4000000 in
theorem seg1_keeps_v29 (W : Valuation τ sig (Elt F)) :
    StableHlo.after (seg1 (F := F)) W (Proc.devRef .tc main_v29) = W (Proc.devRef .tc main_v29) := by
  after_results_simp <;> rfl

set_option maxHeartbeats 4000000 in
theorem seg1_keeps_v1 (W : Valuation τ sig (Elt F)) :
    StableHlo.after (seg1 (F := F)) W (Proc.devRef .tc main_v1) = W (Proc.devRef .tc main_v1) := by
  after_results_simp <;> rfl

set_option maxHeartbeats 4000000 in
theorem seg1_keeps_v3 (W : Valuation τ sig (Elt F)) :
    StableHlo.after (seg1 (F := F)) W (Proc.devRef .tc main_v3) = W (Proc.devRef .tc main_v3) := by
  after_results_simp <;> rfl

set_option maxHeartbeats 4000000 in
theorem seg2_keeps_arg0 (W : Valuation τ sig (Elt F)) :
    StableHlo.after (seg2 (F := F)) W (Proc.devRef .tc main_arg0) = W (Proc.devRef .tc main_arg0) := by
  after_results_simp <;> rfl

set_option maxHeartbeats 4000000 in
theorem seg2_keeps_arg1 (W : Valuation τ sig (Elt F)) :
    StableHlo.after (seg2 (F := F)) W (Proc.devRef .tc main_arg1) = W (Proc.devRef .tc main_arg1) := by
  after_results_simp <;> rfl

set_option maxHeartbeats 4000000 in
theorem seg2_keeps_arg2 (W : Valuation τ sig (Elt F)) :
    StableHlo.after (seg2 (F := F)) W (Proc.devRef .tc main_arg2) = W (Proc.devRef .tc main_arg2) := by
  after_results_simp <;> rfl

set_option maxHeartbeats 4000000 in
theorem seg2_keeps_arg3 (W : Valuation τ sig (Elt F)) :
    StableHlo.after (seg2 (F := F)) W (Proc.devRef .tc main_arg3) = W (Proc.devRef .tc main_arg3) := by
  after_results_simp <;> rfl

set_option maxHeartbeats 4000000 in
theorem seg2_keeps_arg4 (W : Valuation τ sig (Elt F)) :
    StableHlo.after (seg2 (F := F)) W (Proc.devRef .tc main_arg4) = W (Proc.devRef .tc main_arg4) := by
  after_results_simp <;> rfl

set_option maxHeartbeats 4000000 in
theorem seg2_keeps_arg5 (W : Valuation τ sig (Elt F)) :
    StableHlo.after (seg2 (F := F)) W (Proc.devRef .tc main_arg5) = W (Proc.devRef .tc main_arg5) := by
  after_results_simp <;> rfl

set_option maxHeartbeats 4000000 in
theorem seg2_keeps_arg6 (W : Valuation τ sig (Elt F)) :
    StableHlo.after (seg2 (F := F)) W (Proc.devRef .tc main_arg6) = W (Proc.devRef .tc main_arg6) := by
  after_results_simp <;> rfl

set_option maxHeartbeats 4000000 in
theorem seg2_keeps_arg7 (W : Valuation τ sig (Elt F)) :
    StableHlo.after (seg2 (F := F)) W (Proc.devRef .tc main_arg7) = W (Proc.devRef .tc main_arg7) := by
  after_results_simp <;> rfl

set_option maxHeartbeats 4000000 in
theorem seg2_keeps_arg8 (W : Valuation τ sig (Elt F)) :
    StableHlo.after (seg2 (F := F)) W (Proc.devRef .tc main_arg8) = W (Proc.devRef .tc main_arg8) := by
  after_results_simp <;> rfl

set_option maxHeartbeats 4000000 in
theorem seg2_keeps_arg9 (W : Valuation τ sig (Elt F)) :
    StableHlo.after (seg2 (F := F)) W (Proc.devRef .tc main_arg9) = W (Proc.devRef .tc main_arg9) := by
  after_results_simp <;> rfl

set_option maxHeartbeats 4000000 in
theorem seg2_keeps_arg10 (W : Valuation τ sig (Elt F)) :
    StableHlo.after (seg2 (F := F)) W (Proc.devRef .tc main_arg10) = W (Proc.devRef .tc main_arg10) := by
  after_results_simp <;> rfl

set_option maxHeartbeats 4000000 in
theorem seg2_keeps_arg11 (W : Valuation τ sig (Elt F)) :
    StableHlo.after (seg2 (F := F)) W (Proc.devRef .tc main_arg11) = W (Proc.devRef .tc main_arg11) := by
  after_results_simp <;> rfl

set_option maxHeartbeats 4000000 in
theorem seg2_keeps_arg12 (W : Valuation τ sig (Elt F)) :
    StableHlo.after (seg2 (F := F)) W (Proc.devRef .tc main_arg12) = W (Proc.devRef .tc main_arg12) := by
  after_results_simp <;> rfl

set_option maxHeartbeats 4000000 in
theorem seg2_keeps_arg13 (W : Valuation τ sig (Elt F)) :
    StableHlo.after (seg2 (F := F)) W (Proc.devRef .tc main_arg13) = W (Proc.devRef .tc main_arg13) := by
  after_results_simp <;> rfl

set_option maxHeartbeats 4000000 in
theorem seg2_keeps_arg14 (W : Valuation τ sig (Elt F)) :
    StableHlo.after (seg2 (F := F)) W (Proc.devRef .tc main_arg14) = W (Proc.devRef .tc main_arg14) := by
  after_results_simp <;> rfl

set_option maxHeartbeats 4000000 in
theorem seg2_keeps_v29 (W : Valuation τ sig (Elt F)) :
    StableHlo.after (seg2 (F := F)) W (Proc.devRef .tc main_v29) = W (Proc.devRef .tc main_v29) := by
  after_results_simp <;> rfl

set_option maxHeartbeats 4000000 in
theorem seg2_keeps_v1 (W : Valuation τ sig (Elt F)) :
    StableHlo.after (seg2 (F := F)) W (Proc.devRef .tc main_v1) = W (Proc.devRef .tc main_v1) := by
  after_results_simp <;> rfl

set_option maxHeartbeats 4000000 in
theorem seg2_keeps_v3 (W : Valuation τ sig (Elt F)) :
    StableHlo.after (seg2 (F := F)) W (Proc.devRef .tc main_v3) = W (Proc.devRef .tc main_v3) := by
  after_results_simp <;> rfl

set_option maxHeartbeats 4000000 in
theorem seg3_keeps_arg0 (W : Valuation τ sig (Elt F)) :
    StableHlo.after (seg3 (F := F)) W (Proc.devRef .tc main_arg0) = W (Proc.devRef .tc main_arg0) := by
  after_results_simp <;> rfl

set_option maxHeartbeats 4000000 in
theorem seg3_keeps_arg1 (W : Valuation τ sig (Elt F)) :
    StableHlo.after (seg3 (F := F)) W (Proc.devRef .tc main_arg1) = W (Proc.devRef .tc main_arg1) := by
  after_results_simp <;> rfl

set_option maxHeartbeats 4000000 in
theorem seg3_keeps_arg2 (W : Valuation τ sig (Elt F)) :
    StableHlo.after (seg3 (F := F)) W (Proc.devRef .tc main_arg2) = W (Proc.devRef .tc main_arg2) := by
  after_results_simp <;> rfl

set_option maxHeartbeats 4000000 in
theorem seg3_keeps_arg3 (W : Valuation τ sig (Elt F)) :
    StableHlo.after (seg3 (F := F)) W (Proc.devRef .tc main_arg3) = W (Proc.devRef .tc main_arg3) := by
  after_results_simp <;> rfl

set_option maxHeartbeats 4000000 in
theorem seg3_keeps_arg4 (W : Valuation τ sig (Elt F)) :
    StableHlo.after (seg3 (F := F)) W (Proc.devRef .tc main_arg4) = W (Proc.devRef .tc main_arg4) := by
  after_results_simp <;> rfl

set_option maxHeartbeats 4000000 in
theorem seg3_keeps_arg5 (W : Valuation τ sig (Elt F)) :
    StableHlo.after (seg3 (F := F)) W (Proc.devRef .tc main_arg5) = W (Proc.devRef .tc main_arg5) := by
  after_results_simp <;> rfl

set_option maxHeartbeats 4000000 in
theorem seg3_keeps_arg6 (W : Valuation τ sig (Elt F)) :
    StableHlo.after (seg3 (F := F)) W (Proc.devRef .tc main_arg6) = W (Proc.devRef .tc main_arg6) := by
  after_results_simp <;> rfl

set_option maxHeartbeats 4000000 in
theorem seg3_keeps_arg7 (W : Valuation τ sig (Elt F)) :
    StableHlo.after (seg3 (F := F)) W (Proc.devRef .tc main_arg7) = W (Proc.devRef .tc main_arg7) := by
  after_results_simp <;> rfl

set_option maxHeartbeats 4000000 in
theorem seg3_keeps_arg8 (W : Valuation τ sig (Elt F)) :
    StableHlo.after (seg3 (F := F)) W (Proc.devRef .tc main_arg8) = W (Proc.devRef .tc main_arg8) := by
  after_results_simp <;> rfl

set_option maxHeartbeats 4000000 in
theorem seg3_keeps_arg9 (W : Valuation τ sig (Elt F)) :
    StableHlo.after (seg3 (F := F)) W (Proc.devRef .tc main_arg9) = W (Proc.devRef .tc main_arg9) := by
  after_results_simp <;> rfl

set_option maxHeartbeats 4000000 in
theorem seg3_keeps_arg10 (W : Valuation τ sig (Elt F)) :
    StableHlo.after (seg3 (F := F)) W (Proc.devRef .tc main_arg10) = W (Proc.devRef .tc main_arg10) := by
  after_results_simp <;> rfl

set_option maxHeartbeats 4000000 in
theorem seg3_keeps_arg11 (W : Valuation τ sig (Elt F)) :
    StableHlo.after (seg3 (F := F)) W (Proc.devRef .tc main_arg11) = W (Proc.devRef .tc main_arg11) := by
  after_results_simp <;> rfl

set_option maxHeartbeats 4000000 in
theorem seg3_keeps_arg12 (W : Valuation τ sig (Elt F)) :
    StableHlo.after (seg3 (F := F)) W (Proc.devRef .tc main_arg12) = W (Proc.devRef .tc main_arg12) := by
  after_results_simp <;> rfl

set_option maxHeartbeats 4000000 in
theorem seg3_keeps_arg13 (W : Valuation τ sig (Elt F)) :
    StableHlo.after (seg3 (F := F)) W (Proc.devRef .tc main_arg13) = W (Proc.devRef .tc main_arg13) := by
  after_results_simp <;> rfl

set_option maxHeartbeats 4000000 in
theorem seg3_keeps_arg14 (W : Valuation τ sig (Elt F)) :
    StableHlo.after (seg3 (F := F)) W (Proc.devRef .tc main_arg14) = W (Proc.devRef .tc main_arg14) := by
  after_results_simp <;> rfl

set_option maxHeartbeats 4000000 in
theorem seg3_keeps_v29 (W : Valuation τ sig (Elt F)) :
    StableHlo.after (seg3 (F := F)) W (Proc.devRef .tc main_v29) = W (Proc.devRef .tc main_v29) := by
  after_results_simp <;> rfl

set_option maxHeartbeats 4000000 in
theorem seg3_keeps_v1 (W : Valuation τ sig (Elt F)) :
    StableHlo.after (seg3 (F := F)) W (Proc.devRef .tc main_v1) = W (Proc.devRef .tc main_v1) := by
  after_results_simp <;> rfl

set_option maxHeartbeats 4000000 in
theorem seg3_keeps_v3 (W : Valuation τ sig (Elt F)) :
    StableHlo.after (seg3 (F := F)) W (Proc.devRef .tc main_v3) = W (Proc.devRef .tc main_v3) := by
  after_results_simp <;> rfl

set_option maxHeartbeats 4000000 in
theorem seg4_keeps_arg0 (W : Valuation τ sig (Elt F)) :
    StableHlo.after (seg4 (F := F)) W (Proc.devRef .tc main_arg0) = W (Proc.devRef .tc main_arg0) := by
  after_results_simp <;> rfl

set_option maxHeartbeats 4000000 in
theorem seg4_keeps_arg1 (W : Valuation τ sig (Elt F)) :
    StableHlo.after (seg4 (F := F)) W (Proc.devRef .tc main_arg1) = W (Proc.devRef .tc main_arg1) := by
  after_results_simp <;> rfl

set_option maxHeartbeats 4000000 in
theorem seg4_keeps_arg2 (W : Valuation τ sig (Elt F)) :
    StableHlo.after (seg4 (F := F)) W (Proc.devRef .tc main_arg2) = W (Proc.devRef .tc main_arg2) := by
  after_results_simp <;> rfl

set_option maxHeartbeats 4000000 in
theorem seg4_keeps_arg3 (W : Valuation τ sig (Elt F)) :
    StableHlo.after (seg4 (F := F)) W (Proc.devRef .tc main_arg3) = W (Proc.devRef .tc main_arg3) := by
  after_results_simp <;> rfl

set_option maxHeartbeats 4000000 in
theorem seg4_keeps_arg4 (W : Valuation τ sig (Elt F)) :
    StableHlo.after (seg4 (F := F)) W (Proc.devRef .tc main_arg4) = W (Proc.devRef .tc main_arg4) := by
  after_results_simp <;> rfl

set_option maxHeartbeats 4000000 in
theorem seg4_keeps_arg5 (W : Valuation τ sig (Elt F)) :
    StableHlo.after (seg4 (F := F)) W (Proc.devRef .tc main_arg5) = W (Proc.devRef .tc main_arg5) := by
  after_results_simp <;> rfl

set_option maxHeartbeats 4000000 in
theorem seg4_keeps_arg6 (W : Valuation τ sig (Elt F)) :
    StableHlo.after (seg4 (F := F)) W (Proc.devRef .tc main_arg6) = W (Proc.devRef .tc main_arg6) := by
  after_results_simp <;> rfl

set_option maxHeartbeats 4000000 in
theorem seg4_keeps_arg7 (W : Valuation τ sig (Elt F)) :
    StableHlo.after (seg4 (F := F)) W (Proc.devRef .tc main_arg7) = W (Proc.devRef .tc main_arg7) := by
  after_results_simp <;> rfl

set_option maxHeartbeats 4000000 in
theorem seg4_keeps_arg8 (W : Valuation τ sig (Elt F)) :
    StableHlo.after (seg4 (F := F)) W (Proc.devRef .tc main_arg8) = W (Proc.devRef .tc main_arg8) := by
  after_results_simp <;> rfl

set_option maxHeartbeats 4000000 in
theorem seg4_keeps_arg9 (W : Valuation τ sig (Elt F)) :
    StableHlo.after (seg4 (F := F)) W (Proc.devRef .tc main_arg9) = W (Proc.devRef .tc main_arg9) := by
  after_results_simp <;> rfl

set_option maxHeartbeats 4000000 in
theorem seg4_keeps_arg10 (W : Valuation τ sig (Elt F)) :
    StableHlo.after (seg4 (F := F)) W (Proc.devRef .tc main_arg10) = W (Proc.devRef .tc main_arg10) := by
  after_results_simp <;> rfl

set_option maxHeartbeats 4000000 in
theorem seg4_keeps_arg11 (W : Valuation τ sig (Elt F)) :
    StableHlo.after (seg4 (F := F)) W (Proc.devRef .tc main_arg11) = W (Proc.devRef .tc main_arg11) := by
  after_results_simp <;> rfl

set_option maxHeartbeats 4000000 in
theorem seg4_keeps_arg12 (W : Valuation τ sig (Elt F)) :
    StableHlo.after (seg4 (F := F)) W (Proc.devRef .tc main_arg12) = W (Proc.devRef .tc main_arg12) := by
  after_results_simp <;> rfl

set_option maxHeartbeats 4000000 in
theorem seg4_keeps_arg13 (W : Valuation τ sig (Elt F)) :
    StableHlo.after (seg4 (F := F)) W (Proc.devRef .tc main_arg13) = W (Proc.devRef .tc main_arg13) := by
  after_results_simp <;> rfl

set_option maxHeartbeats 4000000 in
theorem seg4_keeps_arg14 (W : Valuation τ sig (Elt F)) :
    StableHlo.after (seg4 (F := F)) W (Proc.devRef .tc main_arg14) = W (Proc.devRef .tc main_arg14) := by
  after_results_simp <;> rfl

end Cert.ReferenceIdeal.Terms

end
-- ==== Proof.RResult.lean ====
/-
  The reference program's result as one function of its arguments: layer by layer the features go to the three
  Chebyshev terms and through the layer's three products, bias and rectifier; the last features are added up per
  graph and go through the graph-level perceptron.
-/
import proofs.«163009_j11184094839450_1_alg».proof.Proof.RTerms

noncomputable section

namespace Cert.ReferenceIdeal.RV

open Cert.ReferenceIdeal Cert.ReferenceIdeal.Gen Cert.ReferenceIdeal.Terms
open Idealize.ShloMosaic Idealize.ShloMosaic.TcCoe Idealize.SL.Sem

variable {F : FTy → Type} [FloatOps F] [Facts]

/-- The features after layer 1. -/
def feat1 (a0 : (⟨S10000x128, .f32⟩ : BufTy).Contents (Elt F)) (a1 : (⟨S2x320000, .i32⟩ : BufTy).Contents (Elt F)) (a3 : (⟨S3x128x256, .f32⟩ : BufTy).Contents (Elt F)) (a4 : (⟨S256, .f32⟩ : BufTy).Contents (Elt F)) (a13 : (⟨S1, .f32⟩ : BufTy).Contents (Elt F)) : (⟨S10000x256, .f32⟩ : BufTy).Contents (Elt F) :=
  rOut_1 a0 (rT1_1 a0 (rEdgeW a1) (rRow a1) (rCol a1)) (rT2_1 a0 (rT1_1 a0 (rEdgeW a1) (rRow a1) (rCol a1)) (rEdgeW a1) (rRow a1) (rCol a1)) a3 a4 a13

/-- The features after layer 2, from the features before it. -/
def feat2 (h : (⟨S10000x256, .f32⟩ : BufTy).Contents (Elt F)) (a1 : (⟨S2x320000, .i32⟩ : BufTy).Contents (Elt F)) (a5 : (⟨S3x3x256x256, .f32⟩ : BufTy).Contents (Elt F)) (a6 : (⟨S3x256, .f32⟩ : BufTy).Contents (Elt F)) : (⟨S10000x256, .f32⟩ : BufTy).Contents (Elt F) :=
  rOut_2 h (rT1_2 h (rEdgeW a1) (rRow a1) (rCol a1)) (rT2_2 h (rT1_2 h (rEdgeW a1) (rRow a1) (rCol a1)) (rEdgeW a1) (rRow a1) (rCol a1)) a5 a6

/-- The features after layer 3, from the features before it. -/
def feat3 (h : (⟨S10000x256, .f32⟩ : BufTy).Contents (Elt F)) (a1 : (⟨S2x320000, .i32⟩ : BufTy).Contents (Elt F)) (a5 : (⟨S3x3x256x256, .f32⟩ : BufTy).Contents (Elt F)) (a6 : (⟨S3x256, .f32⟩ : BufTy).Contents (Elt F)) : (⟨S10000x256, .f32⟩ : BufTy).Contents (Elt F) :=
  rOut_3 h (rT1_3 h (rEdgeW a1) (rRow a1) (rCol a1)) (rT2_3 h (rT1_3 h (rEdgeW a1) (rRow a1) (rCol a1)) (rEdgeW a1) (rRow a1) (rCol a1)) a5 a6

/-- The features after layer 4, from the features before it. -/
def feat4 (h : (⟨S10000x256, .f32⟩ : BufTy).Contents (Elt F)) (a1 : (⟨S2x320000, .i32⟩ : BufTy).Contents (Elt F)) (a5 : (⟨S3x3x256x256, .f32⟩ : BufTy).Contents (Elt F)) (a6 : (⟨S3x256, .f32⟩ : BufTy).Contents (Elt F)) : (⟨S10000x256, .f32⟩ : BufTy).Contents (Elt F) :=
  rOut_4 h (rT1_4 h (rEdgeW a1) (rRow a1) (rCol a1)) (rT2_4 h (rT1_4 h (rEdgeW a1) (rRow a1) (rCol a1)) (rEdgeW a1) (rRow a1) (rCol a1)) a5 a6

/-- The reference program's result from its fifteen arguments. -/
def result (a0 : (⟨S10000x128, .f32⟩ : BufTy).Contents (Elt F)) (a1 : (⟨S2x320000, .i32⟩ : BufTy).Contents (Elt F)) (a2 : (⟨S10000, .i32⟩ : BufTy).Contents (Elt F)) (a3 : (⟨S3x128x256, .f32⟩ : BufTy).Contents (Elt F)) (a4 : (⟨S256, .f32⟩ : BufTy).Contents (Elt F)) (a5 : (⟨S3x3x256x256, .f32⟩ : BufTy).Contents (Elt F)) (a6 : (⟨S3x256, .f32⟩ : BufTy).Contents (Elt F)) (a7 : (⟨S256x256, .f32⟩ : BufTy).Contents (Elt F)) (a8 : (⟨S256, .f32⟩ : BufTy).Contents (Elt F)) (a9 : (⟨S256x128, .f32⟩ : BufTy).Contents (Elt F)) (a10 : (⟨S128, .f32⟩ : BufTy).Contents (Elt F)) (a11 : (⟨S128x10, .f32⟩ : BufTy).Contents (Elt F)) (a12 : (⟨S10, .f32⟩ : BufTy).Contents (Elt F)) (a13 : (⟨S1, .f32⟩ : BufTy).Contents (Elt F)) (a14 : (⟨S1, .f32⟩ : BufTy).Contents (Elt F)) : (⟨S64x10, .f32⟩ : BufTy).Contents (Elt F) :=
  rMlp (rPooled (feat4 (feat3 (feat2 (feat1 a0 a1 a3 a4 a13) a1 a5 a6) a1 a5 a6) a1 a5 a6) a2) a7 a8 a14 a9 a10 a11 a12

end Cert.ReferenceIdeal.RV

end
-- ==== Proof.RValue.lean ====
/-
  The reference program's run reaches its closed form. The run's fold over @main's six pieces is that function of the
  launch contents: each piece leaves the arguments alone, the edge weights and the edge list's two rows are computed
  once and only read afterwards, and each piece's result is read off the piece before it.
-/
import proofs.«163009_j11184094839450_1_alg».proof.Proof.RSegs
import proofs.«163009_j11184094839450_1_alg».proof.Proof.RResult

noncomputable section

namespace Cert.ReferenceIdeal.RV

open Cert.ReferenceIdeal Cert.ReferenceIdeal.Gen Cert.ReferenceIdeal.ValueP Cert.ReferenceIdeal.Terms
open Idealize.ShloMosaic Idealize.ShloMosaic.TcCoe Idealize.SL.Sem Idealize.ShloMosaic.StableHlo

variable {F : FTy → Type} [FloatOps F] [Facts]

/-- Running two lists of operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

set_option maxHeartbeats 4000000 in
/-- The fold of @main's operations over the launch contents, read at the result buffer, is `result` of the arguments. -/
theorem ref_value (m : (ℓ : Loc nD τ sig) → Buf (Elt F) ℓ) (c : Dev nD) :
    StableHlo.after (ops (F := F)) (launchContents m c) (Proc.devRef .tc main_v250) =
      result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [ops_split, after_append, after_append, after_append, after_append, after_append]
  have A0_0 : (launchContents m c) (Proc.devRef .tc main_arg0) = (m ((c.tc : Thread nD τ).loc main_arg0)) := rfl
  have A0_1 : (launchContents m c) (Proc.devRef .tc main_arg1) = (m ((c.tc : Thread nD τ).loc main_arg1)) := rfl
  have A0_2 : (launchContents m c) (Proc.devRef .tc main_arg2) = (m ((c.tc : Thread nD τ).loc main_arg2)) := rfl
  have A0_3 : (launchContents m c) (Proc.devRef .tc main_arg3) = (m ((c.tc : Thread nD τ).loc main_arg3)) := rfl
  have A0_4 : (launchContents m c) (Proc.devRef .tc main_arg4) = (m ((c.tc : Thread nD τ).loc main_arg4)) := rfl
  have A0_5 : (launchContents m c) (Proc.devRef .tc main_arg5) = (m ((c.tc : Thread nD τ).loc main_arg5)) := rfl
  have A0_6 : (launchContents m c) (Proc.devRef .tc main_arg6) = (m ((c.tc : Thread nD τ).loc main_arg6)) := rfl
  have A0_7 : (launchContents m c) (Proc.devRef .tc main_arg7) = (m ((c.tc : Thread nD τ).loc main_arg7)) := rfl
  have A0_8 : (launchContents m c) (Proc.devRef .tc main_arg8) = (m ((c.tc : Thread nD τ).loc main_arg8)) := rfl
  have A0_9 : (launchContents m c) (Proc.devRef .tc main_arg9) = (m ((c.tc : Thread nD τ).loc main_arg9)) := rfl
  have A0_10 : (launchContents m c) (Proc.devRef .tc main_arg10) = (m ((c.tc : Thread nD τ).loc main_arg10)) := rfl
  have A0_11 : (launchContents m c) (Proc.devRef .tc main_arg11) = (m ((c.tc : Thread nD τ).loc main_arg11)) := rfl
  have A0_12 : (launchContents m c) (Proc.devRef .tc main_arg12) = (m ((c.tc : Thread nD τ).loc main_arg12)) := rfl
  have A0_13 : (launchContents m c) (Proc.devRef .tc main_arg13) = (m ((c.tc : Thread nD τ).loc main_arg13)) := rfl
  have A0_14 : (launchContents m c) (Proc.devRef .tc main_arg14) = (m ((c.tc : Thread nD τ).loc main_arg14)) := rfl
  have A1_0 : (StableHlo.after (seg0 (F := F)) (launchContents m c)) (Proc.devRef .tc main_arg0) = (m ((c.tc : Thread nD τ).loc main_arg0)) := (seg0_keeps_arg0 (launchContents m c)).trans A0_0
  have A1_1 : (StableHlo.after (seg0 (F := F)) (launchContents m c)) (Proc.devRef .tc main_arg1) = (m ((c.tc : Thread nD τ).loc main_arg1)) := (seg0_keeps_arg1 (launchContents m c)).trans A0_1
  have A1_2 : (StableHlo.after (seg0 (F := F)) (launchContents m c)) (Proc.devRef .tc main_arg2) = (m ((c.tc : Thread nD τ).loc main_arg2)) := (seg0_keeps_arg2 (launchContents m c)).trans A0_2
  have A1_3 : (StableHlo.after (seg0 (F := F)) (launchContents m c)) (Proc.devRef .tc main_arg3) = (m ((c.tc : Thread nD τ).loc main_arg3)) := (seg0_keeps_arg3 (launchContents m c)).trans A0_3
  have A1_4 : (StableHlo.after (seg0 (F := F)) (launchContents m c)) (Proc.devRef .tc main_arg4) = (m ((c.tc : Thread nD τ).loc main_arg4)) := (seg0_keeps_arg4 (launchContents m c)).trans A0_4
  have A1_5 : (StableHlo.after (seg0 (F := F)) (launchContents m c)) (Proc.devRef .tc main_arg5) = (m ((c.tc : Thread nD τ).loc main_arg5)) := (seg0_keeps_arg5 (launchContents m c)).trans A0_5
  have A1_6 : (StableHlo.after (seg0 (F := F)) (launchContents m c)) (Proc.devRef .tc main_arg6) = (m ((c.tc : Thread nD τ).loc main_arg6)) := (seg0_keeps_arg6 (launchContents m c)).trans A0_6
  have A1_7 : (StableHlo.after (seg0 (F := F)) (launchContents m c)) (Proc.devRef .tc main_arg7) = (m ((c.tc : Thread nD τ).loc main_arg7)) := (seg0_keeps_arg7 (launchContents m c)).trans A0_7
  have A1_8 : (StableHlo.after (seg0 (F := F)) (launchContents m c)) (Proc.devRef .tc main_arg8) = (m ((c.tc : Thread nD τ).loc main_arg8)) := (seg0_keeps_arg8 (launchContents m c)).trans A0_8
  have A1_9 : (StableHlo.after (seg0 (F := F)) (launchContents m c)) (Proc.devRef .tc main_arg9) = (m ((c.tc : Thread nD τ).loc main_arg9)) := (seg0_keeps_arg9 (launchContents m c)).trans A0_9
  have A1_10 : (StableHlo.after (seg0 (F := F)) (launchContents m c)) (Proc.devRef .tc main_arg10) = (m ((c.tc : Thread nD τ).loc main_arg10)) := (seg0_keeps_arg10 (launchContents m c)).trans A0_10
  have A1_11 : (StableHlo.after (seg0 (F := F)) (launchContents m c)) (Proc.devRef .tc main_arg11) = (m ((c.tc : Thread nD τ).loc main_arg11)) := (seg0_keeps_arg11 (launchContents m c)).trans A0_11
  have A1_12 : (StableHlo.after (seg0 (F := F)) (launchContents m c)) (Proc.devRef .tc main_arg12) = (m ((c.tc : Thread nD τ).loc main_arg12)) := (seg0_keeps_arg12 (launchContents m c)).trans A0_12
  have A1_13 : (StableHlo.after (seg0 (F := F)) (launchContents m c)) (Proc.devRef .tc main_arg13) = (m ((c.tc : Thread nD τ).loc main_arg13)) := (seg0_keeps_arg13 (launchContents m c)).trans A0_13
  have A1_14 : (StableHlo.after (seg0 (F := F)) (launchContents m c)) (Proc.devRef .tc main_arg14) = (m ((c.tc : Thread nD τ).loc main_arg14)) := (seg0_keeps_arg14 (launchContents m c)).trans A0_14
  have A2_0 : (StableHlo.after (seg1 (F := F)) (StableHlo.after (seg0 (F := F)) (launchContents m c))) (Proc.devRef .tc main_arg0) = (m ((c.tc : Thread nD τ).loc main_arg0)) := (seg1_keeps_arg0 (StableHlo.after (seg0 (F := F)) (launchContents m c))).trans A1_0
  have A2_1 : (StableHlo.after (seg1 (F := F)) (StableHlo.after (seg0 (F := F)) (launchContents m c))) (Proc.devRef .tc main_arg1) = (m ((c.tc : Thread nD τ).loc main_arg1)) := (seg1_keeps_arg1 (StableHlo.after (seg0 (F := F)) (launchContents m c))).trans A1_1
  have A2_2 : (StableHlo.after (seg1 (F := F)) (StableHlo.after (seg0 (F := F)) (launchContents m c))) (Proc.devRef .tc main_arg2) = (m ((c.tc : Thread nD τ).loc main_arg2)) := (seg1_keeps_arg2 (StableHlo.after (seg0 (F := F)) (launchContents m c))).trans A1_2
  have A2_3 : (StableHlo.after (seg1 (F := F)) (StableHlo.after (seg0 (F := F)) (launchContents m c))) (Proc.devRef .tc main_arg3) = (m ((c.tc : Thread nD τ).loc main_arg3)) := (seg1_keeps_arg3 (StableHlo.after (seg0 (F := F)) (launchContents m c))).trans A1_3
  have A2_4 : (StableHlo.after (seg1 (F := F)) (StableHlo.after (seg0 (F := F)) (launchContents m c))) (Proc.devRef .tc main_arg4) = (m ((c.tc : Thread nD τ).loc main_arg4)) := (seg1_keeps_arg4 (StableHlo.after (seg0 (F := F)) (launchContents m c))).trans A1_4
  have A2_5 : (StableHlo.after (seg1 (F := F)) (StableHlo.after (seg0 (F := F)) (launchContents m c))) (Proc.devRef .tc main_arg5) = (m ((c.tc : Thread nD τ).loc main_arg5)) := (seg1_keeps_arg5 (StableHlo.after (seg0 (F := F)) (launchContents m c))).trans A1_5
  have A2_6 : (StableHlo.after (seg1 (F := F)) (StableHlo.after (seg0 (F := F)) (launchContents m c))) (Proc.devRef .tc main_arg6) = (m ((c.tc : Thread nD τ).loc main_arg6)) := (seg1_keeps_arg6 (StableHlo.after (seg0 (F := F)) (launchContents m c))).trans A1_6
  have A2_7 : (StableHlo.after (seg1 (F := F)) (StableHlo.after (seg0 (F := F)) (launchContents m c))) (Proc.devRef .tc main_arg7) = (m ((c.tc : Thread nD τ).loc main_arg7)) := (seg1_keeps_arg7 (StableHlo.after (seg0 (F := F)) (launchContents m c))).trans A1_7
  have A2_8 : (StableHlo.after (seg1 (F := F)) (StableHlo.after (seg0 (F := F)) (launchContents m c))) (Proc.devRef .tc main_arg8) = (m ((c.tc : Thread nD τ).loc main_arg8)) := (seg1_keeps_arg8 (StableHlo.after (seg0 (F := F)) (launchContents m c))).trans A1_8
  have A2_9 : (StableHlo.after (seg1 (F := F)) (StableHlo.after (seg0 (F := F)) (launchContents m c))) (Proc.devRef .tc main_arg9) = (m ((c.tc : Thread nD τ).loc main_arg9)) := (seg1_keeps_arg9 (StableHlo.after (seg0 (F := F)) (launchContents m c))).trans A1_9
  have A2_10 : (StableHlo.after (seg1 (F := F)) (StableHlo.after (seg0 (F := F)) (launchContents m c))) (Proc.devRef .tc main_arg10) = (m ((c.tc : Thread nD τ).loc main_arg10)) := (seg1_keeps_arg10 (StableHlo.after (seg0 (F := F)) (launchContents m c))).trans A1_10
  have A2_11 : (StableHlo.after (seg1 (F := F)) (StableHlo.after (seg0 (F := F)) (launchContents m c))) (Proc.devRef .tc main_arg11) = (m ((c.tc : Thread nD τ).loc main_arg11)) := (seg1_keeps_arg11 (StableHlo.after (seg0 (F := F)) (launchContents m c))).trans A1_11
  have A2_12 : (StableHlo.after (seg1 (F := F)) (StableHlo.after (seg0 (F := F)) (launchContents m c))) (Proc.devRef .tc main_arg12) = (m ((c.tc : Thread nD τ).loc main_arg12)) := (seg1_keeps_arg12 (StableHlo.after (seg0 (F := F)) (launchContents m c))).trans A1_12
  have A2_13 : (StableHlo.after (seg1 (F := F)) (StableHlo.after (seg0 (F := F)) (launchContents m c))) (Proc.devRef .tc main_arg13) = (m ((c.tc : Thread nD τ).loc main_arg13)) := (seg1_keeps_arg13 (StableHlo.after (seg0 (F := F)) (launchContents m c))).trans A1_13
  have A2_14 : (StableHlo.after (seg1 (F := F)) (StableHlo.after (seg0 (F := F)) (launchContents m c))) (Proc.devRef .tc main_arg14) = (m ((c.tc : Thread nD τ).loc main_arg14)) := (seg1_keeps_arg14 (StableHlo.after (seg0 (F := F)) (launchContents m c))).trans A1_14
  have A3_0 : (StableHlo.after (seg2 (F := F)) (StableHlo.after (seg1 (F := F)) (StableHlo.after (seg0 (F := F)) (launchContents m c)))) (Proc.devRef .tc main_arg0) = (m ((c.tc : Thread nD τ).loc main_arg0)) := (seg2_keeps_arg0 (StableHlo.after (seg1 (F := F)) (StableHlo.after (seg0 (F := F)) (launchContents m c)))).trans A2_0
  have A3_1 : (StableHlo.after (seg2 (F := F)) (StableHlo.after (seg1 (F := F)) (StableHlo.after (seg0 (F := F)) (launchContents m c)))) (Proc.devRef .tc main_arg1) = (m ((c.tc : Thread nD τ).loc main_arg1)) := (seg2_keeps_arg1 (StableHlo.after (seg1 (F := F)) (StableHlo.after (seg0 (F := F)) (launchContents m c)))).trans A2_1
  have A3_2 : (StableHlo.after (seg2 (F := F)) (StableHlo.after (seg1 (F := F)) (StableHlo.after (seg0 (F := F)) (launchContents m c)))) (Proc.devRef .tc main_arg2) = (m ((c.tc : Thread nD τ).loc main_arg2)) := (seg2_keeps_arg2 (StableHlo.after (seg1 (F := F)) (StableHlo.after (seg0 (F := F)) (launchContents m c)))).trans A2_2
  have A3_3 : (StableHlo.after (seg2 (F := F)) (StableHlo.after (seg1 (F := F)) (StableHlo.after (seg0 (F := F)) (launchContents m c)))) (Proc.devRef .tc main_arg3) = (m ((c.tc : Thread nD τ).loc main_arg3)) := (seg2_keeps_arg3 (StableHlo.after (seg1 (F := F)) (StableHlo.after (seg0 (F := F)) (launchContents m c)))).trans A2_3
  have A3_4 : (StableHlo.after (seg2 (F := F)) (StableHlo.after (seg1 (F := F)) (StableHlo.after (seg0 (F := F)) (launchContents m c)))) (Proc.devRef .tc main_arg4) = (m ((c.tc : Thread nD τ).loc main_arg4)) := (seg2_keeps_arg4 (StableHlo.after (seg1 (F := F)) (StableHlo.after (seg0 (F := F)) (launchContents m c)))).trans A2_4
  have A3_5 : (StableHlo.after (seg2 (F := F)) (StableHlo.after (seg1 (F := F)) (StableHlo.after (seg0 (F := F)) (launchContents m c)))) (Proc.devRef .tc main_arg5) = (m ((c.tc : Thread nD τ).loc main_arg5)) := (seg2_keeps_arg5 (StableHlo.after (seg1 (F := F)) (StableHlo.after (seg0 (F := F)) (launchContents m c)))).trans A2_5
  have A3_6 : (StableHlo.after (seg2 (F := F)) (StableHlo.after (seg1 (F := F)) (StableHlo.after (seg0 (F := F)) (launchContents m c)))) (Proc.devRef .tc main_arg6) = (m ((c.tc : Thread nD τ).loc main_arg6)) := (seg2_keeps_arg6 (StableHlo.after (seg1 (F := F)) (StableHlo.after (seg0 (F := F)) (launchContents m c)))).trans A2_6
  have A3_7 : (StableHlo.after (seg2 (F := F)) (StableHlo.after (seg1 (F := F)) (StableHlo.after (seg0 (F := F)) (launchContents m c)))) (Proc.devRef .tc main_arg7) = (m ((c.tc : Thread nD τ).loc main_arg7)) := (seg2_keeps_arg7 (StableHlo.after (seg1 (F := F)) (StableHlo.after (seg0 (F := F)) (launchContents m c)))).trans A2_7
  have A3_8 : (StableHlo.after (seg2 (F := F)) (StableHlo.after (seg1 (F := F)) (StableHlo.after (seg0 (F := F)) (launchContents m c)))) (Proc.devRef .tc main_arg8) = (m ((c.tc : Thread nD τ).loc main_arg8)) := (seg2_keeps_arg8 (StableHlo.after (seg1 (F := F)) (StableHlo.after (seg0 (F := F)) (launchContents m c)))).trans A2_8
  have A3_9 : (StableHlo.after (seg2 (F := F)) (StableHlo.after (seg1 (F := F)) (StableHlo.after (seg0 (F := F)) (launchContents m c)))) (Proc.devRef .tc main_arg9) = (m ((c.tc : Thread nD τ).loc main_arg9)) := (seg2_keeps_arg9 (StableHlo.after (seg1 (F := F)) (StableHlo.after (seg0 (F := F)) (launchContents m c)))).trans A2_9
  have A3_10 : (StableHlo.after (seg2 (F := F)) (StableHlo.after (seg1 (F := F)) (StableHlo.after (seg0 (F := F)) (launchContents m c)))) (Proc.devRef .tc main_arg10) = (m ((c.tc : Thread nD τ).loc main_arg10)) := (seg2_keeps_arg10 (StableHlo.after (seg1 (F := F)) (StableHlo.after (seg0 (F := F)) (launchContents m c)))).trans A2_10
  have A3_11 : (StableHlo.after (seg2 (F := F)) (StableHlo.after (seg1 (F := F)) (StableHlo.after (seg0 (F := F)) (launchContents m c)))) (Proc.devRef .tc main_arg11) = (m ((c.tc : Thread nD τ).loc main_arg11)) := (seg2_keeps_arg11 (StableHlo.after (seg1 (F := F)) (StableHlo.after (seg0 (F := F)) (launchContents m c)))).trans A2_11
  have A3_12 : (StableHlo.after (seg2 (F := F)) (StableHlo.after (seg1 (F := F)) (StableHlo.after (seg0 (F := F)) (launchContents m c)))) (Proc.devRef .tc main_arg12) = (m ((c.tc : Thread nD τ).loc main_arg12)) := (seg2_keeps_arg12 (StableHlo.after (seg1 (F := F)) (StableHlo.after (seg0 (F := F)) (launchContents m c)))).trans A2_12
  have A3_13 : (StableHlo.after (seg2 (F := F)) (StableHlo.after (seg1 (F := F)) (StableHlo.after (seg0 (F := F)) (launchContents m c)))) (Proc.devRef .tc main_arg13) = (m ((c.tc : Thread nD τ).loc main_arg13)) := (seg2_keeps_arg13 (StableHlo.after (seg1 (F := F)) (StableHlo.after (seg0 (F := F)) (launchContents m c)))).trans A2_13
  have A3_14 : (StableHlo.after (seg2 (F := F)) (StableHlo.after (seg1 (F := F)) (StableHlo.after (seg0 (F := F)) (launchContents m c)))) (Proc.devRef .tc main_arg14) = (m ((c.tc : Thread nD τ).loc main_arg14)) := (seg2_keeps_arg14 (StableHlo.after (seg1 (F := F)) (StableHlo.after (seg0 (F := F)) (launchContents m c)))).trans A2_14
  have A4_0 : (StableHlo.after (seg3 (F := F)) (StableHlo.after (seg2 (F := F)) (StableHlo.after (seg1 (F := F)) (StableHlo.after (seg0 (F := F)) (launchContents m c))))) (Proc.devRef .tc main_arg0) = (m ((c.tc : Thread nD τ).loc main_arg0)) := (seg3_keeps_arg0 (StableHlo.after (seg2 (F := F)) (StableHlo.after (seg1 (F := F)) (StableHlo.after (seg0 (F := F)) (launchContents m c))))).trans A3_0
  have A4_1 : (StableHlo.after (seg3 (F := F)) (StableHlo.after (seg2 (F := F)) (StableHlo.after (seg1 (F := F)) (StableHlo.after (seg0 (F := F)) (launchContents m c))))) (Proc.devRef .tc main_arg1) = (m ((c.tc : Thread nD τ).loc main_arg1)) := (seg3_keeps_arg1 (StableHlo.after (seg2 (F := F)) (StableHlo.after (seg1 (F := F)) (StableHlo.after (seg0 (F := F)) (launchContents m c))))).trans A3_1
  have A4_2 : (StableHlo.after (seg3 (F := F)) (StableHlo.after (seg2 (F := F)) (StableHlo.after (seg1 (F := F)) (StableHlo.after (seg0 (F := F)) (launchContents m c))))) (Proc.devRef .tc main_arg2) = (m ((c.tc : Thread nD τ).loc main_arg2)) := (seg3_keeps_arg2 (StableHlo.after (seg2 (F := F)) (StableHlo.after (seg1 (F := F)) (StableHlo.after (seg0 (F := F)) (launchContents m c))))).trans A3_2
  have A4_3 : (StableHlo.after (seg3 (F := F)) (StableHlo.after (seg2 (F := F)) (StableHlo.after (seg1 (F := F)) (StableHlo.after (seg0 (F := F)) (launchContents m c))))) (Proc.devRef .tc main_arg3) = (m ((c.tc : Thread nD τ).loc main_arg3)) := (seg3_keeps_arg3 (StableHlo.after (seg2 (F := F)) (StableHlo.after (seg1 (F := F)) (StableHlo.after (seg0 (F := F)) (launchContents m c))))).trans A3_3
  have A4_4 : (StableHlo.after (seg3 (F := F)) (StableHlo.after (seg2 (F := F)) (StableHlo.after (seg1 (F := F)) (StableHlo.after (seg0 (F := F)) (launchContents m c))))) (Proc.devRef .tc main_arg4) = (m ((c.tc : Thread nD τ).loc main_arg4)) := (seg3_keeps_arg4 (StableHlo.after (seg2 (F := F)) (StableHlo.after (seg1 (F := F)) (StableHlo.after (seg0 (F := F)) (launchContents m c))))).trans A3_4
  have A4_5 : (StableHlo.after (seg3 (F := F)) (StableHlo.after (seg2 (F := F)) (StableHlo.after (seg1 (F := F)) (StableHlo.after (seg0 (F := F)) (launchContents m c))))) (Proc.devRef .tc main_arg5) = (m ((c.tc : Thread nD τ).loc main_arg5)) := (seg3_keeps_arg5 (StableHlo.after (seg2 (F := F)) (StableHlo.after (seg1 (F := F)) (StableHlo.after (seg0 (F := F)) (launchContents m c))))).trans A3_5
  have A4_6 : (StableHlo.after (seg3 (F := F)) (StableHlo.after (seg2 (F := F)) (StableHlo.after (seg1 (F := F)) (StableHlo.after (seg0 (F := F)) (launchContents m c))))) (Proc.devRef .tc main_arg6) = (m ((c.tc : Thread nD τ).loc main_arg6)) := (seg3_keeps_arg6 (StableHlo.after (seg2 (F := F)) (StableHlo.after (seg1 (F := F)) (StableHlo.after (seg0 (F := F)) (launchContents m c))))).trans A3_6
  have A4_7 : (StableHlo.after (seg3 (F := F)) (StableHlo.after (seg2 (F := F)) (StableHlo.after (seg1 (F := F)) (StableHlo.after (seg0 (F := F)) (launchContents m c))))) (Proc.devRef .tc main_arg7) = (m ((c.tc : Thread nD τ).loc main_arg7)) := (seg3_keeps_arg7 (StableHlo.after (seg2 (F := F)) (StableHlo.after (seg1 (F := F)) (StableHlo.after (seg0 (F := F)) (launchContents m c))))).trans A3_7
  have A4_8 : (StableHlo.after (seg3 (F := F)) (StableHlo.after (seg2 (F := F)) (StableHlo.after (seg1 (F := F)) (StableHlo.after (seg0 (F := F)) (launchContents m c))))) (Proc.devRef .tc main_arg8) = (m ((c.tc : Thread nD τ).loc main_arg8)) := (seg3_keeps_arg8 (StableHlo.after (seg2 (F := F)) (StableHlo.after (seg1 (F := F)) (StableHlo.after (seg0 (F := F)) (launchContents m c))))).trans A3_8
  have A4_9 : (StableHlo.after (seg3 (F := F)) (StableHlo.after (seg2 (F := F)) (StableHlo.after (seg1 (F := F)) (StableHlo.after (seg0 (F := F)) (launchContents m c))))) (Proc.devRef .tc main_arg9) = (m ((c.tc : Thread nD τ).loc main_arg9)) := (seg3_keeps_arg9 (StableHlo.after (seg2 (F := F)) (StableHlo.after (seg1 (F := F)) (StableHlo.after (seg0 (F := F)) (launchContents m c))))).trans A3_9
  have A4_10 : (StableHlo.after (seg3 (F := F)) (StableHlo.after (seg2 (F := F)) (StableHlo.after (seg1 (F := F)) (StableHlo.after (seg0 (F := F)) (launchContents m c))))) (Proc.devRef .tc main_arg10) = (m ((c.tc : Thread nD τ).loc main_arg10)) := (seg3_keeps_arg10 (StableHlo.after (seg2 (F := F)) (StableHlo.after (seg1 (F := F)) (StableHlo.after (seg0 (F := F)) (launchContents m c))))).trans A3_10
  have A4_11 : (StableHlo.after (seg3 (F := F)) (StableHlo.after (seg2 (F := F)) (StableHlo.after (seg1 (F := F)) (StableHlo.after (seg0 (F := F)) (launchContents m c))))) (Proc.devRef .tc main_arg11) = (m ((c.tc : Thread nD τ).loc main_arg11)) := (seg3_keeps_arg11 (StableHlo.after (seg2 (F := F)) (StableHlo.after (seg1 (F := F)) (StableHlo.after (seg0 (F := F)) (launchContents m c))))).trans A3_11
  have A4_12 : (StableHlo.after (seg3 (F := F)) (StableHlo.after (seg2 (F := F)) (StableHlo.after (seg1 (F := F)) (StableHlo.after (seg0 (F := F)) (launchContents m c))))) (Proc.devRef .tc main_arg12) = (m ((c.tc : Thread nD τ).loc main_arg12)) := (seg3_keeps_arg12 (StableHlo.after (seg2 (F := F)) (StableHlo.after (seg1 (F := F)) (StableHlo.after (seg0 (F := F)) (launchContents m c))))).trans A3_12
  have A4_13 : (StableHlo.after (seg3 (F := F)) (StableHlo.after (seg2 (F := F)) (StableHlo.after (seg1 (F := F)) (StableHlo.after (seg0 (F := F)) (launchContents m c))))) (Proc.devRef .tc main_arg13) = (m ((c.tc : Thread nD τ).loc main_arg13)) := (seg3_keeps_arg13 (StableHlo.after (seg2 (F := F)) (StableHlo.after (seg1 (F := F)) (StableHlo.after (seg0 (F := F)) (launchContents m c))))).trans A3_13
  have A4_14 : (StableHlo.after (seg3 (F := F)) (StableHlo.after (seg2 (F := F)) (StableHlo.after (seg1 (F := F)) (StableHlo.after (seg0 (F := F)) (launchContents m c))))) (Proc.devRef .tc main_arg14) = (m ((c.tc : Thread nD τ).loc main_arg14)) := (seg3_keeps_arg14 (StableHlo.after (seg2 (F := F)) (StableHlo.after (seg1 (F := F)) (StableHlo.after (seg0 (F := F)) (launchContents m c))))).trans A3_14
  have A5_0 : (StableHlo.after (seg4 (F := F)) (StableHlo.after (seg3 (F := F)) (StableHlo.after (seg2 (F := F)) (StableHlo.after (seg1 (F := F)) (StableHlo.after (seg0 (F := F)) (launchContents m c)))))) (Proc.devRef .tc main_arg0) = (m ((c.tc : Thread nD τ).loc main_arg0)) := (seg4_keeps_arg0 (StableHlo.after (seg3 (F := F)) (StableHlo.after (seg2 (F := F)) (StableHlo.after (seg1 (F := F)) (StableHlo.after (seg0 (F := F)) (launchContents m c)))))).trans A4_0
  have A5_1 : (StableHlo.after (seg4 (F := F)) (StableHlo.after (seg3 (F := F)) (StableHlo.after (seg2 (F := F)) (StableHlo.after (seg1 (F := F)) (StableHlo.after (seg0 (F := F)) (launchContents m c)))))) (Proc.devRef .tc main_arg1) = (m ((c.tc : Thread nD τ).loc main_arg1)) := (seg4_keeps_arg1 (StableHlo.after (seg3 (F := F)) (StableHlo.after (seg2 (F := F)) (StableHlo.after (seg1 (F := F)) (StableHlo.after (seg0 (F := F)) (launchContents m c)))))).trans A4_1
  have A5_2 : (StableHlo.after (seg4 (F := F)) (StableHlo.after (seg3 (F := F)) (StableHlo.after (seg2 (F := F)) (StableHlo.after (seg1 (F := F)) (StableHlo.after (seg0 (F := F)) (launchContents m c)))))) (Proc.devRef .tc main_arg2) = (m ((c.tc : Thread nD τ).loc main_arg2)) := (seg4_keeps_arg2 (StableHlo.after (seg3 (F := F)) (StableHlo.after (seg2 (F := F)) (StableHlo.after (seg1 (F := F)) (StableHlo.after (seg0 (F := F)) (launchContents m c)))))).trans A4_2
  have A5_3 : (StableHlo.after (seg4 (F := F)) (StableHlo.after (seg3 (F := F)) (StableHlo.after (seg2 (F := F)) (StableHlo.after (seg1 (F := F)) (StableHlo.after (seg0 (F := F)) (launchContents m c)))))) (Proc.devRef .tc main_arg3) = (m ((c.tc : Thread nD τ).loc main_arg3)) := (seg4_keeps_arg3 (StableHlo.after (seg3 (F := F)) (StableHlo.after (seg2 (F := F)) (StableHlo.after (seg1 (F := F)) (StableHlo.after (seg0 (F := F)) (launchContents m c)))))).trans A4_3
  have A5_4 : (StableHlo.after (seg4 (F := F)) (StableHlo.after (seg3 (F := F)) (StableHlo.after (seg2 (F := F)) (StableHlo.after (seg1 (F := F)) (StableHlo.after (seg0 (F := F)) (launchContents m c)))))) (Proc.devRef .tc main_arg4) = (m ((c.tc : Thread nD τ).loc main_arg4)) := (seg4_keeps_arg4 (StableHlo.after (seg3 (F := F)) (StableHlo.after (seg2 (F := F)) (StableHlo.after (seg1 (F := F)) (StableHlo.after (seg0 (F := F)) (launchContents m c)))))).trans A4_4
  have A5_5 : (StableHlo.after (seg4 (F := F)) (StableHlo.after (seg3 (F := F)) (StableHlo.after (seg2 (F := F)) (StableHlo.after (seg1 (F := F)) (StableHlo.after (seg0 (F := F)) (launchContents m c)))))) (Proc.devRef .tc main_arg5) = (m ((c.tc : Thread nD τ).loc main_arg5)) := (seg4_keeps_arg5 (StableHlo.after (seg3 (F := F)) (StableHlo.after (seg2 (F := F)) (StableHlo.after (seg1 (F := F)) (StableHlo.after (seg0 (F := F)) (launchContents m c)))))).trans A4_5
  have A5_6 : (StableHlo.after (seg4 (F := F)) (StableHlo.after (seg3 (F := F)) (StableHlo.after (seg2 (F := F)) (StableHlo.after (seg1 (F := F)) (StableHlo.after (seg0 (F := F)) (launchContents m c)))))) (Proc.devRef .tc main_arg6) = (m ((c.tc : Thread nD τ).loc main_arg6)) := (seg4_keeps_arg6 (StableHlo.after (seg3 (F := F)) (StableHlo.after (seg2 (F := F)) (StableHlo.after (seg1 (F := F)) (StableHlo.after (seg0 (F := F)) (launchContents m c)))))).trans A4_6
  have A5_7 : (StableHlo.after (seg4 (F := F)) (StableHlo.after (seg3 (F := F)) (StableHlo.after (seg2 (F := F)) (StableHlo.after (seg1 (F := F)) (StableHlo.after (seg0 (F := F)) (launchContents m c)))))) (Proc.devRef .tc main_arg7) = (m ((c.tc : Thread nD τ).loc main_arg7)) := (seg4_keeps_arg7 (StableHlo.after (seg3 (F := F)) (StableHlo.after (seg2 (F := F)) (StableHlo.after (seg1 (F := F)) (StableHlo.after (seg0 (F := F)) (launchContents m c)))))).trans A4_7
  have A5_8 : (StableHlo.after (seg4 (F := F)) (StableHlo.after (seg3 (F := F)) (StableHlo.after (seg2 (F := F)) (StableHlo.after (seg1 (F := F)) (StableHlo.after (seg0 (F := F)) (launchContents m c)))))) (Proc.devRef .tc main_arg8) = (m ((c.tc : Thread nD τ).loc main_arg8)) := (seg4_keeps_arg8 (StableHlo.after (seg3 (F := F)) (StableHlo.after (seg2 (F := F)) (StableHlo.after (seg1 (F := F)) (StableHlo.after (seg0 (F := F)) (launchContents m c)))))).trans A4_8
  have A5_9 : (StableHlo.after (seg4 (F := F)) (StableHlo.after (seg3 (F := F)) (StableHlo.after (seg2 (F := F)) (StableHlo.after (seg1 (F := F)) (StableHlo.after (seg0 (F := F)) (launchContents m c)))))) (Proc.devRef .tc main_arg9) = (m ((c.tc : Thread nD τ).loc main_arg9)) := (seg4_keeps_arg9 (StableHlo.after (seg3 (F := F)) (StableHlo.after (seg2 (F := F)) (StableHlo.after (seg1 (F := F)) (StableHlo.after (seg0 (F := F)) (launchContents m c)))))).trans A4_9
  have A5_10 : (StableHlo.after (seg4 (F := F)) (StableHlo.after (seg3 (F := F)) (StableHlo.after (seg2 (F := F)) (StableHlo.after (seg1 (F := F)) (StableHlo.after (seg0 (F := F)) (launchContents m c)))))) (Proc.devRef .tc main_arg10) = (m ((c.tc : Thread nD τ).loc main_arg10)) := (seg4_keeps_arg10 (StableHlo.after (seg3 (F := F)) (StableHlo.after (seg2 (F := F)) (StableHlo.after (seg1 (F := F)) (StableHlo.after (seg0 (F := F)) (launchContents m c)))))).trans A4_10
  have A5_11 : (StableHlo.after (seg4 (F := F)) (StableHlo.after (seg3 (F := F)) (StableHlo.after (seg2 (F := F)) (StableHlo.after (seg1 (F := F)) (StableHlo.after (seg0 (F := F)) (launchContents m c)))))) (Proc.devRef .tc main_arg11) = (m ((c.tc : Thread nD τ).loc main_arg11)) := (seg4_keeps_arg11 (StableHlo.after (seg3 (F := F)) (StableHlo.after (seg2 (F := F)) (StableHlo.after (seg1 (F := F)) (StableHlo.after (seg0 (F := F)) (launchContents m c)))))).trans A4_11
  have A5_12 : (StableHlo.after (seg4 (F := F)) (StableHlo.after (seg3 (F := F)) (StableHlo.after (seg2 (F := F)) (StableHlo.after (seg1 (F := F)) (StableHlo.after (seg0 (F := F)) (launchContents m c)))))) (Proc.devRef .tc main_arg12) = (m ((c.tc : Thread nD τ).loc main_arg12)) := (seg4_keeps_arg12 (StableHlo.after (seg3 (F := F)) (StableHlo.after (seg2 (F := F)) (StableHlo.after (seg1 (F := F)) (StableHlo.after (seg0 (F := F)) (launchContents m c)))))).trans A4_12
  have A5_13 : (StableHlo.after (seg4 (F := F)) (StableHlo.after (seg3 (F := F)) (StableHlo.after (seg2 (F := F)) (StableHlo.after (seg1 (F := F)) (StableHlo.after (seg0 (F := F)) (launchContents m c)))))) (Proc.devRef .tc main_arg13) = (m ((c.tc : Thread nD τ).loc main_arg13)) := (seg4_keeps_arg13 (StableHlo.after (seg3 (F := F)) (StableHlo.after (seg2 (F := F)) (StableHlo.after (seg1 (F := F)) (StableHlo.after (seg0 (F := F)) (launchContents m c)))))).trans A4_13
  have A5_14 : (StableHlo.after (seg4 (F := F)) (StableHlo.after (seg3 (F := F)) (StableHlo.after (seg2 (F := F)) (StableHlo.after (seg1 (F := F)) (StableHlo.after (seg0 (F := F)) (launchContents m c)))))) (Proc.devRef .tc main_arg14) = (m ((c.tc : Thread nD τ).loc main_arg14)) := (seg4_keeps_arg14 (StableHlo.after (seg3 (F := F)) (StableHlo.after (seg2 (F := F)) (StableHlo.after (seg1 (F := F)) (StableHlo.after (seg0 (F := F)) (launchContents m c)))))).trans A4_14
  have E1w : (StableHlo.after (seg0 (F := F)) (launchContents m c)) (Proc.devRef .tc main_v29) = rEdgeW (m ((c.tc : Thread nD τ).loc main_arg1)) := (seg0_edgeW (launchContents m c)).trans (congrArg (rEdgeW (F := F)) A0_1)
  have E2w : (StableHlo.after (seg1 (F := F)) (StableHlo.after (seg0 (F := F)) (launchContents m c))) (Proc.devRef .tc main_v29) = rEdgeW (m ((c.tc : Thread nD τ).loc main_arg1)) := (seg1_keeps_v29 (StableHlo.after (seg0 (F := F)) (launchContents m c))).trans E1w
  have E3w : (StableHlo.after (seg2 (F := F)) (StableHlo.after (seg1 (F := F)) (StableHlo.after (seg0 (F := F)) (launchContents m c)))) (Proc.devRef .tc main_v29) = rEdgeW (m ((c.tc : Thread nD τ).loc main_arg1)) := (seg2_keeps_v29 (StableHlo.after (seg1 (F := F)) (StableHlo.after (seg0 (F := F)) (launchContents m c)))).trans E2w
  have E4w : (StableHlo.after (seg3 (F := F)) (StableHlo.after (seg2 (F := F)) (StableHlo.after (seg1 (F := F)) (StableHlo.after (seg0 (F := F)) (launchContents m c))))) (Proc.devRef .tc main_v29) = rEdgeW (m ((c.tc : Thread nD τ).loc main_arg1)) := (seg3_keeps_v29 (StableHlo.after (seg2 (F := F)) (StableHlo.after (seg1 (F := F)) (StableHlo.after (seg0 (F := F)) (launchContents m c))))).trans E3w
  have E1r : (StableHlo.after (seg0 (F := F)) (launchContents m c)) (Proc.devRef .tc main_v1) = rRow (m ((c.tc : Thread nD τ).loc main_arg1)) := (seg0_row (launchContents m c)).trans (congrArg (rRow (F := F)) A0_1)
  have E2r : (StableHlo.after (seg1 (F := F)) (StableHlo.after (seg0 (F := F)) (launchContents m c))) (Proc.devRef .tc main_v1) = rRow (m ((c.tc : Thread nD τ).loc main_arg1)) := (seg1_keeps_v1 (StableHlo.after (seg0 (F := F)) (launchContents m c))).trans E1r
  have E3r : (StableHlo.after (seg2 (F := F)) (StableHlo.after (seg1 (F := F)) (StableHlo.after (seg0 (F := F)) (launchContents m c)))) (Proc.devRef .tc main_v1) = rRow (m ((c.tc : Thread nD τ).loc main_arg1)) := (seg2_keeps_v1 (StableHlo.after (seg1 (F := F)) (StableHlo.after (seg0 (F := F)) (launchContents m c)))).trans E2r
  have E4r : (StableHlo.after (seg3 (F := F)) (StableHlo.after (seg2 (F := F)) (StableHlo.after (seg1 (F := F)) (StableHlo.after (seg0 (F := F)) (launchContents m c))))) (Proc.devRef .tc main_v1) = rRow (m ((c.tc : Thread nD τ).loc main_arg1)) := (seg3_keeps_v1 (StableHlo.after (seg2 (F := F)) (StableHlo.after (seg1 (F := F)) (StableHlo.after (seg0 (F := F)) (launchContents m c))))).trans E3r
  have E1c : (StableHlo.after (seg0 (F := F)) (launchContents m c)) (Proc.devRef .tc main_v3) = rCol (m ((c.tc : Thread nD τ).loc main_arg1)) := (seg0_col (launchContents m c)).trans (congrArg (rCol (F := F)) A0_1)
  have E2c : (StableHlo.after (seg1 (F := F)) (StableHlo.after (seg0 (F := F)) (launchContents m c))) (Proc.devRef .tc main_v3) = rCol (m ((c.tc : Thread nD τ).loc main_arg1)) := (seg1_keeps_v3 (StableHlo.after (seg0 (F := F)) (launchContents m c))).trans E1c
  have E3c : (StableHlo.after (seg2 (F := F)) (StableHlo.after (seg1 (F := F)) (StableHlo.after (seg0 (F := F)) (launchContents m c)))) (Proc.devRef .tc main_v3) = rCol (m ((c.tc : Thread nD τ).loc main_arg1)) := (seg2_keeps_v3 (StableHlo.after (seg1 (F := F)) (StableHlo.after (seg0 (F := F)) (launchContents m c)))).trans E2c
  have E4c : (StableHlo.after (seg3 (F := F)) (StableHlo.after (seg2 (F := F)) (StableHlo.after (seg1 (F := F)) (StableHlo.after (seg0 (F := F)) (launchContents m c))))) (Proc.devRef .tc main_v3) = rCol (m ((c.tc : Thread nD τ).loc main_arg1)) := (seg3_keeps_v3 (StableHlo.after (seg2 (F := F)) (StableHlo.after (seg1 (F := F)) (StableHlo.after (seg0 (F := F)) (launchContents m c))))).trans E3c
  have H2 : (StableHlo.after (seg1 (F := F)) (StableHlo.after (seg0 (F := F)) (launchContents m c))) (Proc.devRef .tc main_v78) = feat1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg13)) := by
    rw [seg1_out, A1_0, E1w, E1r, E1c, A1_3, A1_4, A1_13]; rfl
  have H3 : (StableHlo.after (seg2 (F := F)) (StableHlo.after (seg1 (F := F)) (StableHlo.after (seg0 (F := F)) (launchContents m c)))) (Proc.devRef .tc main_v126) = feat2 (feat1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg13))) (m ((c.tc : Thread nD τ).loc main_arg1)) (m ((c.tc : Thread nD τ).loc main_arg5)) (m ((c.tc : Thread nD τ).loc main_arg6)) := by
    rw [seg2_out, H2, E2w, E2r, E2c, A2_5, A2_6]; rfl
  have H4 : (StableHlo.after (seg3 (F := F)) (StableHlo.after (seg2 (F := F)) (StableHlo.after (seg1 (F := F)) (StableHlo.after (seg0 (F := F)) (launchContents m c))))) (Proc.devRef .tc main_v174) = feat3 (feat2 (feat1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg13))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg5)) (m ((c.tc : Thread nD τ).loc main_arg6)) := by
    rw [seg3_out, H3, E3w, E3r, E3c, A3_5, A3_6]; rfl
  have H5 : (StableHlo.after (seg4 (F := F)) (StableHlo.after (seg3 (F := F)) (StableHlo.after (seg2 (F := F)) (StableHlo.after (seg1 (F := F)) (StableHlo.after (seg0 (F := F)) (launchContents m c)))))) (Proc.devRef .tc main_v222) = feat4 (feat3 (feat2 (feat1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg13))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg5)) (m ((c.tc : Thread nD τ).loc main_arg6)) := by
    rw [seg4_out, H4, E4w, E4r, E4c, A4_5, A4_6]; rfl
  rw [seg5_out, H5, A5_2, A5_7, A5_8, A5_14, A5_9, A5_10, A5_11, A5_12]; rfl

end Cert.ReferenceIdeal.RV

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«163009_j11184094839450_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibRowConcat.lean ====
/-
  Blocks of rows of a matrix assembled from three matrices laid side by side.

  Three matrices with the same rows and K columns each, concatenated along the columns, give a matrix whose
  entry (r, c) is entry (r, c - p·K) of the p-th of them, p the third of the columns c falls in. The choice of
  the piece depends on the column only, so if each small matrix is the block of rows of a large one starting at
  row off, the concatenation of the small ones is that block of rows of the concatenation of the large ones.
  No finiteness is asked of any entry.
-/
import proofs.«163009_j11184094839450_1_alg».proof.Proof.LibDenseLayer

noncomputable section

namespace Cert.Lib.DenseLayer

open Idealize.ShloMosaic Idealize.ShloMosaic.ValueIdx

/-- Entry (r, c) of three K-column matrices laid side by side: the piece is chosen by the column. -/
theorem concat3_apply {α : Type} {M K K3 : Nat} (A1 A2 A3 : (⟨2, ![M, K]⟩ : Shape).Idx → α)
    (h : Shape.Concatenates ([(⟨⟨2, ![M, K]⟩, A1⟩ : (s : Shape) × (s.Idx → α)), ⟨⟨2, ![M, K]⟩, A2⟩, ⟨⟨2, ![M, K]⟩, A3⟩].map (·.1)) ⟨2, ![M, K3]⟩ 1)
    (r : Fin M) (c : Fin K3) :
    concatenate ⟨2, ![M, K3]⟩ 1 [⟨⟨2, ![M, K]⟩, A1⟩, ⟨⟨2, ![M, K]⟩, A2⟩, ⟨⟨2, ![M, K]⟩, A3⟩] h (ix2 r c) =
      if h1 : c.val < K then A1 (ix2 r ⟨c.val, h1⟩)
      else if h2 : c.val - K < K then A2 (ix2 r ⟨c.val - K, h2⟩)
      else if h3 : c.val - K - K < K then A3 (ix2 r ⟨c.val - K - K, h3⟩)
      else A1 (ix2 r ⟨0, by
        have hs : K + (K + (K + 0)) = K3 := h.2.2
        have := c.isLt; omega⟩) := by
  have hs : K + (K + (K + 0)) = K3 := h.2.2
  have hc := c.isLt
  by_cases h1 : c.val < K
  · rw [dif_pos h1]
    refine concatenate_apply_piece 1 _ h (ix2 r c) 0 (show 0 < 3 from by decide) ⟨2, ![M, K]⟩ A1 rfl rfl 0 rfl (ix2 r ⟨c.val, h1⟩) ?_ ?_
    · intro b hb
      match b with
      | ⟨0, _⟩ => rfl
      | ⟨1, _⟩ => exact absurd rfl hb
    · show 0 + c.val = c.val; omega
  · rw [dif_neg h1]
    by_cases h2 : c.val - K < K
    · rw [dif_pos h2]
      refine concatenate_apply_piece 1 _ h (ix2 r c) 1 (show 1 < 3 from by decide) ⟨2, ![M, K]⟩ A2 rfl rfl (K + 0) rfl (ix2 r ⟨c.val - K, h2⟩) ?_ ?_
      · intro b hb
        match b with
        | ⟨0, _⟩ => rfl
        | ⟨1, _⟩ => exact absurd rfl hb
      · show K + 0 + (c.val - K) = c.val; omega
    · rw [dif_neg h2]
      have h3 : c.val - K - K < K := by omega
      rw [dif_pos h3]
      refine concatenate_apply_piece 1 _ h (ix2 r c) 2 (show 2 < 3 from by decide) ⟨2, ![M, K]⟩ A3 rfl rfl (K + (K + 0)) rfl (ix2 r ⟨c.val - K - K, h3⟩) ?_ ?_
      · intro b hb
        match b with
        | ⟨0, _⟩ => rfl
        | ⟨1, _⟩ => exact absurd rfl hb
      · show K + (K + 0) + (c.val - K - K) = c.val; omega

/-- Three blocks of rows laid side by side are the block of rows of the three matrices laid side by side. -/
theorem RowBlk.concat3 {Mb M K K3 : Nat} {off : Nat} {a1 a2 a3 : (⟨2, ![Mb, K]⟩ : Shape).Idx → EReal}
    {A1 A2 A3 : (⟨2, ![M, K]⟩ : Shape).Idx → EReal} (h1 : RowBlk off a1 A1) (h2 : RowBlk off a2 A2) (h3 : RowBlk off a3 A3)
    (hb : Shape.Concatenates ([(⟨⟨2, ![Mb, K]⟩, a1⟩ : (s : Shape) × (s.Idx → EReal)), ⟨⟨2, ![Mb, K]⟩, a2⟩, ⟨⟨2, ![Mb, K]⟩, a3⟩].map (·.1)) ⟨2, ![Mb, K3]⟩ 1)
    (hB : Shape.Concatenates ([(⟨⟨2, ![M, K]⟩, A1⟩ : (s : Shape) × (s.Idx → EReal)), ⟨⟨2, ![M, K]⟩, A2⟩, ⟨⟨2, ![M, K]⟩, A3⟩].map (·.1)) ⟨2, ![M, K3]⟩ 1) :
    RowBlk off (concatenate ⟨2, ![Mb, K3]⟩ 1 [⟨⟨2, ![Mb, K]⟩, a1⟩, ⟨⟨2, ![Mb, K]⟩, a2⟩, ⟨⟨2, ![Mb, K]⟩, a3⟩] hb)
      (concatenate ⟨2, ![M, K3]⟩ 1 [⟨⟨2, ![M, K]⟩, A1⟩, ⟨⟨2, ![M, K]⟩, A2⟩, ⟨⟨2, ![M, K]⟩, A3⟩] hB) := fun r hr c => by
  rw [concat3_apply a1 a2 a3 hb r c, concat3_apply A1 A2 A3 hB ⟨off + r.val, hr⟩ c]
  split
  · exact h1 r hr _
  · split
    · exact h2 r hr _
    · split
      · exact h3 r hr _
      · exact h1 r hr _

end Cert.Lib.DenseLayer

end
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.LibEdgeWeight.lean ====
/-
  The weight of a thresholded edge, in two spellings, at the extended reals.

  For a similarity value f (ANY extended real), the two thresholds 1/2 and θ (θ the binary float nearest 0.8, so
  1/2 ≤ θ), and a bit e marking the diagonal, the weight
      (1/2 · [f ≥ 1/2] + 1/2 · [f ≥ θ]) · (1 − [e])
  equals the nested choice
      if e then 0 else if f ≥ θ then 1 else if f ≥ 1/2 then 1/2 else 0.
  Only the three bits matter. f ≥ θ forces f ≥ 1/2 because 1/2 ≤ θ, and in each of the six remaining cases both sides
  are one of the three real numbers 0, 1/2, 1. Nothing is asked of f: it enters through the two comparisons only.

  Also here, for any proof that meets a comparison turned into a number: the floats 0.0, 0.5, 1.0 and the float nearest
  0.8 as real numbers (zero_eq, half_eq, one_eq, thr_eq); a comparison "x ≥ y" as the bit 1 or 0 according to y ≤ x
  (cmp_oge_of_le, cmp_oge_of_not_le); a bit widened to a word and read signed, or read unsigned, as the real 0 or 1
  (signed_one, signed_zero, unsigned_one, unsigned_zero).
-/
import Idealize.ShloMosaic.PureOps.Ideal
import Idealize.ShloMosaic.Lib.ValueIdx

noncomputable section

namespace Cert.EdgeWeight

open Idealize.ShloMosaic

/-- The float 0.5 is the real number 1/2. -/
theorem half_eq : Ideal.ofBits .f32 0x3F000000#32 = ((1 / 2 : ℝ) : EReal) := by
  simp [Ideal.ofBits, Ideal.ieee, -EReal.coe_mul]; norm_num

/-- The float 1.0 is the real number 1. -/
theorem one_eq : Ideal.ofBits .f32 0x3F800000#32 = ((1 : ℝ) : EReal) := by
  simp [Ideal.ofBits, Ideal.ieee, -EReal.coe_mul]; norm_num

/-- The float 0.0 is the real number 0. -/
theorem zero_eq : Ideal.ofBits .f32 0x00000000#32 = ((0 : ℝ) : EReal) := by
  simp [Ideal.ofBits, Ideal.ieee]

/-- The float nearest 0.8 is the dyadic rational 13421773 / 2^24. -/
theorem thr_eq : Ideal.ofBits .f32 0x3F4CCCCD#32 = ((13421773 / 16777216 : ℝ) : EReal) := by
  simp [Ideal.ofBits, Ideal.ieee, -EReal.coe_mul]; norm_num

/-- 1/2 ≤ θ. -/
theorem half_le_thr : Ideal.ofBits .f32 0x3F000000#32 ≤ Ideal.ofBits .f32 0x3F4CCCCD#32 := by
  rw [half_eq, thr_eq]; exact EReal.coe_le_coe_iff.2 (by norm_num)

/-- A comparison "x ≥ y" that holds is the bit 1. -/
theorem cmp_oge_of_le {x y : EReal} (h : y ≤ x) : Ideal.cmp .oge x y = 1#1 := by
  show BitVec.ofBool (decide (y ≤ x)) = 1#1
  rw [decide_eq_true h]; rfl

/-- A comparison "x ≥ y" that fails is the bit 0. -/
theorem cmp_oge_of_not_le {x y : EReal} (h : ¬ y ≤ x) : Ideal.cmp .oge x y = 0#1 := by
  show BitVec.ofBool (decide (y ≤ x)) = 0#1
  rw [decide_eq_false h]; rfl

/-- A bit widened to a word and read as a signed integer, as a real: 1 for the bit 1, 0 for the bit 0. -/
theorem signed_one : ((((1#1 : BitVec 1).setWidth 32).toInt : ℝ) : EReal) = ((1 : ℝ) : EReal) := by
  have h : ((1#1 : BitVec 1).setWidth 32).toInt = 1 := by decide
  rw [h, Int.cast_one]
theorem signed_zero : ((((0#1 : BitVec 1).setWidth 32).toInt : ℝ) : EReal) = ((0 : ℝ) : EReal) := by
  have h : ((0#1 : BitVec 1).setWidth 32).toInt = 0 := by decide
  rw [h, Int.cast_zero]
/-- A bit read as an unsigned integer, as a real. -/
theorem unsigned_one : ((((1#1 : BitVec 1).toNat : ℕ) : ℝ) : EReal) = ((1 : ℝ) : EReal) := by
  have h : (1#1 : BitVec 1).toNat = 1 := by decide
  rw [h, Nat.cast_one]
theorem unsigned_zero : ((((0#1 : BitVec 1).toNat : ℕ) : ℝ) : EReal) = ((0 : ℝ) : EReal) := by
  have h : (0#1 : BitVec 1).toNat = 0 := by decide
  rw [h, Nat.cast_zero]

/-- The arithmetic on the three numbers: (1/2·a + 1/2·b)·(1 − e) for a, b, e ∈ {0, 1}. -/
theorem arith (a b e r : ℝ) (h : (1 / 2 * a + 1 / 2 * b) * (1 - e) = r) :
    (((1 / 2 : ℝ) : EReal) * (a : EReal) + ((1 / 2 : ℝ) : EReal) * (b : EReal)) * (((1 : ℝ) : EReal) - (e : EReal)) = (r : EReal) := by
  rw [← EReal.coe_mul, ← EReal.coe_mul, ← EReal.coe_add, ← EReal.coe_sub, ← EReal.coe_mul, h]

/-- THE LAW. The arithmetic weight is the nested choice, for every extended real f and every diagonal bit e. -/
theorem weight_eq (f : EReal) (e : BitVec 1) :
    (Ideal.ofBits .f32 0x3F000000#32 * ((((Ideal.cmp .oge f (Ideal.ofBits .f32 0x3F000000#32)).setWidth 32).toInt : ℝ) : EReal)
        + Ideal.ofBits .f32 0x3F000000#32 * ((((Ideal.cmp .oge f (Ideal.ofBits .f32 0x3F4CCCCD#32)).setWidth 32).toInt : ℝ) : EReal))
      * (Ideal.ofBits .f32 0x3F800000#32 - (((e.toNat : ℕ) : ℝ) : EReal))
    = Scalar.select e (Ideal.ofBits .f32 0x00000000#32)
        (Scalar.select (Ideal.cmp .oge f (Ideal.ofBits .f32 0x3F4CCCCD#32)) (Ideal.ofBits .f32 0x3F800000#32)
          (Scalar.select (Ideal.cmp .oge f (Ideal.ofBits .f32 0x3F000000#32)) (Ideal.ofBits .f32 0x3F000000#32)
            (Ideal.ofBits .f32 0x00000000#32))) := by
  by_cases h2 : Ideal.ofBits .f32 0x3F4CCCCD#32 ≤ f
  · have h1 : Ideal.ofBits .f32 0x3F000000#32 ≤ f := half_le_thr.trans h2
    rw [cmp_oge_of_le h1, cmp_oge_of_le h2]
    rcases BitVec.eq_zero_or_eq_one e with he | he <;> subst he
    · rw [ValueIdx.select_zero, ValueIdx.select_one, half_eq, one_eq, signed_one, unsigned_zero]
      exact arith 1 1 0 1 (by norm_num)
    · rw [ValueIdx.select_one, half_eq, one_eq, zero_eq, signed_one, unsigned_one]
      exact arith 1 1 1 0 (by norm_num)
  · rw [cmp_oge_of_not_le h2]
    by_cases h1 : Ideal.ofBits .f32 0x3F000000#32 ≤ f
    · rw [cmp_oge_of_le h1]
      rcases BitVec.eq_zero_or_eq_one e with he | he <;> subst he
      · rw [ValueIdx.select_zero, ValueIdx.select_zero, ValueIdx.select_one, half_eq, one_eq, signed_one, signed_zero, unsigned_zero]
        exact arith 1 0 0 (1 / 2) (by norm_num)
      · rw [ValueIdx.select_one, half_eq, one_eq, zero_eq, signed_one, signed_zero, unsigned_one]
        exact arith 1 0 1 0 (by norm_num)
    · rw [cmp_oge_of_not_le h1]
      rcases BitVec.eq_zero_or_eq_one e with he | he <;> subst he
      · rw [ValueIdx.select_zero, ValueIdx.select_zero, ValueIdx.select_zero, half_eq, one_eq, zero_eq, signed_zero, unsigned_zero]
        exact arith 0 0 0 0 (by norm_num)
      · rw [ValueIdx.select_one, half_eq, one_eq, zero_eq, signed_zero, unsigned_one]
        exact arith 0 0 1 0 (by norm_num)

end Cert.EdgeWeight

end
-- ==== Proof.RefLayerCore.lean ====
/-
  A Chebyshev layer's dense step written two ways, at the extended reals.

  One program multiplies each of the three terms T0, T1, T2 (N rows, D columns each) by its own D-by-C weight
  matrix — slab p of a stack W of shape [3, D, C] — and adds the three products left to right. The other lays
  the three terms side by side into N rows of 3D columns, reads the stack as one matrix of 3D rows, and takes a
  single product. Entry by entry both are the same sum: column D·p + q of the wide matrix is column q of T_p,
  row D·p + q of the tall matrix is row q of slab p, and a sum over 3D columns is the sum over the three slabs
  of the sums over D columns. Only associativity of + is used; no entry is asked to be finite.

  The plain rectifier max(y, 0) is the leaky rectifier of slope 0 at every extended real: where y ≥ 0 both are
  y, and where y < 0 the product 0 · y is 0 (also at -∞), which is max(y, 0).
-/
import Idealize.ShloMosaic.PureOps.Ideal.Laws
import Idealize.ShloMosaic.Lib.ValueIdx
import Idealize.ShloMosaic.Lib.Pipeline.Value
import proofs.«163009_j11184094839450_1_alg».proof.Proof.Spec
import proofs.«163009_j11184094839450_1_alg».proof.Proof.LibRowConcat
import proofs.«163009_j11184094839450_1_alg».proof.Proof.LibRowMajor
import proofs.«163009_j11184094839450_1_alg».proof.Proof.LibEdgeWeight

noncomputable section

open scoped BigOperators

namespace Cert.Bridge.Layer

open Idealize.ShloMosaic Idealize.ShloMosaic.ValueIdx Cert.Lib.DenseLayer Cert.Lib.RowMajor

/-- A sum over 3D indices is the sum of the three sums over its thirds. -/
theorem sum_three {A : Type*} [AddCommMonoid A] (D K : ℕ) (hK : K = D + D + D) (f : Fin K → A) :
    ∑ k : Fin K, f k
      = (∑ q : Fin D, f ⟨q.val, by have := q.isLt; omega⟩) + (∑ q : Fin D, f ⟨D + q.val, by have := q.isLt; omega⟩)
        + ∑ q : Fin D, f ⟨D + D + q.val, by have := q.isLt; omega⟩ := by
  subst hK
  rw [Fin.sum_univ_add, Fin.sum_univ_add]
  rfl

section Pieces
variable {α : Type} {M K K3 : ℕ} (A0 A1 A2 : (⟨2, ![M, K]⟩ : Shape).Idx → α)
  (h : Shape.Concatenates ([(⟨⟨2, ![M, K]⟩, A0⟩ : (s : Shape) × (s.Idx → α)), ⟨⟨2, ![M, K]⟩, A1⟩, ⟨⟨2, ![M, K]⟩, A2⟩].map (·.1)) ⟨2, ![M, K3]⟩ 1)

/-- Three K-column matrices side by side: column q of the first third is column q of the first matrix. -/
theorem cat3_at0 (r : Fin M) (q : Fin K) (hq : q.val < K3) :
    concatenate ⟨2, ![M, K3]⟩ 1 [⟨⟨2, ![M, K]⟩, A0⟩, ⟨⟨2, ![M, K]⟩, A1⟩, ⟨⟨2, ![M, K]⟩, A2⟩] h (ix2 r ⟨q.val, hq⟩) = A0 (ix2 r q) := by
  refine concatenate_apply_piece 1 _ h (ix2 r ⟨q.val, hq⟩) 0 (show 0 < 3 from by decide) ⟨2, ![M, K]⟩ A0 rfl rfl 0 rfl (ix2 r q) ?_ ?_
  · intro b hb
    match b with
    | ⟨0, _⟩ => rfl
    | ⟨1, _⟩ => exact absurd rfl hb
  · show 0 + q.val = q.val; omega

/-- Column K + q is column q of the second matrix. -/
theorem cat3_at1 (r : Fin M) (q : Fin K) (hq : K + q.val < K3) :
    concatenate ⟨2, ![M, K3]⟩ 1 [⟨⟨2, ![M, K]⟩, A0⟩, ⟨⟨2, ![M, K]⟩, A1⟩, ⟨⟨2, ![M, K]⟩, A2⟩] h (ix2 r ⟨K + q.val, hq⟩) = A1 (ix2 r q) := by
  refine concatenate_apply_piece 1 _ h (ix2 r ⟨K + q.val, hq⟩) 1 (show 1 < 3 from by decide) ⟨2, ![M, K]⟩ A1 rfl rfl (K + 0) rfl (ix2 r q) ?_ ?_
  · intro b hb
    match b with
    | ⟨0, _⟩ => rfl
    | ⟨1, _⟩ => exact absurd rfl hb
  · show K + 0 + q.val = K + q.val; omega

/-- Column K + K + q is column q of the third matrix. -/
theorem cat3_at2 (r : Fin M) (q : Fin K) (hq : K + K + q.val < K3) :
    concatenate ⟨2, ![M, K3]⟩ 1 [⟨⟨2, ![M, K]⟩, A0⟩, ⟨⟨2, ![M, K]⟩, A1⟩, ⟨⟨2, ![M, K]⟩, A2⟩] h (ix2 r ⟨K + K + q.val, hq⟩) = A2 (ix2 r q) := by
  refine concatenate_apply_piece 1 _ h (ix2 r ⟨K + K + q.val, hq⟩) 2 (show 2 < 3 from by decide) ⟨2, ![M, K]⟩ A2 rfl rfl (K + (K + 0)) rfl (ix2 r q) ?_ ?_
  · intro b hb
    match b with
    | ⟨0, _⟩ => rfl
    | ⟨1, _⟩ => exact absurd rfl hb
  · show K + (K + 0) + q.val = K + K + q.val; omega

end Pieces

/-- A stack of P slabs of D rows read as one matrix of K rows: row D·p + q is row q of slab p. -/
theorem stack_at {α : Type} {P D C K : ℕ} (W : (⟨3, ![P, D, C]⟩ : Shape).Idx → α)
    (h : (⟨3, ![P, D, C]⟩ : Shape).ShapeCasts ⟨2, ![K, C]⟩) (p : Fin P) (q : Fin D) (j : Fin C) (n : ℕ) (hn : n < K)
    (hpq : n = p.val * D + q.val) :
    shapeCast ⟨2, ![K, C]⟩ W h (ix2 ⟨n, hn⟩ j) = W (ix3 p q j) := by
  refine shapeCast_apply W h (ix2 ⟨n, hn⟩ j) (ix3 p q j) ?_
  rw [rowMajor_ix3, rowMajor_ix2]
  show (p.val * D + q.val) * C + j.val = n * C + j.val
  rw [hpq]

/-- Slab p of a stack, cut out as a one-slab stack and read as a matrix: entry (k, j) of slab p. -/
theorem slab_at {α : Type} {P D C : ℕ} (W : (⟨3, ![P, D, C]⟩ : Shape).Idx → α) (p : ℕ) (hp : p < P)
    (hs : (⟨3, ![P, D, C]⟩ : Shape).Slices ![p, 0, 0] ⟨3, ![1, D, C]⟩)
    (hc : (⟨3, ![1, D, C]⟩ : Shape).ShapeCasts ⟨2, ![D, C]⟩) (k : Fin D) (j : Fin C) :
    shapeCast ⟨2, ![D, C]⟩ (extractStridedSlice ⟨3, ![1, D, C]⟩ ![p, 0, 0] W hs) hc (ix2 k j) = W (ix3 ⟨p, hp⟩ k j) := by
  refine (shapeCast_apply _ hc (ix2 k j) (ix3 (0 : Fin 1) k j) ?_).trans ?_
  · rw [rowMajor_ix3, rowMajor_ix2]
    show (0 * D + k.val) * C + j.val = k.val * C + j.val
    rw [Nat.zero_mul, Nat.zero_add]
  · refine extractStridedSlice_apply _ W hs (ix3 (0 : Fin 1) k j) (ix3 ⟨p, hp⟩ k j) fun a => ?_
    match a with
    | ⟨0, _⟩ => exact (Nat.add_zero p).symm
    | ⟨1, _⟩ => exact (Nat.zero_add k.val).symm
    | ⟨2, _⟩ => exact (Nat.zero_add j.val).symm

/-- The three products added left to right are the one product of the wide matrix with the tall one. -/
theorem dense_sum_eq {N D C K3 : ℕ} {d : DotDims ⟨2, ![N, D]⟩ ⟨2, ![D, C]⟩ ⟨2, ![N, C]⟩} (hd : Plain d)
    (T0 T1 T2 : FVec Ideal ⟨2, ![N, D]⟩ .f32) (W : FVec Ideal ⟨3, ![3, D, C]⟩ .f32)
    (hs0 : (⟨3, ![3, D, C]⟩ : Shape).Slices ![0, 0, 0] ⟨3, ![1, D, C]⟩)
    (hs1 : (⟨3, ![3, D, C]⟩ : Shape).Slices ![1, 0, 0] ⟨3, ![1, D, C]⟩)
    (hs2 : (⟨3, ![3, D, C]⟩ : Shape).Slices ![2, 0, 0] ⟨3, ![1, D, C]⟩)
    (hc : (⟨3, ![1, D, C]⟩ : Shape).ShapeCasts ⟨2, ![D, C]⟩)
    (hcat : Shape.Concatenates ([(⟨⟨2, ![N, D]⟩, T0⟩ : (s : Shape) × (s.Idx → Ideal .f32)), ⟨⟨2, ![N, D]⟩, T1⟩, ⟨⟨2, ![N, D]⟩, T2⟩].map (·.1)) ⟨2, ![N, K3]⟩ 1)
    (hst : (⟨3, ![3, D, C]⟩ : Shape).ShapeCasts ⟨2, ![K3, C]⟩) (r : Fin N) (j : Fin C) :
    addf (addf (Host.dotGeneral d none T0 (shapeCast ⟨2, ![D, C]⟩ (extractStridedSlice ⟨3, ![1, D, C]⟩ ![0, 0, 0] W hs0) hc))
               (Host.dotGeneral d none T1 (shapeCast ⟨2, ![D, C]⟩ (extractStridedSlice ⟨3, ![1, D, C]⟩ ![1, 0, 0] W hs1) hc)))
         (Host.dotGeneral d none T2 (shapeCast ⟨2, ![D, C]⟩ (extractStridedSlice ⟨3, ![1, D, C]⟩ ![2, 0, 0] W hs2) hc)) (ix2 r j)
      = ∑ k : Fin K3, concatenate ⟨2, ![N, K3]⟩ 1 [⟨⟨2, ![N, D]⟩, T0⟩, ⟨⟨2, ![N, D]⟩, T1⟩, ⟨⟨2, ![N, D]⟩, T2⟩] hcat (ix2 r k)
          * shapeCast ⟨2, ![K3, C]⟩ W hst (ix2 k j) := by
  have hK : K3 = D + D + D := by
    have e : D + (D + (D + 0)) = K3 := hcat.2.2
    omega
  rw [sum_three D K3 hK]
  show (Host.dotGeneral d none T0 _ (ix2 r j) + Host.dotGeneral d none T1 _ (ix2 r j)) + Host.dotGeneral d none T2 _ (ix2 r j) = _
  rw [hd.dot_apply, hd.dot_apply, hd.dot_apply]
  refine congrArg₂ (· + ·) (congrArg₂ (· + ·) ?_ ?_) ?_
  · refine Finset.sum_congr rfl fun q _ => ?_
    rw [slab_at W 0 (by decide) hs0 hc q j, cat3_at0 T0 T1 T2 hcat r q, stack_at W hst 0 q j q.val _ (by simp)]
    rfl
  · refine Finset.sum_congr rfl fun q _ => ?_
    rw [slab_at W 1 (by decide) hs1 hc q j, cat3_at1 T0 T1 T2 hcat r q, stack_at W hst 1 q j (D + q.val) _ (by simp)]
    rfl
  · refine Finset.sum_congr rfl fun q _ => ?_
    rw [slab_at W 2 (by decide) hs2 hc q j, cat3_at2 T0 T1 T2 hcat r q, stack_at W hst 2 q j (D + D + q.val) _ (by simp; omega)]
    rfl

/-- A vector of C entries broadcast to one row and then to every row, read at (r, j): its entry j. -/
theorem bias_rows_at {α : Type} (b : (⟨1, ![256]⟩ : Shape).Idx → α)
    (h1 : (⟨1, ![256]⟩ : Shape).BroadcastsInDim ⟨2, ![1, 256]⟩ ![1])
    (h2 : (⟨2, ![1, 256]⟩ : Shape).BroadcastsInDim ⟨2, ![10000, 256]⟩ ![0, 1]) (r : Fin 10000) (j : Fin 256) :
    broadcastInDim ⟨2, ![10000, 256]⟩ ![0, 1] h2 (broadcastInDim ⟨2, ![1, 256]⟩ ![1] h1 b) (ix2 r j) = b (ix1 j) := by
  refine (broadcastInDim_apply _ h2 _ (ix2 r j) (ix2 (0 : Fin 1) j) fun a => ?_).trans
    (broadcastInDim_apply _ h1 b (ix2 (0 : Fin 1) j) (ix1 j) fun a => ?_)
  · match a with
    | ⟨0, _⟩ => rfl
    | ⟨1, _⟩ => rfl
  · match a with
    | ⟨0, _⟩ => rfl

/-- The same vector reshaped to one row, read at (0, j): its entry j. -/
theorem bias_row_at {α : Type} (b : (⟨1, ![256]⟩ : Shape).Idx → α)
    (h : (⟨1, ![256]⟩ : Shape).ShapeCasts ⟨2, ![1, 256]⟩) (j : Fin 256) :
    shapeCast ⟨2, ![1, 256]⟩ b h (ix2 (0 : Fin 1) j) = b (ix1 j) := by
  refine shapeCast_apply b h (ix2 (0 : Fin 1) j) (ix1 j) ?_
  rw [rowMajor_ix1, rowMajor_ix2]
  show j.val = 0 * 256 + j.val
  rw [Nat.zero_mul, Nat.zero_add]

/-- A one-entry vector broadcast to a one-by-one matrix and then to every entry, read anywhere: its entry. -/
theorem slope_rows_at {α : Type} (a : (⟨1, ![1]⟩ : Shape).Idx → α)
    (h1 : (⟨1, ![1]⟩ : Shape).BroadcastsInDim ⟨2, ![1, 1]⟩ ![1])
    (h2 : (⟨2, ![1, 1]⟩ : Shape).BroadcastsInDim ⟨2, ![10000, 256]⟩ ![0, 1]) (r : Fin 10000) (j : Fin 256) :
    broadcastInDim ⟨2, ![10000, 256]⟩ ![0, 1] h2 (broadcastInDim ⟨2, ![1, 1]⟩ ![1] h1 a) (ix2 r j) = a (ix1 (0 : Fin 1)) := by
  refine (broadcastInDim_apply _ h2 _ (ix2 r j) (ix2 (0 : Fin 1) (0 : Fin 1)) fun c => ?_).trans
    (broadcastInDim_apply _ h1 a (ix2 (0 : Fin 1) (0 : Fin 1)) (ix1 (0 : Fin 1)) fun c => ?_)
  · match c with
    | ⟨0, _⟩ => rfl
    | ⟨1, _⟩ => rfl
  · match c with
    | ⟨0, _⟩ => rfl

/-- The same one-entry vector reshaped to a one-by-one matrix: its entry. -/
theorem slope_cell_at {α : Type} (a : (⟨1, ![1]⟩ : Shape).Idx → α)
    (h : (⟨1, ![1]⟩ : Shape).ShapeCasts ⟨2, ![1, 1]⟩) :
    shapeCast ⟨2, ![1, 1]⟩ a h (ix2 (0 : Fin 1) (0 : Fin 1)) = a (ix1 (0 : Fin 1)) := by
  refine shapeCast_apply a h (ix2 (0 : Fin 1) (0 : Fin 1)) (ix1 (0 : Fin 1)) ?_
  rw [rowMajor_ix1, rowMajor_ix2]
  rfl

/-- The rectifier with a slope, read at one index: the specification's leaky rectifier of the entries. -/
theorem leaky_at {s : Shape} (Y Z A : FVec Ideal s .f32) (i : s.Idx) (a y : EReal)
    (hZ : Z i = Cert.Spec.z32) (hA : A i = a) (hY : Y i = y) :
    select (cmpf .oge Y Z) Y (mulf A Y) i = Cert.Spec.leaky Cert.Spec.z32 a y := by
  show Scalar.select (FloatOps.cmpf .oge (Y i) (Z i)) (Y i) (A i * Y i) = _
  rw [hZ, hA, hY]
  rfl

/-- The leaky rectifier of slope 0 is the plain rectifier, at every extended real. -/
theorem leaky_zero_eq_max (y : EReal) : Cert.Spec.leaky Cert.Spec.z32 0 y = max y 0 := by
  unfold Cert.Spec.leaky
  rw [Ideal.cmpf_def, show Cert.Spec.z32 = 0 from Ideal.ofBits_zero_f32]
  by_cases hy : (0 : EReal) ≤ y
  · rw [Cert.EdgeWeight.cmp_oge_of_le hy, select_one, max_eq_left hy]
  · rw [Cert.EdgeWeight.cmp_oge_of_not_le hy, select_zero, zero_mul, max_eq_right (le_of_lt (not_le.mp hy))]

/-- The plain rectifier, read at one index: the specification's leaky rectifier of slope 0. -/
theorem relu_at {s : Shape} (Y Z : FVec Ideal s .f32) (i : s.Idx) (a y : EReal)
    (hZ : Z i = Cert.Spec.z32) (ha : a = 0) (hY : Y i = y) :
    maximumf Y Z i = Cert.Spec.leaky Cert.Spec.z32 a y := by
  show max (Y i) (Z i) = _
  rw [hZ, ha, hY, leaky_zero_eq_max, show Cert.Spec.z32 = 0 from Ideal.ofBits_zero_f32]

end Cert.Bridge.Layer

end
-- ==== Proof.RefLayer1.lean ====
/-
  The reference program's first Chebyshev layer is the specification's dense step of the kernel program's terms.

  The reference multiplies h, T1 and T2 each by its own slab of the stacked weights, adds the three products and
  the bias row, and applies the rectifier of slope a13 as a comparison with 0.0 and a selection. The kernel
  program's host side lays h, T1, T2 side by side, reads the stacked weights as one tall matrix, the bias as one
  row and the slope as a one-by-one matrix. Entry by entry the two sums of products are the same sum
  (the dense step of the wide matrix), the two bias reads are the same entry, the two slope reads are the
  same entry, and the rectifier is the specification's comparison bit and selection on both sides.
-/
import proofs.«163009_j11184094839450_1_alg».proof.Proof.Spec
import proofs.«163009_j11184094839450_1_alg».proof.Proof.RTerms
import proofs.«163009_j11184094839450_1_alg».proof.Proof.KTerms
import proofs.«163009_j11184094839450_1_alg».proof.Proof.RefLayerCore

noncomputable section

open scoped BigOperators

namespace Cert.Bridge.Layer

open Idealize.ShloMosaic Idealize.ShloMosaic.ValueIdx Cert.Lib.DenseLayer

/-- The reference's product of a [10000, 128] matrix with a [128, 256] one contracts columns with rows. -/
theorem plain_128 [Cert.ReferenceIdeal.Facts] :
    Plain Cert.ReferenceIdeal.dot_S10000x128_S128x256_S10000x256_1_0_0_1_n_n :=
  ⟨rfl, rfl, fun _ _ => rfl, fun _ _ => rfl, fun _ _ => rfl, fun _ _ => rfl⟩

theorem layer1_eq [Cert.KernelIdeal.Facts] [Cert.ReferenceIdeal.Facts]
    (x T1 T2 : FVec Ideal Cert.ReferenceIdeal.S10000x128 .f32) (a3 : FVec Ideal Cert.ReferenceIdeal.S3x128x256 .f32)
    (a4 : FVec Ideal Cert.ReferenceIdeal.S256 .f32) (a13 : FVec Ideal Cert.ReferenceIdeal.S1 .f32) :
    Cert.ReferenceIdeal.Terms.rOut_1 (F := Ideal) x T1 T2 a3 a4 a13
      = fun i => Cert.Spec.chebOut (fun r k => Cert.KernelIdeal.Terms.kTcat_1 (F := Ideal) x T1 T2 (ix2 r k))
          (fun k j => Cert.KernelIdeal.Terms.kWc_1 (F := Ideal) a3 (ix2 k j))
          (fun j => Cert.KernelIdeal.Terms.kB_1 (F := Ideal) a4 (ix2 0 j))
          (Cert.KernelIdeal.Terms.kA_1 (F := Ideal) a13 (ix2 0 0)) (i 0) (i 1) := by
  funext i
  obtain ⟨r, j, rfl⟩ : ∃ (r : Fin 10000) (j : Fin 256), i = ix2 r j := ⟨i 0, i 1, eq_ix2 i⟩
  show _ = Cert.Spec.chebOut _ _ _ _ r j
  unfold Cert.Spec.chebOut Cert.Spec.affine
  refine leaky_at _ _ _ (ix2 r j) _ _ rfl ?_ ?_
  · -- the slope: both programs read the one entry of a13
    exact (slope_rows_at a13 _ _ r j).trans (slope_cell_at a13 _).symm
  · -- the sum of the three products plus the bias
    refine congrArg₂ (· + ·) ?_ ?_
    · exact dense_sum_eq plain_128 x T1 T2 a3 _ _ _ _
        Cert.KernelIdeal.Facts₀.concatenates_S10000x128_S10000x128_S10000x128_S10000x384_d1
        Cert.KernelIdeal.Facts₀.shapeCasts_S3x128x256_S384x256 r j
    · exact (bias_rows_at a4 _ _ r j).trans (bias_row_at a4 _ j).symm

end Cert.Bridge.Layer

end
-- ==== Proof.RefLayerN.lean ====
/-
  The reference program's Chebyshev layers 2, 3 and 4 are the specification's dense step of the kernel program's
  terms, with slope 0.

  Both programs cut the layer's three weight matrices out of the stacked weights as one [3, 256, 256] stack
  (the same slice and reshape) and the layer's bias out of the stacked biases as one vector of 256 entries.
  The reference multiplies h, T1 and T2 each by its own slab of that stack, adds the three products and the bias
  row, and takes the maximum with 0.0. The kernel program's host side lays h, T1, T2 side by side, reads the
  stack as one tall matrix and the bias as one row, and passes the constant 0.0 as the rectifier's slope. Entry
  by entry the two sums of products are the same sum, the two bias reads are the same entry, and the maximum
  with 0 is the leaky rectifier of slope 0 at every extended real.
-/
import proofs.«163009_j11184094839450_1_alg».proof.Proof.Spec
import proofs.«163009_j11184094839450_1_alg».proof.Proof.RTerms
import proofs.«163009_j11184094839450_1_alg».proof.Proof.KTerms
import proofs.«163009_j11184094839450_1_alg».proof.Proof.RefLayerCore

noncomputable section

open scoped BigOperators

namespace Cert.Bridge.Layer

open Idealize.ShloMosaic Idealize.ShloMosaic.ValueIdx Cert.Lib.DenseLayer

/-- The reference's product of a [10000, 256] matrix with a [256, 256] one contracts columns with rows. -/
theorem plain_256 [Cert.ReferenceIdeal.Facts] :
    Plain Cert.ReferenceIdeal.dot_S10000x256_S256x256_S10000x256_1_0_0_1_n_n :=
  ⟨rfl, rfl, fun _ _ => rfl, fun _ _ => rfl, fun _ _ => rfl, fun _ _ => rfl⟩

theorem layer2_eq [Cert.KernelIdeal.Facts] [Cert.ReferenceIdeal.Facts]
    (h T1 T2 : FVec Ideal Cert.ReferenceIdeal.S10000x256 .f32) (a5 : FVec Ideal Cert.ReferenceIdeal.S3x3x256x256 .f32)
    (a6 : FVec Ideal Cert.ReferenceIdeal.S3x256 .f32) :
    Cert.ReferenceIdeal.Terms.rOut_2 (F := Ideal) h T1 T2 a5 a6
      = fun i => Cert.Spec.chebOut (fun r k => Cert.KernelIdeal.Terms.kTcat_2 (F := Ideal) h T1 T2 (ix2 r k))
          (fun k j => Cert.KernelIdeal.Terms.kWc_2 (F := Ideal) a5 (ix2 k j))
          (fun j => Cert.KernelIdeal.Terms.kB_2 (F := Ideal) a6 (ix2 0 j))
          (Cert.KernelIdeal.Terms.kA_2 (F := Ideal) (Cert.KernelIdeal.Terms.kZeroSlope (F := Ideal)) (ix2 0 0)) (i 0) (i 1) := by
  funext i
  obtain ⟨r, j, rfl⟩ : ∃ (r : Fin 10000) (j : Fin 256), i = ix2 r j := ⟨i 0, i 1, eq_ix2 i⟩
  show _ = Cert.Spec.chebOut _ _ _ _ r j
  unfold Cert.Spec.chebOut Cert.Spec.affine
  refine relu_at _ _ (ix2 r j) _ _ rfl ?_ ?_
  · -- the slope: the one entry of the constant 0.0
    exact (slope_cell_at (Cert.KernelIdeal.Terms.kZeroSlope (F := Ideal)) _).trans Ideal.ofBits_zero_f32
  · -- the sum of the three products plus the bias
    refine congrArg₂ (· + ·) ?_ ?_
    · exact dense_sum_eq plain_256 h T1 T2 _ _ _ _ _
        Cert.KernelIdeal.Facts₀.concatenates_S10000x256_S10000x256_S10000x256_S10000x768_d1
        Cert.KernelIdeal.Facts₀.shapeCasts_S3x256x256_S768x256 r j
    · exact (bias_rows_at _ _ _ r j).trans (bias_row_at _ _ j).symm

theorem layer3_eq [Cert.KernelIdeal.Facts] [Cert.ReferenceIdeal.Facts]
    (h T1 T2 : FVec Ideal Cert.ReferenceIdeal.S10000x256 .f32) (a5 : FVec Ideal Cert.ReferenceIdeal.S3x3x256x256 .f32)
    (a6 : FVec Ideal Cert.ReferenceIdeal.S3x256 .f32) :
    Cert.ReferenceIdeal.Terms.rOut_3 (F := Ideal) h T1 T2 a5 a6
      = fun i => Cert.Spec.chebOut (fun r k => Cert.KernelIdeal.Terms.kTcat_3 (F := Ideal) h T1 T2 (ix2 r k))
          (fun k j => Cert.KernelIdeal.Terms.kWc_3 (F := Ideal) a5 (ix2 k j))
          (fun j => Cert.KernelIdeal.Terms.kB_3 (F := Ideal) a6 (ix2 0 j))
          (Cert.KernelIdeal.Terms.kA_3 (F := Ideal) (Cert.KernelIdeal.Terms.kZeroSlope (F := Ideal)) (ix2 0 0)) (i 0) (i 1) := by
  funext i
  obtain ⟨r, j, rfl⟩ : ∃ (r : Fin 10000) (j : Fin 256), i = ix2 r j := ⟨i 0, i 1, eq_ix2 i⟩
  show _ = Cert.Spec.chebOut _ _ _ _ r j
  unfold Cert.Spec.chebOut Cert.Spec.affine
  refine relu_at _ _ (ix2 r j) _ _ rfl ?_ ?_
  · -- the slope: the one entry of the constant 0.0
    exact (slope_cell_at (Cert.KernelIdeal.Terms.kZeroSlope (F := Ideal)) _).trans Ideal.ofBits_zero_f32
  · -- the sum of the three products plus the bias
    refine congrArg₂ (· + ·) ?_ ?_
    · exact dense_sum_eq plain_256 h T1 T2 _ _ _ _ _
        Cert.KernelIdeal.Facts₀.concatenates_S10000x256_S10000x256_S10000x256_S10000x768_d1
        Cert.KernelIdeal.Facts₀.shapeCasts_S3x256x256_S768x256 r j
    · exact (bias_rows_at _ _ _ r j).trans (bias_row_at _ _ j).symm

theorem layer4_eq [Cert.KernelIdeal.Facts] [Cert.ReferenceIdeal.Facts]
    (h T1 T2 : FVec Ideal Cert.ReferenceIdeal.S10000x256 .f32) (a5 : FVec Ideal Cert.ReferenceIdeal.S3x3x256x256 .f32)
    (a6 : FVec Ideal Cert.ReferenceIdeal.S3x256 .f32) :
    Cert.ReferenceIdeal.Terms.rOut_4 (F := Ideal) h T1 T2 a5 a6
      = fun i => Cert.Spec.chebOut (fun r k => Cert.KernelIdeal.Terms.kTcat_4 (F := Ideal) h T1 T2 (ix2 r k))
          (fun k j => Cert.KernelIdeal.Terms.kWc_4 (F := Ideal) a5 (ix2 k j))
          (fun j => Cert.KernelIdeal.Terms.kB_4 (F := Ideal) a6 (ix2 0 j))
          (Cert.KernelIdeal.Terms.kA_4 (F := Ideal) (Cert.KernelIdeal.Terms.kZeroSlope (F := Ideal)) (ix2 0 0)) (i 0) (i 1) := by
  funext i
  obtain ⟨r, j, rfl⟩ : ∃ (r : Fin 10000) (j : Fin 256), i = ix2 r j := ⟨i 0, i 1, eq_ix2 i⟩
  show _ = Cert.Spec.chebOut _ _ _ _ r j
  unfold Cert.Spec.chebOut Cert.Spec.affine
  refine relu_at _ _ (ix2 r j) _ _ rfl ?_ ?_
  · -- the slope: the one entry of the constant 0.0
    exact (slope_cell_at (Cert.KernelIdeal.Terms.kZeroSlope (F := Ideal)) _).trans Ideal.ofBits_zero_f32
  · -- the sum of the three products plus the bias
    refine congrArg₂ (· + ·) ?_ ?_
    · exact dense_sum_eq plain_256 h T1 T2 _ _ _ _ _
        Cert.KernelIdeal.Facts₀.concatenates_S10000x256_S10000x256_S10000x256_S10000x768_d1
        Cert.KernelIdeal.Facts₀.shapeCasts_S3x256x256_S768x256 r j
    · exact (bias_rows_at _ _ _ r j).trans (bias_row_at _ _ j).symm

end Cert.Bridge.Layer

end
-- ==== Proof.RefMlp.lean ====
/-
  The reference's graph-level perceptron is the specification, and the kernel program's one-row biases are the
  reference's bias vectors.

  The reference takes the pooled rows g (one row of 256 numbers per graph) through three dense layers. Each dense
  layer is a rows-by-columns product plus a bias vector repeated over the rows, so its entry (r, c) is the sum over k
  of x(r, k) · w(k, c), plus b(c). After the first layer comes the leaky rectifier — y where y ≥ 0.0, slope · y
  elsewhere, written as a comparison bit and a selection, exactly as the specification writes it; after the second
  the quotient 1.0 / (1.0 + e^(-x)), which on every extended real is the logistic function (the word 0x3F800000 is
  the number one). The third layer's rows are normalised by the row-wise log-softmax: the row maximum is a reduction
  started from -inf (the least extended real, so the maximum with it changes nothing), the row sum a reduction
  started from 0.0, and the result (x - max) - log (sum of e^(x - max)). Every step is read at one entry; no
  finiteness is asked of any input, because both sides are the same sums of the same products.

  The kernel program passes each bias vector of n numbers to its last launch as a [1, n] row made by a reshape,
  which keeps the row-major position: entry (0, c) of the row is entry c of the vector.
-/
import Idealize.ShloMosaic.PureOps.Ideal.Laws
import Idealize.ShloMosaic.Lib.ValueIdx
import Idealize.ShloMosaic.Lib.IdealHost
import Idealize.ShloMosaic.Lib.Pipeline.Value
import proofs.«163009_j11184094839450_1_alg».proof.Proof.Spec
import proofs.«163009_j11184094839450_1_alg».proof.Proof.RTerms
import proofs.«163009_j11184094839450_1_alg».proof.Proof.KTerms
import proofs.«163009_j11184094839450_1_alg».proof.Proof.LibMaxReduce
import proofs.«163009_j11184094839450_1_alg».proof.Proof.LibDenseLayer

noncomputable section

open scoped BigOperators

namespace Cert.Bridge.Mlp

open Idealize.ShloMosaic Idealize.ShloMosaic.ValueIdx

/-! ## Broadcasts of the reference, read at an entry -/

/-- A vector of n entries laid out as a [1, n] row, at (0, c): entry c. -/
theorem row_at {α : Type} {n : Nat} (b : (⟨1, ![n]⟩ : Shape).Idx → α)
    (h1 : (⟨1, ![n]⟩ : Shape).BroadcastsInDim ⟨2, ![1, n]⟩ ![1]) (c : Fin n) :
    broadcastInDim ⟨2, ![1, n]⟩ ![1] h1 b (ix2 0 c) = b (ix1 c) :=
  broadcastInDim_apply ![1] h1 b (ix2 0 c) (ix1 c) (fun a => by
    match a with
    | ⟨0, _⟩ =>
      show c.val = if n = 1 then 0 else c.val
      split
      · have := c.isLt; omega
      · rfl)

/-- A [1, n] row repeated over G rows, at (r, c): the row's entry c. -/
theorem rows_at {α : Type} {G n : Nat} (v : (⟨2, ![1, n]⟩ : Shape).Idx → α)
    (h2 : (⟨2, ![1, n]⟩ : Shape).BroadcastsInDim ⟨2, ![G, n]⟩ ![0, 1]) (r : Fin G) (c : Fin n) :
    broadcastInDim ⟨2, ![G, n]⟩ ![0, 1] h2 v (ix2 r c) = v (ix2 0 c) :=
  broadcastInDim_apply ![0, 1] h2 v (ix2 r c) (ix2 0 c) (fun a => by
    match a with
    | ⟨0, _⟩ => exact (if_pos rfl).symm
    | ⟨1, _⟩ =>
      show c.val = if n = 1 then 0 else c.val
      split
      · have := c.isLt; omega
      · rfl)

/-- A bias vector made a row and repeated over G rows, at (r, c): the bias entry c. -/
theorem bias_at {α : Type} {G n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![G, n]⟩ ![0, 1]) (r : Fin G) (c : Fin n) :
    broadcastInDim ⟨2, ![G, n]⟩ ![0, 1] h2 (broadcastInDim ⟨2, ![1, n]⟩ ![1] h1 b) (ix2 r c) = b (ix1 c) :=
  (rows_at _ h2 r c).trans (row_at b h1 c)

/-- A one-entry [1, 1] array repeated over a whole [G, N] array, at any entry: its one entry. -/
theorem one_entry_at {α : Type} {G N : Nat} (v : (⟨2, ![1, 1]⟩ : Shape).Idx → α)
    (h2 : (⟨2, ![1, 1]⟩ : Shape).BroadcastsInDim ⟨2, ![G, N]⟩ ![0, 1]) (r : Fin G) (c : Fin N) :
    broadcastInDim ⟨2, ![G, N]⟩ ![0, 1] h2 v (ix2 r c) = v (ix2 0 0) :=
  broadcastInDim_apply ![0, 1] h2 v (ix2 r c) (ix2 0 0) (fun a => by
    match a with
    | ⟨0, _⟩ => exact (if_pos rfl).symm
    | ⟨1, _⟩ => exact (if_pos rfl).symm)

/-- A one-entry vector made [1, 1] and repeated over a whole [G, N] array, at any entry: its one entry. -/
theorem slope_at {α : Type} {G N : Nat} (a : (⟨1, ![1]⟩ : Shape).Idx → α)
    (h1 : (⟨1, ![1]⟩ : Shape).BroadcastsInDim ⟨2, ![1, 1]⟩ ![1])
    (h2 : (⟨2, ![1, 1]⟩ : Shape).BroadcastsInDim ⟨2, ![G, N]⟩ ![0, 1]) (r : Fin G) (c : Fin N) :
    broadcastInDim ⟨2, ![G, N]⟩ ![0, 1] h2 (broadcastInDim ⟨2, ![1, 1]⟩ ![1] h1 a) (ix2 r c) = a (ix1 0) :=
  (one_entry_at _ h2 r c).trans (row_at a h1 0)

/-- A vector of G entries made a [G, 1] column, at (r, 0): entry r. -/
theorem col_at {α : Type} {G : Nat} (v : (⟨1, ![G]⟩ : Shape).Idx → α)
    (h1 : (⟨1, ![G]⟩ : Shape).BroadcastsInDim ⟨2, ![G, 1]⟩ ![0]) (r : Fin G) :
    broadcastInDim ⟨2, ![G, 1]⟩ ![0] h1 v (ix2 r 0) = v (ix1 r) :=
  broadcastInDim_apply ![0] h1 v (ix2 r 0) (ix1 r) (fun a => by
    match a with
    | ⟨0, _⟩ =>
      show r.val = if G = 1 then 0 else r.val
      split
      · have := r.isLt; omega
      · rfl)

/-- A [G, 1] column repeated along the columns, at (r, c): the column's entry of row r. -/
theorem cols_at {α : Type} {G N : Nat} (w : (⟨2, ![G, 1]⟩ : Shape).Idx → α)
    (h2 : (⟨2, ![G, 1]⟩ : Shape).BroadcastsInDim ⟨2, ![G, N]⟩ ![0, 1]) (r : Fin G) (c : Fin N) :
    broadcastInDim ⟨2, ![G, N]⟩ ![0, 1] h2 w (ix2 r c) = w (ix2 r 0) :=
  broadcastInDim_apply ![0, 1] h2 w (ix2 r c) (ix2 r 0) (fun a => by
    match a with
    | ⟨0, _⟩ =>
      show r.val = if G = 1 then 0 else r.val
      split
      · have := r.isLt; omega
      · rfl
    | ⟨1, _⟩ => exact (if_pos rfl).symm)

/-- A scalar constant repeated over any shape, at any index: the constant's value. -/
theorem splat_at {T : Shape} (w : BitVec 32) (h0 : (⟨0, ![]⟩ : Shape).BroadcastsInDim T ![]) (j : T.Idx) :
    broadcastInDim T ![] h0 (constant (F := Ideal) ⟨0, ![]⟩ .f32 w) j = Ideal.ofBits .f32 w :=
  broadcastInDim_scalar_apply h0 _ j

/-! ## The layers of the reference, read at an entry -/

/-- A dense layer of the reference at (r, c): the product's entry plus the bias entry. -/
theorem dense_at {G K N : Nat} {d : DotDims ⟨2, ![G, K]⟩ ⟨2, ![K, N]⟩ ⟨2, ![G, N]⟩} (hd : Cert.Lib.DenseLayer.Plain d)
    (x : FVec Ideal ⟨2, ![G, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![G, N]⟩ ![0, 1]) (r : Fin G) (c : Fin N) :
    addf (Host.dotGeneral d none x w)
        (broadcastInDim ⟨2, ![G, N]⟩ ![0, 1] h2 (broadcastInDim ⟨2, ![1, N]⟩ ![1] h1 b)) (ix2 r c)
      = Cert.Spec.affine (fun k => x (ix2 r k)) (fun k => w (ix2 k c)) (b (ix1 c)) := by
  rw [addf_apply, hd.dot_apply, bias_at b h1 h2 r c]
  rfl

/-- The reference's leaky rectifier (a comparison with a splat 0.0, a product with the repeated slope, a selection)
    at (r, c): the specification's. -/
theorem leaky_at {G N : Nat} (y : FVec Ideal ⟨2, ![G, N]⟩ .f32) (a : FVec Ideal ⟨1, ![1]⟩ .f32)
    (h0 : (⟨0, ![]⟩ : Shape).BroadcastsInDim ⟨2, ![G, N]⟩ ![])
    (h1 : (⟨1, ![1]⟩ : Shape).BroadcastsInDim ⟨2, ![1, 1]⟩ ![1])
    (h2 : (⟨2, ![1, 1]⟩ : Shape).BroadcastsInDim ⟨2, ![G, N]⟩ ![0, 1]) (r : Fin G) (c : Fin N) :
    select (cmpf .oge y (broadcastInDim ⟨2, ![G, N]⟩ ![] h0 (constant (F := Ideal) ⟨0, ![]⟩ .f32 0x00000000#32))) y
        (mulf (broadcastInDim ⟨2, ![G, N]⟩ ![0, 1] h2 (broadcastInDim ⟨2, ![1, 1]⟩ ![1] h1 a)) y) (ix2 r c)
      = Cert.Spec.leaky Cert.Spec.z32 (a (ix1 0)) (y (ix2 r c)) := by
  rw [select_apply, cmpf_apply, mulf_apply, slope_at a h1 h2 r c, splat_at _ h0]
  rfl

/-- The reference's 1.0 / (1.0 + e^(-x)) at an index: the logistic function. -/
theorem logistic_at {T : Shape} (x : FVec Ideal T .f32) (h0 : (⟨0, ![]⟩ : Shape).BroadcastsInDim T ![]) (i : T.Idx) :
    Host.divf (broadcastInDim T ![] h0 (constant (F := Ideal) ⟨0, ![]⟩ .f32 0x3F800000#32))
        (addf (broadcastInDim T ![] h0 (constant (F := Ideal) ⟨0, ![]⟩ .f32 0x3F800000#32)) (Host.exp (Host.negf x))) i
      = Ideal.logistic (x i) := by
  rw [hostDivf_apply, addf_apply, splat_at _ h0, Ideal.ofBits_one_f32]
  rfl

/-! ## The row-wise log-softmax of the reference -/

/-- The index of a [G, C] array over the reduced index r of its rows with column k put back is (r, k). -/
theorem lift_cols {G C : Nat} (h : Shape.Reduces ⟨2, ![G, C]⟩ [1] ⟨1, ![G]⟩) (r : Fin G) (k : Fin C) :
    h.lift (ix1 r) k = ix2 r k := funext fun d => Fin.ext (by
  match d with
  | ⟨0, _⟩ => rfl
  | ⟨1, _⟩ => rfl)

/-- The reference's row maximum (a reduction from -inf, then a maximum with a splat -inf) at row r: the supremum
    of the row. -/
theorem rowMax_at {G C : Nat} (v : FVec Ideal ⟨2, ![G, C]⟩ .f32)
    (hR : (⟨2, ![G, C]⟩ : Shape).ReducesTo [1] ⟨1, ![G]⟩) (hR' : Shape.Reduces ⟨2, ![G, C]⟩ [1] ⟨1, ![G]⟩)
    (hu : 0 < (⟨0, ![]⟩ : Shape).numel)
    (hb0 : (⟨0, ![]⟩ : Shape).BroadcastsInDim ⟨1, ![G]⟩ ![]) (r : Fin G) :
    maximumf (broadcastInDim ⟨1, ![G]⟩ ![] hb0 (constant (F := Ideal) ⟨0, ![]⟩ .f32 0xFF800000#32))
        (Host.reduce FloatOps.maximumf v (constant (F := Ideal) ⟨0, ![]⟩ .f32 0xFF800000#32) hR hu) (ix1 r)
      = ⨆ j : Fin C, v (ix2 r j) := by
  rw [maximumf_apply, splat_at _ hb0, Cert.Lib.MaxReduce.ofBits_neg_inf_f32,
    Cert.Lib.MaxReduce.hostMaxReduce_single v hR hR' hu (ix1 r), max_eq_right bot_le]
  exact iSup_congr fun k => by rw [lift_cols hR' r k]

/-- The reference's row sum (a reduction from 0.0) at row r: the sum of the row. -/
theorem rowSum_at {G C : Nat} (v : FVec Ideal ⟨2, ![G, C]⟩ .f32)
    (hR : (⟨2, ![G, C]⟩ : Shape).ReducesTo [1] ⟨1, ![G]⟩) (hR' : Shape.Reduces ⟨2, ![G, C]⟩ [1] ⟨1, ![G]⟩)
    (hu : 0 < (⟨0, ![]⟩ : Shape).numel) (r : Fin G) :
    Host.reduceAdd v (constant (F := Ideal) ⟨0, ![]⟩ .f32 0x00000000#32) hR hu (ix1 r) = ∑ j : Fin C, v (ix2 r j) := by
  rw [hostReduceAdd_apply, Ideal.hostReduceAdd_single hR hR' v _ (ix1 r), constant_apply, Ideal.ofBits_zero_f32, zero_add]
  exact Finset.sum_congr rfl fun k _ => by rw [lift_cols hR' r k]

/-- The reference's log-softmax of a [G, C] array at (r, c): the specification's, of row r. -/
theorem logSoftmax_at {G C : Nat} (v : FVec Ideal ⟨2, ![G, C]⟩ .f32)
    (hR : (⟨2, ![G, C]⟩ : Shape).ReducesTo [1] ⟨1, ![G]⟩) (hR' : Shape.Reduces ⟨2, ![G, C]⟩ [1] ⟨1, ![G]⟩)
    (hu : 0 < (⟨0, ![]⟩ : Shape).numel)
    (hb0 : (⟨0, ![]⟩ : Shape).BroadcastsInDim ⟨1, ![G]⟩ ![])
    (hb1 : (⟨1, ![G]⟩ : Shape).BroadcastsInDim ⟨2, ![G, 1]⟩ ![0])
    (hb2 : (⟨2, ![G, 1]⟩ : Shape).BroadcastsInDim ⟨2, ![G, C]⟩ ![0, 1]) (r : Fin G) (c : Fin C) :
    subf
        (subf v (broadcastInDim ⟨2, ![G, C]⟩ ![0, 1] hb2 (broadcastInDim ⟨2, ![G, 1]⟩ ![0] hb1
          (maximumf (broadcastInDim ⟨1, ![G]⟩ ![] hb0 (constant (F := Ideal) ⟨0, ![]⟩ .f32 0xFF800000#32))
            (Host.reduce FloatOps.maximumf v (constant (F := Ideal) ⟨0, ![]⟩ .f32 0xFF800000#32) hR hu)))))
        (broadcastInDim ⟨2, ![G, C]⟩ ![0, 1] hb2 (Host.log (broadcastInDim ⟨2, ![G, 1]⟩ ![0] hb1
          (Host.reduceAdd
            (Host.exp (subf v (broadcastInDim ⟨2, ![G, C]⟩ ![0, 1] hb2 (broadcastInDim ⟨2, ![G, 1]⟩ ![0] hb1
              (maximumf (broadcastInDim ⟨1, ![G]⟩ ![] hb0 (constant (F := Ideal) ⟨0, ![]⟩ .f32 0xFF800000#32))
                (Host.reduce FloatOps.maximumf v (constant (F := Ideal) ⟨0, ![]⟩ .f32 0xFF800000#32) hR hu))))))
            (constant (F := Ideal) ⟨0, ![]⟩ .f32 0x00000000#32) hR hu))))
        (ix2 r c)
      = Cert.Spec.logSoftmaxRow (fun j => v (ix2 r j)) c := by
  have hs : ∀ j : Fin C,
      subf v (broadcastInDim ⟨2, ![G, C]⟩ ![0, 1] hb2 (broadcastInDim ⟨2, ![G, 1]⟩ ![0] hb1
          (maximumf (broadcastInDim ⟨1, ![G]⟩ ![] hb0 (constant (F := Ideal) ⟨0, ![]⟩ .f32 0xFF800000#32))
            (Host.reduce FloatOps.maximumf v (constant (F := Ideal) ⟨0, ![]⟩ .f32 0xFF800000#32) hR hu)))) (ix2 r j)
        = v (ix2 r j) - ⨆ j' : Fin C, v (ix2 r j') := fun j => by
    rw [subf_apply, cols_at _ hb2 r j, col_at _ hb1 r, rowMax_at v hR hR' hu hb0 r]
  generalize subf v (broadcastInDim ⟨2, ![G, C]⟩ ![0, 1] hb2 (broadcastInDim ⟨2, ![G, 1]⟩ ![0] hb1
          (maximumf (broadcastInDim ⟨1, ![G]⟩ ![] hb0 (constant (F := Ideal) ⟨0, ![]⟩ .f32 0xFF800000#32))
            (Host.reduce FloatOps.maximumf v (constant (F := Ideal) ⟨0, ![]⟩ .f32 0xFF800000#32) hR hu)))) = s at hs ⊢
  rw [subf_apply, cols_at _ hb2 r c]
  show s (ix2 r c) - Ideal.log (broadcastInDim ⟨2, ![G, 1]⟩ ![0] hb1
      (Host.reduceAdd (Host.exp s) (constant (F := Ideal) ⟨0, ![]⟩ .f32 0x00000000#32) hR hu) (ix2 r 0)) = _
  rw [col_at _ hb1 r, rowSum_at _ hR hR' hu r, hs c]
  unfold Cert.Spec.logSoftmaxRow
  refine congrArg (fun t => (v (ix2 r c) - ⨆ j', v (ix2 r j')) - Ideal.log t) ?_
  exact Finset.sum_congr rfl fun j _ => congrArg Ideal.exp (hs j)

/-! ## The three products of the perceptron are plain rows-by-columns products -/

section Plain

variable [Cert.ReferenceIdeal.Facts]

open Cert.ReferenceIdeal in
theorem plain_fc1 : Cert.Lib.DenseLayer.Plain (M := 64) (K := 256) (N := 256) dot_S64x256_S256x256_S64x256_1_0_0_1_n_n where
  rank := rfl
  size := rfl
  l0 := fun i q => by
    unfold DotDims.lhsIdx
    rw [dif_neg (show ¬(0 : Fin S64x256.rank) ∈ dot_S64x256_S256x256_S64x256_1_0_0_1_n_n.lhsBatch from List.not_mem_nil),
      dif_pos (show (0 : Fin S64x256.rank) ∈ dot_S64x256_S256x256_S64x256_1_0_0_1_n_n.lhsNonContracting from List.mem_singleton.mpr rfl)]
    rfl
  l1 := fun i q => dot_S64x256_S256x256_S64x256_1_0_0_1_n_n.lhsIdx_val_of_single rfl i q
  r0 := fun i q => dot_S64x256_S256x256_S64x256_1_0_0_1_n_n.rhsIdx_val_of_single rfl i q
  r1 := fun i q => by
    unfold DotDims.rhsIdx
    rw [dif_neg (show ¬(1 : Fin S256x256.rank) ∈ dot_S64x256_S256x256_S64x256_1_0_0_1_n_n.rhsBatch from List.not_mem_nil),
      dif_pos (show (1 : Fin S256x256.rank) ∈ dot_S64x256_S256x256_S64x256_1_0_0_1_n_n.rhsNonContracting from List.mem_singleton.mpr rfl)]
    rfl

open Cert.ReferenceIdeal in
theorem plain_fc2 : Cert.Lib.DenseLayer.Plain (M := 64) (K := 256) (N := 128) dot_S64x256_S256x128_S64x128_1_0_0_1_n_n where
  rank := rfl
  size := rfl
  l0 := fun i q => by
    unfold DotDims.lhsIdx
    rw [dif_neg (show ¬(0 : Fin S64x256.rank) ∈ dot_S64x256_S256x128_S64x128_1_0_0_1_n_n.lhsBatch from List.not_mem_nil),
      dif_pos (show (0 : Fin S64x256.rank) ∈ dot_S64x256_S256x128_S64x128_1_0_0_1_n_n.lhsNonContracting from List.mem_singleton.mpr rfl)]
    rfl
  l1 := fun i q => dot_S64x256_S256x128_S64x128_1_0_0_1_n_n.lhsIdx_val_of_single rfl i q
  r0 := fun i q => dot_S64x256_S256x128_S64x128_1_0_0_1_n_n.rhsIdx_val_of_single rfl i q
  r1 := fun i q => by
    unfold DotDims.rhsIdx
    rw [dif_neg (show ¬(1 : Fin S256x128.rank) ∈ dot_S64x256_S256x128_S64x128_1_0_0_1_n_n.rhsBatch from List.not_mem_nil),
      dif_pos (show (1 : Fin S256x128.rank) ∈ dot_S64x256_S256x128_S64x128_1_0_0_1_n_n.rhsNonContracting from List.mem_singleton.mpr rfl)]
    rfl

open Cert.ReferenceIdeal in
theorem plain_fc3 : Cert.Lib.DenseLayer.Plain (M := 64) (K := 128) (N := 10) dot_S64x128_S128x10_S64x10_1_0_0_1_n_n where
  rank := rfl
  size := rfl
  l0 := fun i q => by
    unfold DotDims.lhsIdx
    rw [dif_neg (show ¬(0 : Fin S64x128.rank) ∈ dot_S64x128_S128x10_S64x10_1_0_0_1_n_n.lhsBatch from List.not_mem_nil),
      dif_pos (show (0 : Fin S64x128.rank) ∈ dot_S64x128_S128x10_S64x10_1_0_0_1_n_n.lhsNonContracting from List.mem_singleton.mpr rfl)]
    rfl
  l1 := fun i q => dot_S64x128_S128x10_S64x10_1_0_0_1_n_n.lhsIdx_val_of_single rfl i q
  r0 := fun i q => dot_S64x128_S128x10_S64x10_1_0_0_1_n_n.rhsIdx_val_of_single rfl i q
  r1 := fun i q => by
    unfold DotDims.rhsIdx
    rw [dif_neg (show ¬(1 : Fin S128x10.rank) ∈ dot_S64x128_S128x10_S64x10_1_0_0_1_n_n.rhsBatch from List.not_mem_nil),
      dif_pos (show (1 : Fin S128x10.rank) ∈ dot_S64x128_S128x10_S64x10_1_0_0_1_n_n.rhsNonContracting from List.mem_singleton.mpr rfl)]
    rfl

end Plain

/-! ## The reference's perceptron is the specification -/

section Final

variable [Cert.ReferenceIdeal.Facts]

open Cert.ReferenceIdeal in
/-- The reference's graph-level perceptron, entry by entry: a dense layer with the leaky rectifier, a dense layer
    with the logistic function, a dense layer, and the row-wise log-softmax, of the pooled rows. -/
theorem rMlp_eq (g : FVec Ideal S64x256 .f32) (a7 : FVec Ideal S256x256 .f32) (a8 : FVec Ideal S256 .f32)
    (a14 : FVec Ideal S1 .f32) (a9 : FVec Ideal S256x128 .f32) (a10 : FVec Ideal S128 .f32)
    (a11 : FVec Ideal S128x10 .f32) (a12 : FVec Ideal S10 .f32) :
    Terms.rMlp (F := Ideal) g a7 a8 a14 a9 a10 a11 a12
      = fun i => Cert.Spec.mlpOut (fun r k => g (ix2 r k)) (fun k j => a7 (ix2 k j)) (fun j => a8 (ix1 j)) (a14 (ix1 0))
          (fun k j => a9 (ix2 k j)) (fun j => a10 (ix1 j)) (fun k j => a11 (ix2 k j)) (fun j => a12 (ix1 j)) (i 0) (i 1) := by
  funext i
  obtain ⟨r, c, rfl⟩ : ∃ (r : Fin 64) (c : Fin 10), i = ix2 r c := ⟨i 0, i 1, eq_ix2 i⟩
  unfold Terms.rMlp
  refine (logSoftmax_at _ _ (by decide) _ _ _ _ r c).trans ?_
  refine congrArg (fun f => Cert.Spec.logSoftmaxRow f c) (funext fun j => ?_)
  refine (dense_at plain_fc3 _ _ _ _ _ r j).trans ?_
  refine congrArg (fun f => Cert.Spec.affine f _ _) (funext fun k => ?_)
  refine (logistic_at _ _ (ix2 r k)).trans (congrArg Ideal.logistic ?_)
  refine (dense_at plain_fc2 _ _ _ _ _ r k).trans ?_
  refine congrArg (fun f => Cert.Spec.affine f _ _) (funext fun k' => ?_)
  refine (leaky_at _ _ _ _ _ r k').trans (congrArg (Cert.Spec.leaky _ _) ?_)
  exact dense_at plain_fc1 _ _ _ _ _ r k'

end Final

/-! ## The kernel program's one-row biases are the reference's vectors -/

/-- A vector of n entries reshaped to a [1, n] row, at (0, c): entry c (the reshape keeps the row-major position). -/
theorem addUnit_at {α : Type} {n : Nat} (b : (⟨1, ![n]⟩ : Shape).Idx → α)
    (hs : (⟨1, ![n]⟩ : Shape).ShapeCasts ⟨2, ![1, n]⟩) (c : Fin n) :
    shapeCast ⟨2, ![1, n]⟩ b hs (ix2 0 c) = b (ix1 c) :=
  shapeCast_apply b hs (ix2 0 c) (ix1 c) (by
    rw [Shape.rowMajor_val_one, Shape.rowMajor_val_two]
    show c.val = 0 * n + c.val
    omega)

section KernelBias

variable [Cert.KernelIdeal.Facts]

open Cert.KernelIdeal in
/-- The first dense layer's bias row, entry j. -/
theorem kFc1b_at (a8 : FVec Ideal S256 .f32) (j : Fin 256) :
    Terms.kFc1b (F := Ideal) a8 (ix2 0 j) = a8 (ix1 j) :=
  addUnit_at a8 _ j

open Cert.KernelIdeal in
/-- The second dense layer's bias row, entry j. -/
theorem kFc2b_at (a10 : FVec Ideal S128 .f32) (j : Fin 128) :
    Terms.kFc2b (F := Ideal) a10 (ix2 0 j) = a10 (ix1 j) :=
  addUnit_at a10 _ j

open Cert.KernelIdeal in
/-- The third dense layer's bias row, entry j. -/
theorem kFc3b_at (a12 : FVec Ideal S10 .f32) (j : Fin 10) :
    Terms.kFc3b (F := Ideal) a12 (ix2 0 j) = a12 (ix1 j) :=
  addUnit_at a12 _ j

open Cert.KernelIdeal in
/-- The rectifier slope as a one-by-one matrix: its one entry. -/
theorem kFcA_at (a14 : FVec Ideal S1 .f32) :
    Terms.kFcA (F := Ideal) a14 (ix2 0 0) = a14 (ix1 0) :=
  addUnit_at a14 _ 0

end KernelBias

end Cert.Bridge.Mlp

end
-- ==== Proof.Bridge.lean ====
/-
  The two programs' results are the same function of the fifteen arguments.

  Both programs compute, layer by layer, the three Chebyshev terms of the current features from the same edge list by
  the same operations; the reference then multiplies each term by its own slab of the weights and adds the products,
  where the kernel program lays the terms side by side and multiplies once by the stacked weights: entry by entry that
  is the same dense step of the specification. After the fourth layer both add up the rows of each graph, and the
  graph-level perceptron of either program is the specification's, the kernel program reading each bias vector as a
  one-row matrix and the slope as a one-by-one matrix.
-/
import proofs.«163009_j11184094839450_1_alg».proof.Proof.RResult
import proofs.«163009_j11184094839450_1_alg».proof.Proof.KResult
import proofs.«163009_j11184094839450_1_alg».proof.Proof.RefLayer1
import proofs.«163009_j11184094839450_1_alg».proof.Proof.RefLayerN
import proofs.«163009_j11184094839450_1_alg».proof.Proof.RefMlp

noncomputable section

namespace Cert.Bridge

open Idealize.ShloMosaic Idealize.ShloMosaic.ValueIdx

variable [Cert.KernelIdeal.Facts] [Cert.ReferenceIdeal.Facts]

/-! ## The propagation terms: the same operations on the same inputs -/

theorem row_eq (a1 : IVec Cert.ReferenceIdeal.S2x320000 32) :
    Cert.KernelIdeal.Terms.kRow (F := Ideal) a1 = Cert.ReferenceIdeal.Terms.rRow (F := Ideal) a1 := rfl

theorem col_eq (a1 : IVec Cert.ReferenceIdeal.S2x320000 32) :
    Cert.KernelIdeal.Terms.kCol (F := Ideal) a1 = Cert.ReferenceIdeal.Terms.rCol (F := Ideal) a1 := rfl

theorem edgeW_eq (a1 : IVec Cert.ReferenceIdeal.S2x320000 32) :
    Cert.KernelIdeal.Terms.kEdgeW (F := Ideal) a1 = Cert.ReferenceIdeal.Terms.rEdgeW (F := Ideal) a1 := rfl

theorem t1_1_eq (h : FVec Ideal Cert.ReferenceIdeal.S10000x128 .f32) (w : FVec Ideal Cert.ReferenceIdeal.S320000 .f32)
    (r c : IVec Cert.ReferenceIdeal.S320000 32) :
    Cert.KernelIdeal.Terms.kT1_1 (F := Ideal) h w r c = Cert.ReferenceIdeal.Terms.rT1_1 (F := Ideal) h w r c := rfl

theorem t2_1_eq (h t : FVec Ideal Cert.ReferenceIdeal.S10000x128 .f32) (w : FVec Ideal Cert.ReferenceIdeal.S320000 .f32)
    (r c : IVec Cert.ReferenceIdeal.S320000 32) :
    Cert.KernelIdeal.Terms.kT2_1 (F := Ideal) h t w r c = Cert.ReferenceIdeal.Terms.rT2_1 (F := Ideal) h t w r c := rfl

theorem t1_2_eq (h : FVec Ideal Cert.ReferenceIdeal.S10000x256 .f32) (w : FVec Ideal Cert.ReferenceIdeal.S320000 .f32)
    (r c : IVec Cert.ReferenceIdeal.S320000 32) :
    Cert.KernelIdeal.Terms.kT1_2 (F := Ideal) h w r c = Cert.ReferenceIdeal.Terms.rT1_2 (F := Ideal) h w r c := rfl

theorem t2_2_eq (h t : FVec Ideal Cert.ReferenceIdeal.S10000x256 .f32) (w : FVec Ideal Cert.ReferenceIdeal.S320000 .f32)
    (r c : IVec Cert.ReferenceIdeal.S320000 32) :
    Cert.KernelIdeal.Terms.kT2_2 (F := Ideal) h t w r c = Cert.ReferenceIdeal.Terms.rT2_2 (F := Ideal) h t w r c := rfl

theorem t1_3_eq (h : FVec Ideal Cert.ReferenceIdeal.S10000x256 .f32) (w : FVec Ideal Cert.ReferenceIdeal.S320000 .f32)
    (r c : IVec Cert.ReferenceIdeal.S320000 32) :
    Cert.KernelIdeal.Terms.kT1_3 (F := Ideal) h w r c = Cert.ReferenceIdeal.Terms.rT1_3 (F := Ideal) h w r c := rfl

theorem t2_3_eq (h t : FVec Ideal Cert.ReferenceIdeal.S10000x256 .f32) (w : FVec Ideal Cert.ReferenceIdeal.S320000 .f32)
    (r c : IVec Cert.ReferenceIdeal.S320000 32) :
    Cert.KernelIdeal.Terms.kT2_3 (F := Ideal) h t w r c = Cert.ReferenceIdeal.Terms.rT2_3 (F := Ideal) h t w r c := rfl

theorem t1_4_eq (h : FVec Ideal Cert.ReferenceIdeal.S10000x256 .f32) (w : FVec Ideal Cert.ReferenceIdeal.S320000 .f32)
    (r c : IVec Cert.ReferenceIdeal.S320000 32) :
    Cert.KernelIdeal.Terms.kT1_4 (F := Ideal) h w r c = Cert.ReferenceIdeal.Terms.rT1_4 (F := Ideal) h w r c := rfl

theorem t2_4_eq (h t : FVec Ideal Cert.ReferenceIdeal.S10000x256 .f32) (w : FVec Ideal Cert.ReferenceIdeal.S320000 .f32)
    (r c : IVec Cert.ReferenceIdeal.S320000 32) :
    Cert.KernelIdeal.Terms.kT2_4 (F := Ideal) h t w r c = Cert.ReferenceIdeal.Terms.rT2_4 (F := Ideal) h t w r c := rfl

theorem pooled_eq (h : FVec Ideal Cert.ReferenceIdeal.S10000x256 .f32) (a2 : IVec Cert.ReferenceIdeal.S10000 32) :
    Cert.KernelIdeal.Terms.kPooled (F := Ideal) h a2 = Cert.ReferenceIdeal.Terms.rPooled (F := Ideal) h a2 := rfl

/-! ## Layer by layer -/

/-- The features after the first layer. -/
theorem feat1_agree (a0 : (⟨Cert.ReferenceIdeal.S10000x128, .f32⟩ : BufTy).Contents (Elt Ideal)) (a1 : (⟨Cert.ReferenceIdeal.S2x320000, .i32⟩ : BufTy).Contents (Elt Ideal))
    (a3 : (⟨Cert.ReferenceIdeal.S3x128x256, .f32⟩ : BufTy).Contents (Elt Ideal)) (a4 : (⟨Cert.ReferenceIdeal.S256, .f32⟩ : BufTy).Contents (Elt Ideal)) (a13 : (⟨Cert.ReferenceIdeal.S1, .f32⟩ : BufTy).Contents (Elt Ideal)) :
    Cert.ReferenceIdeal.RV.feat1 (F := Ideal) a0 a1 a3 a4 a13 = Cert.KernelIdeal.KV.feat1 a0 a1 a3 a4 a13 := by
  unfold Cert.ReferenceIdeal.RV.feat1 Cert.KernelIdeal.KV.feat1 Cert.KernelIdeal.KV.terms1
  rw [Layer.layer1_eq, row_eq, col_eq, edgeW_eq, t1_1_eq, t2_1_eq]

/-- The features after layer 2, from any features before it. -/
theorem feat2_agree (h : (⟨Cert.ReferenceIdeal.S10000x256, .f32⟩ : BufTy).Contents (Elt Ideal)) (a1 : (⟨Cert.ReferenceIdeal.S2x320000, .i32⟩ : BufTy).Contents (Elt Ideal))
    (a5 : (⟨Cert.ReferenceIdeal.S3x3x256x256, .f32⟩ : BufTy).Contents (Elt Ideal)) (a6 : (⟨Cert.ReferenceIdeal.S3x256, .f32⟩ : BufTy).Contents (Elt Ideal)) :
    Cert.ReferenceIdeal.RV.feat2 (F := Ideal) h a1 a5 a6 = Cert.KernelIdeal.KV.feat2 h a1 a5 a6 := by
  unfold Cert.ReferenceIdeal.RV.feat2 Cert.KernelIdeal.KV.feat2 Cert.KernelIdeal.KV.terms2
  rw [Layer.layer2_eq, row_eq, col_eq, edgeW_eq, t1_2_eq, t2_2_eq]

/-- The features after layer 3, from any features before it. -/
theorem feat3_agree (h : (⟨Cert.ReferenceIdeal.S10000x256, .f32⟩ : BufTy).Contents (Elt Ideal)) (a1 : (⟨Cert.ReferenceIdeal.S2x320000, .i32⟩ : BufTy).Contents (Elt Ideal))
    (a5 : (⟨Cert.ReferenceIdeal.S3x3x256x256, .f32⟩ : BufTy).Contents (Elt Ideal)) (a6 : (⟨Cert.ReferenceIdeal.S3x256, .f32⟩ : BufTy).Contents (Elt Ideal)) :
    Cert.ReferenceIdeal.RV.feat3 (F := Ideal) h a1 a5 a6 = Cert.KernelIdeal.KV.feat3 h a1 a5 a6 := by
  unfold Cert.ReferenceIdeal.RV.feat3 Cert.KernelIdeal.KV.feat3 Cert.KernelIdeal.KV.terms3
  rw [Layer.layer3_eq, row_eq, col_eq, edgeW_eq, t1_3_eq, t2_3_eq]

/-- The features after layer 4, from any features before it. -/
theorem feat4_agree (h : (⟨Cert.ReferenceIdeal.S10000x256, .f32⟩ : BufTy).Contents (Elt Ideal)) (a1 : (⟨Cert.ReferenceIdeal.S2x320000, .i32⟩ : BufTy).Contents (Elt Ideal))
    (a5 : (⟨Cert.ReferenceIdeal.S3x3x256x256, .f32⟩ : BufTy).Contents (Elt Ideal)) (a6 : (⟨Cert.ReferenceIdeal.S3x256, .f32⟩ : BufTy).Contents (Elt Ideal)) :
    Cert.ReferenceIdeal.RV.feat4 (F := Ideal) h a1 a5 a6 = Cert.KernelIdeal.KV.feat4 h a1 a5 a6 := by
  unfold Cert.ReferenceIdeal.RV.feat4 Cert.KernelIdeal.KV.feat4 Cert.KernelIdeal.KV.terms4
  rw [Layer.layer4_eq, row_eq, col_eq, edgeW_eq, t1_4_eq, t2_4_eq]

/-! ## The graph-level perceptron on the pooled features -/

theorem head_agree (h : (⟨Cert.ReferenceIdeal.S10000x256, .f32⟩ : BufTy).Contents (Elt Ideal)) (a2 : (⟨Cert.ReferenceIdeal.S10000, .i32⟩ : BufTy).Contents (Elt Ideal)) (a7 : (⟨Cert.ReferenceIdeal.S256x256, .f32⟩ : BufTy).Contents (Elt Ideal))
    (a8 : (⟨Cert.ReferenceIdeal.S256, .f32⟩ : BufTy).Contents (Elt Ideal)) (a9 : (⟨Cert.ReferenceIdeal.S256x128, .f32⟩ : BufTy).Contents (Elt Ideal)) (a10 : (⟨Cert.ReferenceIdeal.S128, .f32⟩ : BufTy).Contents (Elt Ideal))
    (a11 : (⟨Cert.ReferenceIdeal.S128x10, .f32⟩ : BufTy).Contents (Elt Ideal)) (a12 : (⟨Cert.ReferenceIdeal.S10, .f32⟩ : BufTy).Contents (Elt Ideal)) (a14 : (⟨Cert.ReferenceIdeal.S1, .f32⟩ : BufTy).Contents (Elt Ideal)) :
    Cert.ReferenceIdeal.Terms.rMlp (F := Ideal) (Cert.ReferenceIdeal.Terms.rPooled (F := Ideal) h a2) a7 a8 a14 a9 a10 a11 a12
      = Cert.KernelIdeal.KV.head h a2 a7 a8 a9 a10 a11 a12 a14 := by
  unfold Cert.KernelIdeal.KV.head
  rw [Mlp.rMlp_eq, pooled_eq]
  simp only [Mlp.kFc1b_at, Mlp.kFc2b_at, Mlp.kFc3b_at, Mlp.kFcA_at]

/-! ## The results -/

theorem results_agree (a0 : (⟨Cert.ReferenceIdeal.S10000x128, .f32⟩ : BufTy).Contents (Elt Ideal)) (a1 : (⟨Cert.ReferenceIdeal.S2x320000, .i32⟩ : BufTy).Contents (Elt Ideal)) (a2 : (⟨Cert.ReferenceIdeal.S10000, .i32⟩ : BufTy).Contents (Elt Ideal))
    (a3 : (⟨Cert.ReferenceIdeal.S3x128x256, .f32⟩ : BufTy).Contents (Elt Ideal)) (a4 : (⟨Cert.ReferenceIdeal.S256, .f32⟩ : BufTy).Contents (Elt Ideal)) (a5 : (⟨Cert.ReferenceIdeal.S3x3x256x256, .f32⟩ : BufTy).Contents (Elt Ideal))
    (a6 : (⟨Cert.ReferenceIdeal.S3x256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal))
    (a9 : (⟨Cert.ReferenceIdeal.S256x128, .f32⟩ : BufTy).Contents (Elt Ideal)) (a10 : (⟨Cert.ReferenceIdeal.S128, .f32⟩ : BufTy).Contents (Elt Ideal)) (a11 : (⟨Cert.ReferenceIdeal.S128x10, .f32⟩ : BufTy).Contents (Elt Ideal))
    (a12 : (⟨Cert.ReferenceIdeal.S10, .f32⟩ : BufTy).Contents (Elt Ideal)) (a13 : (⟨Cert.ReferenceIdeal.S1, .f32⟩ : BufTy).Contents (Elt Ideal)) (a14 : (⟨Cert.ReferenceIdeal.S1, .f32⟩ : BufTy).Contents (Elt Ideal)) :
    Cert.ReferenceIdeal.RV.result (F := Ideal) a0 a1 a2 a3 a4 a5 a6 a7 a8 a9 a10 a11 a12 a13 a14
      = Cert.KernelIdeal.KV.result a0 a1 a2 a3 a4 a5 a6 a7 a8 a9 a10 a11 a12 a13 a14 := by
  unfold Cert.ReferenceIdeal.RV.result Cert.KernelIdeal.KV.result
  rw [feat1_agree, feat2_agree, feat3_agree, feat4_agree]
  exact head_agree _ _ _ _ _ _ _ _ _

end Cert.Bridge

end
-- ==== Proof.lean ====
/-
  The five claims about a four-layer Chebyshev graph network with a graph-level perceptron.

  The kernel program interleaves host stretches (edge weights, the sparse propagations, the pooling) with five kernel
  launches: four dense Chebyshev steps, each a row-tiled product of the three Chebyshev terms laid side by side with
  the three weight matrices stacked, plus bias, through a leaky rectifier; and one launch for the perceptron
  (dense and leaky rectifier, dense and logistic function, dense, row-wise log-softmax). The reference computes the
  three products separately and adds them, uses a maximum with zero where the kernel uses a leaky rectifier of slope
  zero, and spells the logistic function and the log-softmax in host operations.

  Frames: each program terminates without a fault and leaves its arguments unchanged. For the two kernel programs this
  is the conditional frame of a several-region program, given one segment record per kernel launch; each record is
  proved from that kernel's body run on whole staging buffers. For the reference it is its run read back.

  Values: at the extended reals the kernel's result is one function of the arguments (the regions' results read off
  their blocks, the host stretches as named terms), the reference's result is one function of the arguments (its
  operations cut into six pieces), and the two functions agree: a sum over the 3D columns of the side-by-side terms
  against the stacked weights is the sum of the three products (associativity and commutativity of addition only),
  a leaky rectifier of slope zero is the maximum with zero on every extended real (0 * y = 0 also at -inf), and the
  two spellings of the logistic function and of the log-softmax are the same functions.
-/
import proofs.«163009_j11184094839450_1_alg».proof.Defs
import proofs.«163009_j11184094839450_1_alg».proof.Proof.Gen.Kernel
import proofs.«163009_j11184094839450_1_alg».proof.Proof.Gen.KernelIdeal
import proofs.«163009_j11184094839450_1_alg».proof.Proof.Gen.ReferenceIdeal
import proofs.«163009_j11184094839450_1_alg».proof.Proof.Gen.Pre_finite_inputs
import proofs.«163009_j11184094839450_1_alg».proof.Proof.FrameBits
import proofs.«163009_j11184094839450_1_alg».proof.Proof.FrameIdeal
import proofs.«163009_j11184094839450_1_alg».proof.Proof.KRun
import proofs.«163009_j11184094839450_1_alg».proof.Proof.KValue
import proofs.«163009_j11184094839450_1_alg».proof.Proof.RefRun
import proofs.«163009_j11184094839450_1_alg».proof.Proof.RValue
import proofs.«163009_j11184094839450_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- The idealized kernel program runs and leaves its arguments unchanged. -/
theorem frame_ki : Cert.frame_KernelIdeal := fun m ρ _ => Cert.KernelIdeal.Hand.frame m ρ

/-- The idealized reference runs and leaves its arguments unchanged: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the extended reals both programs end with the same result: the kernel's result array ends at its closed form of
    the arguments, the reference's at its own, the arguments agree, and the two closed forms are one function. -/
theorem algebraic : Cert.algebraic_KernelIdeal_ReferenceIdeal := by
  intro m ρ m' ρ' _ hagree
  refine ⟨fun c => Cert.KernelIdeal.KV.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KV.kernel_value m c), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14⟩ := hagree c
    rw [Cert.ReferenceIdeal.RV.ref_value m' c, h0, h1, h2, h3, h4, h5, h6, h7, h8, h9, h10, h11, h12, h13, h14]
    exact Cert.Bridge.results_agree _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
